-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x768 : Shape := ⟨3, ![1, 4096, 768]⟩
abbrev S768x768 : Shape := ⟨2, ![768, 768]⟩
abbrev S768 : Shape := ⟨1, ![768]⟩
abbrev S8x768 : Shape := ⟨2, ![8, 768]⟩
abbrev S768x8 : Shape := ⟨2, ![768, 8]⟩
abbrev S_ : Shape := ⟨0, ![]⟩

class Facts : Prop where
  bcast_S_S1x4096x768 : S_.BroadcastsInDim S1x4096x768 (![] : Fin 0 → Fin S1x4096x768.rank)
  reducesTo_S1x4096x768_S_d0_1_2 : S1x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S8x768 : S_.BroadcastsInDim S8x768 (![] : Fin 0 → Fin S8x768.rank)
  reducesTo_S8x768_S_d0_1 : S8x768.ReducesTo [0, 1] S_
  bcast_S_S768x8 : S_.BroadcastsInDim S768x8 (![] : Fin 0 → Fin S768x8.rank)
  reducesTo_S768x8_S_d0_1 : S768x8.ReducesTo [0, 1] S_

variable [Facts]

def fn_part4 {F : FTy → Type} [FloatOps F] (main_arg14 : FVec F S768x8 .f32) (main_v63 : IVec S_ 1) (main_v67 : IVec S_ 1) : IVec S_ 1 :=
  let main_v68 : IVec S_ 1 := andi main_v63 main_v67
  let main_v69 : FVec F S768x8 .f32 := Host.absf main_arg14
  let main_cst_26 : FVec F S_ .f32 := constant S_ .f32 0x7F800000#32
  let main_v70 : FVec F S768x8 .f32 := broadcastInDim S768x8 ![] bcast_S_S768x8 main_cst_26
  let main_v71 : IVec S768x8 1 := cmpf .olt main_v69 main_v70
  let main_c_27 : IVec S_ 1 := constantI S_ 1 1#1
  let main_v72 : IVec S_ 1 := (fun x v => Host.reduce IntOp.andi x v reducesTo_S768x8_S_d0_1 h_S_) main_v71 main_c_27
  let main_v73 : IVec S_ 1 := andi main_v68 main_v72
  main_v73

def fn_part3 {F : FTy → Type} [FloatOps F] (main_arg11 : FVec F S8x768 .f32) (main_arg12 : FVec F S768x8 .f32) (main_arg13 : FVec F S8x768 .f32) (main_arg14 : FVec F S768x8 .f32) (main_v48 : IVec S_ 1) (main_v49 : FVec F S768x8 .f32) (main_v50 : FVec F S768x8 .f32) : IVec S_ 1 :=
  let main_v51 : IVec S768x8 1 := cmpf .olt main_v49 main_v50
  let main_c_19 : IVec S_ 1 := constantI S_ 1 1#1
  let main_v52 : IVec S_ 1 := (fun x v => Host.reduce IntOp.andi x v reducesTo_S768x8_S_d0_1 h_S_) main_v51 main_c_19
  let main_v53 : IVec S_ 1 := andi main_v48 main_v52
  let main_v54 : FVec F S8x768 .f32 := Host.absf main_arg11
  let main_cst_20 : FVec F S_ .f32 := constant S_ .f32 0x7F800000#32
  let main_v55 : FVec F S8x768 .f32 := broadcastInDim S8x768 ![] bcast_S_S8x768 main_cst_20
  let main_v56 : IVec S8x768 1 := cmpf .olt main_v54 main_v55
  let main_c_21 : IVec S_ 1 := constantI S_ 1 1#1
  let main_v57 : IVec S_ 1 := (fun x v => Host.reduce IntOp.andi x v reducesTo_S8x768_S_d0_1 h_S_) main_v56 main_c_21
  let main_v58 : IVec S_ 1 := andi main_v53 main_v57
  let main_v59 : FVec F S768x8 .f32 := Host.absf main_arg12
  let main_cst_22 : FVec F S_ .f32 := constant S_ .f32 0x7F800000#32
  let main_v60 : FVec F S768x8 .f32 := broadcastInDim S768x8 ![] bcast_S_S768x8 main_cst_22
  let main_v61 : IVec S768x8 1 := cmpf .olt main_v59 main_v60
  let main_c_23 : IVec S_ 1 := constantI S_ 1 1#1
  let main_v62 : IVec S_ 1 := (fun x v => Host.reduce IntOp.andi x v reducesTo_S768x8_S_d0_1 h_S_) main_v61 main_c_23
  let main_v63 : IVec S_ 1 := andi main_v58 main_v62
  let main_v64 : FVec F S8x768 .f32 := Host.absf main_arg13
  let main_cst_24 : FVec F S_ .f32 := constant S_ .f32 0x7F800000#32
  let main_v65 : FVec F S8x768 .f32 := broadcastInDim S8x768 ![] bcast_S_S8x768 main_cst_24
  let main_v66 : IVec S8x768 1 := cmpf .olt main_v64 main_v65
  let main_c_25 : IVec S_ 1 := constantI S_ 1 1#1
  let main_v67 : IVec S_ 1 := (fun x v => Host.reduce IntOp.andi x v reducesTo_S8x768_S_d0_1 h_S_) main_v66 main_c_25
  fn_part4 (F := F) main_arg14 main_v63 main_v67

def fn_part2 {F : FTy → Type} [FloatOps F] (main_arg7 : FVec F S768x768 .f32) (main_arg8 : FVec F S768 .f32) (main_arg9 : FVec F S8x768 .f32) (main_arg10 : FVec F S768x8 .f32) (main_arg11 : FVec F S8x768 .f32) (main_arg12 : FVec F S768x8 .f32) (main_arg13 : FVec F S8x768 .f32) (main_arg14 : FVec F S768x8 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S8x768 .f32 := Host.absf main_arg9
  let main_cst_16 : FVec F S_ .f32 := constant S_ .f32 0x7F800000#32
  let main_v45 : FVec F S8x768 .f32 := broadcastInDim S8x768 ![] bcast_S_S8x768 main_cst_16
  let main_v46 : IVec S8x768 1 := cmpf .olt main_v44 main_v45
  let main_c_17 : IVec S_ 1 := constantI S_ 1 1#1
  let main_v47 : IVec S_ 1 := (fun x v => Host.reduce IntOp.andi x v reducesTo_S8x768_S_d0_1 h_S_) main_v46 main_c_17
  let main_v48 : IVec S_ 1 := andi main_v43 main_v47
  let main_v49 : FVec F S768x8 .f32 := Host.absf main_arg10
  let main_cst_18 : FVec F S_ .f32 := constant S_ .f32 0x7F800000#32
  let main_v50 : FVec F S768x8 .f32 := broadcastInDim S768x8 ![] bcast_S_S768x8 main_cst_18
  fn_part3 (F := F) main_arg11 main_arg12 main_arg13 main_arg14 main_v48 main_v49 main_v50

def fn_part1 {F : FTy → Type} [FloatOps F] (main_arg4 : FVec F S768 .f32) (main_arg5 : FVec F S768x768 .f32) (main_arg6 : FVec F S768 .f32) (main_arg7 : FVec F S768x768 .f32) (main_arg8 : FVec F S768 .f32) (main_arg9 : FVec F S8x768 .f32) (main_arg10 : FVec F S768x8 .f32) (main_arg11 : FVec F S8x768 .f32) (main_arg12 : FVec F S768x8 .f32) (main_arg13 : FVec F S8x768 .f32) (main_arg14 : FVec F S768x8 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1x4096x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) (main_arg9 : FVec F S8x768 .f32) (main_arg10 : FVec F S768x8 .f32) (main_arg11 : FVec F S8x768 .f32) (main_arg12 : FVec F S768x8 .f32) (main_arg13 : FVec F S8x768 .f32) (main_arg14 : FVec F S768x8 .f32) : IVec S_ 1 :=
  let main_v0 : FVec F S1x4096x768 .f32 := Host.absf main_arg0
  let main_cst : FVec F S_ .f32 := constant S_ .f32 0x7F800000#32
  let main_v1 : FVec F S1x4096x768 .f32 := broadcastInDim S1x4096x768 ![] bcast_S_S1x4096x768 main_cst
  let main_v2 : IVec S1x4096x768 1 := cmpf .olt main_v0 main_v1
  let main_c : IVec S_ 1 := constantI S_ 1 1#1
  let main_v3 : IVec S_ 1 := (fun x v => Host.reduce IntOp.andi x v reducesTo_S1x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1x4096x768 : Shape := ⟨3, ![1, 4096, 768]⟩
abbrev S768x768 : Shape := ⟨2, ![768, 768]⟩
abbrev S768 : Shape := ⟨1, ![768]⟩
abbrev S8x768 : Shape := ⟨2, ![8, 768]⟩
abbrev S768x8 : Shape := ⟨2, ![768, 8]⟩
abbrev S4096x768 : Shape := ⟨2, ![4096, 768]⟩
abbrev S_ : Shape := ⟨0, ![]⟩
abbrev S2304x768 : Shape := ⟨2, ![2304, 768]⟩
abbrev S768x2304 : Shape := ⟨2, ![768, 2304]⟩
abbrev S2304 : Shape := ⟨1, ![2304]⟩
abbrev S4096x2304 : Shape := ⟨2, ![4096, 2304]⟩
abbrev S1024x768 : Shape := ⟨2, ![1024, 768]⟩
abbrev S1024x2304 : Shape := ⟨2, ![1024, 2304]⟩
abbrev S1x2304 : Shape := ⟨2, ![1, 2304]⟩
abbrev S512x128 : Shape := ⟨2, ![512, 128]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S512x768 : Shape := ⟨2, ![512, 768]⟩
abbrev S1x768 : Shape := ⟨2, ![1, 768]⟩

abbrev nBuf : Space → Nat
  | .hbm => 39
  | .vmem => 26
  | .smem => 0
  | _ => 0

abbrev bufTy : (tb : Table) → Fin (tcTables nBuf tb) → BufTy
  | .hbm, ⟨0, _⟩ => ⟨S1x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S8x768, .f32⟩
  | .hbm, ⟨10, _⟩ => ⟨S768x8, .f32⟩
  | .hbm, ⟨11, _⟩ => ⟨S8x768, .f32⟩
  | .hbm, ⟨12, _⟩ => ⟨S768x8, .f32⟩
  | .hbm, ⟨13, _⟩ => ⟨S8x768, .f32⟩
  | .hbm, ⟨14, _⟩ => ⟨S768x8, .f32⟩
  | .hbm, ⟨15, _⟩ => ⟨S4096x768, .f32⟩
  | .hbm, ⟨16, _⟩ => ⟨S768x768, .f32⟩
  | .hbm, ⟨17, _⟩ => ⟨S_, .f32⟩
  | .hbm, ⟨18, _⟩ => ⟨S768x768, .f32⟩
  | .hbm, ⟨19, _⟩ => ⟨S768x768, .f32⟩
  | .hbm, ⟨20, _⟩ => ⟨S768x768, .f32⟩
  | .hbm, ⟨21, _⟩ => ⟨S768x768, .f32⟩
  | .hbm, ⟨22, _⟩ => ⟨S_, .f32⟩
  | .hbm, ⟨23, _⟩ => ⟨S768x768, .f32⟩
  | .hbm, ⟨24, _⟩ => ⟨S768x768, .f32⟩
  | .hbm, ⟨25, _⟩ => ⟨S768x768, .f32⟩
  | .hbm, ⟨26, _⟩ => ⟨S768x768, .f32⟩
  | .hbm, ⟨27, _⟩ => ⟨S_, .f32⟩
  | .hbm, ⟨28, _⟩ => ⟨S768x768, .f32⟩
  | .hbm, ⟨29, _⟩ => ⟨S768x768, .f32⟩
  | .hbm, ⟨30, _⟩ => ⟨S768x768, .f32⟩
  | .hbm, ⟨31, _⟩ => ⟨S2304x768, .f32⟩
  | .hbm, ⟨32, _⟩ => ⟨S768x2304, .f32⟩
  | .hbm, ⟨33, _⟩ => ⟨S2304, .f32⟩
  | .hbm, ⟨34, _⟩ => ⟨S4096x2304, .bf16⟩
  | .hbm, ⟨35, _⟩ => ⟨S4096x768, .bf16⟩
  | .hbm, ⟨36, _⟩ => ⟨S768x768, .f32⟩
  | .hbm, ⟨37, _⟩ => ⟨S4096x768, .f32⟩
  | .hbm, ⟨38, _⟩ => ⟨S1x4096x768, .f32⟩
  | .local _ .vmem, ⟨0, _⟩ => ⟨S1024x768, .f32⟩
  | .local _ .vmem, ⟨1, _⟩ => ⟨S1024x768, .f32⟩
  | .local _ .vmem, ⟨2, _⟩ => ⟨S768x2304, .f32⟩
  | .local _ .vmem, ⟨3, _⟩ => ⟨S2304, .f32⟩
  | .local _ .vmem, ⟨4, _⟩ => ⟨S1024x2304, .bf16⟩
  | .local _ .vmem, ⟨5, _⟩ => ⟨S1024x2304, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x1, .f32⟩
  | .local _ .vmem, ⟨15, _⟩ => ⟨S512x1, .f32⟩
  | .local _ .vmem, ⟨16, _⟩ => ⟨S512x64, .f32⟩
  | .local _ .vmem, ⟨17, _⟩ => ⟨S512x1, .f32⟩
  | .local _ .vmem, ⟨18, _⟩ => ⟨S512x1, .f32⟩
  | .local _ .vmem, ⟨19, _⟩ => ⟨S512x64, .f32⟩
  | .local _ .vmem, ⟨20, _⟩ => ⟨S512x768, .bf16⟩
  | .local _ .vmem, ⟨21, _⟩ => ⟨S512x768, .bf16⟩
  | .local _ .vmem, ⟨22, _⟩ => ⟨S768x768, .f32⟩
  | .local _ .vmem, ⟨23, _⟩ => ⟨S768, .f32⟩
  | .local _ .vmem, ⟨24, _⟩ => ⟨S512x768, .f32⟩
  | .local _ .vmem, ⟨25, _⟩ => ⟨S512x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc1_scratch4 : Ref sig .tc := ⟨.vmem, 18, rfl⟩
abbrev cc1_scratch5 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![6, 8, 8], ![false, false, false]⟩

def k1_cond2 (i : grid1.Coords) : BitVec 1 :=
  let arg2 : BitVec 32 := BitVec.ofNat 32 (i 2).val
  let c7_i32 : BitVec 32 := 7#32
  let v81 : BitVec 1 := Scalar.cmpi .eq arg2 c7_i32
  let v82 : BitVec 32 := Scalar.extui v81
  let c0_i32_39 : BitVec 32 := 0#32
  let v83 : BitVec 1 := Scalar.cmpi .ne v82 c0_i32_39
  v83

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c0_i32 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg2.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1x4096x768_S4096x768 : S1x4096x768.ShapeCasts S4096x768
  bcast_S_S768x768 : S_.BroadcastsInDim S768x768 (![] : Fin 0 → Fin S768x768.rank)
  concatenates_S768x768_S768x768_S768x768_S2304x768_d0 : Shape.Concatenates [S768x768, S768x768, S768x768] S2304x768 0
  transposes_S2304x768_S768x2304_1_0 : S2304x768.Transposes [1, 0] S768x2304
  concatenates_S768_S768_S768_S2304_d0 : Shape.Concatenates [S768, S768, S768] S2304 0
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  shapeCasts_S2304_S2304 : S2304.ShapeCasts S2304
  shapeCasts_S2304_S1x2304 : S2304.ShapeCasts S1x2304
  broadcasts_S1x2304_S1024x2304 : S1x2304.Broadcasts S1024x2304
  inb_S1024x2304_S1024x2304_0_0 : ∀ a, (![0, 0] : Fin 2 → Nat) a + S1024x2304.size a ≤ S1024x2304.size a
  h_S1024x2304 : 0 < S1024x2304.numel
  packedbf16_S1024x2304_S1024x2304_0_0 : (Rect.unit (s := S1024x2304) ![0, 0] S1024x2304.size inb_S1024x2304_S1024x2304_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x64 : S512x128.Slices ![0, 0] S512x64
  slices_S512x128_o0_64_S512x64 : S512x128.Slices ![0, 64] S512x64
  transposes_S512x64_p1_0_S64x512 : S512x64.Transposes [1, 0] S64x512
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  concatenates_S512x64_S512x64_S512x128_d1 : Shape.Concatenates [S512x64, S512x64] S512x128 1
  packedbf16_S512x128_S512x128_0_0 : (Rect.unit (s := S512x128) ![0, 0] S512x128.size inb_S512x128_S512x128_0_0).PackedRows (EltTy.packing .bf16)
  transposes_S768x768_S768x768_1_0 : S768x768.Transposes [1, 0] S768x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  shapeCasts_S4096x768_S1x4096x768 : S4096x768.ShapeCasts S1x4096x768
  dot_S768x8_S8x768_S768x768_1_0_0_1_n_n_wf : DotDims.WF S768x8 S8x768 S768x768 [1] [0] [0] [1] [] []
  dot_S1024x768_S768x2304_S1024x2304_1_0_0_1_n_n_wf : DotDims.WF S1024x768 S768x2304 S1024x2304 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .f32 = 32 ∨ (Rect.block (s := S4096x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2304.size a ≤ S4096x2304.size a
  hwx0_3 : ∀ i : grid0.Coords, EltTy.bits .bf16 = 32 ∨ (Rect.block (s := S4096x2304) S1024x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x2304.size a
  hwx1_0 : ∀ i : grid1.Coords, EltTy.bits .bf16 = 32 ∨ (Rect.block (s := S4096x2304) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x2304.size a
  hwx1_1 : ∀ i : grid1.Coords, EltTy.bits .bf16 = 32 ∨ (Rect.block (s := S4096x2304) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x2304.size a
  hwx1_2 : ∀ i : grid1.Coords, EltTy.bits .bf16 = 32 ∨ (Rect.block (s := S4096x2304) S512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x768.size a
  hwx1_3 : ∀ i : grid1.Coords, EltTy.bits .bf16 = 32 ∨ (Rect.block (s := S4096x768) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S4096x768.size a
  hwx2_0 : ∀ i : grid2.Coords, EltTy.bits .bf16 = 32 ∨ (Rect.block (s := S4096x768) S512x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x768.size a ≤ S4096x768.size a
  hwx2_3 : ∀ i : grid2.Coords, EltTy.bits .f32 = 32 ∨ (Rect.block (s := S4096x768) S512x768.size (cc2_transform_3 i) (hinb2_3 i)).WholeWords (EltTy.packing .f32)

variable [Facts₀]

def dot_S768x8_S8x768_S768x768_1_0_0_1_n_n : DotDims S768x8 S8x768 S768x768 where
  lhsContracting := [1]
  rhsContracting := [0]
  lhsNonContracting := [0]
  rhsNonContracting := [1]
  lhsBatch := []
  rhsBatch := []
  wf := dot_S768x8_S8x768_S768x768_1_0_0_1_n_n_wf
def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v17) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S512x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x4096x768 : Shape := ⟨3, ![1, 4096, 768]⟩
abbrev S768x768 : Shape := ⟨2, ![768, 768]⟩
abbrev S768 : Shape := ⟨1, ![768]⟩
abbrev S8x768 : Shape := ⟨2, ![8, 768]⟩
abbrev S768x8 : Shape := ⟨2, ![768, 8]⟩
abbrev S1x1x768 : Shape := ⟨3, ![1, 1, 768]⟩
abbrev S1x4096x8 : Shape := ⟨3, ![1, 4096, 8]⟩
abbrev S_ : Shape := ⟨0, ![]⟩
abbrev S1x4096x12x64 : Shape := ⟨4, ![1, 4096, 12, 64]⟩
abbrev S1x12x4096x64 : Shape := ⟨4, ![1, 12, 4096, 64]⟩
abbrev S1x12x4096x4096 : Shape := ⟨4, ![1, 12, 4096, 4096]⟩
abbrev S1x12x4096 : Shape := ⟨3, ![1, 12, 4096]⟩
abbrev S1x12x4096x1 : Shape := ⟨4, ![1, 12, 4096, 1]⟩

abbrev nBuf : Space → Nat
  | .hbm => 76
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S8x768, .f32⟩
  | .hbm, ⟨10, _⟩ => ⟨S768x8, .f32⟩
  | .hbm, ⟨11, _⟩ => ⟨S8x768, .f32⟩
  | .hbm, ⟨12, _⟩ => ⟨S768x8, .f32⟩
  | .hbm, ⟨13, _⟩ => ⟨S8x768, .f32⟩
  | .hbm, ⟨14, _⟩ => ⟨S768x8, .f32⟩
  | .hbm, ⟨15, _⟩ => ⟨S1x4096x768, .f32⟩
  | .hbm, ⟨16, _⟩ => ⟨S1x1x768, .f32⟩
  | .hbm, ⟨17, _⟩ => ⟨S1x4096x768, .f32⟩
  | .hbm, ⟨18, _⟩ => ⟨S1x4096x768, .f32⟩
  | .hbm, ⟨19, _⟩ => ⟨S1x4096x8, .f32⟩
  | .hbm, ⟨20, _⟩ => ⟨S1x4096x768, .f32⟩
  | .hbm, ⟨21, _⟩ => ⟨S_, .f32⟩
  | .hbm, ⟨22, _⟩ => ⟨S1x4096x768, .f32⟩
  | .hbm, ⟨23, _⟩ => ⟨S1x4096x768, .f32⟩
  | .hbm, ⟨24, _⟩ => ⟨S1x4096x768, .f32⟩
  | .hbm, ⟨25, _⟩ => ⟨S1x4096x768, .f32⟩
  | .hbm, ⟨26, _⟩ => ⟨S1x1x768, .f32⟩
  | .hbm, ⟨27, _⟩ => ⟨S1x4096x768, .f32⟩
  | .hbm, ⟨28, _⟩ => ⟨S1x4096x768, .f32⟩
  | .hbm, ⟨29, _⟩ => ⟨S1x4096x8, .f32⟩
  | .hbm, ⟨30, _⟩ => ⟨S1x4096x768, .f32⟩
  | .hbm, ⟨31, _⟩ => ⟨S_, .f32⟩
  | .hbm, ⟨32, _⟩ => ⟨S1x4096x768, .f32⟩
  | .hbm, ⟨33, _⟩ => ⟨S1x4096x768, .f32⟩
  | .hbm, ⟨34, _⟩ => ⟨S1x4096x768, .f32⟩
  | .hbm, ⟨35, _⟩ => ⟨S1x4096x768, .f32⟩
  | .hbm, ⟨36, _⟩ => ⟨S1x1x768, .f32⟩
  | .hbm, ⟨37, _⟩ => ⟨S1x4096x768, .f32⟩
  | .hbm, ⟨38, _⟩ => ⟨S1x4096x768, .f32⟩
  | .hbm, ⟨39, _⟩ => ⟨S1x4096x8, .f32⟩
  | .hbm, ⟨40, _⟩ => ⟨S1x4096x768, .f32⟩
  | .hbm, ⟨41, _⟩ => ⟨S_, .f32⟩
  | .hbm, ⟨42, _⟩ => ⟨S1x4096x768, .f32⟩
  | .hbm, ⟨43, _⟩ => ⟨S1x4096x768, .f32⟩
  | .hbm, ⟨44, _⟩ => ⟨S1x4096x768, .f32⟩
  | .hbm, ⟨45, _⟩ => ⟨S1x4096x12x64, .f32⟩
  | .hbm, ⟨46, _⟩ => ⟨S1x12x4096x64, .f32⟩
  | .hbm, ⟨47, _⟩ => ⟨S1x4096x12x64, .f32⟩
  | .hbm, ⟨48, _⟩ => ⟨S1x12x4096x64, .f32⟩
  | .hbm, ⟨49, _⟩ => ⟨S1x4096x12x64, .f32⟩
  | .hbm, ⟨50, _⟩ => ⟨S1x12x4096x64, .f32⟩
  | .hbm, ⟨51, _⟩ => ⟨S1x12x4096x4096, .f32⟩
  | .hbm, ⟨52, _⟩ => ⟨S_, .f32⟩
  | .hbm, ⟨53, _⟩ => ⟨S1x12x4096x4096, .f32⟩
  | .hbm, ⟨54, _⟩ => ⟨S1x12x4096x4096, .f32⟩
  | .hbm, ⟨55, _⟩ => ⟨S_, .f32⟩
  | .hbm, ⟨56, _⟩ => ⟨S1x12x4096, .f32⟩
  | .hbm, ⟨57, _⟩ => ⟨S_, .f32⟩
  | .hbm, ⟨58, _⟩ => ⟨S1x12x4096, .f32⟩
  | .hbm, ⟨59, _⟩ => ⟨S1x12x4096, .f32⟩
  | .hbm, ⟨60, _⟩ => ⟨S1x12x4096x1, .f32⟩
  | .hbm, ⟨61, _⟩ => ⟨S1x12x4096x4096, .f32⟩
  | .hbm, ⟨62, _⟩ => ⟨S1x12x4096x4096, .f32⟩
  | .hbm, ⟨63, _⟩ => ⟨S1x12x4096x4096, .f32⟩
  | .hbm, ⟨64, _⟩ => ⟨S_, .f32⟩
  | .hbm, ⟨65, _⟩ => ⟨S1x12x4096, .f32⟩
  | .hbm, ⟨66, _⟩ => ⟨S1x12x4096x1, .f32⟩
  | .hbm, ⟨67, _⟩ => ⟨S1x12x4096x4096, .f32⟩
  | .hbm, ⟨68, _⟩ => ⟨S1x12x4096x4096, .f32⟩
  | .hbm, ⟨69, _⟩ => ⟨S1x12x4096x64, .f32⟩
  | .hbm, ⟨70, _⟩ => ⟨S1x4096x12x64, .f32⟩
  | .hbm, ⟨71, _⟩ => ⟨S1x4096x768, .f32⟩
  | .hbm, ⟨72, _⟩ => ⟨S1x4096x768, .f32⟩
  | .hbm, ⟨73, _⟩ => ⟨S1x1x768, .f32⟩
  | .hbm, ⟨74, _⟩ => ⟨S1x4096x768, .f32⟩
  | .hbm, ⟨75, _⟩ => ⟨S1x4096x768, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S1x4096x768_0_1_2 : S1x1x768.BroadcastsInDim S1x4096x768 (![0, 1, 2] : Fin 3 → Fin S1x4096x768.rank)
  bcast_S_S1x4096x768 : S_.BroadcastsInDim S1x4096x768 (![] : Fin 0 → Fin S1x4096x768.rank)
  shapeCasts_S1x4096x768_S1x4096x12x64 : S1x4096x768.ShapeCasts S1x4096x12x64
  transposes_S1x4096x12x64_S1x12x4096x64_0_2_1_3 : S1x4096x12x64.Transposes [0, 2, 1, 3] S1x12x4096x64
  bcast_S_S1x12x4096x4096 : S_.BroadcastsInDim S1x12x4096x4096 (![] : Fin 0 → Fin S1x12x4096x4096.rank)
  reducesTo_S1x12x4096x4096_S1x12x4096_d3 : S1x12x4096x4096.ReducesTo [3] S1x12x4096
  h_S_ : 0 < S_.numel
  bcast_S_S1x12x4096 : S_.BroadcastsInDim S1x12x4096 (![] : Fin 0 → Fin S1x12x4096.rank)
  bcast_S1x12x4096_S1x12x4096x1_0_1_2 : S1x12x4096.BroadcastsInDim S1x12x4096x1 (![0, 1, 2] : Fin 3 → Fin S1x12x4096x1.rank)
  bcast_S1x12x4096x1_S1x12x4096x4096_0_1_2_3 : S1x12x4096x1.BroadcastsInDim S1x12x4096x4096 (![0, 1, 2, 3] : Fin 4 → Fin S1x12x4096x4096.rank)
  transposes_S1x12x4096x64_S1x4096x12x64_0_2_1_3 : S1x12x4096x64.Transposes [0, 2, 1, 3] S1x4096x12x64
  shapeCasts_S1x4096x12x64_S1x4096x768 : S1x4096x12x64.ShapeCasts S1x4096x768
  dot_S1x4096x768_S768x768_S1x4096x768_2_1_01_0_n_n_wf : DotDims.WF S1x4096x768 S768x768 S1x4096x768 [2] [1] [0, 1] [0] [] []
  dot_S1x4096x768_S8x768_S1x4096x8_2_1_01_0_n_n_wf : DotDims.WF S1x4096x768 S8x768 S1x4096x8 [2] [1] [0, 1] [0] [] []
  dot_S1x4096x8_S768x8_S1x4096x768_2_1_01_0_n_n_wf : DotDims.WF S1x4096x8 S768x8 S1x4096x768 [2] [1] [0, 1] [0] [] []
  dot_S1x12x4096x64_S1x12x4096x64_S1x12x4096x4096_3_3_2_2_01_01_wf : DotDims.WF S1x12x4096x64 S1x12x4096x64 S1x12x4096x4096 [3] [3] [2] [2] [0, 1] [0, 1]
  dot_S1x12x4096x4096_S1x12x4096x64_S1x12x4096x64_3_2_2_3_01_01_wf : DotDims.WF S1x12x4096x4096 S1x12x4096x64 S1x12x4096x64 [3] [2] [2] [3] [0, 1] [0, 1]

variable [Facts₀]

def dot_S1x4096x768_S768x768_S1x4096x768_2_1_01_0_n_n : DotDims S1x4096x768 S768x768 S1x4096x768 where
  lhsContracting := [2]
  rhsContracting := [1]
  lhsNonContracting := [0, 1]
  rhsNonContracting := [0]
  lhsBatch := []
  rhsBatch := []
  wf := dot_S1x4096x768_S768x768_S1x4096x768_2_1_01_0_n_n_wf
def dot_S1x4096x768_S8x768_S1x4096x8_2_1_01_0_n_n : DotDims S1x4096x768 S8x768 S1x4096x8 where
  lhsContracting := [2]
  rhsContracting := [1]
  lhsNonContracting := [0, 1]
  rhsNonContracting := [0]
  lhsBatch := []
  rhsBatch := []
  wf := dot_S1x4096x768_S8x768_S1x4096x8_2_1_01_0_n_n_wf
def dot_S1x4096x8_S768x8_S1x4096x768_2_1_01_0_n_n : DotDims S1x4096x8 S768x8 S1x4096x768 where
  lhsContracting := [2]
  rhsContracting := [1]
  lhsNonContracting := [0, 1]
  rhsNonContracting := [0]
  lhsBatch := []
  rhsBatch := []
  wf := dot_S1x4096x8_S768x8_S1x4096x768_2_1_01_0_n_n_wf
def dot_S1x12x4096x64_S1x12x4096x64_S1x12x4096x4096_3_3_2_2_01_01 : DotDims S1x12x4096x64 S1x12x4096x64 S1x12x4096x4096 where
  lhsContracting := [3]
  rhsContracting := [3]
  lhsNonContracting := [2]
  rhsNonContracting := [2]
  lhsBatch := [0, 1]
  rhsBatch := [0, 1]
  wf := dot_S1x12x4096x64_S1x12x4096x64_S1x12x4096x4096_3_3_2_2_01_01_wf
def dot_S1x12x4096x4096_S1x12x4096x64_S1x12x4096x64_3_2_2_3_01_01 : DotDims S1x12x4096x4096 S1x12x4096x64 S1x12x4096x64 where
  lhsContracting := [3]
  rhsContracting := [2]
  lhsNonContracting := [2]
  rhsNonContracting := [3]
  lhsBatch := [0, 1]
  rhsBatch := [0, 1]
  wf := dot_S1x12x4096x4096_S1x12x4096x64_S1x12x4096x64_3_2_2_3_01_01_wf

class Facts : Prop extends Facts₀ where

variable [Facts]
-- ==== Proof.KProj.lean ====
/-
  The two dense projections of the program as pipeline regions: the fused query/key/value projection (pipeline 0: blocks of
  1024 token rows against the whole 768 x 2304 weight matrix and the 2304 biases) and the output projection (pipeline 2:
  blocks of 512 attention rows against the 768 x 768 weights and 768 biases). Each grid point loads its three input blocks
  whole, forms rows · weights + bias, and stores the result over its whole output block; nothing is kept between points.
  For each region, at any contents `V` of the unscoped buffers when it is entered: the windows' blocks, what a point
  leaves in the output block as a function of the three input blocks, the body's triple, the pipeline's proof data and
  its body obligation.
-/
import proofs.«122623_j15204184228289_2_alg».proof.Proof.Gen.Kernel.Launch
import proofs.«122623_j15204184228289_2_alg».proof.Proof.Gen.Kernel.Skeleton
import proofs.«122623_j15204184228289_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The fused query/key/value projection (pipeline 0): one grid point takes a block of rows, the whole weight matrix and the whole bias
vector, and leaves rows · weights + bias in the output block -/

section qkv
variable (V : (c : Dev nD) → (b : Ref sig .tc) → Buf (Elt F) ((c : Thread nD τ).loc b))

/-- Window `w`'s block at grid point `t`, cut out of the window's array as the region finds it. -/
def qkvBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of the fused query/key/value projection: its staging buffer holds the window's block of the entry array at every point,
    whether the pipeline fetched it there or kept it from the point before (the block index did not move). -/
theorem qkvBefore0_of {c : Dev nD} (dat : Dat τ (Elt F) Unit ℕ (UR sig nD τ) ℕ cfg0 c) (hA : dat.A 0 = V c (Pipeline.arrRef spec0 0))
    (hafter : ∀ t, dat.after 0 t = qkvBlk V c 0 t) (t : Fin cfg0.N) (d) : dat.before 0 t d = qkvBlk V c 0 t :=
  (dat.before_in_eq_fetched 0 rfl (fun _ => rfl) (fun _ _ _ => rfl) (fun t => by rw [hafter]; unfold Dat.blockOf qkvBlk; rw [hA]; try rfl) t d).trans
    (by unfold Dat.fetched Dat.blockOf qkvBlk; rw [hA]; try rfl)

/-- Input window 1 of the fused query/key/value projection: its staging buffer holds the window's block of the entry array at every point,
    whether the pipeline fetched it there or kept it from the point before (the block index did not move). -/
theorem qkvBefore1_of {c : Dev nD} (dat : Dat τ (Elt F) Unit ℕ (UR sig nD τ) ℕ cfg0 c) (hA : dat.A 1 = V c (Pipeline.arrRef spec0 1))
    (hafter : ∀ t, dat.after 1 t = qkvBlk V c 1 t) (t : Fin cfg0.N) (d) : dat.before 1 t d = qkvBlk V c 1 t :=
  (dat.before_in_eq_fetched 1 rfl (fun _ => rfl) (fun _ _ _ => rfl) (fun t => by rw [hafter]; unfold Dat.blockOf qkvBlk; rw [hA]; try rfl) t d).trans
    (by unfold Dat.fetched Dat.blockOf qkvBlk; rw [hA]; try rfl)

/-- Input window 2 of the fused query/key/value projection: its staging buffer holds the window's block of the entry array at every point,
    whether the pipeline fetched it there or kept it from the point before (the block index did not move). -/
theorem qkvBefore2_of {c : Dev nD} (dat : Dat τ (Elt F) Unit ℕ (UR sig nD τ) ℕ cfg0 c) (hA : dat.A 2 = V c (Pipeline.arrRef spec0 2))
    (hafter : ∀ t, dat.after 2 t = qkvBlk V c 2 t) (t : Fin cfg0.N) (d) : dat.before 2 t d = qkvBlk V c 2 t :=
  (dat.before_in_eq_fetched 2 rfl (fun _ => rfl) (fun _ _ _ => rfl) (fun t => by rw [hafter]; unfold Dat.blockOf qkvBlk; rw [hA]; try rfl) t d).trans
    (by unfold Dat.fetched Dat.blockOf qkvBlk; rw [hA]; try rfl)

/-- The whole-buffer rectangles the body loads and stores through. -/
abbrev qkvRX : Rect S1024x768 := Rect.unit (s := S1024x768) ![0, 0] S1024x768.size inb_S1024x768_S1024x768_0_0
abbrev qkvRW : Rect S768x2304 := Rect.unit (s := S768x2304) ![0, 0] S768x2304.size inb_S768x2304_S768x2304_0_0
abbrev qkvRB : Rect S2304 := Rect.unit (s := S2304) ![0] S2304.size inb_S2304_S2304_0
abbrev qkvRO : Rect S1024x2304 := Rect.unit (s := S1024x2304) ![0, 0] S1024x2304.size inb_S1024x2304_S1024x2304_0_0

/-- What a point leaves in the output block: its one store, of rows · weights + bias over the three loaded blocks. -/
def qkvOut (x0 : Vec F S1024x768 .f32) (x1 : Vec F S768x2304 .f32) (x2 : Vec F S2304 .f32) : Vec F S1024x2304 .bf16 :=
  View.canon [⟨qkvRO, k0_pay1 (View.ld x0 qkvRX) (View.ld x1 qkvRW) (View.ld x2 qkvRB)⟩]

/-- The one store fills the block. -/
theorem qkvCover (p0 : Vec F S1024x2304 .bf16) (y : S1024x2304.Idx) :
    ∃ pc ∈ ([⟨qkvRO, p0⟩] : List (View.Piece (Elt F) S1024x2304 .bf16)), y ∈ pc.1.set :=
  View.cover_of_tiled [⟨qkvRO, p0⟩] S1024x2304.size (by rfl) y

set_option maxHeartbeats 1000000 in
/-- The body on whole staging buffers: the three inputs at known contents and the output at anything; it returns with
    the inputs as they were and the output at `qkvOut` of them. -/
theorem qkvKernel (c : Dev nD) (E : Set ℕ) (i : grid0.Coords)
    (arg1 : Memref sig .tc .vmem S1024x768 .f32) (harg1 : arg1.IsWhole) (arg2 : Memref sig .tc .vmem S768x2304 .f32) (harg2 : arg2.IsWhole)
    (arg3 : Memref sig .tc .vmem S2304 .f32) (harg3 : arg3.IsWhole) (arg4 : Memref sig .tc .vmem S1024x2304 .bf16) (harg4 : arg4.IsWhole)
    (x0 : Vec F S1024x768 .f32) (x1 : Vec F S768x2304 .f32) (x2 : Vec F S2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (qkvOut x0 x1 x2)) -∗ K ⟨⟩))
      ⊢ wp frame (wpE (defs₀ (F := F)) Variants.none c none) E (cc0__proj_kernel_body i arg1 harg1 arg2 harg2 arg3 harg3 arg4 harg4) K := by
  simp only [cc0__proj_kernel_body_eq_skeleton]; unfold cc0__proj_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (qkvCover _)

/-- The pipeline's proof data on core `c`: the arrays as the region finds them; after the body at point `t` each input's
    buffer at its block and the output's at `qkvOut` of the three; the invariant is the untouched scoped rest and
    generator register; nothing owed; whole shares. -/
def qkvDat (c : Dev nD) : Dat τ (Elt F) Unit ℕ (UR sig nD τ) ℕ cfg0 c where
  A w := V c (Pipeline.arrRef spec0 w)
  after w t := match w with
    | ⟨0, _⟩ => qkvBlk V c 0 t
    | ⟨1, _⟩ => qkvBlk V c 1 t
    | ⟨2, _⟩ => qkvBlk V c 2 t
    | ⟨3, _⟩ => qkvOut (qkvBlk V c 0 t) (qkvBlk V c 1 t) (qkvBlk V c 2 t)
  Φ _ := Pipeline.ΦA spec0 c
  q _ := fullShare
  owed _ := 0

theorem qkvDat_A (c : Dev nD) (w : Fin cfg0.W) : (qkvDat V c).A w = V c (Pipeline.arrRef spec0 w) := by
  dsimp only [qkvDat]
theorem qkvAfter0 (c : Dev nD) (t : Fin cfg0.N) : (qkvDat V c).after 0 t = qkvBlk V c 0 t := by dsimp only [qkvDat]
theorem qkvAfter1 (c : Dev nD) (t : Fin cfg0.N) : (qkvDat V c).after 1 t = qkvBlk V c 1 t := by dsimp only [qkvDat]
theorem qkvAfter2 (c : Dev nD) (t : Fin cfg0.N) : (qkvDat V c).after 2 t = qkvBlk V c 2 t := by dsimp only [qkvDat]
theorem qkvAfter3 (c : Dev nD) (t : Fin cfg0.N) :
    (qkvDat V c).after 3 t = qkvOut (qkvBlk V c 0 t) (qkvBlk V c 1 t) (qkvBlk V c 2 t) := by dsimp only [qkvDat]

theorem qkvBefore0 (c : Dev nD) (t : Fin cfg0.N) (d) : (qkvDat V c).before 0 t d = qkvBlk V c 0 t :=
  qkvBefore0_of V (qkvDat V c) (qkvDat_A V c 0) (qkvAfter0 V c) t d
theorem qkvBefore1 (c : Dev nD) (t : Fin cfg0.N) (d) : (qkvDat V c).before 1 t d = qkvBlk V c 1 t :=
  qkvBefore1_of V (qkvDat V c) (qkvDat_A V c 1) (qkvAfter1 V c) t d
theorem qkvBefore2 (c : Dev nD) (t : Fin cfg0.N) (d) : (qkvDat V c).before 2 t d = qkvBlk V c 2 t :=
  qkvBefore2_of V (qkvDat V c) (qkvDat_A V c 2) (qkvAfter2 V c) t d

/-- What the body is called with at point `t`, the windows one by one, -/
def qkvPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d))
    ∗ (∃ d, owns (c : Thread nD τ) (st0_3 t) fullShare ((qkvDat V c).before 3 t d)))

/-- and what it returns. -/
def qkvPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t)
    ∗ owns (c : Thread nD τ) (st0_3 t) fullShare ((qkvDat V c).after 3 t))

/-- The body at any point: the inputs' buffers hold their blocks, so the kernel's triple applies; the invariant and
    the core's debts pass through unread. -/
theorem qkvBody (c : Dev nD) (t : Fin cfg0.N) :
    qkvPre V c t ⊢ wp frame (wpE (defs₀ (F := F)) Variants.none c none) Set.univ (bodyAt0 t) (fun _ => qkvPost V c t) := by
  unfold qkvPre qkvPost bodyAt0
  simp only [qkvBefore0, qkvBefore1, qkvBefore2]
  rw [show (qkvDat V c).Φ t.succ = (qkvDat V c).Φ t.castSucc from rfl,
    show (qkvDat V c).owesAt () t.succ = (qkvDat V c).owesAt () t.castSucc from rfl,
    qkvAfter0, qkvAfter1, qkvAfter2, qkvAfter3]
  iintro ⟨HΦ, Ho, ⟨%d0, H0⟩, ⟨%d1, H1⟩, ⟨%d2, H2⟩, ⟨%d3, H3⟩⟩
  iapply (qkvKernel c Set.univ _ _ _ _ _ _ _ _ _ (qkvBlk V c 0 t) (qkvBlk V c 1 t) (qkvBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem qkvObligation (c : Dev nD) : BodyObligation (qkvDat (F := F) V c) (defs₀ (F := F)) Variants.none () Set.univ := fun t => by
  rw [bigSep_W0, bigSep_W0]
  exact qkvBody V c t

end qkv

/-! # The output projection (pipeline 2): one grid point takes a block of rows, the whole weight matrix and the whole bias
vector, and leaves rows · weights + bias in the output block -/

section outp
variable (V : (c : Dev nD) → (b : Ref sig .tc) → Buf (Elt F) ((c : Thread nD τ).loc b))

/-- Window `w`'s block at grid point `t`, cut out of the window's array as the region finds it. -/
def outpBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of the output projection: its staging buffer holds the window's block of the entry array at every point,
    whether the pipeline fetched it there or kept it from the point before (the block index did not move). -/
theorem outpBefore0_of {c : Dev nD} (dat : Dat τ (Elt F) Unit ℕ (UR sig nD τ) ℕ cfg2 c) (hA : dat.A 0 = V c (Pipeline.arrRef spec2 0))
    (hafter : ∀ t, dat.after 0 t = outpBlk V c 0 t) (t : Fin cfg2.N) (d) : dat.before 0 t d = outpBlk V c 0 t :=
  (dat.before_in_eq_fetched 0 rfl (fun _ => rfl) (fun _ _ _ => rfl) (fun t => by rw [hafter]; unfold Dat.blockOf outpBlk; rw [hA]; try rfl) t d).trans
    (by unfold Dat.fetched Dat.blockOf outpBlk; rw [hA]; try rfl)

/-- Input window 1 of the output projection: its staging buffer holds the window's block of the entry array at every point,
    whether the pipeline fetched it there or kept it from the point before (the block index did not move). -/
theorem outpBefore1_of {c : Dev nD} (dat : Dat τ (Elt F) Unit ℕ (UR sig nD τ) ℕ cfg2 c) (hA : dat.A 1 = V c (Pipeline.arrRef spec2 1))
    (hafter : ∀ t, dat.after 1 t = outpBlk V c 1 t) (t : Fin cfg2.N) (d) : dat.before 1 t d = outpBlk V c 1 t :=
  (dat.before_in_eq_fetched 1 rfl (fun _ => rfl) (fun _ _ _ => rfl) (fun t => by rw [hafter]; unfold Dat.blockOf outpBlk; rw [hA]; try rfl) t d).trans
    (by unfold Dat.fetched Dat.blockOf outpBlk; rw [hA]; try rfl)

/-- Input window 2 of the output projection: its staging buffer holds the window's block of the entry array at every point,
    whether the pipeline fetched it there or kept it from the point before (the block index did not move). -/
theorem outpBefore2_of {c : Dev nD} (dat : Dat τ (Elt F) Unit ℕ (UR sig nD τ) ℕ cfg2 c) (hA : dat.A 2 = V c (Pipeline.arrRef spec2 2))
    (hafter : ∀ t, dat.after 2 t = outpBlk V c 2 t) (t : Fin cfg2.N) (d) : dat.before 2 t d = outpBlk V c 2 t :=
  (dat.before_in_eq_fetched 2 rfl (fun _ => rfl) (fun _ _ _ => rfl) (fun t => by rw [hafter]; unfold Dat.blockOf outpBlk; rw [hA]; try rfl) t d).trans
    (by unfold Dat.fetched Dat.blockOf outpBlk; rw [hA]; try rfl)

/-- The whole-buffer rectangles the body loads and stores through. -/
abbrev outpRX : Rect S512x768 := Rect.unit (s := S512x768) ![0, 0] S512x768.size inb_S512x768_S512x768_0_0
abbrev outpRW : Rect S768x768 := Rect.unit (s := S768x768) ![0, 0] S768x768.size inb_S768x768_S768x768_0_0
abbrev outpRB : Rect S768 := Rect.unit (s := S768) ![0] S768.size inb_S768_S768_0
abbrev outpRO : Rect S512x768 := Rect.unit (s := S512x768) ![0, 0] S512x768.size inb_S512x768_S512x768_0_0

/-- What a point leaves in the output block: its one store, of rows · weights + bias over the three loaded blocks. -/
def outpOut (x0 : Vec F S512x768 .bf16) (x1 : Vec F S768x768 .f32) (x2 : Vec F S768 .f32) : Vec F S512x768 .f32 :=
  View.canon [⟨outpRO, k2_pay1 (View.ld x0 outpRX) (View.ld x1 outpRW) (View.ld x2 outpRB)⟩]

/-- The one store fills the block. -/
theorem outpCover (p0 : Vec F S512x768 .f32) (y : S512x768.Idx) :
    ∃ pc ∈ ([⟨outpRO, p0⟩] : List (View.Piece (Elt F) S512x768 .f32)), y ∈ pc.1.set :=
  View.cover_of_tiled [⟨outpRO, p0⟩] S512x768.size (by rfl) y

set_option maxHeartbeats 1000000 in
/-- The body on whole staging buffers: the three inputs at known contents and the output at anything; it returns with
    the inputs as they were and the output at `outpOut` of them. -/
theorem outpKernel (c : Dev nD) (E : Set ℕ) (i : grid2.Coords)
    (arg1 : Memref sig .tc .vmem S512x768 .bf16) (harg1 : arg1.IsWhole) (arg2 : Memref sig .tc .vmem S768x768 .f32) (harg2 : arg2.IsWhole)
    (arg3 : Memref sig .tc .vmem S768 .f32) (harg3 : arg3.IsWhole) (arg4 : Memref sig .tc .vmem S512x768 .f32) (harg4 : arg4.IsWhole)
    (x0 : Vec F S512x768 .bf16) (x1 : Vec F S768x768 .f32) (x2 : Vec F S768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outpOut x0 x1 x2)) -∗ K ⟨⟩))
      ⊢ wp frame (wpE (defs₀ (F := F)) Variants.none c none) E (cc2__proj_kernel_body i arg1 harg1 arg2 harg2 arg3 harg3 arg4 harg4) K := by
  simp only [cc2__proj_kernel_body_eq_skeleton]; unfold cc2__proj_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outpCover _)

/-- The pipeline's proof data on core `c`: the arrays as the region finds them; after the body at point `t` each input's
    buffer at its block and the output's at `outpOut` of the three; the invariant is the untouched scoped rest and
    generator register; nothing owed; whole shares. -/
def outpDat (c : Dev nD) : Dat τ (Elt F) Unit ℕ (UR sig nD τ) ℕ cfg2 c where
  A w := V c (Pipeline.arrRef spec2 w)
  after w t := match w with
    | ⟨0, _⟩ => outpBlk V c 0 t
    | ⟨1, _⟩ => outpBlk V c 1 t
    | ⟨2, _⟩ => outpBlk V c 2 t
    | ⟨3, _⟩ => outpOut (outpBlk V c 0 t) (outpBlk V c 1 t) (outpBlk V c 2 t)
  Φ _ := Pipeline.ΦA spec2 c
  q _ := fullShare
  owed _ := 0

theorem outpDat_A (c : Dev nD) (w : Fin cfg2.W) : (outpDat V c).A w = V c (Pipeline.arrRef spec2 w) := by
  dsimp only [outpDat]
theorem outpAfter0 (c : Dev nD) (t : Fin cfg2.N) : (outpDat V c).after 0 t = outpBlk V c 0 t := by dsimp only [outpDat]
theorem outpAfter1 (c : Dev nD) (t : Fin cfg2.N) : (outpDat V c).after 1 t = outpBlk V c 1 t := by dsimp only [outpDat]
theorem outpAfter2 (c : Dev nD) (t : Fin cfg2.N) : (outpDat V c).after 2 t = outpBlk V c 2 t := by dsimp only [outpDat]
theorem outpAfter3 (c : Dev nD) (t : Fin cfg2.N) :
    (outpDat V c).after 3 t = outpOut (outpBlk V c 0 t) (outpBlk V c 1 t) (outpBlk V c 2 t) := by dsimp only [outpDat]

theorem outpBefore0 (c : Dev nD) (t : Fin cfg2.N) (d) : (outpDat V c).before 0 t d = outpBlk V c 0 t :=
  outpBefore0_of V (outpDat V c) (outpDat_A V c 0) (outpAfter0 V c) t d
theorem outpBefore1 (c : Dev nD) (t : Fin cfg2.N) (d) : (outpDat V c).before 1 t d = outpBlk V c 1 t :=
  outpBefore1_of V (outpDat V c) (outpDat_A V c 1) (outpAfter1 V c) t d
theorem outpBefore2 (c : Dev nD) (t : Fin cfg2.N) (d) : (outpDat V c).before 2 t d = outpBlk V c 2 t :=
  outpBefore2_of V (outpDat V c) (outpDat_A V c 2) (outpAfter2 V c) t d

/-- What the body is called with at point `t`, the windows one by one, -/
def outpPre (c : Dev nD) (t : Fin cfg2.N) : sProp 𝕄 :=
  iprop((outpDat V c).Φ t.castSucc ∗ (outpDat V c).owesAt () t.castSucc
    ∗ (∃ d, owns (c : Thread nD τ) (st2_0 t) fullShare ((outpDat V c).before 0 t d))
    ∗ (∃ d, owns (c : Thread nD τ) (st2_1 t) fullShare ((outpDat V c).before 1 t d))
    ∗ (∃ d, owns (c : Thread nD τ) (st2_2 t) fullShare ((outpDat V c).before 2 t d))
    ∗ (∃ d, owns (c : Thread nD τ) (st2_3 t) fullShare ((outpDat V c).before 3 t d)))

/-- and what it returns. -/
def outpPost (c : Dev nD) (t : Fin cfg2.N) : sProp 𝕄 :=
  iprop((outpDat V c).Φ t.succ ∗ (outpDat V c).owesAt () t.succ
    ∗ owns (c : Thread nD τ) (st2_0 t) fullShare ((outpDat V c).after 0 t)
    ∗ owns (c : Thread nD τ) (st2_1 t) fullShare ((outpDat V c).after 1 t)
    ∗ owns (c : Thread nD τ) (st2_2 t) fullShare ((outpDat V c).after 2 t)
    ∗ owns (c : Thread nD τ) (st2_3 t) fullShare ((outpDat V c).after 3 t))

/-- The body at any point: the inputs' buffers hold their blocks, so the kernel's triple applies; the invariant and
    the core's debts pass through unread. -/
theorem outpBody (c : Dev nD) (t : Fin cfg2.N) :
    outpPre V c t ⊢ wp frame (wpE (defs₀ (F := F)) Variants.none c none) Set.univ (bodyAt2 t) (fun _ => outpPost V c t) := by
  unfold outpPre outpPost bodyAt2
  simp only [outpBefore0, outpBefore1, outpBefore2]
  rw [show (outpDat V c).Φ t.succ = (outpDat V c).Φ t.castSucc from rfl,
    show (outpDat V c).owesAt () t.succ = (outpDat V c).owesAt () t.castSucc from rfl,
    outpAfter0, outpAfter1, outpAfter2, outpAfter3]
  iintro ⟨HΦ, Ho, ⟨%d0, H0⟩, ⟨%d1, H1⟩, ⟨%d2, H2⟩, ⟨%d3, H3⟩⟩
  iapply (outpKernel c Set.univ _ _ _ _ _ _ _ _ _ (outpBlk V c 0 t) (outpBlk V c 1 t) (outpBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem outpObligation (c : Dev nD) : BodyObligation (outpDat (F := F) V c) (defs₀ (F := F)) Variants.none () Set.univ := fun t => by
  rw [bigSep_W2, bigSep_W2]
  exact outpBody V c t

end outp

end Cert.Kernel.Hand

end
-- ==== Proof.KAttnBase.lean ====
/-
  The attention region (pipeline 1), what its three case runs share. A grid point (pair, query block, key block) handles
  two heads: it scores a block of 512 queries against a block of 512 keys for each head, and keeps per head a running
  row maximum, a running denominator and a running weighted sum of values in six scratch buffers carried from one key
  block to the next. At the first key block the scratch is reset first; at the last the two quotients numerator /
  denominator are stored side by side into the output block. Here: the two conditions in closed form over the grid,
  where the output window is idle, the staging and scratch buffers by name, and the region's entry invariant with the
  six scratch buffers taken out of the scoped rest.
-/
import proofs.«122623_j15204184228289_2_alg».proof.Proof.Gen.Kernel.Launch
import proofs.«122623_j15204184228289_2_alg».proof.Proof.Gen.Kernel.Skeleton
import proofs.«122623_j15204184228289_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first key block": the body's reset is taken. -/
abbrev kvFirst (i : grid1.Coords) : Prop := (Scalar.cmpi .ne (Scalar.extui (Scalar.cmpi .eq (BitVec.ofNat 32 (i 2).val) 0#32)) 0#32) = 1#1
/-- It holds at the points ≡ 0 (mod 8): the key-block coordinate is the fastest. -/
theorem kvFirst_iff : ∀ t : Fin cfg1.N, kvFirst (grid1.coords t) ↔ t.val % 8 = 0 :=
  (by decide +kernel : ∀ t : Fin grid1.N, kvFirst (grid1.coords t) ↔ t.val % 8 = 0)
/-- "This is the last key block": the quotients are stored. -/
abbrev kvLast (i : grid1.Coords) : Prop := k1_cond2 i = 1#1
/-- It holds at the points ≡ 7 (mod 8). -/
theorem kvLast_iff : ∀ t : Fin cfg1.N, kvLast (grid1.coords t) ↔ t.val % 8 = 7 :=
  (by decide +kernel : ∀ t : Fin grid1.N, kvLast (grid1.coords t) ↔ t.val % 8 = 7)

/-! ## Where the windows are idle -/

theorem attnLive0 : ∀ t : Fin cfg1.N, cfg1.idle 0 (grid1.coords t) = false := by decide +kernel
theorem attnLive1 : ∀ t : Fin cfg1.N, cfg1.idle 1 (grid1.coords t) = false := by decide +kernel
theorem attnLive2 : ∀ t : Fin cfg1.N, cfg1.idle 2 (grid1.coords t) = false := by decide +kernel
/-- Before the last key block nothing is stored into the output block: the window is idle there and not written back. -/
theorem attnIdle3 : ∀ t : Fin cfg1.N, ¬kvLast (grid1.coords t) → cfg1.idle 3 (grid1.coords t) = true := by decide +kernel
theorem attnNoFlush3 : ∀ t : Fin cfg1.N, ¬kvLast (grid1.coords t) → (cfg1.win 3).flush t = false := by decide +kernel
/-- At the last key block it is live. -/
theorem attnLive3 : ∀ t : Fin cfg1.N, kvLast (grid1.coords t) → cfg1.idle 3 (grid1.coords t) = false := by decide +kernel

/-! ## The buffers by name -/

/-- One staging buffer of the output window, through which its contents are stated. -/
abbrev attnVO : View sig .tc .vmem S512x128 .bf16 := (Memref.whole cc1_stg3_0 : Memref sig .tc .vmem S512x128 .bf16).view
abbrev attnM0 (t : Fin cfg1.N) : Memref sig .tc .vmem S512x128 .bf16 := win1_0.stage (cfg1.slots t 0)
abbrev attnH0 (t : Fin cfg1.N) : (attnM0 t).IsWhole := hstage1_0 ((cfg1.slots t 0).cast nbuf1_0)
abbrev attnM1 (t : Fin cfg1.N) : Memref sig .tc .vmem S512x128 .bf16 := win1_1.stage (cfg1.slots t 1)
abbrev attnH1 (t : Fin cfg1.N) : (attnM1 t).IsWhole := hstage1_1 ((cfg1.slots t 1).cast nbuf1_1)
abbrev attnM2 (t : Fin cfg1.N) : Memref sig .tc .vmem S512x128 .bf16 := win1_2.stage (cfg1.slots t 2)
abbrev attnH2 (t : Fin cfg1.N) : (attnM2 t).IsWhole := hstage1_2 ((cfg1.slots t 2).cast nbuf1_2)
abbrev attnM3 (t : Fin cfg1.N) : Memref sig .tc .vmem S512x128 .bf16 := win1_3.stage (cfg1.slots t 3)
abbrev attnH3 (t : Fin cfg1.N) : (attnM3 t).IsWhole := hstage1_3 ((cfg1.slots t 3).cast nbuf1_3)
/-- The six scratch buffers: per head the running maximum, the running denominator and the running weighted sum. -/
abbrev attnSc0 : Memref sig .tc .vmem S512x1 .f32 := Memref.whole cc1_scratch0
abbrev attnSV0 : View sig .tc .vmem S512x1 .f32 := attnSc0.view
abbrev attnSc1 : Memref sig .tc .vmem S512x1 .f32 := Memref.whole cc1_scratch1
abbrev attnSV1 : View sig .tc .vmem S512x1 .f32 := attnSc1.view
abbrev attnSc2 : Memref sig .tc .vmem S512x64 .f32 := Memref.whole cc1_scratch2
abbrev attnSV2 : View sig .tc .vmem S512x64 .f32 := attnSc2.view
abbrev attnSc3 : Memref sig .tc .vmem S512x1 .f32 := Memref.whole cc1_scratch3
abbrev attnSV3 : View sig .tc .vmem S512x1 .f32 := attnSc3.view
abbrev attnSc4 : Memref sig .tc .vmem S512x1 .f32 := Memref.whole cc1_scratch4
abbrev attnSV4 : View sig .tc .vmem S512x1 .f32 := attnSc4.view
abbrev attnSc5 : Memref sig .tc .vmem S512x64 .f32 := Memref.whole cc1_scratch5
abbrev attnSV5 : View sig .tc .vmem S512x64 .f32 := attnSc5.view

/-- The class invariant of the region with the six scratch buffers as owned memrefs: the staging buffers of the other two
    pipelines, each whole at some contents, ride along on either side. -/
theorem attnPhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) attnSc0 fullShare d) ∗ (∃ d, owns (c : Thread nD τ) attnSc1 fullShare d) ∗ (∃ d, owns (c : Thread nD τ) attnSc2 fullShare d) ∗ (∃ d, owns (c : Thread nD τ) attnSc3 fullShare d) ∗ (∃ d, owns (c : Thread nD τ) attnSc4 fullShare d) ∗ (∃ d, owns (c : Thread nD τ) attnSc5 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [attnSc0, attnSc1, attnSc2, attnSc3, attnSc4, attnSc5, owns_whole]; try rfl

end Cert.Kernel.Hand

end
-- ==== Proof.KAttnRunA.lean ====
/-
  The attention body run whole at the first key block of a row of blocks, not the last: the scratch is reset, then updated; nothing is stored into the output block.
-/
import proofs.«122623_j15204184228289_2_alg».proof.Proof.KAttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave in the output block and in each of the six scratch buffers, as lists of stored pieces (last
    store first), at the first key block of a row of blocks, not the last: the scratch is reset, then updated; nothing is stored into the output block — WITH the proof that on whole buffers, the three input blocks at known contents, the scratch at anything, the output block handed back untouched, the body runs to a continuation that holds the inputs as they were and each buffer it stored into
    with its pieces written. The pieces are found by the run itself. -/
noncomputable def attnRunA (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i)
    (x0 x1 x2 : Vec F S512x128 .bf16) :
    Σ' (L3 : List (View.Piece (Elt F) S512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (xi3 : Vec F S512x128 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc1__flash_pair_kernel_body i arg3 harg3 arg4 harg4 arg5 harg5 arg6 harg6 arg7 harg7 arg8 harg8 arg9 harg9 arg10 harg10 arg11 harg11 arg12 harg12) K } := by
  refine ⟨[], ?_, ?_, ?_, ?_, ?_, ?_, fun xi3 E K => ?run⟩
  case run =>
  simp only [cc1__flash_pair_kernel_body_eq_skeleton]; unfold cc1__flash_pair_kernel_body_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.Kernel.Hand

end
-- ==== Proof.KAttnRunB.lean ====
/-
  The attention body run whole at a key block that is neither first nor last: the scratch carried from the block before is updated; nothing is stored into the output block.
-/
import proofs.«122623_j15204184228289_2_alg».proof.Proof.KAttnRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave in the output block and in each of the six scratch buffers, as lists of stored pieces (last
    store first), at a key block that is neither first nor last: the scratch carried from the block before is updated; nothing is stored into the output block — WITH the proof that on whole buffers, the three input blocks at known contents, the scratch at what the block before left, the output block handed back untouched, the body runs to a continuation that holds the inputs as they were and each buffer it stored into
    with its pieces written. The pieces are found by the run itself. -/
noncomputable def attnRunB (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i)
    (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    Σ' (L3 : List (View.Piece (Elt F) S512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (xi3 : Vec F S512x128 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc1__flash_pair_kernel_body i arg3 harg3 arg4 harg4 arg5 harg5 arg6 harg6 arg7 harg7 arg8 harg8 arg9 harg9 arg10 harg10 arg11 harg11 arg12 harg12) K } := by
  refine ⟨[], ?_, ?_, ?_, ?_, ?_, ?_, fun xi3 E K => ?run⟩
  case run =>
  simp only [cc1__flash_pair_kernel_body_eq_skeleton]; unfold cc1__flash_pair_kernel_body_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.Kernel.Hand

end
-- ==== Proof.KAttnRunC.lean ====
/-
  The attention body run whole at the last key block: the scratch carried from the block before is updated and the two quotients are stored into the output block.
-/
import proofs.«122623_j15204184228289_2_alg».proof.Proof.KAttnRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave in the output block and in each of the six scratch buffers, as lists of stored pieces (last
    store first), at the last key block: the scratch carried from the block before is updated and the two quotients are stored into the output block — WITH the proof that on whole buffers, the three input blocks at known contents, the scratch at what the block before left, the output block at anything, the body runs to a continuation that holds the inputs as they were and each buffer it stored into
    with its pieces written. The pieces are found by the run itself. -/
noncomputable def attnRunC (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i)
    (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    Σ' (L3 : List (View.Piece (Elt F) S512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc1__flash_pair_kernel_body i arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
  simp only [cc1__flash_pair_kernel_body_eq_skeleton]; unfold cc1__flash_pair_kernel_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg3.eq_unread hf0; obtain rfl := harg4.eq_unread hf1; obtain rfl := harg5.eq_unread hf2; obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.Kernel.Hand

end
-- ==== Proof.KAttn.lean ====
/-
  The attention region (pipeline 1): what its buffers hold point by point, and its body obligation. After the body at a grid
  point the six scratch buffers hold the running maximum, denominator and weighted sum of the two heads over the key blocks
  seen so far in the point's row of blocks; they are carried to the next point, so the region's invariant names their
  contents, by recursion on the point. The output block is stored only at the last key block of a row.
-/
import proofs.«122623_j15204184228289_2_alg».proof.Proof.KAttnRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at grid point `t`, cut out of the window's array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its staging buffer holds the window's block at every point, fetched there or kept from the point before. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- Input window 1: its staging buffer holds the window's block at every point, fetched there or kept from the point before. -/
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- Input window 2: its staging buffer holds the window's block at every point, fetched there or kept from the point before. -/
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)
end

/-! ## What each case leaves -/

/-- At this case the stores into scratch buffer 0 tile it. -/
theorem attnCovA0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x1.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.1 S512x1.size (by sl_kernel_rfl) y
/-- What the case leaves in scratch buffer 0: its stored pieces read back. -/
def attnSA0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x1 .f32 :=
  attnSV0.read (Elt F) (attnSV0.writes (Elt F) attnSV0.junk (attnRunA c i arg3 harg3 arg4 harg4 arg5 harg5 arg6 harg6 arg7 harg7 arg8 harg8 arg9 harg9 arg10 harg10 arg11 harg11 arg12 harg12 hc0 hc1 x0 x1 x2).2.1)

/-- At this case the stores into scratch buffer 1 tile it. -/
theorem attnCovA1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x1.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.1 S512x1.size (by sl_kernel_rfl) y
/-- What the case leaves in scratch buffer 1: its stored pieces read back. -/
def attnSA1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x1 .f32 :=
  attnSV1.read (Elt F) (attnSV1.writes (Elt F) attnSV1.junk (attnRunA c i arg3 harg3 arg4 harg4 arg5 harg5 arg6 harg6 arg7 harg7 arg8 harg8 arg9 harg9 arg10 harg10 arg11 harg11 arg12 harg12 hc0 hc1 x0 x1 x2).2.2.1)

/-- At this case the stores into scratch buffer 2 tile it. -/
theorem attnCovA2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x64.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.2.1 S512x64.size (by sl_kernel_rfl) y
/-- What the case leaves in scratch buffer 2: its stored pieces read back. -/
def attnSA2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x64 .f32 :=
  attnSV2.read (Elt F) (attnSV2.writes (Elt F) attnSV2.junk (attnRunA c i arg3 harg3 arg4 harg4 arg5 harg5 arg6 harg6 arg7 harg7 arg8 harg8 arg9 harg9 arg10 harg10 arg11 harg11 arg12 harg12 hc0 hc1 x0 x1 x2).2.2.2.1)

/-- At this case the stores into scratch buffer 3 tile it. -/
theorem attnCovA3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x1.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.2.2.1 S512x1.size (by sl_kernel_rfl) y
/-- What the case leaves in scratch buffer 3: its stored pieces read back. -/
def attnSA3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x1 .f32 :=
  attnSV3.read (Elt F) (attnSV3.writes (Elt F) attnSV3.junk (attnRunA c i arg3 harg3 arg4 harg4 arg5 harg5 arg6 harg6 arg7 harg7 arg8 harg8 arg9 harg9 arg10 harg10 arg11 harg11 arg12 harg12 hc0 hc1 x0 x1 x2).2.2.2.2.1)

/-- At this case the stores into scratch buffer 4 tile it. -/
theorem attnCovA4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x1.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.2.2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.2.2.2.1 S512x1.size (by sl_kernel_rfl) y
/-- What the case leaves in scratch buffer 4: its stored pieces read back. -/
def attnSA4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x1 .f32 :=
  attnSV4.read (Elt F) (attnSV4.writes (Elt F) attnSV4.junk (attnRunA c i arg3 harg3 arg4 harg4 arg5 harg5 arg6 harg6 arg7 harg7 arg8 harg8 arg9 harg9 arg10 harg10 arg11 harg11 arg12 harg12 hc0 hc1 x0 x1 x2).2.2.2.2.2.1)

/-- At this case the stores into scratch buffer 5 tile it. -/
theorem attnCovA5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x64.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.2.2.2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.2.2.2.2.1 S512x64.size (by sl_kernel_rfl) y
/-- What the case leaves in scratch buffer 5: its stored pieces read back. -/
def attnSA5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x64 .f32 :=
  attnSV5.read (Elt F) (attnSV5.writes (Elt F) attnSV5.junk (attnRunA c i arg3 harg3 arg4 harg4 arg5 harg5 arg6 harg6 arg7 harg7 arg8 harg8 arg9 harg9 arg10 harg10 arg11 harg11 arg12 harg12 hc0 hc1 x0 x1 x2).2.2.2.2.2.2.1)

/-- What the case leaves in the output block: its stored pieces read back (none before the last key block: a placeholder
    nothing consults, the window being idle there). -/
def attnOA (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x128 .bf16 :=
  attnVO.read (Elt F) (attnVO.writes (Elt F) attnVO.junk (attnRunA c i arg3 harg3 arg4 harg4 arg5 harg5 arg6 harg6 arg7 harg7 arg8 harg8 arg9 harg9 arg10 harg10 arg11 harg11 arg12 harg12 hc0 hc1 x0 x1 x2).1)

/-- At this case the stores into scratch buffer 0 tile it. -/
theorem attnCovB0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1 S512x1.size (by sl_kernel_rfl) y
/-- What the case leaves in scratch buffer 0: its stored pieces read back. -/
def attnSB0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV0.read (Elt F) (attnSV0.writes (Elt F) attnSV0.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1)

/-- At this case the stores into scratch buffer 1 tile it. -/
theorem attnCovB1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1 S512x1.size (by sl_kernel_rfl) y
/-- What the case leaves in scratch buffer 1: its stored pieces read back. -/
def attnSB1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV1.read (Elt F) (attnSV1.writes (Elt F) attnSV1.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1)

/-- At this case the stores into scratch buffer 2 tile it. -/
theorem attnCovB2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1 S512x64.size (by sl_kernel_rfl) y
/-- What the case leaves in scratch buffer 2: its stored pieces read back. -/
def attnSB2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x64 .f32 :=
  attnSV2.read (Elt F) (attnSV2.writes (Elt F) attnSV2.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1)

/-- At this case the stores into scratch buffer 3 tile it. -/
theorem attnCovB3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1 S512x1.size (by sl_kernel_rfl) y
/-- What the case leaves in scratch buffer 3: its stored pieces read back. -/
def attnSB3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV3.read (Elt F) (attnSV3.writes (Elt F) attnSV3.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1)

/-- At this case the stores into scratch buffer 4 tile it. -/
theorem attnCovB4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1 S512x1.size (by sl_kernel_rfl) y
/-- What the case leaves in scratch buffer 4: its stored pieces read back. -/
def attnSB4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV4.read (Elt F) (attnSV4.writes (Elt F) attnSV4.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1)

/-- At this case the stores into scratch buffer 5 tile it. -/
theorem attnCovB5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1 S512x64.size (by sl_kernel_rfl) y
/-- What the case leaves in scratch buffer 5: its stored pieces read back. -/
def attnSB5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x64 .f32 :=
  attnSV5.read (Elt F) (attnSV5.writes (Elt F) attnSV5.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1)

/-- What the case leaves in the output block: its stored pieces read back (none before the last key block: a placeholder
    nothing consults, the window being idle there). -/
def attnOB (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x128 .bf16 :=
  attnVO.read (Elt F) (attnVO.writes (Elt F) attnVO.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).1)

/-- At this case the stores into scratch buffer 0 tile it. -/
theorem attnCovC0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1 S512x1.size (by sl_kernel_rfl) y
/-- What the case leaves in scratch buffer 0: its stored pieces read back. -/
def attnSC0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV0.read (Elt F) (attnSV0.writes (Elt F) attnSV0.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1)

/-- At this case the stores into scratch buffer 1 tile it. -/
theorem attnCovC1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1 S512x1.size (by sl_kernel_rfl) y
/-- What the case leaves in scratch buffer 1: its stored pieces read back. -/
def attnSC1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV1.read (Elt F) (attnSV1.writes (Elt F) attnSV1.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1)

/-- At this case the stores into scratch buffer 2 tile it. -/
theorem attnCovC2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1 S512x64.size (by sl_kernel_rfl) y
/-- What the case leaves in scratch buffer 2: its stored pieces read back. -/
def attnSC2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x64 .f32 :=
  attnSV2.read (Elt F) (attnSV2.writes (Elt F) attnSV2.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1)

/-- At this case the stores into scratch buffer 3 tile it. -/
theorem attnCovC3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1 S512x1.size (by sl_kernel_rfl) y
/-- What the case leaves in scratch buffer 3: its stored pieces read back. -/
def attnSC3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV3.read (Elt F) (attnSV3.writes (Elt F) attnSV3.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1)

/-- At this case the stores into scratch buffer 4 tile it. -/
theorem attnCovC4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1 S512x1.size (by sl_kernel_rfl) y
/-- What the case leaves in scratch buffer 4: its stored pieces read back. -/
def attnSC4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV4.read (Elt F) (attnSV4.writes (Elt F) attnSV4.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1)

/-- At this case the stores into scratch buffer 5 tile it. -/
theorem attnCovC5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1 S512x64.size (by sl_kernel_rfl) y
/-- What the case leaves in scratch buffer 5: its stored pieces read back. -/
def attnSC5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x64 .f32 :=
  attnSV5.read (Elt F) (attnSV5.writes (Elt F) attnSV5.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1)

/-- At the last key block the store into the output block fills it. -/
theorem attnCovCO (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x128.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).1 S512x128.size (by sl_kernel_rfl) y

/-- What the case leaves in the output block: its stored pieces read back (none before the last key block: a placeholder
    nothing consults, the window being idle there). -/
def attnOC (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x128 .bf16 :=
  attnVO.read (Elt F) (attnVO.writes (Elt F) attnVO.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).1)

/-! ## Point by point -/

/-- The contents after a point: the output block's staging buffer and the six scratch buffers. -/
structure AttnSt (F : FTy → Type) [FloatOps F] where
  o : Vec F S512x128 .bf16
  s0 : Vec F S512x1 .f32
  s1 : Vec F S512x1 .f32
  s2 : Vec F S512x64 .f32
  s3 : Vec F S512x1 .f32
  s4 : Vec F S512x1 .f32
  s5 : Vec F S512x64 .f32

section
variable (V : (c : Dev nD) → (b : Ref sig .tc) → Buf (Elt F) ((c : Thread nD τ).loc b))

/-- THE ACCUMULATION: what the buffers hold after the body at position `n` — the case the position's place in its row of
    eight key blocks selects, run on the point's blocks and, past the first key block, on what position `n - 1` left in
    the scratch. -/
def attnAt (c : Dev nD) : (n : ℕ) → n < cfg1.N → AttnSt F
  | 0, hn => ⟨attnOA c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA0 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA1 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA2 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA3 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA4 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA5 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩)⟩
  | n + 1, hn =>
    if h0 : (n + 1) % 8 = 0 then
      if h1 : (n + 1) % 8 = 7 then
        False.elim (by omega)
      else
        ⟨attnOA c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA0 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA1 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA2 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA3 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA4 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA5 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩)⟩
    else
      if h1 : (n + 1) % 8 = 7 then
        ⟨attnOC c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC0 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC1 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC2 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC3 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC4 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC5 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5⟩
      else
        ⟨attnOB c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB0 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB1 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB2 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB3 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB4 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB5 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5⟩

/-- At a first key block. -/
theorem attnAt_A (c : Dev nD) (t : Fin cfg1.N) (h0 : t.val % 8 = 0) (h1 : ¬t.val % 8 = 7) :
    attnAt V c t.val t.isLt = ⟨attnOA c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA0 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA1 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA2 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA3 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA4 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA5 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t)⟩ := by
  obtain ⟨n, hn⟩ := t
  cases n with
  | zero => exact rfl
  | succ n => exact (dif_pos h0).trans ((dif_neg h1).trans rfl)

/-- At a middle key block, over what the point before left. -/
theorem attnAt_B (c : Dev nD) (t : Fin cfg1.N) (h0 : ¬t.val % 8 = 0) (h1 : ¬t.val % 8 = 7) :
    attnAt V c t.val t.isLt = ⟨attnOB c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB0 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB1 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB2 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB3 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB4 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB5 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5⟩ := by
  obtain ⟨n, hn⟩ := t
  cases n with
  | zero => exact (by exfalso; (try dsimp only at h0); exact absurd (Nat.zero_mod _) h0)
  | succ n => exact (dif_neg h0).trans ((dif_neg h1).trans rfl)

/-- At a last key block, over what the point before left. -/
theorem attnAt_C (c : Dev nD) (t : Fin cfg1.N) (h0 : ¬t.val % 8 = 0) (h1 : t.val % 8 = 7) :
    attnAt V c t.val t.isLt = ⟨attnOC c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC0 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC1 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC2 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC3 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC4 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC5 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5⟩ := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scratch buffer at anything);
    afterwards the six scratch buffers at what the point before left, the other pipelines' staging buffers at anything,
    the generator register at some state. -/
def attnPhi (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) attnSc0 fullShare (attnAt V c n hn).s0 ∗ owns (c : Thread nD τ) attnSc1 fullShare (attnAt V c n hn).s1 ∗ owns (c : Thread nD τ) attnSc2 fullShare (attnAt V c n hn).s2 ∗ owns (c : Thread nD τ) attnSc3 fullShare (attnAt V c n hn).s3 ∗ owns (c : Thread nD τ) attnSc4 fullShare (attnAt V c n hn).s4 ∗ owns (c : Thread nD τ) attnSc5 fullShare (attnAt V c n hn).s5 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

theorem attnPhi_zero (c : Dev nD) (n : ℕ) (h : n ≤ cfg1.N) (hz : n = 0) : attnPhi V c n h = Pipeline.ΦA spec1 c := by
  subst hz; rfl
theorem attnPhi_succ (c : Dev nD) (n : ℕ) (hn : n < cfg1.N) :
    attnPhi V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) attnSc0 fullShare (attnAt V c n hn).s0 ∗ owns (c : Thread nD τ) attnSc1 fullShare (attnAt V c n hn).s1 ∗ owns (c : Thread nD τ) attnSc2 fullShare (attnAt V c n hn).s2 ∗ owns (c : Thread nD τ) attnSc3 fullShare (attnAt V c n hn).s3 ∗ owns (c : Thread nD τ) attnSc4 fullShare (attnAt V c n hn).s4 ∗ owns (c : Thread nD τ) attnSc5 fullShare (attnAt V c n hn).s5 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := rfl
theorem attnPhi_pos (c : Dev nD) (n : ℕ) (h : n ≤ cfg1.N) (hz : n ≠ 0) :
    attnPhi V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) attnSc0 fullShare (attnAt V c (n - 1) (by omega)).s0 ∗ owns (c : Thread nD τ) attnSc1 fullShare (attnAt V c (n - 1) (by omega)).s1 ∗ owns (c : Thread nD τ) attnSc2 fullShare (attnAt V c (n - 1) (by omega)).s2 ∗ owns (c : Thread nD τ) attnSc3 fullShare (attnAt V c (n - 1) (by omega)).s3 ∗ owns (c : Thread nD τ) attnSc4 fullShare (attnAt V c (n - 1) (by omega)).s4 ∗ owns (c : Thread nD τ) attnSc5 fullShare (attnAt V c (n - 1) (by omega)).s5 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-! ## The pipeline's proof data -/

/-- The three input windows all cut their blocks out of the one fused query/key/value array: the core's whole share of it
    is split among them — the left half, and the two halves of the right half. -/
def attnShare : Fin cfg1.W → PosShare TreeShare
  | ⟨0, _⟩ => fullShare.left
  | ⟨1, _⟩ => fullShare.right.left
  | ⟨2, _⟩ => fullShare.right.right
  | ⟨3, _⟩ => fullShare

/-- The proof data on core `c`: the arrays as the region finds them; after the body at point `t` each input's buffer at
    its block and the output's at `attnAt`'s; the invariant `attnPhi`; nothing owed. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => (attnAt V c t.val t.isLt).o
  Φ t := attnPhi V c t.val (Nat.le_of_lt_succ t.isLt)
  q := attnShare
  owed _ := 0

theorem attnDat_A (c : Dev nD) (w : Fin cfg1.W) : (attnDat V c).A w = V c (Pipeline.arrRef spec1 w) := by
  dsimp only [attnDat]
theorem attnPhi_castSucc (c : Dev nD) (t : Fin cfg1.N) :
    (attnDat V c).Φ t.castSucc = attnPhi V c t.val (Nat.le_of_lt t.isLt) := by
  dsimp only [attnDat]; simp only [Fin.coe_castSucc]
theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = (attnAt V c t.val t.isLt).o := by dsimp only [attnDat]
theorem attnBefore0 (c : Dev nD) (t : Fin cfg1.N) (d) : (attnDat V c).before 0 t d = attnBlk V c 0 t :=
  attnBefore0_of V (attnDat V c) (attnDat_A V c 0) (attnAfter0 V c) t d
theorem attnBefore1 (c : Dev nD) (t : Fin cfg1.N) (d) : (attnDat V c).before 1 t d = attnBlk V c 1 t :=
  attnBefore1_of V (attnDat V c) (attnDat_A V c 1) (attnAfter1 V c) t d
theorem attnBefore2 (c : Dev nD) (t : Fin cfg1.N) (d) : (attnDat V c).before 2 t d = attnBlk V c 2 t :=
  attnBefore2_of V (attnDat V c) (attnDat_A V c 2) (attnAfter2 V c) t d

/-! ## The body obligation -/

def attnPre (c : Dev nD) (t : Fin cfg1.N) : sProp 𝕄 :=
  iprop((attnDat V c).Φ t.castSucc ∗ (attnDat V c).owesAt () t.castSucc
    ∗ (∃ d, owns (c : Thread nD τ) (attnM0 t) fullShare ((attnDat V c).before 0 t d))
    ∗ (∃ d, owns (c : Thread nD τ) (attnM1 t) fullShare ((attnDat V c).before 1 t d))
    ∗ (∃ d, owns (c : Thread nD τ) (attnM2 t) fullShare ((attnDat V c).before 2 t d))
    ∗ (∃ d, owns (c : Thread nD τ) (attnM3 t) fullShare ((attnDat V c).before 3 t d)))

def attnPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t)

end

section
variable (V : (c : Dev nD) → (b : Ref sig .tc) → Buf (Elt F) ((c : Thread nD τ).loc b))

set_option maxHeartbeats 16000000 in
/-- The body at any point. The inputs' buffers hold their blocks; the point's place in its row of key blocks says which case
    it is in; the invariant hands the body the six scratch buffers at what the point before left (at anything before the
    first point) and takes them back at this point's contents, the stored pieces covering each buffer; before the last key
    block the output block is handed back as found. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2]
  rw [show (attnDat V c).owesAt () t.succ = (attnDat V c).owesAt () t.castSucc from rfl]
  rw [show (attnDat V c).Φ t.succ = attnPhi V c (t.val + 1) t.isLt from rfl, attnPhi_succ]
  rw [show (attnDat V c).leavesExact 0 t = owns (c : Thread nD τ) (attnM0 t) fullShare ((attnDat V c).after 0 t) from by
    unfold Dat.leavesExact; rw [attnLive0 t], attnAfter0]
  rw [show (attnDat V c).leavesExact 1 t = owns (c : Thread nD τ) (attnM1 t) fullShare ((attnDat V c).after 1 t) from by
    unfold Dat.leavesExact; rw [attnLive1 t], attnAfter1]
  rw [show (attnDat V c).leavesExact 2 t = owns (c : Thread nD τ) (attnM2 t) fullShare ((attnDat V c).after 2 t) from by
    unfold Dat.leavesExact; rw [attnLive2 t], attnAfter2]
  have hN : t.val < 384 := lt_of_lt_of_eq t.isLt (show cfg1.N = 384 from N_1)
  by_cases h0 : t.val % 8 = 0
  · have h1 : ¬t.val % 8 = 7 := by omega
    have hnl : ¬kvLast (grid1.coords t) := fun h => h1 ((kvLast_iff t).mp h)
    rw [Dat.leavesExact_idle (attnDat V c) 3 t (attnIdle3 t hnl) (attnNoFlush3 t hnl)]
    rw [attnAt_A V c t h0 h1]
    unfold attnSA0 attnSA1 attnSA2 attnSA3 attnSA4 attnSA5; (try dsimp only)
    by_cases hz : t.val = 0
    · rw [attnPhi_castSucc V c t, attnPhi_zero V c _ _ hz, attnPhiA_eq]
      iintro ⟨⟨⟨Ha0, Ha1, Ha2, Ha3, Ha4, Ha5, HS0, HS1, HS2, HS3, HS4, HS5, Hrest⟩, Hg⟩, Ho, ⟨%d0, H0⟩, ⟨%d1, H1⟩, ⟨%d2, H2⟩, ⟨%d3, H3⟩⟩
      iapply ((attnRunA c (grid1.coords t) _ _ _ _ _ _ _ _ _ _ _ _ _ _ _ _ _ _ _ _ ((kvFirst_iff t).mpr h0) (fun h => h1 ((kvLast_iff t).mp h)) (attnBlk V c 0 t) (attnBlk V c 1 t) (attnBlk V c 2 t)).2.2.2.2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%es0, HS0⟩, ⟨%es1, HS1⟩, ⟨%es2, HS2⟩, ⟨%es3, HS3⟩, ⟨%es4, HS4⟩, ⟨%es5, HS5⟩⟩
      isplitl [Ha0 Ha1 Ha2 Ha3 Ha4 Ha5 HS0 HS1 HS2 HS3 HS4 HS5 Hrest Hg]
      · isplitl [Ha0 Ha1 Ha2 Ha3 Ha4 Ha5 HS0 HS1 HS2 HS3 HS4 HS5 Hrest]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [HS0]
          · unfold owns; iexists _; isplitr
            swap; · iexact HS0
            ipureintro; exact View.read_writes_of_cover _ _ _ _ _ (attnCovA0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCovA1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (attnCovA2 c _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (attnCovA3 c _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (attnCovA4 c _ _ _ _ _ _ _ _ _ _ _ _ _ _ _ _ _ _ _ _ _ _ _ _ _ _)
          isplitl [HS5]
          · unfold owns; iexists _; isplitr
            swap; · iexact HS5
            ipureintro; exact View.read_writes_of_cover _ _ _ _ _ (attnCovA5 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [attnPhi_castSucc V c t, attnPhi_pos V c _ _ hz]
      iintro ⟨⟨⟨Ha0, Ha1, Ha2, Ha3, Ha4, Ha5, HS0, HS1, HS2, HS3, HS4, HS5, Hrest⟩, Hg⟩, Ho, ⟨%d0, H0⟩, ⟨%d1, H1⟩, ⟨%d2, H2⟩, ⟨%d3, H3⟩⟩
      iapply ((attnRunA c (grid1.coords t) _ _ _ _ _ _ _ _ _ _ _ _ _ _ _ _ _ _ _ _ ((kvFirst_iff t).mpr h0) (fun h => h1 ((kvLast_iff t).mp h)) (attnBlk V c 0 t) (attnBlk V c 1 t) (attnBlk V c 2 t)).2.2.2.2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, ⟨%es0, HS0⟩, ⟨%es1, HS1⟩, ⟨%es2, HS2⟩, ⟨%es3, HS3⟩, ⟨%es4, HS4⟩, ⟨%es5, HS5⟩⟩
      isplitl [Ha0 Ha1 Ha2 Ha3 Ha4 Ha5 HS0 HS1 HS2 HS3 HS4 HS5 Hrest Hg]
      · isplitl [Ha0 Ha1 Ha2 Ha3 Ha4 Ha5 HS0 HS1 HS2 HS3 HS4 HS5 Hrest]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [HS0]
          · unfold owns; iexists _; isplitr
            swap; · iexact HS0
            ipureintro; exact View.read_writes_of_cover _ _ _ _ _ (attnCovA0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCovA1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (attnCovA2 c _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (attnCovA3 c _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (attnCovA4 c _ _ _ _ _ _ _ _ _ _ _ _ _ _ _ _ _ _ _ _ _ _ _ _ _ _)
          isplitl [HS5]
          · unfold owns; iexists _; isplitr
            swap; · iexact HS5
            ipureintro; exact View.read_writes_of_cover _ _ _ _ _ (attnCovA5 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · by_cases h1 : t.val % 8 = 7
    · rw [show (attnDat V c).leavesExact 3 t = owns (c : Thread nD τ) (attnM3 t) fullShare ((attnDat V c).after 3 t) from by
        unfold Dat.leavesExact; rw [attnLive3 t ((kvLast_iff t).mpr h1)], attnAfter3]
      rw [attnAt_C V c t h0 h1]
      unfold attnOC attnSC0 attnSC1 attnSC2 attnSC3 attnSC4 attnSC5; (try dsimp only)
      have hz : t.val ≠ 0 := by omega
      rw [attnPhi_castSucc V c t, attnPhi_pos V c _ _ hz]
      iintro ⟨⟨⟨Ha0, Ha1, Ha2, Ha3, Ha4, Ha5, HS0, HS1, HS2, HS3, HS4, HS5, Hrest⟩, Hg⟩, Ho, ⟨%d0, H0⟩, ⟨%d1, H1⟩, ⟨%d2, H2⟩, ⟨%d3, H3⟩⟩
      iapply ((attnRunC c (grid1.coords t) _ _ _ _ _ _ _ _ _ _ _ _ _ _ _ _ _ _ _ _ (fun h => h0 ((kvFirst_iff t).mp h)) ((kvLast_iff t).mpr h1) (attnBlk V c 0 t) (attnBlk V c 1 t) (attnBlk V c 2 t) _ _ _ _ _ _).2.2.2.2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, ⟨%e3, H3⟩, ⟨%es0, HS0⟩, ⟨%es1, HS1⟩, ⟨%es2, HS2⟩, ⟨%es3, HS3⟩, ⟨%es4, HS4⟩, ⟨%es5, HS5⟩⟩
      isplitl [Ha0 Ha1 Ha2 Ha3 Ha4 Ha5 HS0 HS1 HS2 HS3 HS4 HS5 Hrest Hg]
      · isplitl [Ha0 Ha1 Ha2 Ha3 Ha4 Ha5 HS0 HS1 HS2 HS3 HS4 HS5 Hrest]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [HS0]
          · unfold owns; iexists _; isplitr
            swap; · iexact HS0
            ipureintro; exact View.read_writes_of_cover _ _ _ _ _ (attnCovC0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCovC1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (attnCovC2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (attnCovC3 c _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (attnCovC4 c _ _ _ _ _ _ _ _ _ _ _ _ _ _ _ _ _ _ _ _ _ _ _ _ _ _ _ _ _ _ _ _)
          isplitl [HS5]
          · unfold owns; iexists _; isplitr
            swap; · iexact HS5
            ipureintro; exact View.read_writes_of_cover _ _ _ _ _ (attnCovC5 c _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (attnCovCO c _ _ _ _ _ _ _ _ _ _ _ _ _ _ _ _ _ _ _ _ _ _ _ _ _ _ _ _ _ _ _ _)
    · have hnl : ¬kvLast (grid1.coords t) := fun h => h1 ((kvLast_iff t).mp h)
      rw [Dat.leavesExact_idle (attnDat V c) 3 t (attnIdle3 t hnl) (attnNoFlush3 t hnl)]
      rw [attnAt_B V c t h0 h1]
      unfold attnSB0 attnSB1 attnSB2 attnSB3 attnSB4 attnSB5; (try dsimp only)
      have hz : t.val ≠ 0 := by omega
      rw [attnPhi_castSucc V c t, attnPhi_pos V c _ _ hz]
      iintro ⟨⟨⟨Ha0, Ha1, Ha2, Ha3, Ha4, Ha5, HS0, HS1, HS2, HS3, HS4, HS5, Hrest⟩, Hg⟩, Ho, ⟨%d0, H0⟩, ⟨%d1, H1⟩, ⟨%d2, H2⟩, ⟨%d3, H3⟩⟩
      iapply ((attnRunB c (grid1.coords t) _ _ _ _ _ _ _ _ _ _ _ _ _ _ _ _ _ _ _ _ (fun h => h0 ((kvFirst_iff t).mp h)) (fun h => h1 ((kvLast_iff t).mp h)) (attnBlk V c 0 t) (attnBlk V c 1 t) (attnBlk V c 2 t) _ _ _ _ _ _).2.2.2.2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%es0, HS0⟩, ⟨%es1, HS1⟩, ⟨%es2, HS2⟩, ⟨%es3, HS3⟩, ⟨%es4, HS4⟩, ⟨%es5, HS5⟩⟩
      isplitl [Ha0 Ha1 Ha2 Ha3 Ha4 Ha5 HS0 HS1 HS2 HS3 HS4 HS5 Hrest Hg]
      · isplitl [Ha0 Ha1 Ha2 Ha3 Ha4 Ha5 HS0 HS1 HS2 HS3 HS4 HS5 Hrest]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [HS0]
          · unfold owns; iexists _; isplitr
            swap; · iexact HS0
            ipureintro; exact View.read_writes_of_cover _ _ _ _ _ (attnCovB0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCovB1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (attnCovB2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (attnCovB3 c _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (attnCovB4 c _ _ _ _ _ _ _ _ _ _ _ _ _ _ _ _ _ _ _ _ _ _ _ _ _ _ _ _ _ _ _ _)
          isplitl [HS5]
          · unfold owns; iexists _; isplitr
            swap; · iexact HS5
            ipureintro; exact View.read_writes_of_cover _ _ _ _ _ (attnCovB5 c _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem attnObligation (c : Dev nD) : BodyObligation (attnDat (F := F) V c) (defs₀ (F := F)) Variants.none () Set.univ := fun t => by
  rw [bigSep_W1, bigSep_W1]
  exact attnBody V c t

/-- What the region is entered with is the invariant before the first point. -/
theorem attnIn (c : Dev nD) : Pipeline.ΦA spec1 c ⊢ (attnDat V c).Φ 0 := by
  rw [show (attnDat V c).Φ 0 = attnPhi V c 0 (Nat.zero_le _) from rfl, attnPhi_zero V c 0 _ rfl]
  try exact Idealize.SL.BI.Entails.refl _

/-- After the last point the invariant gives the class's back: the scratch buffers' named contents are forgotten. -/
theorem attnOut (c : Dev nD) : (attnDat V c).Φ (Fin.last cfg1.N) ⊢ Pipeline.ΦA spec1 c := by
  rw [show (attnDat V c).Φ (Fin.last cfg1.N) = attnPhi V c (Fin.last cfg1.N).val (Nat.le_of_lt_succ (Fin.last cfg1.N).isLt) from rfl,
    attnPhi_pos V c _ _ (by rw [Fin.val_last]; have : cfg1.N = 384 := N_1; omega), attnPhiA_eq]
  iintro ⟨⟨Ha0, Ha1, Ha2, Ha3, Ha4, Ha5, HS0, HS1, HS2, HS3, HS4, HS5, Hrest⟩, Hg⟩
  isplitl [Ha0 Ha1 Ha2 Ha3 Ha4 Ha5 HS0 HS1 HS2 HS3 HS4 HS5 Hrest]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexact Hrest
  iexact Hg

end

end Cert.Kernel.Hand

end
-- ==== Proof.KFrame.lean ====
/-
  The whole program as a run of six segments — the host operations that merge the low-rank updates into the three weight
  matrices and lay out the fused weights and biases, the fused projection region, the attention region, the transpose of the
  output weights, the output projection region, the final reshape — from the launch to the return. Between two segments
  every unscoped buffer of the core holds the contents a fold through the program names (`W0` … `W6`): a host stretch
  applies its operations, a region leaves its output array at what its write-backs make of the proof data and every other
  buffer as it found it. The run's post gives every unscoped buffer at the last valuation; the frame and the value are read
  off it.
-/
import proofs.«122623_j15204184228289_2_alg».proof.Proof.KProj
import proofs.«122623_j15204184228289_2_alg».proof.Proof.KAttn
import proofs.«122623_j15204184228289_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each segment boundary -/

/-- At launch. -/
abbrev W0 : Dev nD → Valuation τ sig (Elt F) := fun c b => m (c, b)
/-- After the first host stretch (the fused projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the fused projection: its arrays at what the pipeline leaves, every other buffer as entered. -/
def W2 (c : Dev nD) : Valuation τ sig (Elt F) :=
  Pipeline.withArrays spec0 c (W1 m c) fun w => (qkvDat (V1 m) c).arrAt w cfg0.N
theorem W2_arr (c : Dev nD) (w : Fin cfg0.W) :
    W2 m c (Proc.devRef .tc (Pipeline.arrRef spec0 w)) = (qkvDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (qkvDat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: the attention array at what the pipeline leaves; the fused query/key/value array, which
    all three input windows read, and every other buffer as entered. -/
def W3 (c : Dev nD) : Valuation τ sig (Elt F) :=
  Function.update (W2 m c) (Proc.devRef .tc main_v17) ((attnDat (V2 m) c).arrAt 3 cfg1.N)
theorem W3_out (c : Dev nD) : W3 m c (Proc.devRef .tc main_v17) = (attnDat (V2 m) c).arrAt 3 cfg1.N := by
  unfold W3; exact Function.update_self ..
theorem W3_of_ne (c : Dev nD) (b : Ref sig .tc) (hb : b ≠ main_v17) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b

/-- After the transpose of the output weights (the output projection's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After the output projection. -/
def W5 (c : Dev nD) : Valuation τ sig (Elt F) :=
  Pipeline.withArrays spec2 c (W4 m c) fun w => (outpDat (V4 m) c).arrAt w cfg2.N
theorem W5_arr (c : Dev nD) (w : Fin cfg2.W) :
    W5 m c (Proc.devRef .tc (Pipeline.arrRef spec2 w)) = (outpDat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (outpDat (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- After the final reshape: the return. -/
abbrev W6 : Dev nD → Valuation τ sig (Elt F) := fun c => StableHlo.after hostOps3 (W5 m c)

/-! ## No segment writes an argument -/

/-- A buffer that no host stretch writes and no region stages reaches the return as launched. -/
theorem W6_untouched (c : Dev nD) (r : Ref sig .tc) (h0 : r ∉ hostOps0_W) (h2 : r ∉ hostOps2_W) (h3 : r ∉ hostOps3_W)
    (hr0 : ∀ w, Pipeline.arrRef spec0 w ≠ r) (hr1 : r ≠ main_v17) (hr2 : ∀ w, Pipeline.arrRef spec2 w ≠ r) :
    W6 m c (Proc.devRef .tc r) = m ((c : Thread nD τ).loc r) :=
  calc W6 m c (Proc.devRef .tc r)
    _ = W5 m c (Proc.devRef .tc r) := StableHlo.after_of_writes_sub hostOps3 _ hostOps3_writes h3
    _ = W4 m c (Proc.devRef .tc r) := W5_of_ne m c r hr2
    _ = W3 m c (Proc.devRef .tc r) := StableHlo.after_of_writes_sub hostOps2 _ hostOps2_writes h2
    _ = W2 m c (Proc.devRef .tc r) := W3_of_ne m c r hr1
    _ = W1 m c (Proc.devRef .tc r) := W2_of_ne m c r hr0
    _ = W0 m c (Proc.devRef .tc r) := StableHlo.after_of_writes_sub hostOps0 _ hostOps0_writes h0
    _ = m ((c : Thread nD τ).loc r) := rfl

/-- The output bias is an input window of the output projection: it is staged, never written. -/
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps3 _ hostOps3_writes (by decide)
    _ = W4 m c (Proc.devRef .tc main_arg8) := (W5_arr m c 2).trans (((outpDat (V4 m) c).arrAt_in 2 rfl _).trans (outpDat_A (V4 m) c 2))
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => qkvDat (V1 m) c
  | ⟨1, _⟩ => fun c => attnDat (V2 m) c
  | ⟨2, _⟩ => fun c => outpDat (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The fused projection region over the thread state "every unscoped buffer at the boundary's contents, the generator
    register at some state, nothing owed": its arrays are taken out of the unscoped buffers at entry and put back at what
    the write-backs leave at exit; the generator register goes through the region's invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (qkvObligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The attention region: one array behind three windows -/

/-- The two buffers behind the attention region's arrays, one by one. -/
theorem attnArrBufs_eq (c : Dev nD) (Vx : (b : Ref sig .tc) → Buf (Elt F) ((c : Thread nD τ).loc b)) :
    (Pipeline.arrBufs (Ix := Unit) (Name := ℕ) (U := UR sig nD τ) (Lvl := ℕ) spec1 c Vx : sProp 𝕄)
      = iprop((((c : Thread nD τ).loc main_v16) ↦{fullShare} Vx main_v16) ∗ (((c : Thread nD τ).loc main_v17) ↦{fullShare} Vx main_v17)) := by
  unfold Pipeline.arrBufs
  rw [show Finset.univ.image (Pipeline.arrRef spec1) = ({main_v16, main_v17} : Finset (Ref sig .tc)) from by decide,
    bigSep_insert (by decide), bigSep_singleton]
  rfl

/-- ENTRY. The two buffers behind the region's arrays, each whole, make the proof data's arrays: the fused array's whole
    share is split into its left half and the two halves of its right half, one for each window that reads it. -/
theorem attnArrays_in (c : Dev nD) :
    (Pipeline.arrBufs (Ix := Unit) (Name := ℕ) (U := UR sig nD τ) (Lvl := ℕ) spec1 c (V2 m c) : sProp 𝕄)
      ⊢ (attnDat (V2 m) c).arrays (attnDat (V2 m) c).A := by
  rw [attnArrBufs_eq]
  unfold Dat.arrays
  rw [bigSep_W1]
  beta_reduce
  rw [(arr_whole1 0).set_eq_univ, (arr_whole1 3).set_eq_univ]
  rw [show (attnDat (V2 m) c).share 0 = fullShare.left from rfl, show (attnDat (V2 m) c).share 1 = fullShare.right.left from rfl,
    show (attnDat (V2 m) c).share 2 = fullShare.right.right from rfl, show (attnDat (V2 m) c).share 3 = fullShare from rfl]
  rw [attnDat_A, attnDat_A, attnDat_A, attnDat_A]
  iintro ⟨H16, H17⟩
  ihave Hs := (pointsTo_share (PosShare.mem_left_op_right fullShare)).1 $$ H16
  icases Hs with ⟨Hl, Hr⟩
  ihave Hs2 := (pointsTo_share (PosShare.mem_left_op_right fullShare.right)).1 $$ Hr
  icases Hs2 with ⟨Hrl, Hrr⟩
  isplitl [Hl]; · iexact Hl
  isplitl [Hrl]; · iexact Hrl
  isplitl [Hrr]; · iexact Hrr
  iexact H17

/-- EXIT. The arrays at what the pipeline leaves — the three windows' shares of the fused array, unchanged, and the attention
    array — join into the two buffers whole at the exit contents. -/
theorem attnArrays_out (c : Dev nD) :
    ((attnDat (V2 m) c).arrays ((attnDat (V2 m) c).arrAt · cfg1.N) : sProp 𝕄)
      ⊢ Pipeline.arrBufs (Ix := Unit) (Name := ℕ) (U := UR sig nD τ) (Lvl := ℕ) spec1 c (V3 m c) := by
  rw [attnArrBufs_eq]
  unfold Dat.arrays
  rw [bigSep_W1]
  beta_reduce
  rw [(arr_whole1 0).set_eq_univ, (arr_whole1 3).set_eq_univ]
  rw [show (attnDat (V2 m) c).share 0 = fullShare.left from rfl, show (attnDat (V2 m) c).share 1 = fullShare.right.left from rfl,
    show (attnDat (V2 m) c).share 2 = fullShare.right.right from rfl, show (attnDat (V2 m) c).share 3 = fullShare from rfl]
  rw [(attnDat (V2 m) c).arrAt_in 0 rfl, (attnDat (V2 m) c).arrAt_in 1 rfl, (attnDat (V2 m) c).arrAt_in 2 rfl,
    attnDat_A, attnDat_A, attnDat_A]
  rw [show V3 m c main_v16 = V2 m c main_v16 from W3_of_ne m c main_v16 (by decide),
    show V3 m c main_v17 = (attnDat (V2 m) c).arrAt 3 cfg1.N from W3_out m c]
  iintro ⟨Hl, Hrl, Hrr, H17⟩
  isplitr [H17]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H17

/-- No buffer other than the attention array changes across the region. -/
theorem attnRest_eq (c : Dev nD) :
    (Pipeline.unscopedRest (Ix := Unit) (Name := ℕ) (U := UR sig nD τ) (Lvl := ℕ) spec1 c (V3 m c) : sProp 𝕄)
      = Pipeline.unscopedRest spec1 c (V2 m c) := by
  unfold Pipeline.unscopedRest
  refine bigSep_congr fun b hb => ?_
  rw [show V3 m c b = V2 m c b from W3_of_ne m c b fun e => (Finset.mem_sdiff.mp hb).2 (Finset.mem_image.mpr ⟨3, Finset.mem_univ _, e ▸ rfl⟩)]

set_option backward.isDefEq.respectTransparency.types false in
/-- The attention region over the same thread state. Its three input windows share the fused query/key/value array, so the
    arrays are taken out of the unscoped buffers by hand: the two buffers behind them, then the share split; and put back the
    same way. The six scratch buffers and the generator register go through the region's invariant. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (attnObligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hin' : (Pipeline.arrBufs (Ix := Unit) (Name := ℕ) (U := UR sig nD τ) (Lvl := ℕ) spec1 c (V2 m c) : sProp 𝕄)
        ⊢ (pdats m 1 c).arrays (pdats m 1 c).A := attnArrays_in m c
    have hsplit : (StableHlo.held (c : Thread nD τ) (Pipeline.ucRefs τ sig) (W2 m c) : sProp 𝕄)
        ⊢ iprop(Pipeline.arrBufs spec1 c (V2 m c) ∗ Pipeline.unscopedRest spec1 c (V2 m c)) := by
      rw [← Pipeline.unscopedBufs_held (Ix := Unit) (Name := ℕ) (U := UR sig nD τ) (Lvl := ℕ) c (W2 m c),
        Pipeline.unscopedBufs_split₀ (cfgs) 1 winFacts₀1.arr_unscoped c (V2 m c)]
      exact .rfl
    iintro ⟨⟨Hub, Hp, HO⟩, -, -⟩
    ihave H := hsplit $$ Hub
    icases H with ⟨Hb, Hrest⟩
    ihave Ha := hin' $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (attnIn (V2 m) c)
    unfold Pipeline.ΦA
    iintro ⟨Hp, -, Hr⟩
    isplitl [Hr]; · iexact Hr
    iexact Hp
  hout c := by
    refine (attnOut (V2 m) c).trans ?_
    rw [Pipeline.ownSems0_none]; unfold Pipeline.ΦA
    iintro ⟨Hr, Hp⟩
    isplitl [Hp]; · iexact Hp
    isplitr; · iempintro
    iexact Hr
  hexit c := by
    have hjoin : iprop(Pipeline.arrBufs spec1 c (V3 m c) ∗ Pipeline.unscopedRest spec1 c (V3 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ (cfgs) 1 winFacts₀1.arr_unscoped c (V3 m c)]
      exact .rfl
    have hout : ((pdats m 1 c).arrays ((pdats m 1 c).arrAt · cfg1.N) : sProp 𝕄)
        ⊢ Pipeline.arrBufs (Ix := Unit) (Name := ℕ) (U := UR sig nD τ) (Lvl := ℕ) spec1 c (V3 m c) := attnArrays_out m c
    iintro ⟨Ha, HO, HY, Hrest⟩
    ihave Hb := hout $$ Ha
    imodintro
    isplitl [Hb Hrest]
    · iapply hjoin
      isplitl [Hb]; · iexact Hb
      rw [attnRest_eq]; iexact Hrest
    isplitl [HY]; · iexact HY
    unfold Pipeline.Dat.owesAt Pipeline.owesWithin
    icases HO with ⟨%W, -, HO⟩; iexists W; iexact HO

set_option backward.isDefEq.respectTransparency.types false in
/-- The output projection region over the thread state "every unscoped buffer at the boundary's contents, the generator
    register at some state, nothing owed": its arrays are taken out of the unscoped buffers at entry and put back at what
    the write-backs leave at exit; the generator register goes through the region's invariant. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (outpObligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]
theorem main_run (c : Dev nD) : main (F := F) c = Pipeline.Seg.run (segs m) := (main_chain c).trans (by chain_rfl)

set_option backward.isDefEq.respectTransparency.types false in
/-- THE RUN. From any memory with zero counters, every weakly fair execution of the program on the TensorCores terminates,
    nothing faulting, and in every final state each unscoped buffer of each core holds what the fold through the program
    names for it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => (show (iprop(StableHlo.held (c : Thread nD τ) (Pipeline.ucRefs τ sig) (W6 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.Hand

end
-- ==== Proof.KFrameClaims.lean ====
/-
  The frame of the program, read off its run: every argument array is either never written and never staged by a region, or
  staged as an input window only, so at the return it holds what it held at launch.
-/
import proofs.«122623_j15204184228289_2_alg».proof.Proof.KFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, nothing faulting, with the fifteen argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W6_untouched m c main_arg0 (by decide) (by decide) (by decide) (by decide) (by decide) (by decide)),
     (h c _ (mem_uc main_arg1 (by decide))).trans (W6_untouched m c main_arg1 (by decide) (by decide) (by decide) (by decide) (by decide) (by decide)),
     (h c _ (mem_uc main_arg2 (by decide))).trans (W6_untouched m c main_arg2 (by decide) (by decide) (by decide) (by decide) (by decide) (by decide)),
     (h c _ (mem_uc main_arg3 (by decide))).trans (W6_untouched m c main_arg3 (by decide) (by decide) (by decide) (by decide) (by decide) (by decide)),
     (h c _ (mem_uc main_arg4 (by decide))).trans (W6_untouched m c main_arg4 (by decide) (by decide) (by decide) (by decide) (by decide) (by decide)),
     (h c _ (mem_uc main_arg5 (by decide))).trans (W6_untouched m c main_arg5 (by decide) (by decide) (by decide) (by decide) (by decide) (by decide)),
     (h c _ (mem_uc main_arg6 (by decide))).trans (W6_untouched m c main_arg6 (by decide) (by decide) (by decide) (by decide) (by decide) (by decide)),
     (h c _ (mem_uc main_arg7 (by decide))).trans (W6_untouched m c main_arg7 (by decide) (by decide) (by decide) (by decide) (by decide) (by decide)),
     (h c _ (mem_uc main_arg8 (by decide))).trans (W6_main_arg8 m c),
     (h c _ (mem_uc main_arg9 (by decide))).trans (W6_untouched m c main_arg9 (by decide) (by decide) (by decide) (by decide) (by decide) (by decide)),
     (h c _ (mem_uc main_arg10 (by decide))).trans (W6_untouched m c main_arg10 (by decide) (by decide) (by decide) (by decide) (by decide) (by decide)),
     (h c _ (mem_uc main_arg11 (by decide))).trans (W6_untouched m c main_arg11 (by decide) (by decide) (by decide) (by decide) (by decide) (by decide)),
     (h c _ (mem_uc main_arg12 (by decide))).trans (W6_untouched m c main_arg12 (by decide) (by decide) (by decide) (by decide) (by decide) (by decide)),
     (h c _ (mem_uc main_arg13 (by decide))).trans (W6_untouched m c main_arg13 (by decide) (by decide) (by decide) (by decide) (by decide) (by decide)),
     (h c _ (mem_uc main_arg14 (by decide))).trans (W6_untouched m c main_arg14 (by decide) (by decide) (by decide) (by decide) (by decide) (by decide))⟩) (run_all m ρ)

/-- The same run, keeping also what the result buffer holds at the return. -/
theorem run_result : θ_run defs (onTc (τ := τ) (main (F := F))) ⟨m, fun _ => 0, ρ⟩ (fun r => ∀ c : Dev nD,
      r.2.mem ((c.tc : Thread nD τ).loc main_v20) = W6 m c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v20 (by decide)),
     (h c _ (mem_uc main_arg0 (by decide))).trans (W6_untouched m c main_arg0 (by decide) (by decide) (by decide) (by decide) (by decide) (by decide)),
     (h c _ (mem_uc main_arg1 (by decide))).trans (W6_untouched m c main_arg1 (by decide) (by decide) (by decide) (by decide) (by decide) (by decide)),
     (h c _ (mem_uc main_arg2 (by decide))).trans (W6_untouched m c main_arg2 (by decide) (by decide) (by decide) (by decide) (by decide) (by decide)),
     (h c _ (mem_uc main_arg3 (by decide))).trans (W6_untouched m c main_arg3 (by decide) (by decide) (by decide) (by decide) (by decide) (by decide)),
     (h c _ (mem_uc main_arg4 (by decide))).trans (W6_untouched m c main_arg4 (by decide) (by decide) (by decide) (by decide) (by decide) (by decide)),
     (h c _ (mem_uc main_arg5 (by decide))).trans (W6_untouched m c main_arg5 (by decide) (by decide) (by decide) (by decide) (by decide) (by decide)),
     (h c _ (mem_uc main_arg6 (by decide))).trans (W6_untouched m c main_arg6 (by decide) (by decide) (by decide) (by decide) (by decide) (by decide)),
     (h c _ (mem_uc main_arg7 (by decide))).trans (W6_untouched m c main_arg7 (by decide) (by decide) (by decide) (by decide) (by decide) (by decide)),
     (h c _ (mem_uc main_arg8 (by decide))).trans (W6_main_arg8 m c),
     (h c _ (mem_uc main_arg9 (by decide))).trans (W6_untouched m c main_arg9 (by decide) (by decide) (by decide) (by decide) (by decide) (by decide)),
     (h c _ (mem_uc main_arg10 (by decide))).trans (W6_untouched m c main_arg10 (by decide) (by decide) (by decide) (by decide) (by decide) (by decide)),
     (h c _ (mem_uc main_arg11 (by decide))).trans (W6_untouched m c main_arg11 (by decide) (by decide) (by decide) (by decide) (by decide) (by decide)),
     (h c _ (mem_uc main_arg12 (by decide))).trans (W6_untouched m c main_arg12 (by decide) (by decide) (by decide) (by decide) (by decide) (by decide)),
     (h c _ (mem_uc main_arg13 (by decide))).trans (W6_untouched m c main_arg13 (by decide) (by decide) (by decide) (by decide) (by decide) (by decide)),
     (h c _ (mem_uc main_arg14 (by decide))).trans (W6_untouched m c main_arg14 (by decide) (by decide) (by decide) (by decide) (by decide) (by decide))⟩) (run_all m ρ)

end Cert.Kernel.Hand

end
-- ==== Proof.IProj.lean ====
/-
  The two dense projections of the program as pipeline regions: the fused query/key/value projection (pipeline 0: blocks of
  1024 token rows against the whole 768 x 2304 weight matrix and the 2304 biases) and the output projection (pipeline 2:
  blocks of 512 attention rows against the 768 x 768 weights and 768 biases). Each grid point loads its three input blocks
  whole, forms rows · weights + bias, and stores the result over its whole output block; nothing is kept between points.
  For each region, at any contents `V` of the unscoped buffers when it is entered: the windows' blocks, what a point
  leaves in the output block as a function of the three input blocks, the body's triple, the pipeline's proof data and
  its body obligation.
-/
import proofs.«122623_j15204184228289_2_alg».proof.Proof.Gen.KernelIdeal.Launch
import proofs.«122623_j15204184228289_2_alg».proof.Proof.Gen.KernelIdeal.Skeleton
import proofs.«122623_j15204184228289_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The fused query/key/value projection (pipeline 0): one grid point takes a block of rows, the whole weight matrix and the whole bias
vector, and leaves rows · weights + bias in the output block -/

section qkv
variable (V : (c : Dev nD) → (b : Ref sig .tc) → Buf (Elt F) ((c : Thread nD τ).loc b))

/-- Window `w`'s block at grid point `t`, cut out of the window's array as the region finds it. -/
def qkvBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of the fused query/key/value projection: its staging buffer holds the window's block of the entry array at every point,
    whether the pipeline fetched it there or kept it from the point before (the block index did not move). -/
theorem qkvBefore0_of {c : Dev nD} (dat : Dat τ (Elt F) Unit ℕ (UR sig nD τ) ℕ cfg0 c) (hA : dat.A 0 = V c (Pipeline.arrRef spec0 0))
    (hafter : ∀ t, dat.after 0 t = qkvBlk V c 0 t) (t : Fin cfg0.N) (d) : dat.before 0 t d = qkvBlk V c 0 t :=
  (dat.before_in_eq_fetched 0 rfl (fun _ => rfl) (fun _ _ _ => rfl) (fun t => by rw [hafter]; unfold Dat.blockOf qkvBlk; rw [hA]; try rfl) t d).trans
    (by unfold Dat.fetched Dat.blockOf qkvBlk; rw [hA]; try rfl)

/-- Input window 1 of the fused query/key/value projection: its staging buffer holds the window's block of the entry array at every point,
    whether the pipeline fetched it there or kept it from the point before (the block index did not move). -/
theorem qkvBefore1_of {c : Dev nD} (dat : Dat τ (Elt F) Unit ℕ (UR sig nD τ) ℕ cfg0 c) (hA : dat.A 1 = V c (Pipeline.arrRef spec0 1))
    (hafter : ∀ t, dat.after 1 t = qkvBlk V c 1 t) (t : Fin cfg0.N) (d) : dat.before 1 t d = qkvBlk V c 1 t :=
  (dat.before_in_eq_fetched 1 rfl (fun _ => rfl) (fun _ _ _ => rfl) (fun t => by rw [hafter]; unfold Dat.blockOf qkvBlk; rw [hA]; try rfl) t d).trans
    (by unfold Dat.fetched Dat.blockOf qkvBlk; rw [hA]; try rfl)

/-- Input window 2 of the fused query/key/value projection: its staging buffer holds the window's block of the entry array at every point,
    whether the pipeline fetched it there or kept it from the point before (the block index did not move). -/
theorem qkvBefore2_of {c : Dev nD} (dat : Dat τ (Elt F) Unit ℕ (UR sig nD τ) ℕ cfg0 c) (hA : dat.A 2 = V c (Pipeline.arrRef spec0 2))
    (hafter : ∀ t, dat.after 2 t = qkvBlk V c 2 t) (t : Fin cfg0.N) (d) : dat.before 2 t d = qkvBlk V c 2 t :=
  (dat.before_in_eq_fetched 2 rfl (fun _ => rfl) (fun _ _ _ => rfl) (fun t => by rw [hafter]; unfold Dat.blockOf qkvBlk; rw [hA]; try rfl) t d).trans
    (by unfold Dat.fetched Dat.blockOf qkvBlk; rw [hA]; try rfl)

/-- The whole-buffer rectangles the body loads and stores through. -/
abbrev qkvRX : Rect S1024x768 := Rect.unit (s := S1024x768) ![0, 0] S1024x768.size inb_S1024x768_S1024x768_0_0
abbrev qkvRW : Rect S768x2304 := Rect.unit (s := S768x2304) ![0, 0] S768x2304.size inb_S768x2304_S768x2304_0_0
abbrev qkvRB : Rect S2304 := Rect.unit (s := S2304) ![0] S2304.size inb_S2304_S2304_0
abbrev qkvRO : Rect S1024x2304 := Rect.unit (s := S1024x2304) ![0, 0] S1024x2304.size inb_S1024x2304_S1024x2304_0_0

/-- What a point leaves in the output block: its one store, of rows · weights + bias over the three loaded blocks. -/
def qkvOut (x0 : Vec F S1024x768 .f32) (x1 : Vec F S768x2304 .f32) (x2 : Vec F S2304 .f32) : Vec F S1024x2304 .bf16 :=
  View.canon [⟨qkvRO, k0_pay1 (View.ld x0 qkvRX) (View.ld x1 qkvRW) (View.ld x2 qkvRB)⟩]

/-- The one store fills the block. -/
theorem qkvCover (p0 : Vec F S1024x2304 .bf16) (y : S1024x2304.Idx) :
    ∃ pc ∈ ([⟨qkvRO, p0⟩] : List (View.Piece (Elt F) S1024x2304 .bf16)), y ∈ pc.1.set :=
  View.cover_of_tiled [⟨qkvRO, p0⟩] S1024x2304.size (by rfl) y

set_option maxHeartbeats 1000000 in
/-- The body on whole staging buffers: the three inputs at known contents and the output at anything; it returns with
    the inputs as they were and the output at `qkvOut` of them. -/
theorem qkvKernel (c : Dev nD) (E : Set ℕ) (i : grid0.Coords)
    (arg1 : Memref sig .tc .vmem S1024x768 .f32) (harg1 : arg1.IsWhole) (arg2 : Memref sig .tc .vmem S768x2304 .f32) (harg2 : arg2.IsWhole)
    (arg3 : Memref sig .tc .vmem S2304 .f32) (harg3 : arg3.IsWhole) (arg4 : Memref sig .tc .vmem S1024x2304 .bf16) (harg4 : arg4.IsWhole)
    (x0 : Vec F S1024x768 .f32) (x1 : Vec F S768x2304 .f32) (x2 : Vec F S2304 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (qkvOut x0 x1 x2)) -∗ K ⟨⟩))
      ⊢ wp frame (wpE (defs₀ (F := F)) Variants.none c none) E (cc0__proj_kernel_body i arg1 harg1 arg2 harg2 arg3 harg3 arg4 harg4) K := by
  simp only [cc0__proj_kernel_body_eq_skeleton]; unfold cc0__proj_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (qkvCover _)

/-- The pipeline's proof data on core `c`: the arrays as the region finds them; after the body at point `t` each input's
    buffer at its block and the output's at `qkvOut` of the three; the invariant is the untouched scoped rest and
    generator register; nothing owed; whole shares. -/
def qkvDat (c : Dev nD) : Dat τ (Elt F) Unit ℕ (UR sig nD τ) ℕ cfg0 c where
  A w := V c (Pipeline.arrRef spec0 w)
  after w t := match w with
    | ⟨0, _⟩ => qkvBlk V c 0 t
    | ⟨1, _⟩ => qkvBlk V c 1 t
    | ⟨2, _⟩ => qkvBlk V c 2 t
    | ⟨3, _⟩ => qkvOut (qkvBlk V c 0 t) (qkvBlk V c 1 t) (qkvBlk V c 2 t)
  Φ _ := Pipeline.ΦA spec0 c
  q _ := fullShare
  owed _ := 0

theorem qkvDat_A (c : Dev nD) (w : Fin cfg0.W) : (qkvDat V c).A w = V c (Pipeline.arrRef spec0 w) := by
  dsimp only [qkvDat]
theorem qkvAfter0 (c : Dev nD) (t : Fin cfg0.N) : (qkvDat V c).after 0 t = qkvBlk V c 0 t := by dsimp only [qkvDat]
theorem qkvAfter1 (c : Dev nD) (t : Fin cfg0.N) : (qkvDat V c).after 1 t = qkvBlk V c 1 t := by dsimp only [qkvDat]
theorem qkvAfter2 (c : Dev nD) (t : Fin cfg0.N) : (qkvDat V c).after 2 t = qkvBlk V c 2 t := by dsimp only [qkvDat]
theorem qkvAfter3 (c : Dev nD) (t : Fin cfg0.N) :
    (qkvDat V c).after 3 t = qkvOut (qkvBlk V c 0 t) (qkvBlk V c 1 t) (qkvBlk V c 2 t) := by dsimp only [qkvDat]

theorem qkvBefore0 (c : Dev nD) (t : Fin cfg0.N) (d) : (qkvDat V c).before 0 t d = qkvBlk V c 0 t :=
  qkvBefore0_of V (qkvDat V c) (qkvDat_A V c 0) (qkvAfter0 V c) t d
theorem qkvBefore1 (c : Dev nD) (t : Fin cfg0.N) (d) : (qkvDat V c).before 1 t d = qkvBlk V c 1 t :=
  qkvBefore1_of V (qkvDat V c) (qkvDat_A V c 1) (qkvAfter1 V c) t d
theorem qkvBefore2 (c : Dev nD) (t : Fin cfg0.N) (d) : (qkvDat V c).before 2 t d = qkvBlk V c 2 t :=
  qkvBefore2_of V (qkvDat V c) (qkvDat_A V c 2) (qkvAfter2 V c) t d

/-- What the body is called with at point `t`, the windows one by one, -/
def qkvPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d))
    ∗ (∃ d, owns (c : Thread nD τ) (st0_3 t) fullShare ((qkvDat V c).before 3 t d)))

/-- and what it returns. -/
def qkvPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t)
    ∗ owns (c : Thread nD τ) (st0_3 t) fullShare ((qkvDat V c).after 3 t))

/-- The body at any point: the inputs' buffers hold their blocks, so the kernel's triple applies; the invariant and
    the core's debts pass through unread. -/
theorem qkvBody (c : Dev nD) (t : Fin cfg0.N) :
    qkvPre V c t ⊢ wp frame (wpE (defs₀ (F := F)) Variants.none c none) Set.univ (bodyAt0 t) (fun _ => qkvPost V c t) := by
  unfold qkvPre qkvPost bodyAt0
  simp only [qkvBefore0, qkvBefore1, qkvBefore2]
  rw [show (qkvDat V c).Φ t.succ = (qkvDat V c).Φ t.castSucc from rfl,
    show (qkvDat V c).owesAt () t.succ = (qkvDat V c).owesAt () t.castSucc from rfl,
    qkvAfter0, qkvAfter1, qkvAfter2, qkvAfter3]
  iintro ⟨HΦ, Ho, ⟨%d0, H0⟩, ⟨%d1, H1⟩, ⟨%d2, H2⟩, ⟨%d3, H3⟩⟩
  iapply (qkvKernel c Set.univ _ _ _ _ _ _ _ _ _ (qkvBlk V c 0 t) (qkvBlk V c 1 t) (qkvBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem qkvObligation (c : Dev nD) : BodyObligation (qkvDat (F := F) V c) (defs₀ (F := F)) Variants.none () Set.univ := fun t => by
  rw [bigSep_W0, bigSep_W0]
  exact qkvBody V c t

end qkv

/-! # The output projection (pipeline 2): one grid point takes a block of rows, the whole weight matrix and the whole bias
vector, and leaves rows · weights + bias in the output block -/

section outp
variable (V : (c : Dev nD) → (b : Ref sig .tc) → Buf (Elt F) ((c : Thread nD τ).loc b))

/-- Window `w`'s block at grid point `t`, cut out of the window's array as the region finds it. -/
def outpBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of the output projection: its staging buffer holds the window's block of the entry array at every point,
    whether the pipeline fetched it there or kept it from the point before (the block index did not move). -/
theorem outpBefore0_of {c : Dev nD} (dat : Dat τ (Elt F) Unit ℕ (UR sig nD τ) ℕ cfg2 c) (hA : dat.A 0 = V c (Pipeline.arrRef spec2 0))
    (hafter : ∀ t, dat.after 0 t = outpBlk V c 0 t) (t : Fin cfg2.N) (d) : dat.before 0 t d = outpBlk V c 0 t :=
  (dat.before_in_eq_fetched 0 rfl (fun _ => rfl) (fun _ _ _ => rfl) (fun t => by rw [hafter]; unfold Dat.blockOf outpBlk; rw [hA]; try rfl) t d).trans
    (by unfold Dat.fetched Dat.blockOf outpBlk; rw [hA]; try rfl)

/-- Input window 1 of the output projection: its staging buffer holds the window's block of the entry array at every point,
    whether the pipeline fetched it there or kept it from the point before (the block index did not move). -/
theorem outpBefore1_of {c : Dev nD} (dat : Dat τ (Elt F) Unit ℕ (UR sig nD τ) ℕ cfg2 c) (hA : dat.A 1 = V c (Pipeline.arrRef spec2 1))
    (hafter : ∀ t, dat.after 1 t = outpBlk V c 1 t) (t : Fin cfg2.N) (d) : dat.before 1 t d = outpBlk V c 1 t :=
  (dat.before_in_eq_fetched 1 rfl (fun _ => rfl) (fun _ _ _ => rfl) (fun t => by rw [hafter]; unfold Dat.blockOf outpBlk; rw [hA]; try rfl) t d).trans
    (by unfold Dat.fetched Dat.blockOf outpBlk; rw [hA]; try rfl)

/-- Input window 2 of the output projection: its staging buffer holds the window's block of the entry array at every point,
    whether the pipeline fetched it there or kept it from the point before (the block index did not move). -/
theorem outpBefore2_of {c : Dev nD} (dat : Dat τ (Elt F) Unit ℕ (UR sig nD τ) ℕ cfg2 c) (hA : dat.A 2 = V c (Pipeline.arrRef spec2 2))
    (hafter : ∀ t, dat.after 2 t = outpBlk V c 2 t) (t : Fin cfg2.N) (d) : dat.before 2 t d = outpBlk V c 2 t :=
  (dat.before_in_eq_fetched 2 rfl (fun _ => rfl) (fun _ _ _ => rfl) (fun t => by rw [hafter]; unfold Dat.blockOf outpBlk; rw [hA]; try rfl) t d).trans
    (by unfold Dat.fetched Dat.blockOf outpBlk; rw [hA]; try rfl)

/-- The whole-buffer rectangles the body loads and stores through. -/
abbrev outpRX : Rect S512x768 := Rect.unit (s := S512x768) ![0, 0] S512x768.size inb_S512x768_S512x768_0_0
abbrev outpRW : Rect S768x768 := Rect.unit (s := S768x768) ![0, 0] S768x768.size inb_S768x768_S768x768_0_0
abbrev outpRB : Rect S768 := Rect.unit (s := S768) ![0] S768.size inb_S768_S768_0
abbrev outpRO : Rect S512x768 := Rect.unit (s := S512x768) ![0, 0] S512x768.size inb_S512x768_S512x768_0_0

/-- What a point leaves in the output block: its one store, of rows · weights + bias over the three loaded blocks. -/
def outpOut (x0 : Vec F S512x768 .bf16) (x1 : Vec F S768x768 .f32) (x2 : Vec F S768 .f32) : Vec F S512x768 .f32 :=
  View.canon [⟨outpRO, k2_pay1 (View.ld x0 outpRX) (View.ld x1 outpRW) (View.ld x2 outpRB)⟩]

/-- The one store fills the block. -/
theorem outpCover (p0 : Vec F S512x768 .f32) (y : S512x768.Idx) :
    ∃ pc ∈ ([⟨outpRO, p0⟩] : List (View.Piece (Elt F) S512x768 .f32)), y ∈ pc.1.set :=
  View.cover_of_tiled [⟨outpRO, p0⟩] S512x768.size (by rfl) y

set_option maxHeartbeats 1000000 in
/-- The body on whole staging buffers: the three inputs at known contents and the output at anything; it returns with
    the inputs as they were and the output at `outpOut` of them. -/
theorem outpKernel (c : Dev nD) (E : Set ℕ) (i : grid2.Coords)
    (arg1 : Memref sig .tc .vmem S512x768 .bf16) (harg1 : arg1.IsWhole) (arg2 : Memref sig .tc .vmem S768x768 .f32) (harg2 : arg2.IsWhole)
    (arg3 : Memref sig .tc .vmem S768 .f32) (harg3 : arg3.IsWhole) (arg4 : Memref sig .tc .vmem S512x768 .f32) (harg4 : arg4.IsWhole)
    (x0 : Vec F S512x768 .bf16) (x1 : Vec F S768x768 .f32) (x2 : Vec F S768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outpOut x0 x1 x2)) -∗ K ⟨⟩))
      ⊢ wp frame (wpE (defs₀ (F := F)) Variants.none c none) E (cc2__proj_kernel_body i arg1 harg1 arg2 harg2 arg3 harg3 arg4 harg4) K := by
  simp only [cc2__proj_kernel_body_eq_skeleton]; unfold cc2__proj_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outpCover _)

/-- The pipeline's proof data on core `c`: the arrays as the region finds them; after the body at point `t` each input's
    buffer at its block and the output's at `outpOut` of the three; the invariant is the untouched scoped rest and
    generator register; nothing owed; whole shares. -/
def outpDat (c : Dev nD) : Dat τ (Elt F) Unit ℕ (UR sig nD τ) ℕ cfg2 c where
  A w := V c (Pipeline.arrRef spec2 w)
  after w t := match w with
    | ⟨0, _⟩ => outpBlk V c 0 t
    | ⟨1, _⟩ => outpBlk V c 1 t
    | ⟨2, _⟩ => outpBlk V c 2 t
    | ⟨3, _⟩ => outpOut (outpBlk V c 0 t) (outpBlk V c 1 t) (outpBlk V c 2 t)
  Φ _ := Pipeline.ΦA spec2 c
  q _ := fullShare
  owed _ := 0

theorem outpDat_A (c : Dev nD) (w : Fin cfg2.W) : (outpDat V c).A w = V c (Pipeline.arrRef spec2 w) := by
  dsimp only [outpDat]
theorem outpAfter0 (c : Dev nD) (t : Fin cfg2.N) : (outpDat V c).after 0 t = outpBlk V c 0 t := by dsimp only [outpDat]
theorem outpAfter1 (c : Dev nD) (t : Fin cfg2.N) : (outpDat V c).after 1 t = outpBlk V c 1 t := by dsimp only [outpDat]
theorem outpAfter2 (c : Dev nD) (t : Fin cfg2.N) : (outpDat V c).after 2 t = outpBlk V c 2 t := by dsimp only [outpDat]
theorem outpAfter3 (c : Dev nD) (t : Fin cfg2.N) :
    (outpDat V c).after 3 t = outpOut (outpBlk V c 0 t) (outpBlk V c 1 t) (outpBlk V c 2 t) := by dsimp only [outpDat]

theorem outpBefore0 (c : Dev nD) (t : Fin cfg2.N) (d) : (outpDat V c).before 0 t d = outpBlk V c 0 t :=
  outpBefore0_of V (outpDat V c) (outpDat_A V c 0) (outpAfter0 V c) t d
theorem outpBefore1 (c : Dev nD) (t : Fin cfg2.N) (d) : (outpDat V c).before 1 t d = outpBlk V c 1 t :=
  outpBefore1_of V (outpDat V c) (outpDat_A V c 1) (outpAfter1 V c) t d
theorem outpBefore2 (c : Dev nD) (t : Fin cfg2.N) (d) : (outpDat V c).before 2 t d = outpBlk V c 2 t :=
  outpBefore2_of V (outpDat V c) (outpDat_A V c 2) (outpAfter2 V c) t d

/-- What the body is called with at point `t`, the windows one by one, -/
def outpPre (c : Dev nD) (t : Fin cfg2.N) : sProp 𝕄 :=
  iprop((outpDat V c).Φ t.castSucc ∗ (outpDat V c).owesAt () t.castSucc
    ∗ (∃ d, owns (c : Thread nD τ) (st2_0 t) fullShare ((outpDat V c).before 0 t d))
    ∗ (∃ d, owns (c : Thread nD τ) (st2_1 t) fullShare ((outpDat V c).before 1 t d))
    ∗ (∃ d, owns (c : Thread nD τ) (st2_2 t) fullShare ((outpDat V c).before 2 t d))
    ∗ (∃ d, owns (c : Thread nD τ) (st2_3 t) fullShare ((outpDat V c).before 3 t d)))

/-- and what it returns. -/
def outpPost (c : Dev nD) (t : Fin cfg2.N) : sProp 𝕄 :=
  iprop((outpDat V c).Φ t.succ ∗ (outpDat V c).owesAt () t.succ
    ∗ owns (c : Thread nD τ) (st2_0 t) fullShare ((outpDat V c).after 0 t)
    ∗ owns (c : Thread nD τ) (st2_1 t) fullShare ((outpDat V c).after 1 t)
    ∗ owns (c : Thread nD τ) (st2_2 t) fullShare ((outpDat V c).after 2 t)
    ∗ owns (c : Thread nD τ) (st2_3 t) fullShare ((outpDat V c).after 3 t))

/-- The body at any point: the inputs' buffers hold their blocks, so the kernel's triple applies; the invariant and
    the core's debts pass through unread. -/
theorem outpBody (c : Dev nD) (t : Fin cfg2.N) :
    outpPre V c t ⊢ wp frame (wpE (defs₀ (F := F)) Variants.none c none) Set.univ (bodyAt2 t) (fun _ => outpPost V c t) := by
  unfold outpPre outpPost bodyAt2
  simp only [outpBefore0, outpBefore1, outpBefore2]
  rw [show (outpDat V c).Φ t.succ = (outpDat V c).Φ t.castSucc from rfl,
    show (outpDat V c).owesAt () t.succ = (outpDat V c).owesAt () t.castSucc from rfl,
    outpAfter0, outpAfter1, outpAfter2, outpAfter3]
  iintro ⟨HΦ, Ho, ⟨%d0, H0⟩, ⟨%d1, H1⟩, ⟨%d2, H2⟩, ⟨%d3, H3⟩⟩
  iapply (outpKernel c Set.univ _ _ _ _ _ _ _ _ _ (outpBlk V c 0 t) (outpBlk V c 1 t) (outpBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem outpObligation (c : Dev nD) : BodyObligation (outpDat (F := F) V c) (defs₀ (F := F)) Variants.none () Set.univ := fun t => by
  rw [bigSep_W2, bigSep_W2]
  exact outpBody V c t

end outp

end Cert.KernelIdeal.Hand

end
-- ==== Proof.IAttnBase.lean ====
/-
  The attention region (pipeline 1), what its three case runs share. A grid point (pair, query block, key block) handles
  two heads: it scores a block of 512 queries against a block of 512 keys for each head, and keeps per head a running
  row maximum, a running denominator and a running weighted sum of values in six scratch buffers carried from one key
  block to the next. At the first key block the scratch is reset first; at the last the two quotients numerator /
  denominator are stored side by side into the output block. Here: the two conditions in closed form over the grid,
  where the output window is idle, the staging and scratch buffers by name, and the region's entry invariant with the
  six scratch buffers taken out of the scoped rest.
-/
import proofs.«122623_j15204184228289_2_alg».proof.Proof.Gen.KernelIdeal.Launch
import proofs.«122623_j15204184228289_2_alg».proof.Proof.Gen.KernelIdeal.Skeleton
import proofs.«122623_j15204184228289_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first key block": the body's reset is taken. -/
abbrev kvFirst (i : grid1.Coords) : Prop := (Scalar.cmpi .ne (Scalar.extui (Scalar.cmpi .eq (BitVec.ofNat 32 (i 2).val) 0#32)) 0#32) = 1#1
/-- It holds at the points ≡ 0 (mod 8): the key-block coordinate is the fastest. -/
theorem kvFirst_iff : ∀ t : Fin cfg1.N, kvFirst (grid1.coords t) ↔ t.val % 8 = 0 :=
  (by decide +kernel : ∀ t : Fin grid1.N, kvFirst (grid1.coords t) ↔ t.val % 8 = 0)
/-- "This is the last key block": the quotients are stored. -/
abbrev kvLast (i : grid1.Coords) : Prop := k1_cond2 i = 1#1
/-- It holds at the points ≡ 7 (mod 8). -/
theorem kvLast_iff : ∀ t : Fin cfg1.N, kvLast (grid1.coords t) ↔ t.val % 8 = 7 :=
  (by decide +kernel : ∀ t : Fin grid1.N, kvLast (grid1.coords t) ↔ t.val % 8 = 7)

/-! ## Where the windows are idle -/

theorem attnLive0 : ∀ t : Fin cfg1.N, cfg1.idle 0 (grid1.coords t) = false := by decide +kernel
theorem attnLive1 : ∀ t : Fin cfg1.N, cfg1.idle 1 (grid1.coords t) = false := by decide +kernel
theorem attnLive2 : ∀ t : Fin cfg1.N, cfg1.idle 2 (grid1.coords t) = false := by decide +kernel
/-- Before the last key block nothing is stored into the output block: the window is idle there and not written back. -/
theorem attnIdle3 : ∀ t : Fin cfg1.N, ¬kvLast (grid1.coords t) → cfg1.idle 3 (grid1.coords t) = true := by decide +kernel
theorem attnNoFlush3 : ∀ t : Fin cfg1.N, ¬kvLast (grid1.coords t) → (cfg1.win 3).flush t = false := by decide +kernel
/-- At the last key block it is live. -/
theorem attnLive3 : ∀ t : Fin cfg1.N, kvLast (grid1.coords t) → cfg1.idle 3 (grid1.coords t) = false := by decide +kernel

/-! ## The buffers by name -/

/-- One staging buffer of the output window, through which its contents are stated. -/
abbrev attnVO : View sig .tc .vmem S512x128 .bf16 := (Memref.whole cc1_stg3_0 : Memref sig .tc .vmem S512x128 .bf16).view
abbrev attnM0 (t : Fin cfg1.N) : Memref sig .tc .vmem S512x128 .bf16 := win1_0.stage (cfg1.slots t 0)
abbrev attnH0 (t : Fin cfg1.N) : (attnM0 t).IsWhole := hstage1_0 ((cfg1.slots t 0).cast nbuf1_0)
abbrev attnM1 (t : Fin cfg1.N) : Memref sig .tc .vmem S512x128 .bf16 := win1_1.stage (cfg1.slots t 1)
abbrev attnH1 (t : Fin cfg1.N) : (attnM1 t).IsWhole := hstage1_1 ((cfg1.slots t 1).cast nbuf1_1)
abbrev attnM2 (t : Fin cfg1.N) : Memref sig .tc .vmem S512x128 .bf16 := win1_2.stage (cfg1.slots t 2)
abbrev attnH2 (t : Fin cfg1.N) : (attnM2 t).IsWhole := hstage1_2 ((cfg1.slots t 2).cast nbuf1_2)
abbrev attnM3 (t : Fin cfg1.N) : Memref sig .tc .vmem S512x128 .bf16 := win1_3.stage (cfg1.slots t 3)
abbrev attnH3 (t : Fin cfg1.N) : (attnM3 t).IsWhole := hstage1_3 ((cfg1.slots t 3).cast nbuf1_3)
/-- The six scratch buffers: per head the running maximum, the running denominator and the running weighted sum. -/
abbrev attnSc0 : Memref sig .tc .vmem S512x1 .f32 := Memref.whole cc1_scratch0
abbrev attnSV0 : View sig .tc .vmem S512x1 .f32 := attnSc0.view
abbrev attnSc1 : Memref sig .tc .vmem S512x1 .f32 := Memref.whole cc1_scratch1
abbrev attnSV1 : View sig .tc .vmem S512x1 .f32 := attnSc1.view
abbrev attnSc2 : Memref sig .tc .vmem S512x64 .f32 := Memref.whole cc1_scratch2
abbrev attnSV2 : View sig .tc .vmem S512x64 .f32 := attnSc2.view
abbrev attnSc3 : Memref sig .tc .vmem S512x1 .f32 := Memref.whole cc1_scratch3
abbrev attnSV3 : View sig .tc .vmem S512x1 .f32 := attnSc3.view
abbrev attnSc4 : Memref sig .tc .vmem S512x1 .f32 := Memref.whole cc1_scratch4
abbrev attnSV4 : View sig .tc .vmem S512x1 .f32 := attnSc4.view
abbrev attnSc5 : Memref sig .tc .vmem S512x64 .f32 := Memref.whole cc1_scratch5
abbrev attnSV5 : View sig .tc .vmem S512x64 .f32 := attnSc5.view

/-- The class invariant of the region with the six scratch buffers as owned memrefs: the staging buffers of the other two
    pipelines, each whole at some contents, ride along on either side. -/
theorem attnPhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) attnSc0 fullShare d) ∗ (∃ d, owns (c : Thread nD τ) attnSc1 fullShare d) ∗ (∃ d, owns (c : Thread nD τ) attnSc2 fullShare d) ∗ (∃ d, owns (c : Thread nD τ) attnSc3 fullShare d) ∗ (∃ d, owns (c : Thread nD τ) attnSc4 fullShare d) ∗ (∃ d, owns (c : Thread nD τ) attnSc5 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [attnSc0, attnSc1, attnSc2, attnSc3, attnSc4, attnSc5, owns_whole]; try rfl

end Cert.KernelIdeal.Hand

end
-- ==== Proof.IAttnRunA.lean ====
/-
  The attention body run whole at the first key block of a row of blocks, not the last: the scratch is reset, then updated; nothing is stored into the output block.
-/
import proofs.«122623_j15204184228289_2_alg».proof.Proof.IAttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave in the output block and in each of the six scratch buffers, as lists of stored pieces (last
    store first), at the first key block of a row of blocks, not the last: the scratch is reset, then updated; nothing is stored into the output block — WITH the proof that on whole buffers, the three input blocks at known contents, the scratch at anything, the output block handed back untouched, the body runs to a continuation that holds the inputs as they were and each buffer it stored into
    with its pieces written. The pieces are found by the run itself. -/
noncomputable def attnRunA (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i)
    (x0 x1 x2 : Vec F S512x128 .bf16) :
    Σ' (L3 : List (View.Piece (Elt F) S512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (xi3 : Vec F S512x128 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc1__flash_pair_kernel_body i arg3 harg3 arg4 harg4 arg5 harg5 arg6 harg6 arg7 harg7 arg8 harg8 arg9 harg9 arg10 harg10 arg11 harg11 arg12 harg12) K } := by
  refine ⟨[], ?_, ?_, ?_, ?_, ?_, ?_, fun xi3 E K => ?run⟩
  case run =>
  simp only [cc1__flash_pair_kernel_body_eq_skeleton]; unfold cc1__flash_pair_kernel_body_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.KernelIdeal.Hand

end
-- ==== Proof.IAttnRunB.lean ====
/-
  The attention body run whole at a key block that is neither first nor last: the scratch carried from the block before is updated; nothing is stored into the output block.
-/
import proofs.«122623_j15204184228289_2_alg».proof.Proof.IAttnRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave in the output block and in each of the six scratch buffers, as lists of stored pieces (last
    store first), at a key block that is neither first nor last: the scratch carried from the block before is updated; nothing is stored into the output block — WITH the proof that on whole buffers, the three input blocks at known contents, the scratch at what the block before left, the output block handed back untouched, the body runs to a continuation that holds the inputs as they were and each buffer it stored into
    with its pieces written. The pieces are found by the run itself. -/
noncomputable def attnRunB (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i)
    (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    Σ' (L3 : List (View.Piece (Elt F) S512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (xi3 : Vec F S512x128 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc1__flash_pair_kernel_body i arg3 harg3 arg4 harg4 arg5 harg5 arg6 harg6 arg7 harg7 arg8 harg8 arg9 harg9 arg10 harg10 arg11 harg11 arg12 harg12) K } := by
  refine ⟨[], ?_, ?_, ?_, ?_, ?_, ?_, fun xi3 E K => ?run⟩
  case run =>
  simp only [cc1__flash_pair_kernel_body_eq_skeleton]; unfold cc1__flash_pair_kernel_body_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.KernelIdeal.Hand

end
-- ==== Proof.IAttnRunC.lean ====
/-
  The attention body run whole at the last key block: the scratch carried from the block before is updated and the two quotients are stored into the output block.
-/
import proofs.«122623_j15204184228289_2_alg».proof.Proof.IAttnRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 4000000 in
/-- What the body's stores leave in the output block and in each of the six scratch buffers, as lists of stored pieces (last
    store first), at the last key block: the scratch carried from the block before is updated and the two quotients are stored into the output block — WITH the proof that on whole buffers, the three input blocks at known contents, the scratch at what the block before left, the output block at anything, the body runs to a continuation that holds the inputs as they were and each buffer it stored into
    with its pieces written. The pieces are found by the run itself. -/
noncomputable def attnRunC (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i)
    (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    Σ' (L3 : List (View.Piece (Elt F) S512x128 .bf16)) (LS0 : List (View.Piece (Elt F) S512x1 .f32)) (LS1 : List (View.Piece (Elt F) S512x1 .f32)) (LS2 : List (View.Piece (Elt F) S512x64 .f32)) (LS3 : List (View.Piece (Elt F) S512x1 .f32)) (LS4 : List (View.Piece (Elt F) S512x1 .f32)), { LS5 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3 ∗ owns (c : Thread nD τ) arg11 fullShare xs4 ∗ owns (c : Thread nD τ) arg12 fullShare xs5
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3) ∗ (∃ f, arg11.view.loc (c : Thread nD τ) ↦[arg11.view.set]{fullShare} arg11.view.writes (Elt F) f LS4) ∗ (∃ f, arg12.view.loc (c : Thread nD τ) ↦[arg12.view.set]{fullShare} arg12.view.writes (Elt F) f LS5)) -∗ K ⟨⟩))
          ⊢ wp frame (wpE (defs₀ (F := F)) Variants.none c none) E (cc1__flash_pair_kernel_body i arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
  simp only [cc1__flash_pair_kernel_body_eq_skeleton]; unfold cc1__flash_pair_kernel_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg3.eq_unread hf0; obtain rfl := harg4.eq_unread hf1; obtain rfl := harg5.eq_unread hf2; obtain rfl := harg7.eq_unread hfs0; obtain rfl := harg8.eq_unread hfs1; obtain rfl := harg9.eq_unread hfs2; obtain rfl := harg10.eq_unread hfs3; obtain rfl := harg11.eq_unread hfs4; obtain rfl := harg12.eq_unread hfs5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  isplitl [HS4]; · iexists _; iexact HS4
  iexists _; iexact HS5

end Cert.KernelIdeal.Hand

end
-- ==== Proof.IAttn.lean ====
/-
  The attention region (pipeline 1): what its buffers hold point by point, and its body obligation. After the body at a grid
  point the six scratch buffers hold the running maximum, denominator and weighted sum of the two heads over the key blocks
  seen so far in the point's row of blocks; they are carried to the next point, so the region's invariant names their
  contents, by recursion on the point. The output block is stored only at the last key block of a row.
-/
import proofs.«122623_j15204184228289_2_alg».proof.Proof.IAttnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at grid point `t`, cut out of the window's array as the region finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its staging buffer holds the window's block at every point, fetched there or kept from the point before. -/
theorem attnBefore0_of {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)

/-- Input window 1: its staging buffer holds the window's block at every point, fetched there or kept from the point before. -/
theorem attnBefore1_of {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)

/-- Input window 2: its staging buffer holds the window's block at every point, fetched there or kept from the point before. -/
theorem attnBefore2_of {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)
end

/-! ## What each case leaves -/

/-- At this case the stores into scratch buffer 0 tile it. -/
theorem attnCovA0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x1.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.1 S512x1.size (by sl_kernel_rfl) y
/-- What the case leaves in scratch buffer 0: its stored pieces read back. -/
def attnSA0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x1 .f32 :=
  attnSV0.read (Elt F) (attnSV0.writes (Elt F) attnSV0.junk (attnRunA c i arg3 harg3 arg4 harg4 arg5 harg5 arg6 harg6 arg7 harg7 arg8 harg8 arg9 harg9 arg10 harg10 arg11 harg11 arg12 harg12 hc0 hc1 x0 x1 x2).2.1)

/-- At this case the stores into scratch buffer 1 tile it. -/
theorem attnCovA1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x1.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.1 S512x1.size (by sl_kernel_rfl) y
/-- What the case leaves in scratch buffer 1: its stored pieces read back. -/
def attnSA1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x1 .f32 :=
  attnSV1.read (Elt F) (attnSV1.writes (Elt F) attnSV1.junk (attnRunA c i arg3 harg3 arg4 harg4 arg5 harg5 arg6 harg6 arg7 harg7 arg8 harg8 arg9 harg9 arg10 harg10 arg11 harg11 arg12 harg12 hc0 hc1 x0 x1 x2).2.2.1)

/-- At this case the stores into scratch buffer 2 tile it. -/
theorem attnCovA2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x64.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.2.1 S512x64.size (by sl_kernel_rfl) y
/-- What the case leaves in scratch buffer 2: its stored pieces read back. -/
def attnSA2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x64 .f32 :=
  attnSV2.read (Elt F) (attnSV2.writes (Elt F) attnSV2.junk (attnRunA c i arg3 harg3 arg4 harg4 arg5 harg5 arg6 harg6 arg7 harg7 arg8 harg8 arg9 harg9 arg10 harg10 arg11 harg11 arg12 harg12 hc0 hc1 x0 x1 x2).2.2.2.1)

/-- At this case the stores into scratch buffer 3 tile it. -/
theorem attnCovA3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x1.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.2.2.1 S512x1.size (by sl_kernel_rfl) y
/-- What the case leaves in scratch buffer 3: its stored pieces read back. -/
def attnSA3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x1 .f32 :=
  attnSV3.read (Elt F) (attnSV3.writes (Elt F) attnSV3.junk (attnRunA c i arg3 harg3 arg4 harg4 arg5 harg5 arg6 harg6 arg7 harg7 arg8 harg8 arg9 harg9 arg10 harg10 arg11 harg11 arg12 harg12 hc0 hc1 x0 x1 x2).2.2.2.2.1)

/-- At this case the stores into scratch buffer 4 tile it. -/
theorem attnCovA4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x1.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.2.2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.2.2.2.1 S512x1.size (by sl_kernel_rfl) y
/-- What the case leaves in scratch buffer 4: its stored pieces read back. -/
def attnSA4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x1 .f32 :=
  attnSV4.read (Elt F) (attnSV4.writes (Elt F) attnSV4.junk (attnRunA c i arg3 harg3 arg4 harg4 arg5 harg5 arg6 harg6 arg7 harg7 arg8 harg8 arg9 harg9 arg10 harg10 arg11 harg11 arg12 harg12 hc0 hc1 x0 x1 x2).2.2.2.2.2.1)

/-- At this case the stores into scratch buffer 5 tile it. -/
theorem attnCovA5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) (y : S512x64.Idx) :
    ∃ pc ∈ (attnRunA c i arg3 harg3 arg4 harg4 arg5 harg5 arg6 harg6 arg7 harg7 arg8 harg8 arg9 harg9 arg10 harg10 arg11 harg11 arg12 harg12 hc0 hc1 x0 x1 x2).2.2.2.2.2.2.1, y ∈ pc.1.set :=
  View.cover_of_tiledL (attnRunA c i arg3 harg3 arg4 harg4 arg5 harg5 arg6 harg6 arg7 harg7 arg8 harg8 arg9 harg9 arg10 harg10 arg11 harg11 arg12 harg12 hc0 hc1 x0 x1 x2).2.2.2.2.2.2.1 S512x64.size (by sl_kernel_rfl) y
/-- What the case leaves in scratch buffer 5: its stored pieces read back. -/
def attnSA5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x64 .f32 :=
  attnSV5.read (Elt F) (attnSV5.writes (Elt F) attnSV5.junk (attnRunA c i arg3 harg3 arg4 harg4 arg5 harg5 arg6 harg6 arg7 harg7 arg8 harg8 arg9 harg9 arg10 harg10 arg11 harg11 arg12 harg12 hc0 hc1 x0 x1 x2).2.2.2.2.2.2.1)

/-- What the case leaves in the output block: its stored pieces read back (none before the last key block: a placeholder
    nothing consults, the window being idle there). -/
def attnOA (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) : Vec F S512x128 .bf16 :=
  attnVO.read (Elt F) (attnVO.writes (Elt F) attnVO.junk (attnRunA c i arg3 harg3 arg4 harg4 arg5 harg5 arg6 harg6 arg7 harg7 arg8 harg8 arg9 harg9 arg10 harg10 arg11 harg11 arg12 harg12 hc0 hc1 x0 x1 x2).1)

/-- At this case the stores into scratch buffer 0 tile it. -/
theorem attnCovB0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1 S512x1.size (by sl_kernel_rfl) y
/-- What the case leaves in scratch buffer 0: its stored pieces read back. -/
def attnSB0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV0.read (Elt F) (attnSV0.writes (Elt F) attnSV0.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1)

/-- At this case the stores into scratch buffer 1 tile it. -/
theorem attnCovB1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1 S512x1.size (by sl_kernel_rfl) y
/-- What the case leaves in scratch buffer 1: its stored pieces read back. -/
def attnSB1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV1.read (Elt F) (attnSV1.writes (Elt F) attnSV1.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1)

/-- At this case the stores into scratch buffer 2 tile it. -/
theorem attnCovB2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1 S512x64.size (by sl_kernel_rfl) y
/-- What the case leaves in scratch buffer 2: its stored pieces read back. -/
def attnSB2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x64 .f32 :=
  attnSV2.read (Elt F) (attnSV2.writes (Elt F) attnSV2.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1)

/-- At this case the stores into scratch buffer 3 tile it. -/
theorem attnCovB3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1 S512x1.size (by sl_kernel_rfl) y
/-- What the case leaves in scratch buffer 3: its stored pieces read back. -/
def attnSB3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV3.read (Elt F) (attnSV3.writes (Elt F) attnSV3.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1)

/-- At this case the stores into scratch buffer 4 tile it. -/
theorem attnCovB4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1 S512x1.size (by sl_kernel_rfl) y
/-- What the case leaves in scratch buffer 4: its stored pieces read back. -/
def attnSB4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV4.read (Elt F) (attnSV4.writes (Elt F) attnSV4.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1)

/-- At this case the stores into scratch buffer 5 tile it. -/
theorem attnCovB5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1, y ∈ pc.1.set :=
  View.cover_of_tiledL (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1 S512x64.size (by sl_kernel_rfl) y
/-- What the case leaves in scratch buffer 5: its stored pieces read back. -/
def attnSB5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x64 .f32 :=
  attnSV5.read (Elt F) (attnSV5.writes (Elt F) attnSV5.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1)

/-- What the case leaves in the output block: its stored pieces read back (none before the last key block: a placeholder
    nothing consults, the window being idle there). -/
def attnOB (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x128 .bf16 :=
  attnVO.read (Elt F) (attnVO.writes (Elt F) attnVO.junk (attnRunB c i arg3 harg3 arg4 harg4 arg5 harg5 arg6 harg6 arg7 harg7 arg8 harg8 arg9 harg9 arg10 harg10 arg11 harg11 arg12 harg12 hc0 hc1 x0 x1 x2 xs0 xs1 xs2 xs3 xs4 xs5).1)

/-- At this case the stores into scratch buffer 0 tile it. -/
theorem attnCovC0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1 S512x1.size (by sl_kernel_rfl) y
/-- What the case leaves in scratch buffer 0: its stored pieces read back. -/
def attnSC0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV0.read (Elt F) (attnSV0.writes (Elt F) attnSV0.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.1)

/-- At this case the stores into scratch buffer 1 tile it. -/
theorem attnCovC1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1 S512x1.size (by sl_kernel_rfl) y
/-- What the case leaves in scratch buffer 1: its stored pieces read back. -/
def attnSC1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV1.read (Elt F) (attnSV1.writes (Elt F) attnSV1.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.1)

/-- At this case the stores into scratch buffer 2 tile it. -/
theorem attnCovC2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1 S512x64.size (by sl_kernel_rfl) y
/-- What the case leaves in scratch buffer 2: its stored pieces read back. -/
def attnSC2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x64 .f32 :=
  attnSV2.read (Elt F) (attnSV2.writes (Elt F) attnSV2.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.1)

/-- At this case the stores into scratch buffer 3 tile it. -/
theorem attnCovC3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1 S512x1.size (by sl_kernel_rfl) y
/-- What the case leaves in scratch buffer 3: its stored pieces read back. -/
def attnSC3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV3.read (Elt F) (attnSV3.writes (Elt F) attnSV3.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.1)

/-- At this case the stores into scratch buffer 4 tile it. -/
theorem attnCovC4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x1.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1 S512x1.size (by sl_kernel_rfl) y
/-- What the case leaves in scratch buffer 4: its stored pieces read back. -/
def attnSC4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x1 .f32 :=
  attnSV4.read (Elt F) (attnSV4.writes (Elt F) attnSV4.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.1)

/-- At this case the stores into scratch buffer 5 tile it. -/
theorem attnCovC5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x64.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1 S512x64.size (by sl_kernel_rfl) y
/-- What the case leaves in scratch buffer 5: its stored pieces read back. -/
def attnSC5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x64 .f32 :=
  attnSV5.read (Elt F) (attnSV5.writes (Elt F) attnSV5.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).2.2.2.2.2.2.1)

/-- At the last key block the store into the output block fills it. -/
theorem attnCovCO (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) (y : S512x128.Idx) :
    ∃ pc ∈ (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).1, y ∈ pc.1.set :=
  View.cover_of_tiledL (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).1 S512x128.size (by sl_kernel_rfl) y

/-- What the case leaves in the output block: its stored pieces read back (none before the last key block: a placeholder
    nothing consults, the window being idle there). -/
def attnOC (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) : Vec F S512x128 .bf16 :=
  attnVO.read (Elt F) (attnVO.writes (Elt F) attnVO.junk (attnRunC c i arg3 harg3 arg4 harg4 arg5 harg5 arg6 harg6 arg7 harg7 arg8 harg8 arg9 harg9 arg10 harg10 arg11 harg11 arg12 harg12 hc0 hc1 x0 x1 x2 xs0 xs1 xs2 xs3 xs4 xs5).1)

/-! ## Point by point -/

/-- The contents after a point: the output block's staging buffer and the six scratch buffers. -/
structure AttnSt (F : FTy → Type) [FloatOps F] where
  o : Vec F S512x128 .bf16
  s0 : Vec F S512x1 .f32
  s1 : Vec F S512x1 .f32
  s2 : Vec F S512x64 .f32
  s3 : Vec F S512x1 .f32
  s4 : Vec F S512x1 .f32
  s5 : Vec F S512x64 .f32

section
variable (V : (c : Dev nD) → (b : Ref sig .tc) → Buf (Elt F) ((c : Thread nD τ).loc b))

/-- THE ACCUMULATION: what the buffers hold after the body at position `n` — the case the position's place in its row of
    eight key blocks selects, run on the point's blocks and, past the first key block, on what position `n - 1` left in
    the scratch. -/
def attnAt (c : Dev nD) : (n : ℕ) → n < cfg1.N → AttnSt F
  | 0, hn => ⟨attnOA c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA0 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA1 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA2 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA3 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA4 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩), attnSA5 c (grid1.coords ⟨0, hn⟩) (attnM0 ⟨0, hn⟩) (attnH0 ⟨0, hn⟩) (attnM1 ⟨0, hn⟩) (attnH1 ⟨0, hn⟩) (attnM2 ⟨0, hn⟩) (attnH2 ⟨0, hn⟩) (attnM3 ⟨0, hn⟩) (attnH3 ⟨0, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨0, hn⟩).mpr (Nat.zero_mod _)) (fun h => (fun h => by (try dsimp only at h); omega) ((kvLast_iff ⟨0, hn⟩).mp h)) (attnBlk V c 0 ⟨0, hn⟩) (attnBlk V c 1 ⟨0, hn⟩) (attnBlk V c 2 ⟨0, hn⟩)⟩
  | n + 1, hn =>
    if h0 : (n + 1) % 8 = 0 then
      if h1 : (n + 1) % 8 = 7 then
        False.elim (by omega)
      else
        ⟨attnOA c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA0 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA1 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA2 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA3 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA4 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩), attnSA5 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff ⟨n + 1, hn⟩).mpr h0) (fun h => h1 ((kvLast_iff ⟨n + 1, hn⟩).mp h)) (attnBlk V c 0 ⟨n + 1, hn⟩) (attnBlk V c 1 ⟨n + 1, hn⟩) (attnBlk V c 2 ⟨n + 1, hn⟩)⟩
    else
      if h1 : (n + 1) % 8 = 7 then
        ⟨attnOC c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC0 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC1 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC2 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC3 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC4 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSC5 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) ((kvLast_iff ⟨n + 1, hn⟩).mpr h1) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5⟩
      else
        ⟨attnOB c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB0 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB1 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB2 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB3 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB4 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5, attnSB5 c (grid1.coords ⟨n + 1, hn⟩) (attnM0 ⟨n + 1, hn⟩) (attnH0 ⟨n + 1, hn⟩) (attnM1 ⟨n + 1, hn⟩) (attnH1 ⟨n + 1, hn⟩) (attnM2 ⟨n + 1, hn⟩) (attnH2 ⟨n + 1, hn⟩) (attnM3 ⟨n + 1, hn⟩) (attnH3 ⟨n + 1, hn⟩) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff ⟨n + 1, hn⟩).mp h)) (fun h => h1 ((kvLast_iff ⟨n + 1, hn⟩).mp h)) (attnBlk V c 0 ⟨n + 1, hn⟩) (attnBlk V c 1 ⟨n + 1, hn⟩) (attnBlk V c 2 ⟨n + 1, hn⟩) (attnAt c n (Nat.lt_of_succ_lt hn)).s0 (attnAt c n (Nat.lt_of_succ_lt hn)).s1 (attnAt c n (Nat.lt_of_succ_lt hn)).s2 (attnAt c n (Nat.lt_of_succ_lt hn)).s3 (attnAt c n (Nat.lt_of_succ_lt hn)).s4 (attnAt c n (Nat.lt_of_succ_lt hn)).s5⟩

/-- At a first key block. -/
theorem attnAt_A (c : Dev nD) (t : Fin cfg1.N) (h0 : t.val % 8 = 0) (h1 : ¬t.val % 8 = 7) :
    attnAt V c t.val t.isLt = ⟨attnOA c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA0 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA1 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA2 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA3 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA4 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t), attnSA5 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) ((kvFirst_iff t).mpr h0) (fun h => h1 ((kvLast_iff t).mp h)) (attnBlk V c 0 t) (attnBlk V c 1 t) (attnBlk V c 2 t)⟩ := by
  obtain ⟨n, hn⟩ := t
  cases n with
  | zero => exact rfl
  | succ n => exact (dif_pos h0).trans ((dif_neg h1).trans rfl)

/-- At a middle key block, over what the point before left. -/
theorem attnAt_B (c : Dev nD) (t : Fin cfg1.N) (h0 : ¬t.val % 8 = 0) (h1 : ¬t.val % 8 = 7) :
    attnAt V c t.val t.isLt = ⟨attnOB c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB0 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB1 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB2 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB3 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB4 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSB5 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) (fun h => h1 ((kvLast_iff t).mp h)) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5⟩ := by
  obtain ⟨n, hn⟩ := t
  cases n with
  | zero => exact (by exfalso; (try dsimp only at h0); exact absurd (Nat.zero_mod _) h0)
  | succ n => exact (dif_neg h0).trans ((dif_neg h1).trans rfl)

/-- At a last key block, over what the point before left. -/
theorem attnAt_C (c : Dev nD) (t : Fin cfg1.N) (h0 : ¬t.val % 8 = 0) (h1 : t.val % 8 = 7) :
    attnAt V c t.val t.isLt = ⟨attnOC c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC0 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC1 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC2 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC3 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC4 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5, attnSC5 c (grid1.coords t) (attnM0 t) (attnH0 t) (attnM1 t) (attnH1 t) (attnM2 t) (attnH2 t) (attnM3 t) (attnH3 t) attnSc0 (Memref.isWhole_whole _) attnSc1 (Memref.isWhole_whole _) attnSc2 (Memref.isWhole_whole _) attnSc3 (Memref.isWhole_whole _) attnSc4 (Memref.isWhole_whole _) attnSc5 (Memref.isWhole_whole _) (fun h => h0 ((kvFirst_iff t).mp h)) ((kvLast_iff t).mpr h1) (attnBlk V c 0 t) (attnBlk V c 1 t) (attnBlk V c 2 t) (attnAt V c (t.val - 1) (Nat.lt_of_le_of_lt (Nat.sub_le _ _) t.isLt)).s0 (attnAt V c (t.val - 1) (Nat.lt_of_le_of_lt (Nat.sub_le _ _) t.isLt)).s1 (attnAt V c (t.val - 1) (Nat.lt_of_le_of_lt (Nat.sub_le _ _) t.isLt)).s2 (attnAt V c (t.val - 1) (Nat.lt_of_le_of_lt (Nat.sub_le _ _) t.isLt)).s3 (attnAt V c (t.val - 1) (Nat.lt_of_le_of_lt (Nat.sub_le _ _) t.isLt)).s4 (attnAt V c (t.val - 1) (Nat.lt_of_le_of_lt (Nat.sub_le _ _) t.isLt)).s5⟩ := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scratch buffer at anything);
    afterwards the six scratch buffers at what the point before left, the other pipelines' staging buffers at anything,
    the generator register at some state. -/
def attnPhi (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) attnSc0 fullShare (attnAt V c n hn).s0 ∗ owns (c : Thread nD τ) attnSc1 fullShare (attnAt V c n hn).s1 ∗ owns (c : Thread nD τ) attnSc2 fullShare (attnAt V c n hn).s2 ∗ owns (c : Thread nD τ) attnSc3 fullShare (attnAt V c n hn).s3 ∗ owns (c : Thread nD τ) attnSc4 fullShare (attnAt V c n hn).s4 ∗ owns (c : Thread nD τ) attnSc5 fullShare (attnAt V c n hn).s5 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

theorem attnPhi_zero (c : Dev nD) (n : ℕ) (h : n ≤ cfg1.N) (hz : n = 0) : attnPhi V c n h = Pipeline.ΦA spec1 c := by
  subst hz; rfl
theorem attnPhi_succ (c : Dev nD) (n : ℕ) (hn : n < cfg1.N) :
    attnPhi V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) attnSc0 fullShare (attnAt V c n hn).s0 ∗ owns (c : Thread nD τ) attnSc1 fullShare (attnAt V c n hn).s1 ∗ owns (c : Thread nD τ) attnSc2 fullShare (attnAt V c n hn).s2 ∗ owns (c : Thread nD τ) attnSc3 fullShare (attnAt V c n hn).s3 ∗ owns (c : Thread nD τ) attnSc4 fullShare (attnAt V c n hn).s4 ∗ owns (c : Thread nD τ) attnSc5 fullShare (attnAt V c n hn).s5 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := rfl
theorem attnPhi_pos (c : Dev nD) (n : ℕ) (h : n ≤ cfg1.N) (hz : n ≠ 0) :
    attnPhi V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) attnSc0 fullShare (attnAt V c (n - 1) (by omega)).s0 ∗ owns (c : Thread nD τ) attnSc1 fullShare (attnAt V c (n - 1) (by omega)).s1 ∗ owns (c : Thread nD τ) attnSc2 fullShare (attnAt V c (n - 1) (by omega)).s2 ∗ owns (c : Thread nD τ) attnSc3 fullShare (attnAt V c (n - 1) (by omega)).s3 ∗ owns (c : Thread nD τ) attnSc4 fullShare (attnAt V c (n - 1) (by omega)).s4 ∗ owns (c : Thread nD τ) attnSc5 fullShare (attnAt V c (n - 1) (by omega)).s5 ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-! ## The pipeline's proof data -/

/-- The three input windows all cut their blocks out of the one fused query/key/value array: the core's whole share of it
    is split among them — the left half, and the two halves of the right half. -/
def attnShare : Fin cfg1.W → PosShare TreeShare
  | ⟨0, _⟩ => fullShare.left
  | ⟨1, _⟩ => fullShare.right.left
  | ⟨2, _⟩ => fullShare.right.right
  | ⟨3, _⟩ => fullShare

/-- The proof data on core `c`: the arrays as the region finds them; after the body at point `t` each input's buffer at
    its block and the output's at `attnAt`'s; the invariant `attnPhi`; nothing owed. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => (attnAt V c t.val t.isLt).o
  Φ t := attnPhi V c t.val (Nat.le_of_lt_succ t.isLt)
  q := attnShare
  owed _ := 0

theorem attnDat_A (c : Dev nD) (w : Fin cfg1.W) : (attnDat V c).A w = V c (Pipeline.arrRef spec1 w) := by
  dsimp only [attnDat]
theorem attnPhi_castSucc (c : Dev nD) (t : Fin cfg1.N) :
    (attnDat V c).Φ t.castSucc = attnPhi V c t.val (Nat.le_of_lt t.isLt) := by
  dsimp only [attnDat]; simp only [Fin.coe_castSucc]
theorem attnAfter0 (c : Dev nD) (t : Fin cfg1.N) : (attnDat V c).after 0 t = attnBlk V c 0 t := by dsimp only [attnDat]
theorem attnAfter1 (c : Dev nD) (t : Fin cfg1.N) : (attnDat V c).after 1 t = attnBlk V c 1 t := by dsimp only [attnDat]
theorem attnAfter2 (c : Dev nD) (t : Fin cfg1.N) : (attnDat V c).after 2 t = attnBlk V c 2 t := by dsimp only [attnDat]
theorem attnAfter3 (c : Dev nD) (t : Fin cfg1.N) : (attnDat V c).after 3 t = (attnAt V c t.val t.isLt).o := by dsimp only [attnDat]
theorem attnBefore0 (c : Dev nD) (t : Fin cfg1.N) (d) : (attnDat V c).before 0 t d = attnBlk V c 0 t :=
  attnBefore0_of V (attnDat V c) (attnDat_A V c 0) (attnAfter0 V c) t d
theorem attnBefore1 (c : Dev nD) (t : Fin cfg1.N) (d) : (attnDat V c).before 1 t d = attnBlk V c 1 t :=
  attnBefore1_of V (attnDat V c) (attnDat_A V c 1) (attnAfter1 V c) t d
theorem attnBefore2 (c : Dev nD) (t : Fin cfg1.N) (d) : (attnDat V c).before 2 t d = attnBlk V c 2 t :=
  attnBefore2_of V (attnDat V c) (attnDat_A V c 2) (attnAfter2 V c) t d

/-! ## The body obligation -/

def attnPre (c : Dev nD) (t : Fin cfg1.N) : sProp 𝕄 :=
  iprop((attnDat V c).Φ t.castSucc ∗ (attnDat V c).owesAt () t.castSucc
    ∗ (∃ d, owns (c : Thread nD τ) (attnM0 t) fullShare ((attnDat V c).before 0 t d))
    ∗ (∃ d, owns (c : Thread nD τ) (attnM1 t) fullShare ((attnDat V c).before 1 t d))
    ∗ (∃ d, owns (c : Thread nD τ) (attnM2 t) fullShare ((attnDat V c).before 2 t d))
    ∗ (∃ d, owns (c : Thread nD τ) (attnM3 t) fullShare ((attnDat V c).before 3 t d)))

def attnPost (c : Dev nD) (t : Fin cfg1.N) : sProp 𝕄 :=
  iprop((attnDat V c).Φ t.succ ∗ (attnDat V c).owesAt () t.succ
    ∗ (attnDat V c).leavesExact 0 t
    ∗ (attnDat V c).leavesExact 1 t
    ∗ (attnDat V c).leavesExact 2 t
    ∗ (attnDat V c).leavesExact 3 t)

end

section
variable (V : (c : Dev nD) → (b : Ref sig .tc) → Buf (Elt F) ((c : Thread nD τ).loc b))

set_option maxHeartbeats 16000000 in
/-- The body at any point. The inputs' buffers hold their blocks; the point's place in its row of key blocks says which case
    it is in; the invariant hands the body the six scratch buffers at what the point before left (at anything before the
    first point) and takes them back at this point's contents, the stored pieces covering each buffer; before the last key
    block the output block is handed back as found. -/
theorem attnBody (c : Dev nD) (t : Fin cfg1.N) :
    attnPre V c t ⊢ wp frame (wpE (defs₀ (F := F)) Variants.none c none) Set.univ (bodyAt1 t) (fun _ => attnPost V c t) := by
  unfold attnPre attnPost bodyAt1
  simp only [attnBefore0, attnBefore1, attnBefore2]
  rw [show (attnDat V c).owesAt () t.succ = (attnDat V c).owesAt () t.castSucc from rfl]
  rw [show (attnDat V c).Φ t.succ = attnPhi V c (t.val + 1) t.isLt from rfl, attnPhi_succ]
  rw [show (attnDat V c).leavesExact 0 t = owns (c : Thread nD τ) (attnM0 t) fullShare ((attnDat V c).after 0 t) from by
    unfold Dat.leavesExact; rw [attnLive0 t], attnAfter0]
  rw [show (attnDat V c).leavesExact 1 t = owns (c : Thread nD τ) (attnM1 t) fullShare ((attnDat V c).after 1 t) from by
    unfold Dat.leavesExact; rw [attnLive1 t], attnAfter1]
  rw [show (attnDat V c).leavesExact 2 t = owns (c : Thread nD τ) (attnM2 t) fullShare ((attnDat V c).after 2 t) from by
    unfold Dat.leavesExact; rw [attnLive2 t], attnAfter2]
  have hN : t.val < 384 := lt_of_lt_of_eq t.isLt (show cfg1.N = 384 from N_1)
  by_cases h0 : t.val % 8 = 0
  · have h1 : ¬t.val % 8 = 7 := by omega
    have hnl : ¬kvLast (grid1.coords t) := fun h => h1 ((kvLast_iff t).mp h)
    rw [Dat.leavesExact_idle (attnDat V c) 3 t (attnIdle3 t hnl) (attnNoFlush3 t hnl)]
    rw [attnAt_A V c t h0 h1]
    unfold attnSA0 attnSA1 attnSA2 attnSA3 attnSA4 attnSA5; (try dsimp only)
    by_cases hz : t.val = 0
    · rw [attnPhi_castSucc V c t, attnPhi_zero V c _ _ hz, attnPhiA_eq]
      iintro ⟨⟨⟨Ha0, Ha1, Ha2, Ha3, Ha4, Ha5, HS0, HS1, HS2, HS3, HS4, HS5, Hrest⟩, Hg⟩, Ho, ⟨%d0, H0⟩, ⟨%d1, H1⟩, ⟨%d2, H2⟩, ⟨%d3, H3⟩⟩
      iapply ((attnRunA c (grid1.coords t) _ _ _ _ _ _ _ _ _ _ _ _ _ _ _ _ _ _ _ _ ((kvFirst_iff t).mpr h0) (fun h => h1 ((kvLast_iff t).mp h)) (attnBlk V c 0 t) (attnBlk V c 1 t) (attnBlk V c 2 t)).2.2.2.2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%es0, HS0⟩, ⟨%es1, HS1⟩, ⟨%es2, HS2⟩, ⟨%es3, HS3⟩, ⟨%es4, HS4⟩, ⟨%es5, HS5⟩⟩
      isplitl [Ha0 Ha1 Ha2 Ha3 Ha4 Ha5 HS0 HS1 HS2 HS3 HS4 HS5 Hrest Hg]
      · isplitl [Ha0 Ha1 Ha2 Ha3 Ha4 Ha5 HS0 HS1 HS2 HS3 HS4 HS5 Hrest]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [HS0]
          · unfold owns; iexists _; isplitr
            swap; · iexact HS0
            ipureintro; exact View.read_writes_of_cover _ _ _ _ _ (attnCovA0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCovA1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (attnCovA2 c _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (attnCovA3 c _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (attnCovA4 c _ _ _ _ _ _ _ _ _ _ _ _ _ _ _ _ _ _ _ _ _ _ _ _ _ _)
          isplitl [HS5]
          · unfold owns; iexists _; isplitr
            swap; · iexact HS5
            ipureintro; exact View.read_writes_of_cover _ _ _ _ _ (attnCovA5 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [attnPhi_castSucc V c t, attnPhi_pos V c _ _ hz]
      iintro ⟨⟨⟨Ha0, Ha1, Ha2, Ha3, Ha4, Ha5, HS0, HS1, HS2, HS3, HS4, HS5, Hrest⟩, Hg⟩, Ho, ⟨%d0, H0⟩, ⟨%d1, H1⟩, ⟨%d2, H2⟩, ⟨%d3, H3⟩⟩
      iapply ((attnRunA c (grid1.coords t) _ _ _ _ _ _ _ _ _ _ _ _ _ _ _ _ _ _ _ _ ((kvFirst_iff t).mpr h0) (fun h => h1 ((kvLast_iff t).mp h)) (attnBlk V c 0 t) (attnBlk V c 1 t) (attnBlk V c 2 t)).2.2.2.2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      iintro ⟨H0, H1, H2, H3, ⟨%es0, HS0⟩, ⟨%es1, HS1⟩, ⟨%es2, HS2⟩, ⟨%es3, HS3⟩, ⟨%es4, HS4⟩, ⟨%es5, HS5⟩⟩
      isplitl [Ha0 Ha1 Ha2 Ha3 Ha4 Ha5 HS0 HS1 HS2 HS3 HS4 HS5 Hrest Hg]
      · isplitl [Ha0 Ha1 Ha2 Ha3 Ha4 Ha5 HS0 HS1 HS2 HS3 HS4 HS5 Hrest]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [HS0]
          · unfold owns; iexists _; isplitr
            swap; · iexact HS0
            ipureintro; exact View.read_writes_of_cover _ _ _ _ _ (attnCovA0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCovA1 c _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (attnCovA2 c _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (attnCovA3 c _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (attnCovA4 c _ _ _ _ _ _ _ _ _ _ _ _ _ _ _ _ _ _ _ _ _ _ _ _ _ _)
          isplitl [HS5]
          · unfold owns; iexists _; isplitr
            swap; · iexact HS5
            ipureintro; exact View.read_writes_of_cover _ _ _ _ _ (attnCovA5 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · by_cases h1 : t.val % 8 = 7
    · rw [show (attnDat V c).leavesExact 3 t = owns (c : Thread nD τ) (attnM3 t) fullShare ((attnDat V c).after 3 t) from by
        unfold Dat.leavesExact; rw [attnLive3 t ((kvLast_iff t).mpr h1)], attnAfter3]
      rw [attnAt_C V c t h0 h1]
      unfold attnOC attnSC0 attnSC1 attnSC2 attnSC3 attnSC4 attnSC5; (try dsimp only)
      have hz : t.val ≠ 0 := by omega
      rw [attnPhi_castSucc V c t, attnPhi_pos V c _ _ hz]
      iintro ⟨⟨⟨Ha0, Ha1, Ha2, Ha3, Ha4, Ha5, HS0, HS1, HS2, HS3, HS4, HS5, Hrest⟩, Hg⟩, Ho, ⟨%d0, H0⟩, ⟨%d1, H1⟩, ⟨%d2, H2⟩, ⟨%d3, H3⟩⟩
      iapply ((attnRunC c (grid1.coords t) _ _ _ _ _ _ _ _ _ _ _ _ _ _ _ _ _ _ _ _ (fun h => h0 ((kvFirst_iff t).mp h)) ((kvLast_iff t).mpr h1) (attnBlk V c 0 t) (attnBlk V c 1 t) (attnBlk V c 2 t) _ _ _ _ _ _).2.2.2.2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, ⟨%e3, H3⟩, ⟨%es0, HS0⟩, ⟨%es1, HS1⟩, ⟨%es2, HS2⟩, ⟨%es3, HS3⟩, ⟨%es4, HS4⟩, ⟨%es5, HS5⟩⟩
      isplitl [Ha0 Ha1 Ha2 Ha3 Ha4 Ha5 HS0 HS1 HS2 HS3 HS4 HS5 Hrest Hg]
      · isplitl [Ha0 Ha1 Ha2 Ha3 Ha4 Ha5 HS0 HS1 HS2 HS3 HS4 HS5 Hrest]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [HS0]
          · unfold owns; iexists _; isplitr
            swap; · iexact HS0
            ipureintro; exact View.read_writes_of_cover _ _ _ _ _ (attnCovC0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCovC1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (attnCovC2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (attnCovC3 c _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (attnCovC4 c _ _ _ _ _ _ _ _ _ _ _ _ _ _ _ _ _ _ _ _ _ _ _ _ _ _ _ _ _ _ _ _)
          isplitl [HS5]
          · unfold owns; iexists _; isplitr
            swap; · iexact HS5
            ipureintro; exact View.read_writes_of_cover _ _ _ _ _ (attnCovC5 c _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (attnCovCO c _ _ _ _ _ _ _ _ _ _ _ _ _ _ _ _ _ _ _ _ _ _ _ _ _ _ _ _ _ _ _ _)
    · have hnl : ¬kvLast (grid1.coords t) := fun h => h1 ((kvLast_iff t).mp h)
      rw [Dat.leavesExact_idle (attnDat V c) 3 t (attnIdle3 t hnl) (attnNoFlush3 t hnl)]
      rw [attnAt_B V c t h0 h1]
      unfold attnSB0 attnSB1 attnSB2 attnSB3 attnSB4 attnSB5; (try dsimp only)
      have hz : t.val ≠ 0 := by omega
      rw [attnPhi_castSucc V c t, attnPhi_pos V c _ _ hz]
      iintro ⟨⟨⟨Ha0, Ha1, Ha2, Ha3, Ha4, Ha5, HS0, HS1, HS2, HS3, HS4, HS5, Hrest⟩, Hg⟩, Ho, ⟨%d0, H0⟩, ⟨%d1, H1⟩, ⟨%d2, H2⟩, ⟨%d3, H3⟩⟩
      iapply ((attnRunB c (grid1.coords t) _ _ _ _ _ _ _ _ _ _ _ _ _ _ _ _ _ _ _ _ (fun h => h0 ((kvFirst_iff t).mp h)) (fun h => h1 ((kvLast_iff t).mp h)) (attnBlk V c 0 t) (attnBlk V c 1 t) (attnBlk V c 2 t) _ _ _ _ _ _).2.2.2.2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, ⟨%es0, HS0⟩, ⟨%es1, HS1⟩, ⟨%es2, HS2⟩, ⟨%es3, HS3⟩, ⟨%es4, HS4⟩, ⟨%es5, HS5⟩⟩
      isplitl [Ha0 Ha1 Ha2 Ha3 Ha4 Ha5 HS0 HS1 HS2 HS3 HS4 HS5 Hrest Hg]
      · isplitl [Ha0 Ha1 Ha2 Ha3 Ha4 Ha5 HS0 HS1 HS2 HS3 HS4 HS5 Hrest]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [HS0]
          · unfold owns; iexists _; isplitr
            swap; · iexact HS0
            ipureintro; exact View.read_writes_of_cover _ _ _ _ _ (attnCovB0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (attnCovB1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (attnCovB2 c _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (attnCovB3 c _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (attnCovB4 c _ _ _ _ _ _ _ _ _ _ _ _ _ _ _ _ _ _ _ _ _ _ _ _ _ _ _ _ _ _ _ _)
          isplitl [HS5]
          · unfold owns; iexists _; isplitr
            swap; · iexact HS5
            ipureintro; exact View.read_writes_of_cover _ _ _ _ _ (attnCovB5 c _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem attnObligation (c : Dev nD) : BodyObligation (attnDat (F := F) V c) (defs₀ (F := F)) Variants.none () Set.univ := fun t => by
  rw [bigSep_W1, bigSep_W1]
  exact attnBody V c t

/-- What the region is entered with is the invariant before the first point. -/
theorem attnIn (c : Dev nD) : Pipeline.ΦA spec1 c ⊢ (attnDat V c).Φ 0 := by
  rw [show (attnDat V c).Φ 0 = attnPhi V c 0 (Nat.zero_le _) from rfl, attnPhi_zero V c 0 _ rfl]
  try exact Idealize.SL.BI.Entails.refl _

/-- After the last point the invariant gives the class's back: the scratch buffers' named contents are forgotten. -/
theorem attnOut (c : Dev nD) : (attnDat V c).Φ (Fin.last cfg1.N) ⊢ Pipeline.ΦA spec1 c := by
  rw [show (attnDat V c).Φ (Fin.last cfg1.N) = attnPhi V c (Fin.last cfg1.N).val (Nat.le_of_lt_succ (Fin.last cfg1.N).isLt) from rfl,
    attnPhi_pos V c _ _ (by rw [Fin.val_last]; have : cfg1.N = 384 := N_1; omega), attnPhiA_eq]
  iintro ⟨⟨Ha0, Ha1, Ha2, Ha3, Ha4, Ha5, HS0, HS1, HS2, HS3, HS4, HS5, Hrest⟩, Hg⟩
  isplitl [Ha0 Ha1 Ha2 Ha3 Ha4 Ha5 HS0 HS1 HS2 HS3 HS4 HS5 Hrest]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexact Hrest
  iexact Hg

end

end Cert.KernelIdeal.Hand

end
-- ==== Proof.IFrame.lean ====
/-
  The whole program as a run of six segments — the host operations that merge the low-rank updates into the three weight
  matrices and lay out the fused weights and biases, the fused projection region, the attention region, the transpose of the
  output weights, the output projection region, the final reshape — from the launch to the return. Between two segments
  every unscoped buffer of the core holds the contents a fold through the program names (`W0` … `W6`): a host stretch
  applies its operations, a region leaves its output array at what its write-backs make of the proof data and every other
  buffer as it found it. The run's post gives every unscoped buffer at the last valuation; the frame and the value are read
  off it.
-/
import proofs.«122623_j15204184228289_2_alg».proof.Proof.IProj
import proofs.«122623_j15204184228289_2_alg».proof.Proof.IAttn
import proofs.«122623_j15204184228289_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each segment boundary -/

/-- At launch. -/
abbrev W0 : Dev nD → Valuation τ sig (Elt F) := fun c b => m (c, b)
/-- After the first host stretch (the fused projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the fused projection: its arrays at what the pipeline leaves, every other buffer as entered. -/
def W2 (c : Dev nD) : Valuation τ sig (Elt F) :=
  Pipeline.withArrays spec0 c (W1 m c) fun w => (qkvDat (V1 m) c).arrAt w cfg0.N
theorem W2_arr (c : Dev nD) (w : Fin cfg0.W) :
    W2 m c (Proc.devRef .tc (Pipeline.arrRef spec0 w)) = (qkvDat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (qkvDat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: the attention array at what the pipeline leaves; the fused query/key/value array, which
    all three input windows read, and every other buffer as entered. -/
def W3 (c : Dev nD) : Valuation τ sig (Elt F) :=
  Function.update (W2 m c) (Proc.devRef .tc main_v17) ((attnDat (V2 m) c).arrAt 3 cfg1.N)
theorem W3_out (c : Dev nD) : W3 m c (Proc.devRef .tc main_v17) = (attnDat (V2 m) c).arrAt 3 cfg1.N := by
  unfold W3; exact Function.update_self ..
theorem W3_of_ne (c : Dev nD) (b : Ref sig .tc) (hb : b ≠ main_v17) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b

/-- After the transpose of the output weights (the output projection's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After the output projection. -/
def W5 (c : Dev nD) : Valuation τ sig (Elt F) :=
  Pipeline.withArrays spec2 c (W4 m c) fun w => (outpDat (V4 m) c).arrAt w cfg2.N
theorem W5_arr (c : Dev nD) (w : Fin cfg2.W) :
    W5 m c (Proc.devRef .tc (Pipeline.arrRef spec2 w)) = (outpDat (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (outpDat (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)
/-- After the final reshape: the return. -/
abbrev W6 : Dev nD → Valuation τ sig (Elt F) := fun c => StableHlo.after hostOps3 (W5 m c)

/-! ## No segment writes an argument -/

/-- A buffer that no host stretch writes and no region stages reaches the return as launched. -/
theorem W6_untouched (c : Dev nD) (r : Ref sig .tc) (h0 : r ∉ hostOps0_W) (h2 : r ∉ hostOps2_W) (h3 : r ∉ hostOps3_W)
    (hr0 : ∀ w, Pipeline.arrRef spec0 w ≠ r) (hr1 : r ≠ main_v17) (hr2 : ∀ w, Pipeline.arrRef spec2 w ≠ r) :
    W6 m c (Proc.devRef .tc r) = m ((c : Thread nD τ).loc r) :=
  calc W6 m c (Proc.devRef .tc r)
    _ = W5 m c (Proc.devRef .tc r) := StableHlo.after_of_writes_sub hostOps3 _ hostOps3_writes h3
    _ = W4 m c (Proc.devRef .tc r) := W5_of_ne m c r hr2
    _ = W3 m c (Proc.devRef .tc r) := StableHlo.after_of_writes_sub hostOps2 _ hostOps2_writes h2
    _ = W2 m c (Proc.devRef .tc r) := W3_of_ne m c r hr1
    _ = W1 m c (Proc.devRef .tc r) := W2_of_ne m c r hr0
    _ = W0 m c (Proc.devRef .tc r) := StableHlo.after_of_writes_sub hostOps0 _ hostOps0_writes h0
    _ = m ((c : Thread nD τ).loc r) := rfl

/-- The output bias is an input window of the output projection: it is staged, never written. -/
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps3 _ hostOps3_writes (by decide)
    _ = W4 m c (Proc.devRef .tc main_arg8) := (W5_arr m c 2).trans (((outpDat (V4 m) c).arrAt_in 2 rfl _).trans (outpDat_A (V4 m) c 2))
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => qkvDat (V1 m) c
  | ⟨1, _⟩ => fun c => attnDat (V2 m) c
  | ⟨2, _⟩ => fun c => outpDat (V4 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The fused projection region over the thread state "every unscoped buffer at the boundary's contents, the generator
    register at some state, nothing owed": its arrays are taken out of the unscoped buffers at entry and put back at what
    the write-backs leave at exit; the generator register goes through the region's invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (qkvObligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The attention region: one array behind three windows -/

/-- The two buffers behind the attention region's arrays, one by one. -/
theorem attnArrBufs_eq (c : Dev nD) (Vx : (b : Ref sig .tc) → Buf (Elt F) ((c : Thread nD τ).loc b)) :
    (Pipeline.arrBufs (Ix := Unit) (Name := ℕ) (U := UR sig nD τ) (Lvl := ℕ) spec1 c Vx : sProp 𝕄)
      = iprop((((c : Thread nD τ).loc main_v16) ↦{fullShare} Vx main_v16) ∗ (((c : Thread nD τ).loc main_v17) ↦{fullShare} Vx main_v17)) := by
  unfold Pipeline.arrBufs
  rw [show Finset.univ.image (Pipeline.arrRef spec1) = ({main_v16, main_v17} : Finset (Ref sig .tc)) from by decide,
    bigSep_insert (by decide), bigSep_singleton]
  rfl

/-- ENTRY. The two buffers behind the region's arrays, each whole, make the proof data's arrays: the fused array's whole
    share is split into its left half and the two halves of its right half, one for each window that reads it. -/
theorem attnArrays_in (c : Dev nD) :
    (Pipeline.arrBufs (Ix := Unit) (Name := ℕ) (U := UR sig nD τ) (Lvl := ℕ) spec1 c (V2 m c) : sProp 𝕄)
      ⊢ (attnDat (V2 m) c).arrays (attnDat (V2 m) c).A := by
  rw [attnArrBufs_eq]
  unfold Dat.arrays
  rw [bigSep_W1]
  beta_reduce
  rw [(arr_whole1 0).set_eq_univ, (arr_whole1 3).set_eq_univ]
  rw [show (attnDat (V2 m) c).share 0 = fullShare.left from rfl, show (attnDat (V2 m) c).share 1 = fullShare.right.left from rfl,
    show (attnDat (V2 m) c).share 2 = fullShare.right.right from rfl, show (attnDat (V2 m) c).share 3 = fullShare from rfl]
  rw [attnDat_A, attnDat_A, attnDat_A, attnDat_A]
  iintro ⟨H16, H17⟩
  ihave Hs := (pointsTo_share (PosShare.mem_left_op_right fullShare)).1 $$ H16
  icases Hs with ⟨Hl, Hr⟩
  ihave Hs2 := (pointsTo_share (PosShare.mem_left_op_right fullShare.right)).1 $$ Hr
  icases Hs2 with ⟨Hrl, Hrr⟩
  isplitl [Hl]; · iexact Hl
  isplitl [Hrl]; · iexact Hrl
  isplitl [Hrr]; · iexact Hrr
  iexact H17

/-- EXIT. The arrays at what the pipeline leaves — the three windows' shares of the fused array, unchanged, and the attention
    array — join into the two buffers whole at the exit contents. -/
theorem attnArrays_out (c : Dev nD) :
    ((attnDat (V2 m) c).arrays ((attnDat (V2 m) c).arrAt · cfg1.N) : sProp 𝕄)
      ⊢ Pipeline.arrBufs (Ix := Unit) (Name := ℕ) (U := UR sig nD τ) (Lvl := ℕ) spec1 c (V3 m c) := by
  rw [attnArrBufs_eq]
  unfold Dat.arrays
  rw [bigSep_W1]
  beta_reduce
  rw [(arr_whole1 0).set_eq_univ, (arr_whole1 3).set_eq_univ]
  rw [show (attnDat (V2 m) c).share 0 = fullShare.left from rfl, show (attnDat (V2 m) c).share 1 = fullShare.right.left from rfl,
    show (attnDat (V2 m) c).share 2 = fullShare.right.right from rfl, show (attnDat (V2 m) c).share 3 = fullShare from rfl]
  rw [(attnDat (V2 m) c).arrAt_in 0 rfl, (attnDat (V2 m) c).arrAt_in 1 rfl, (attnDat (V2 m) c).arrAt_in 2 rfl,
    attnDat_A, attnDat_A, attnDat_A]
  rw [show V3 m c main_v16 = V2 m c main_v16 from W3_of_ne m c main_v16 (by decide),
    show V3 m c main_v17 = (attnDat (V2 m) c).arrAt 3 cfg1.N from W3_out m c]
  iintro ⟨Hl, Hrl, Hrr, H17⟩
  isplitr [H17]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H17

/-- No buffer other than the attention array changes across the region. -/
theorem attnRest_eq (c : Dev nD) :
    (Pipeline.unscopedRest (Ix := Unit) (Name := ℕ) (U := UR sig nD τ) (Lvl := ℕ) spec1 c (V3 m c) : sProp 𝕄)
      = Pipeline.unscopedRest spec1 c (V2 m c) := by
  unfold Pipeline.unscopedRest
  refine bigSep_congr fun b hb => ?_
  rw [show V3 m c b = V2 m c b from W3_of_ne m c b fun e => (Finset.mem_sdiff.mp hb).2 (Finset.mem_image.mpr ⟨3, Finset.mem_univ _, e ▸ rfl⟩)]

set_option backward.isDefEq.respectTransparency.types false in
/-- The attention region over the same thread state. Its three input windows share the fused query/key/value array, so the
    arrays are taken out of the unscoped buffers by hand: the two buffers behind them, then the share split; and put back the
    same way. The six scratch buffers and the generator register go through the region's invariant. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (attnObligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hin' : (Pipeline.arrBufs (Ix := Unit) (Name := ℕ) (U := UR sig nD τ) (Lvl := ℕ) spec1 c (V2 m c) : sProp 𝕄)
        ⊢ (pdats m 1 c).arrays (pdats m 1 c).A := attnArrays_in m c
    have hsplit : (StableHlo.held (c : Thread nD τ) (Pipeline.ucRefs τ sig) (W2 m c) : sProp 𝕄)
        ⊢ iprop(Pipeline.arrBufs spec1 c (V2 m c) ∗ Pipeline.unscopedRest spec1 c (V2 m c)) := by
      rw [← Pipeline.unscopedBufs_held (Ix := Unit) (Name := ℕ) (U := UR sig nD τ) (Lvl := ℕ) c (W2 m c),
        Pipeline.unscopedBufs_split₀ (cfgs) 1 winFacts₀1.arr_unscoped c (V2 m c)]
      exact .rfl
    iintro ⟨⟨Hub, Hp, HO⟩, -, -⟩
    ihave H := hsplit $$ Hub
    icases H with ⟨Hb, Hrest⟩
    ihave Ha := hin' $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (attnIn (V2 m) c)
    unfold Pipeline.ΦA
    iintro ⟨Hp, -, Hr⟩
    isplitl [Hr]; · iexact Hr
    iexact Hp
  hout c := by
    refine (attnOut (V2 m) c).trans ?_
    rw [Pipeline.ownSems0_none]; unfold Pipeline.ΦA
    iintro ⟨Hr, Hp⟩
    isplitl [Hp]; · iexact Hp
    isplitr; · iempintro
    iexact Hr
  hexit c := by
    have hjoin : iprop(Pipeline.arrBufs spec1 c (V3 m c) ∗ Pipeline.unscopedRest spec1 c (V3 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ (cfgs) 1 winFacts₀1.arr_unscoped c (V3 m c)]
      exact .rfl
    have hout : ((pdats m 1 c).arrays ((pdats m 1 c).arrAt · cfg1.N) : sProp 𝕄)
        ⊢ Pipeline.arrBufs (Ix := Unit) (Name := ℕ) (U := UR sig nD τ) (Lvl := ℕ) spec1 c (V3 m c) := attnArrays_out m c
    iintro ⟨Ha, HO, HY, Hrest⟩
    ihave Hb := hout $$ Ha
    imodintro
    isplitl [Hb Hrest]
    · iapply hjoin
      isplitl [Hb]; · iexact Hb
      rw [attnRest_eq]; iexact Hrest
    isplitl [HY]; · iexact HY
    unfold Pipeline.Dat.owesAt Pipeline.owesWithin
    icases HO with ⟨%W, -, HO⟩; iexists W; iexact HO

set_option backward.isDefEq.respectTransparency.types false in
/-- The output projection region over the thread state "every unscoped buffer at the boundary's contents, the generator
    register at some state, nothing owed": its arrays are taken out of the unscoped buffers at entry and put back at what
    the write-backs leave at exit; the generator register goes through the region's invariant. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (outpObligation (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]
theorem main_run (c : Dev nD) : main (F := F) c = Pipeline.Seg.run (segs m) := (main_chain c).trans (by chain_rfl)

set_option backward.isDefEq.respectTransparency.types false in
/-- THE RUN. From any memory with zero counters, every weakly fair execution of the program on the TensorCores terminates,
    nothing faulting, and in every final state each unscoped buffer of each core holds what the fold through the program
    names for it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => (show (iprop(StableHlo.held (c : Thread nD τ) (Pipeline.ucRefs τ sig) (W6 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Hand

end
-- ==== Proof.IFrameClaims.lean ====
/-
  The frame of the program, read off its run: every argument array is either never written and never staged by a region, or
  staged as an input window only, so at the return it holds what it held at launch.
-/
import proofs.«122623_j15204184228289_2_alg».proof.Proof.IFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, nothing faulting, with the fifteen argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W6_untouched m c main_arg0 (by decide) (by decide) (by decide) (by decide) (by decide) (by decide)),
     (h c _ (mem_uc main_arg1 (by decide))).trans (W6_untouched m c main_arg1 (by decide) (by decide) (by decide) (by decide) (by decide) (by decide)),
     (h c _ (mem_uc main_arg2 (by decide))).trans (W6_untouched m c main_arg2 (by decide) (by decide) (by decide) (by decide) (by decide) (by decide)),
     (h c _ (mem_uc main_arg3 (by decide))).trans (W6_untouched m c main_arg3 (by decide) (by decide) (by decide) (by decide) (by decide) (by decide)),
     (h c _ (mem_uc main_arg4 (by decide))).trans (W6_untouched m c main_arg4 (by decide) (by decide) (by decide) (by decide) (by decide) (by decide)),
     (h c _ (mem_uc main_arg5 (by decide))).trans (W6_untouched m c main_arg5 (by decide) (by decide) (by decide) (by decide) (by decide) (by decide)),
     (h c _ (mem_uc main_arg6 (by decide))).trans (W6_untouched m c main_arg6 (by decide) (by decide) (by decide) (by decide) (by decide) (by decide)),
     (h c _ (mem_uc main_arg7 (by decide))).trans (W6_untouched m c main_arg7 (by decide) (by decide) (by decide) (by decide) (by decide) (by decide)),
     (h c _ (mem_uc main_arg8 (by decide))).trans (W6_main_arg8 m c),
     (h c _ (mem_uc main_arg9 (by decide))).trans (W6_untouched m c main_arg9 (by decide) (by decide) (by decide) (by decide) (by decide) (by decide)),
     (h c _ (mem_uc main_arg10 (by decide))).trans (W6_untouched m c main_arg10 (by decide) (by decide) (by decide) (by decide) (by decide) (by decide)),
     (h c _ (mem_uc main_arg11 (by decide))).trans (W6_untouched m c main_arg11 (by decide) (by decide) (by decide) (by decide) (by decide) (by decide)),
     (h c _ (mem_uc main_arg12 (by decide))).trans (W6_untouched m c main_arg12 (by decide) (by decide) (by decide) (by decide) (by decide) (by decide)),
     (h c _ (mem_uc main_arg13 (by decide))).trans (W6_untouched m c main_arg13 (by decide) (by decide) (by decide) (by decide) (by decide) (by decide)),
     (h c _ (mem_uc main_arg14 (by decide))).trans (W6_untouched m c main_arg14 (by decide) (by decide) (by decide) (by decide) (by decide) (by decide))⟩) (run_all m ρ)

/-- The same run, keeping also what the result buffer holds at the return. -/
theorem run_result : θ_run defs (onTc (τ := τ) (main (F := F))) ⟨m, fun _ => 0, ρ⟩ (fun r => ∀ c : Dev nD,
      r.2.mem ((c.tc : Thread nD τ).loc main_v20) = W6 m c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v20 (by decide)),
     (h c _ (mem_uc main_arg0 (by decide))).trans (W6_untouched m c main_arg0 (by decide) (by decide) (by decide) (by decide) (by decide) (by decide)),
     (h c _ (mem_uc main_arg1 (by decide))).trans (W6_untouched m c main_arg1 (by decide) (by decide) (by decide) (by decide) (by decide) (by decide)),
     (h c _ (mem_uc main_arg2 (by decide))).trans (W6_untouched m c main_arg2 (by decide) (by decide) (by decide) (by decide) (by decide) (by decide)),
     (h c _ (mem_uc main_arg3 (by decide))).trans (W6_untouched m c main_arg3 (by decide) (by decide) (by decide) (by decide) (by decide) (by decide)),
     (h c _ (mem_uc main_arg4 (by decide))).trans (W6_untouched m c main_arg4 (by decide) (by decide) (by decide) (by decide) (by decide) (by decide)),
     (h c _ (mem_uc main_arg5 (by decide))).trans (W6_untouched m c main_arg5 (by decide) (by decide) (by decide) (by decide) (by decide) (by decide)),
     (h c _ (mem_uc main_arg6 (by decide))).trans (W6_untouched m c main_arg6 (by decide) (by decide) (by decide) (by decide) (by decide) (by decide)),
     (h c _ (mem_uc main_arg7 (by decide))).trans (W6_untouched m c main_arg7 (by decide) (by decide) (by decide) (by decide) (by decide) (by decide)),
     (h c _ (mem_uc main_arg8 (by decide))).trans (W6_main_arg8 m c),
     (h c _ (mem_uc main_arg9 (by decide))).trans (W6_untouched m c main_arg9 (by decide) (by decide) (by decide) (by decide) (by decide) (by decide)),
     (h c _ (mem_uc main_arg10 (by decide))).trans (W6_untouched m c main_arg10 (by decide) (by decide) (by decide) (by decide) (by decide) (by decide)),
     (h c _ (mem_uc main_arg11 (by decide))).trans (W6_untouched m c main_arg11 (by decide) (by decide) (by decide) (by decide) (by decide) (by decide)),
     (h c _ (mem_uc main_arg12 (by decide))).trans (W6_untouched m c main_arg12 (by decide) (by decide) (by decide) (by decide) (by decide) (by decide)),
     (h c _ (mem_uc main_arg13 (by decide))).trans (W6_untouched m c main_arg13 (by decide) (by decide) (by decide) (by decide) (by decide) (by decide)),
     (h c _ (mem_uc main_arg14 (by decide))).trans (W6_untouched m c main_arg14 (by decide) (by decide) (by decide) (by decide) (by decide) (by decide))⟩) (run_all m ρ)

end Cert.KernelIdeal.Hand

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.IProjValue.lean ====
/-
  The values of the two dense projections of the idealized kernel, read index by index.

  A grid point of either projection leaves, in its output block, rows · weights + bias of its three input blocks: at
  row p and column q of the block, the sum over k of (row block)(p, k) · (weights)(k, q), plus (bias)(q); the format
  changes on the way are the identity on the extended reals.  The row blocks tile the row axis (point t owns rows
  B·t … B·t + B − 1, for B = 1024 resp. 512), the weights and bias are the same whole arrays at every point, so after
  the region the output array holds, at (r, q), the sum over k of (rows)(r, k) · (weights)(k, q) plus (bias)(q), of the
  arrays as the region found them.
-/
import proofs.«122623_j15204184228289_2_alg».proof.Proof.IProj
import proofs.«122623_j15204184228289_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Lib.PlainDot (mm matmul_zero_apply)
open scoped BigOperators

/-! # The zero offsets, however spelt -/

theorem zeros2 : (![0, 0] : Fin 2 → Nat) = fun _ => 0 := funext fun a => by fin_cases a <;> rfl
theorem zeros1 : (![0] : Fin 1 → Nat) = fun _ => 0 := funext fun a => by fin_cases a <;> rfl

/-! # The fused query/key/value projection: one point's block -/

/-- The body's arithmetic at row `p`, column `q` of the block: the row of the first operand against the column of the
    second, summed over the 768 shared positions, plus the bias at `q`. -/
theorem qkvPay_apply (x0 : Vec Ideal S1024x768 .f32) (x1 : Vec Ideal S768x2304 .f32) (x2 : Vec Ideal S2304 .f32)
    (p : Fin 1024) (q : Fin 2304) :
    k0_pay1 (F := Ideal) x0 x1 x2 (ix2 p q)
      = (∑ k : Fin 768, x0 (ix2 p k) * x1 (ix2 k q)) + x2 (ix1 q) := by
  unfold k0_pay1
  simp only [shapeCast_self]
  rw [truncf_apply, addf_apply]
  refine congrArg₂ (· + ·) ?_ ?_
  · refine (matmul_zero_apply (R := 1024) (K := 768) (C := 2304) _ rfl none _ _ (ix2 p q)).trans ?_
    unfold mm
    refine Finset.sum_congr rfl fun k _ => ?_
    rfl
  · refine (broadcastTo_1b_ab_apply _ _ p q).trans ?_
    exact shapeCast_a_1a_apply x2 _ (0 : Fin 1) q

/-- What a point leaves in its output block is the body's arithmetic of the three blocks: the loads and the one
    store go through the whole staging buffers. -/
theorem qkvOut_eq_pay (x0 : Vec Ideal S1024x768 .f32) (x1 : Vec Ideal S768x2304 .f32) (x2 : Vec Ideal S2304 .f32) :
    qkvOut (F := Ideal) x0 x1 x2 = k0_pay1 (F := Ideal) x0 x1 x2 := by
  unfold qkvOut
  rw [View.canon_unit_zero zeros2]
  simp only [View.ld_unit_zero (S := S1024x768) zeros2, View.ld_unit_zero (S := S768x2304) zeros2,
    View.ld_unit_zero (S := S2304) zeros1]

/-- The output block at row `p`, column `q`: the sum over the 768 shared positions of (rows)(p, k) · (weights)(k, q),
    plus (bias)(q). -/
theorem qkvOut_apply (x0 : Vec Ideal S1024x768 .f32) (x1 : Vec Ideal S768x2304 .f32) (x2 : Vec Ideal S2304 .f32)
    (p : Fin 1024) (q : Fin 2304) :
    qkvOut (F := Ideal) x0 x1 x2 (ix2 p q)
      = (∑ k : Fin 768, x0 (ix2 p k) * x1 (ix2 k q)) + x2 (ix1 q) := by
  rw [qkvOut_eq_pay]
  exact qkvPay_apply x0 x1 x2 p q

/-! # The fused query/key/value projection: from the blocks to the array -/

/-- Rows · weights + bias of whole arrays: at (r, q), the sum over the 768 shared positions of (rows)(r, k) ·
    (weights)(k, q), plus (bias)(q). -/
def qkvG (A : S4096x768.Idx → EReal) (W : S768x2304.Idx → EReal) (B : S2304.Idx → EReal) : S4096x2304.Idx → EReal :=
  fun i => (∑ k : Fin 768, A (ix2 (⟨(i 0).val, idx2_lt0 i⟩ : Fin 4096) k) * W (ix2 k (⟨(i 1).val, idx2_lt1 i⟩ : Fin 2304)))
    + B (ix1 (⟨(i 1).val, idx2_lt1 i⟩ : Fin 2304))

/-- `qkvG` at the index of row `r`, column `q`. -/
theorem qkvG_ix2 (A : S4096x768.Idx → EReal) (W : S768x2304.Idx → EReal) (B : S2304.Idx → EReal) (r : Fin 4096) (q : Fin 2304) :
    qkvG A W B (ix2 r q) = (∑ k : Fin 768, A (ix2 r k) * W (ix2 k q)) + B (ix1 q) := rfl

/-- A block of 1024 rows of the product, at its own index `y`, is the whole product at the index `i` that lies
    `1024 · n` rows further down, when the row block is the rows' array from there on and the other two blocks are
    the whole weights and bias. -/
theorem qkvOut_eq_G (A : S4096x768.Idx → EReal) (W : S768x2304.Idx → EReal) (B : S2304.Idx → EReal)
    (x0 : Vec Ideal S1024x768 .f32) (x1 : Vec Ideal S768x2304 .f32) (x2 : Vec Ideal S2304 .f32) (n : Nat)
    (h0 : ∀ (y : S1024x768.Idx) (i : S4096x768.Idx), (i 0).val = 1024 * n + (y 0).val → (i 1).val = (y 1).val → x0 y = A i)
    (h1 : x1 = W) (h2 : x2 = B)
    (y : S1024x2304.Idx) (i : S4096x2304.Idx) (hi0 : (i 0).val = 1024 * n + (y 0).val) (hi1 : (i 1).val = (y 1).val) :
    qkvOut (F := Ideal) x0 x1 x2 y = qkvG A W B i := by
  obtain ⟨p, q, rfl⟩ : ∃ (p : Fin 1024) (q : Fin 2304), y = ix2 p q := ⟨y 0, y 1, eq_ix2 y⟩
  rw [qkvOut_apply]
  subst h1; subst h2
  unfold qkvG
  have hq : (⟨(i 1).val, idx2_lt1 i⟩ : Fin 2304) = q := Fin.ext hi1
  rw [hq]
  refine congrArg₂ (· + ·) (Finset.sum_congr rfl fun k _ => ?_) rfl
  rw [h0 (ix2 p k) (ix2 (⟨(i 0).val, idx2_lt0 i⟩ : Fin 4096) k) hi0 rfl]

section qkv
variable (V : (c : Dev nD) → (b : Ref sig .tc) → Buf (Elt Ideal) ((c : Thread nD τ).loc b))

/-- The index maps over the four grid points: the row windows (the rows read, the rows written) sit at block `t` of
    their first axis, everything else at block 0. -/
theorem qkvIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The row window's block at point `t` is rows `1024 t … 1024 t + 1023` of the rows' array. -/
theorem qkvRows_apply (c : Dev nD) (t : Fin cfg0.N) (y : S1024x768.Idx) (i : S4096x768.Idx)
    (h0 : (i 0).val = 1024 * t.val + (y 0).val) (h1 : (i 1).val = (y 1).val) :
    (qkvBlk V c 0 t : Vec Ideal S1024x768 .f32) y = (V c main_v0 : S4096x768.Idx → EReal) i := by
  obtain ⟨e0, e1, -⟩ := qkvIdx t
  unfold qkvBlk
  rw [View.read_apply]
  show (V c main_v0 : S4096x768.Idx → EReal) _ = V c main_v0 _
  refine congrArg _ ?_
  funext a
  apply Fin.ext
  match a with
  | ⟨0, _⟩ => show win0_0.index t (0 : Fin 2) * 1024 + 1 * (y 0).val = (i 0).val; rw [e0, h0]; omega
  | ⟨1, _⟩ => show win0_0.index t (1 : Fin 2) * 768 + 1 * (y 1).val = (i 1).val; rw [e1, h1]; omega

/-- The weights' window is the whole weights' array at every point. -/
theorem qkvWeights_eq (c : Dev nD) (t : Fin cfg0.N) :
    (qkvBlk V c 1 t : Vec Ideal S768x2304 .f32) = (V c main_v14 : S768x2304.Idx → EReal) := by
  obtain ⟨-, -, e0, e1, -⟩ := qkvIdx t
  funext y
  unfold qkvBlk
  rw [View.read_apply]
  show (V c main_v14 : S768x2304.Idx → EReal) _ = V c main_v14 _
  refine congrArg _ ?_
  funext a
  apply Fin.ext
  match a with
  | ⟨0, _⟩ => show win0_1.index t (0 : Fin 2) * 768 + 1 * (y 0).val = (y 0).val; rw [e0]; omega
  | ⟨1, _⟩ => show win0_1.index t (1 : Fin 2) * 2304 + 1 * (y 1).val = (y 1).val; rw [e1]; omega

/-- The bias window is the whole bias array at every point. -/
theorem qkvBias_eq (c : Dev nD) (t : Fin cfg0.N) :
    (qkvBlk V c 2 t : Vec Ideal S2304 .f32) = (V c main_v15 : S2304.Idx → EReal) := by
  obtain ⟨-, -, -, -, e0, -⟩ := qkvIdx t
  funext y
  unfold qkvBlk
  rw [View.read_apply]
  show (V c main_v15 : S2304.Idx → EReal) _ = V c main_v15 _
  refine congrArg _ ?_
  funext a
  apply Fin.ext
  match a with
  | ⟨0, _⟩ => show win0_2.index t (0 : Fin 1) * 2304 + 1 * (y 0).val = (y 0).val; rw [e0]; omega

/-- What point `t` writes back is block `t` of rows · weights + bias of the arrays as the region finds them. -/
theorem qkvFlushed_eq (c : Dev nD) (t : Fin cfg0.N) :
    (qkvDat (F := Ideal) V c).flushed 3 t
      = ((cfg0.win 3).blk t).view.read (Elt Ideal) (qkvG (V c main_v0) (V c main_v14) (V c main_v15)) := by
  show (cfg0.win 3).cut (grid0.coords t) ((qkvDat (F := Ideal) V c).after 3 t) = _
  rw [qkvAfter3]
  obtain ⟨-, -, -, -, -, e0, e1⟩ := qkvIdx t
  funext j
  rw [View.read_apply]
  refine qkvOut_eq_G (V c main_v0) (V c main_v14) (V c main_v15) _ _ _ t.val
    (fun y i h0 h1 => qkvRows_apply V c t y i h0 h1) (qkvWeights_eq V c t) (qkvBias_eq V c t) _ _ ?_ ?_
  · show win0_3.index t (0 : Fin 2) * 1024 + 1 * (j 0).val = 1024 * t.val + (j 0).val; rw [e0]; omega
  · show win0_3.index t (1 : Fin 2) * 2304 + 1 * (j 1).val = (j 1).val; rw [e1]; omega

/-- An index of the output array is in point `t`'s block iff each coordinate is in the block's range on its axis. -/
theorem qkvMem_blk (t : Fin cfg0.N) (i : S4096x2304.Idx) :
    i ∈ ((cfg0.win 3).blk t).view.set ↔ ∀ a : Fin 2, win0_3.index t a * S1024x2304.size a ≤ (i a).val
      ∧ (i a).val < win0_3.index t a * S1024x2304.size a + S1024x2304.size a := by
  show i ∈ ((View.whole main_v16).slice (win0_3.rect t)).set ↔ _
  rw [View.set_slice_whole, Rect.mem_set_unit]
  exact Iff.rfl

/-- Row `r` of the output array is in the block of point `r / 1024`. -/
theorem qkvCovered (i : S4096x2304.Idx) :
    ∃ t : Fin cfg0.N, (cfg0.win 3).flush t = true ∧ i ∈ ((cfg0.win 3).blk t).view.set := by
  have hi0 : (i 0).val < 4096 := idx2_lt0 i
  have hi1 : (i 1).val < 2304 := idx2_lt1 i
  have hN : cfg0.N = 4 := N_0
  refine ⟨⟨(i 0).val / 1024, by rw [hN]; omega⟩, flush0_3 _, ?_⟩
  obtain ⟨-, -, -, -, -, e0, e1⟩ := qkvIdx ⟨(i 0).val / 1024, by rw [hN]; omega⟩
  rw [qkvMem_blk]
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 2304 ≤ (i 1).val ∧ (i 1).val < win0_3.index _ (1 : Fin 2) * 2304 + 2304
    rw [e1]; omega

/-- The output array after the region: rows · weights + bias of the three arrays as the region found them. -/
theorem qkv_final (c : Dev nD) :
    (qkvDat (F := Ideal) V c).arrAt 3 cfg0.N = qkvG (V c main_v0) (V c main_v14) (V c main_v15) :=
  (qkvDat (F := Ideal) V c).arrAt_eq_of_cover 3 _ (fun t _ => qkvFlushed_eq V c t) qkvCovered

end qkv

/-! # The output projection: one point's block -/

/-- The body's arithmetic at row `p`, column `q` of the block: the row of the first operand against the column of the
    second, summed over the 768 shared positions, plus the bias at `q`. -/
theorem outpPay_apply (x0 : Vec Ideal S512x768 .bf16) (x1 : Vec Ideal S768x768 .f32) (x2 : Vec Ideal S768 .f32)
    (p : Fin 512) (q : Fin 768) :
    k2_pay1 (F := Ideal) x0 x1 x2 (ix2 p q)
      = (∑ k : Fin 768, x0 (ix2 p k) * x1 (ix2 k q)) + x2 (ix1 q) := by
  unfold k2_pay1
  simp only [shapeCast_self]
  rw [addf_apply]
  refine congrArg₂ (· + ·) ?_ ?_
  · refine (matmul_zero_apply (R := 512) (K := 768) (C := 768) _ rfl none _ _ (ix2 p q)).trans ?_
    unfold mm
    refine Finset.sum_congr rfl fun k _ => ?_
    rfl
  · refine (broadcastTo_1b_ab_apply _ _ p q).trans ?_
    exact shapeCast_a_1a_apply x2 _ (0 : Fin 1) q

/-- What a point leaves in its output block is the body's arithmetic of the three blocks: the loads and the one
    store go through the whole staging buffers. -/
theorem outpOut_eq_pay (x0 : Vec Ideal S512x768 .bf16) (x1 : Vec Ideal S768x768 .f32) (x2 : Vec Ideal S768 .f32) :
    outpOut (F := Ideal) x0 x1 x2 = k2_pay1 (F := Ideal) x0 x1 x2 := by
  unfold outpOut
  rw [View.canon_unit_zero zeros2]
  simp only [View.ld_unit_zero (S := S512x768) zeros2, View.ld_unit_zero (S := S768x768) zeros2,
    View.ld_unit_zero (S := S768) zeros1]

/-- The output block at row `p`, column `q`: the sum over the 768 shared positions of (rows)(p, k) · (weights)(k, q),
    plus (bias)(q). -/
theorem outpOut_apply (x0 : Vec Ideal S512x768 .bf16) (x1 : Vec Ideal S768x768 .f32) (x2 : Vec Ideal S768 .f32)
    (p : Fin 512) (q : Fin 768) :
    outpOut (F := Ideal) x0 x1 x2 (ix2 p q)
      = (∑ k : Fin 768, x0 (ix2 p k) * x1 (ix2 k q)) + x2 (ix1 q) := by
  rw [outpOut_eq_pay]
  exact outpPay_apply x0 x1 x2 p q

/-! # The output projection: from the blocks to the array -/

/-- Rows · weights + bias of whole arrays: at (r, q), the sum over the 768 shared positions of (rows)(r, k) ·
    (weights)(k, q), plus (bias)(q). -/
def outpG (A : S4096x768.Idx → EReal) (W : S768x768.Idx → EReal) (B : S768.Idx → EReal) : S4096x768.Idx → EReal :=
  fun i => (∑ k : Fin 768, A (ix2 (⟨(i 0).val, idx2_lt0 i⟩ : Fin 4096) k) * W (ix2 k (⟨(i 1).val, idx2_lt1 i⟩ : Fin 768)))
    + B (ix1 (⟨(i 1).val, idx2_lt1 i⟩ : Fin 768))

/-- `outpG` at the index of row `r`, column `q`. -/
theorem outpG_ix2 (A : S4096x768.Idx → EReal) (W : S768x768.Idx → EReal) (B : S768.Idx → EReal) (r : Fin 4096) (q : Fin 768) :
    outpG A W B (ix2 r q) = (∑ k : Fin 768, A (ix2 r k) * W (ix2 k q)) + B (ix1 q) := rfl

/-- A block of 512 rows of the product, at its own index `y`, is the whole product at the index `i` that lies
    `512 · n` rows further down, when the row block is the rows' array from there on and the other two blocks are
    the whole weights and bias. -/
theorem outpOut_eq_G (A : S4096x768.Idx → EReal) (W : S768x768.Idx → EReal) (B : S768.Idx → EReal)
    (x0 : Vec Ideal S512x768 .bf16) (x1 : Vec Ideal S768x768 .f32) (x2 : Vec Ideal S768 .f32) (n : Nat)
    (h0 : ∀ (y : S512x768.Idx) (i : S4096x768.Idx), (i 0).val = 512 * n + (y 0).val → (i 1).val = (y 1).val → x0 y = A i)
    (h1 : x1 = W) (h2 : x2 = B)
    (y : S512x768.Idx) (i : S4096x768.Idx) (hi0 : (i 0).val = 512 * n + (y 0).val) (hi1 : (i 1).val = (y 1).val) :
    outpOut (F := Ideal) x0 x1 x2 y = outpG A W B i := by
  obtain ⟨p, q, rfl⟩ : ∃ (p : Fin 512) (q : Fin 768), y = ix2 p q := ⟨y 0, y 1, eq_ix2 y⟩
  rw [outpOut_apply]
  subst h1; subst h2
  unfold outpG
  have hq : (⟨(i 1).val, idx2_lt1 i⟩ : Fin 768) = q := Fin.ext hi1
  rw [hq]
  refine congrArg₂ (· + ·) (Finset.sum_congr rfl fun k _ => ?_) rfl
  rw [h0 (ix2 p k) (ix2 (⟨(i 0).val, idx2_lt0 i⟩ : Fin 4096) k) hi0 rfl]

section outp
variable (V : (c : Dev nD) → (b : Ref sig .tc) → Buf (Elt Ideal) ((c : Thread nD τ).loc b))

/-- The index maps over the eight grid points: the row windows (the rows read, the rows written) sit at block `t` of
    their first axis, everything else at block 0. -/
theorem outpIdx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The row window's block at point `t` is rows `512 t … 512 t + 511` of the rows' array. -/
theorem outpRows_apply (c : Dev nD) (t : Fin cfg2.N) (y : S512x768.Idx) (i : S4096x768.Idx)
    (h0 : (i 0).val = 512 * t.val + (y 0).val) (h1 : (i 1).val = (y 1).val) :
    (outpBlk V c 0 t : Vec Ideal S512x768 .bf16) y = (V c main_v17 : S4096x768.Idx → EReal) i := by
  obtain ⟨e0, e1, -⟩ := outpIdx t
  unfold outpBlk
  rw [View.read_apply]
  show (V c main_v17 : S4096x768.Idx → EReal) _ = V c main_v17 _
  refine congrArg _ ?_
  funext a
  apply Fin.ext
  match a with
  | ⟨0, _⟩ => show win2_0.index t (0 : Fin 2) * 512 + 1 * (y 0).val = (i 0).val; rw [e0, h0]; omega
  | ⟨1, _⟩ => show win2_0.index t (1 : Fin 2) * 768 + 1 * (y 1).val = (i 1).val; rw [e1, h1]; omega

/-- The weights' window is the whole weights' array at every point. -/
theorem outpWeights_eq (c : Dev nD) (t : Fin cfg2.N) :
    (outpBlk V c 1 t : Vec Ideal S768x768 .f32) = (V c main_v18 : S768x768.Idx → EReal) := by
  obtain ⟨-, -, e0, e1, -⟩ := outpIdx t
  funext y
  unfold outpBlk
  rw [View.read_apply]
  show (V c main_v18 : S768x768.Idx → EReal) _ = V c main_v18 _
  refine congrArg _ ?_
  funext a
  apply Fin.ext
  match a with
  | ⟨0, _⟩ => show win2_1.index t (0 : Fin 2) * 768 + 1 * (y 0).val = (y 0).val; rw [e0]; omega
  | ⟨1, _⟩ => show win2_1.index t (1 : Fin 2) * 768 + 1 * (y 1).val = (y 1).val; rw [e1]; omega

/-- The bias window is the whole bias array at every point. -/
theorem outpBias_eq (c : Dev nD) (t : Fin cfg2.N) :
    (outpBlk V c 2 t : Vec Ideal S768 .f32) = (V c main_arg8 : S768.Idx → EReal) := by
  obtain ⟨-, -, -, -, e0, -⟩ := outpIdx t
  funext y
  unfold outpBlk
  rw [View.read_apply]
  show (V c main_arg8 : S768.Idx → EReal) _ = V c main_arg8 _
  refine congrArg _ ?_
  funext a
  apply Fin.ext
  match a with
  | ⟨0, _⟩ => show win2_2.index t (0 : Fin 1) * 768 + 1 * (y 0).val = (y 0).val; rw [e0]; omega

/-- What point `t` writes back is block `t` of rows · weights + bias of the arrays as the region finds them. -/
theorem outpFlushed_eq (c : Dev nD) (t : Fin cfg2.N) :
    (outpDat (F := Ideal) V c).flushed 3 t
      = ((cfg2.win 3).blk t).view.read (Elt Ideal) (outpG (V c main_v17) (V c main_v18) (V c main_arg8)) := by
  show (cfg2.win 3).cut (grid2.coords t) ((outpDat (F := Ideal) V c).after 3 t) = _
  rw [outpAfter3]
  obtain ⟨-, -, -, -, -, e0, e1⟩ := outpIdx t
  funext j
  rw [View.read_apply]
  refine outpOut_eq_G (V c main_v17) (V c main_v18) (V c main_arg8) _ _ _ t.val
    (fun y i h0 h1 => outpRows_apply V c t y i h0 h1) (outpWeights_eq V c t) (outpBias_eq V c t) _ _ ?_ ?_
  · show win2_3.index t (0 : Fin 2) * 512 + 1 * (j 0).val = 512 * t.val + (j 0).val; rw [e0]; omega
  · show win2_3.index t (1 : Fin 2) * 768 + 1 * (j 1).val = (j 1).val; rw [e1]; omega

/-- An index of the output array is in point `t`'s block iff each coordinate is in the block's range on its axis. -/
theorem outpMem_blk (t : Fin cfg2.N) (i : S4096x768.Idx) :
    i ∈ ((cfg2.win 3).blk t).view.set ↔ ∀ a : Fin 2, win2_3.index t a * S512x768.size a ≤ (i a).val
      ∧ (i a).val < win2_3.index t a * S512x768.size a + S512x768.size a := by
  show i ∈ ((View.whole main_v19).slice (win2_3.rect t)).set ↔ _
  rw [View.set_slice_whole, Rect.mem_set_unit]
  exact Iff.rfl

/-- Row `r` of the output array is in the block of point `r / 512`. -/
theorem outpCovered (i : S4096x768.Idx) :
    ∃ t : Fin cfg2.N, (cfg2.win 3).flush t = true ∧ i ∈ ((cfg2.win 3).blk t).view.set := by
  have hi0 : (i 0).val < 4096 := idx2_lt0 i
  have hi1 : (i 1).val < 768 := idx2_lt1 i
  have hN : cfg2.N = 8 := N_2
  refine ⟨⟨(i 0).val / 512, by rw [hN]; omega⟩, flush2_3 _, ?_⟩
  obtain ⟨-, -, -, -, -, e0, e1⟩ := outpIdx ⟨(i 0).val / 512, by rw [hN]; omega⟩
  rw [outpMem_blk]
  intro a
  match a with
  | ⟨0, _⟩ =>
    show win2_3.index _ (0 : Fin 2) * 512 ≤ (i 0).val ∧ (i 0).val < win2_3.index _ (0 : Fin 2) * 512 + 512
    rw [e0]; show (i 0).val / 512 * 512 ≤ (i 0).val ∧ (i 0).val < (i 0).val / 512 * 512 + 512; omega
  | ⟨1, _⟩ =>
    show win2_3.index _ (1 : Fin 2) * 768 ≤ (i 1).val ∧ (i 1).val < win2_3.index _ (1 : Fin 2) * 768 + 768
    rw [e1]; omega

/-- The output array after the region: rows · weights + bias of the three arrays as the region found them. -/
theorem outp_final (c : Dev nD) :
    (outpDat (F := Ideal) V c).arrAt 3 cfg2.N = outpG (V c main_v17) (V c main_v18) (V c main_arg8) :=
  (outpDat (F := Ideal) V c).arrAt_eq_of_cover 3 _ (fun t _ => outpFlushed_eq V c t) outpCovered

end outp

end Cert.KernelIdeal.ProjValue

end
-- ==== Proof.IAttnSteps.lean ====
/-
  One key block's update of the attention kernel's six running quantities — per head the row maximum, the denominator and
  the weighted sum of values — and the final quotients, named as pure functions of the query, key and value blocks and of
  the previous quantities. The bodies are the kernel body's own value terms; nothing is proved here.
-/
import proofs.«122623_j15204184228289_2_alg».proof.Proof.Gen.KernelIdeal.Skeleton

noncomputable section

namespace Cert.KernelIdeal.Hand

open Cert.KernelIdeal Cert.KernelIdeal.Gen
open Idealize.ShloMosaic

variable {F : FTy → Type} [FloatOps F]

/-! ## One key block's update of the six running quantities, as pure functions of the blocks -/

/-- Head 0 of the pair: the new running maximum, denominator and weighted sum from the query, key and value blocks and
    the old ones; head 1 likewise over the second 64 columns of each block. -/
def stepM0 (q kk : Vec F S512x128 .bf16) (m : Vec F S512x1 .f32) : Vec F S512x1 .f32 := k1_pay23 (k1_pay18 q kk m)
def stepL0 (q kk : Vec F S512x128 .bf16) (m l : Vec F S512x1 .f32) : Vec F S512x1 .f32 := k1_pay21 q kk m l
def stepA0 (q kk v : Vec F S512x128 .bf16) (m : Vec F S512x1 .f32) (a : Vec F S512x64 .f32) : Vec F S512x64 .f32 :=
  k1_pay22 (k1_pay15 v) (k1_pay19 q kk m) (k1_pay20 q kk m) a
def stepM1 (q kk : Vec F S512x128 .bf16) (m : Vec F S512x1 .f32) : Vec F S512x1 .f32 := k1_pay2 (k1_pay25 (k1_pay13 q) (k1_pay14 kk) m)
def stepL1 (q kk : Vec F S512x128 .bf16) (m l : Vec F S512x1 .f32) : Vec F S512x1 .f32 := k1_pay28 (k1_pay13 q) (k1_pay14 kk) m l
def stepA1 (q kk v : Vec F S512x128 .bf16) (m : Vec F S512x1 .f32) (a : Vec F S512x64 .f32) : Vec F S512x64 .f32 :=
  k1_pay1 (k1_pay29 (k1_pay13 q) (k1_pay14 kk) m a) (k1_pay30 (k1_pay13 q) (k1_pay14 kk) (k1_pay16 v) m)
/-- The stored quotients: both heads' weighted sums over their denominators, side by side. -/
def stepOut (a0 : Vec F S512x64 .f32) (l0 : Vec F S512x1 .f32) (a1 : Vec F S512x64 .f32) (l1 : Vec F S512x1 .f32) : Vec F S512x128 .bf16 :=
  k1_pay3 a0 l0 a1 l1

/-- The six running quantities after some key blocks of a row of blocks. -/
structure Run6 (F : FTy → Type) [FloatOps F] where
  m0 : Vec F S512x1 .f32
  l0 : Vec F S512x1 .f32
  a0 : Vec F S512x64 .f32
  m1 : Vec F S512x1 .f32
  l1 : Vec F S512x1 .f32
  a1 : Vec F S512x64 .f32

/-- Before the first key block: the maxima at −∞, the denominators and the weighted sums at 0. -/
def Run6.reset : Run6 F := ⟨k1_pay4, k1_pay5, k1_pay6, k1_pay7, k1_pay8, k1_pay9⟩

/-- One key block more. -/
def Run6.step (q kk v : Vec F S512x128 .bf16) (s : Run6 F) : Run6 F :=
  ⟨stepM0 q kk s.m0, stepL0 q kk s.m0 s.l0, stepA0 q kk v s.m0 s.a0, stepM1 q kk s.m1, stepL1 q kk s.m1 s.l1, stepA1 q kk v s.m1 s.a1⟩

/-- After the first `n` key blocks of a row, the query, key and value blocks given block by block. -/
def Run6.after (q kk v : ℕ → Vec F S512x128 .bf16) : ℕ → Run6 F
  | 0 => Run6.reset
  | n + 1 => Run6.step (q n) (kk n) (v n) (Run6.after q kk v n)

/-- The block stored after the last key block. -/
def Run6.out (s : Run6 F) : Vec F S512x128 .bf16 := stepOut s.a0 s.l0 s.a1 s.l1

end Cert.KernelIdeal.Hand

end
-- ==== Proof.IAttnPieces.lean ====
/-
  The attention region's buffers as the mathematics of the update: what each case of the body leaves in each scratch buffer
  is one key block's update step of the running maximum, denominator or weighted sum (the pieces the runs found, opened);
  hence after the body at a grid point the six scratch buffers hold the step applied to what the point before left (to the
  reset values at the first key block of a row), and after the n-th key block of a row they hold `Run6.after` of the row's
  blocks; at the last key block the output block holds the quotients.
-/
import proofs.«122623_j15204184228289_2_alg».proof.Proof.IAttn
import proofs.«122623_j15204184228289_2_alg».proof.Proof.IAttnSteps
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-! ## What each case leaves, as update steps -/

theorem pieceA0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) :
    attnSA0 (F := F) c i arg3 harg3 arg4 harg4 arg5 harg5 arg6 harg6 arg7 harg7 arg8 harg8 arg9 harg9 arg10 harg10 arg11 harg11 arg12 harg12 hc0 hc1 x0 x1 x2 = stepM0 x0 x1 (k1_pay4 (F := F)) := by
  unfold attnSA0
  dsimp only [stepM0, stepL0, stepA0, stepM1, stepL1, stepA1, stepOut]
  rw [View.read_writes_junk_eq_canon]
  unfold attnRunA
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceA1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) :
    attnSA1 (F := F) c i arg3 harg3 arg4 harg4 arg5 harg5 arg6 harg6 arg7 harg7 arg8 harg8 arg9 harg9 arg10 harg10 arg11 harg11 arg12 harg12 hc0 hc1 x0 x1 x2 = stepL0 x0 x1 (k1_pay4 (F := F)) (k1_pay5 (F := F)) := by
  unfold attnSA1
  dsimp only [stepM0, stepL0, stepA0, stepM1, stepL1, stepA1, stepOut]
  rw [View.read_writes_junk_eq_canon]
  unfold attnRunA
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceA2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) :
    attnSA2 (F := F) c i arg3 harg3 arg4 harg4 arg5 harg5 arg6 harg6 arg7 harg7 arg8 harg8 arg9 harg9 arg10 harg10 arg11 harg11 arg12 harg12 hc0 hc1 x0 x1 x2 = stepA0 x0 x1 x2 (k1_pay4 (F := F)) (k1_pay6 (F := F)) := by
  unfold attnSA2
  dsimp only [stepM0, stepL0, stepA0, stepM1, stepL1, stepA1, stepOut]
  rw [View.read_writes_junk_eq_canon]
  unfold attnRunA
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceA3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) :
    attnSA3 (F := F) c i arg3 harg3 arg4 harg4 arg5 harg5 arg6 harg6 arg7 harg7 arg8 harg8 arg9 harg9 arg10 harg10 arg11 harg11 arg12 harg12 hc0 hc1 x0 x1 x2 = stepM1 x0 x1 (k1_pay7 (F := F)) := by
  unfold attnSA3
  dsimp only [stepM0, stepL0, stepA0, stepM1, stepL1, stepA1, stepOut]
  rw [View.read_writes_junk_eq_canon]
  unfold attnRunA
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceA4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) :
    attnSA4 (F := F) c i arg3 harg3 arg4 harg4 arg5 harg5 arg6 harg6 arg7 harg7 arg8 harg8 arg9 harg9 arg10 harg10 arg11 harg11 arg12 harg12 hc0 hc1 x0 x1 x2 = stepL1 x0 x1 (k1_pay7 (F := F)) (k1_pay8 (F := F)) := by
  unfold attnSA4
  dsimp only [stepM0, stepL0, stepA0, stepM1, stepL1, stepA1, stepOut]
  rw [View.read_writes_junk_eq_canon]
  unfold attnRunA
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceA5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : kvFirst i) (hc1 : ¬kvLast i) (x0 x1 x2 : Vec F S512x128 .bf16) :
    attnSA5 (F := F) c i arg3 harg3 arg4 harg4 arg5 harg5 arg6 harg6 arg7 harg7 arg8 harg8 arg9 harg9 arg10 harg10 arg11 harg11 arg12 harg12 hc0 hc1 x0 x1 x2 = stepA1 x0 x1 x2 (k1_pay7 (F := F)) (k1_pay9 (F := F)) := by
  unfold attnSA5
  dsimp only [stepM0, stepL0, stepA0, stepM1, stepL1, stepA1, stepOut]
  rw [View.read_writes_junk_eq_canon]
  unfold attnRunA
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceB0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSB0 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepM0 x0 x1 xs0 := by
  unfold attnSB0
  dsimp only [stepM0, stepL0, stepA0, stepM1, stepL1, stepA1, stepOut]
  rw [View.read_writes_junk_eq_canon]
  unfold attnRunB
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceB1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSB1 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepL0 x0 x1 xs0 xs1 := by
  unfold attnSB1
  dsimp only [stepM0, stepL0, stepA0, stepM1, stepL1, stepA1, stepOut]
  rw [View.read_writes_junk_eq_canon]
  unfold attnRunB
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceB2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSB2 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepA0 x0 x1 x2 xs0 xs2 := by
  unfold attnSB2
  dsimp only [stepM0, stepL0, stepA0, stepM1, stepL1, stepA1, stepOut]
  rw [View.read_writes_junk_eq_canon]
  unfold attnRunB
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceB3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSB3 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepM1 x0 x1 xs3 := by
  unfold attnSB3
  dsimp only [stepM0, stepL0, stepA0, stepM1, stepL1, stepA1, stepOut]
  rw [View.read_writes_junk_eq_canon]
  unfold attnRunB
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceB4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSB4 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepL1 x0 x1 xs3 xs4 := by
  unfold attnSB4
  dsimp only [stepM0, stepL0, stepA0, stepM1, stepL1, stepA1, stepOut]
  rw [View.read_writes_junk_eq_canon]
  unfold attnRunB
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceB5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : ¬kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSB5 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepA1 x0 x1 x2 xs3 xs5 := by
  unfold attnSB5
  dsimp only [stepM0, stepL0, stepA0, stepM1, stepL1, stepA1, stepOut]
  rw [View.read_writes_junk_eq_canon]
  unfold attnRunB
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceC0 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSC0 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepM0 x0 x1 xs0 := by
  unfold attnSC0
  dsimp only [stepM0, stepL0, stepA0, stepM1, stepL1, stepA1, stepOut]
  rw [View.read_writes_junk_eq_canon]
  unfold attnRunC
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceC1 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSC1 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepL0 x0 x1 xs0 xs1 := by
  unfold attnSC1
  dsimp only [stepM0, stepL0, stepA0, stepM1, stepL1, stepA1, stepOut]
  rw [View.read_writes_junk_eq_canon]
  unfold attnRunC
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceC2 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSC2 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepA0 x0 x1 x2 xs0 xs2 := by
  unfold attnSC2
  dsimp only [stepM0, stepL0, stepA0, stepM1, stepL1, stepA1, stepOut]
  rw [View.read_writes_junk_eq_canon]
  unfold attnRunC
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceC3 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSC3 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepM1 x0 x1 xs3 := by
  unfold attnSC3
  dsimp only [stepM0, stepL0, stepA0, stepM1, stepL1, stepA1, stepOut]
  rw [View.read_writes_junk_eq_canon]
  unfold attnRunC
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceC4 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSC4 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepL1 x0 x1 xs3 xs4 := by
  unfold attnSC4
  dsimp only [stepM0, stepL0, stepA0, stepM1, stepL1, stepA1, stepOut]
  rw [View.read_writes_junk_eq_canon]
  unfold attnRunC
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceC5 (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnSC5 (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepA1 x0 x1 x2 xs3 xs5 := by
  unfold attnSC5
  dsimp only [stepM0, stepL0, stepA0, stepM1, stepL1, stepA1, stepOut]
  rw [View.read_writes_junk_eq_canon]
  unfold attnRunC
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

theorem pieceCO (c : Dev nD) (i : grid1.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x64 .f32) (harg12 : arg12.IsWhole) (hc0 : ¬kvFirst i) (hc1 : kvLast i) (x0 x1 x2 : Vec F S512x128 .bf16) (xs0 : Vec F S512x1 .f32) (xs1 : Vec F S512x1 .f32) (xs2 : Vec F S512x64 .f32) (xs3 : Vec F S512x1 .f32) (xs4 : Vec F S512x1 .f32) (xs5 : Vec F S512x64 .f32) :
    attnOC (F := F) c i arg3 harg3 arg4 harg4 arg5 harg5 arg6 harg6 arg7 harg7 arg8 harg8 arg9 harg9 arg10 harg10 arg11 harg11 arg12 harg12 hc0 hc1 x0 x1 x2 xs0 xs1 xs2 xs3 xs4 xs5 = stepOut (stepA0 x0 x1 x2 xs0 xs2) (stepL0 x0 x1 xs0 xs1) (stepA1 x0 x1 x2 xs3 xs5) (stepL1 x0 x1 xs3 xs4) := by
  unfold attnOC
  dsimp only [stepM0, stepL0, stepA0, stepM1, stepL1, stepA1, stepOut]
  rw [View.read_writes_junk_eq_canon]
  unfold attnRunC
  dsimp only
  sl_unfold_words
  first
    | rw [View.canon_cons_unit_zero hz2]
    | rw [View.canon_unit_zero hz2]
  simp only [View.readAt_eq_ld, Memref.IsWhole.read_unread, View.ld_unit_zero (S := S512x128) hz2, View.ld_unit_zero (S := S512x1) hz2,
    View.ld_unit_zero (S := S512x64) hz2, View.readCov_cons_toLoadRect] <;> rfl

/-! ## Point by point -/

/-- The six scratch buffers' contents after a point, as the six running quantities. -/
def AttnSt.run6 (s : AttnSt F) : Run6 F := ⟨s.s0, s.s1, s.s2, s.s3, s.s4, s.s5⟩

section
variable (V : (c : Dev nD) → (b : Ref sig .tc) → Buf (Elt F) ((c : Thread nD τ).loc b))

/-- At the first key block of a row: one step from the reset values. -/
theorem attnAt_first (c : Dev nD) (t : Fin cfg1.N) (h0 : t.val % 8 = 0) :
    (attnAt V c t.val t.isLt).run6 = Run6.step (attnBlk V c 0 t) (attnBlk V c 1 t) (attnBlk V c 2 t) Run6.reset := by
  rw [attnAt_A V c t h0 (by omega)]
  dsimp only [AttnSt.run6, Run6.step, Run6.reset]
  rw [pieceA0, pieceA1, pieceA2, pieceA3, pieceA4, pieceA5]

/-- At any later key block: one step from what the point before left. -/
theorem attnAt_next (c : Dev nD) (t : Fin cfg1.N) (h0 : ¬t.val % 8 = 0) :
    (attnAt V c t.val t.isLt).run6
      = Run6.step (attnBlk V c 0 t) (attnBlk V c 1 t) (attnBlk V c 2 t) (attnAt V c (t.val - 1) (Nat.lt_of_le_of_lt (Nat.sub_le _ _) t.isLt)).run6 := by
  by_cases h1 : t.val % 8 = 7
  · rw [attnAt_C V c t h0 h1]
    dsimp only [AttnSt.run6, Run6.step]
    rw [pieceC0, pieceC1, pieceC2, pieceC3, pieceC4, pieceC5]
  · rw [attnAt_B V c t h0 h1]
    dsimp only [AttnSt.run6, Run6.step]
    rw [pieceB0, pieceB1, pieceB2, pieceB3, pieceB4, pieceB5]

/-- At the last key block the output block holds the quotients of the quantities just updated. -/
theorem attnAt_out (c : Dev nD) (t : Fin cfg1.N) (h1 : t.val % 8 = 7) :
    (attnAt V c t.val t.isLt).o = Run6.out (attnAt V c t.val t.isLt).run6 := by
  rw [attnAt_C V c t (by omega) h1]
  dsimp only [AttnSt.run6, Run6.out]
  rw [pieceCO, pieceC1, pieceC2, pieceC4, pieceC5]

/-- Grid point number `n` (taken modulo the number of points, so that every natural number names one). -/
def attnPt (n : ℕ) : Fin cfg1.N := ⟨n % 384, lt_of_lt_of_eq (Nat.mod_lt _ (by decide)) N_1.symm⟩
theorem attnPt_val (n : ℕ) (h : n < 384) : (attnPt n).val = n := Nat.mod_eq_of_lt h

/-- The contents after a point depend on the point's number only. -/
theorem attnAt_congr (c : Dev nD) {n n' : ℕ} (e : n = n') (hn : n < cfg1.N) (hn' : n' < cfg1.N) :
    attnAt V c n hn = attnAt V c n' hn' := by subst e; rfl

/-- After the (b+1)-th key block of the row of blocks that starts at point `base`, the scratch buffers hold the row's
    running quantities over its first b+1 key blocks. -/
theorem attnAt_row (c : Dev nD) (base : ℕ) (hbase : base % 8 = 0) (hlt : base + 7 < 384) (b : ℕ) (hb : b < 8) :
    (attnAt V c (base + b) (lt_of_lt_of_eq (by omega) N_1.symm)).run6
      = Run6.after (fun n => attnBlk V c 0 (attnPt (base + n))) (fun n => attnBlk V c 1 (attnPt (base + n)))
          (fun n => attnBlk V c 2 (attnPt (base + n))) (b + 1) := by
  induction b with
  | zero =>
    have ht : (attnPt (base + 0)).val = base + 0 := attnPt_val _ (by omega)
    have h := attnAt_first V c (attnPt (base + 0)) (by rw [ht]; omega)
    simp only [ht] at h
    simpa [Run6.after] using h
  | succ b ih =>
    have ht : (attnPt (base + (b + 1))).val = base + (b + 1) := attnPt_val _ (by omega)
    have h := attnAt_next V c (attnPt (base + (b + 1))) (by rw [ht]; omega)
    simp only [ht] at h
    have ih' := ih (by omega)
    rw [h, attnAt_congr V c (show base + (b + 1) - 1 = base + b by omega) _ (lt_of_lt_of_eq (by omega) N_1.symm), ih']
    rfl

end

end Cert.KernelIdeal.Hand

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibSoftmaxRow.lean ====
/-
  The softmax of a row of extended reals, and the two facts that let a row-blocked attention kernel meet a
  reference written with whole arrays.

  `softmaxRow L s` is entry `s` of the softmax of the row `L`: the exponential of the entry's distance below the
  row's largest entry, divided by the sum of those exponentials over the row. A kernel computes it on a block of rows
  as a tree of vector operations — the row maxima kept as a column and stretched back over the rows, a pointwise
  exponential, the row sums kept as a column and stretched back, a pointwise quotient —; read at entry (r, s) that
  tree is `softmaxRow` of row r (`softmax_rows_apply`). The scores themselves come from a contraction; when the
  two rows contracted hold real numbers, multiplying every entry of one row by 1/c before contracting is dividing the
  contraction by c (`sum_scaled_mul`) — on the extended reals this is a law of real numbers only, since a product
  does not move across a sum that meets opposite infinities. Stated over arbitrary extents.
-/
import proofs.«122623_j15204184228289_2_alg».proof.Proof.LibRowLayout
import proofs.«122623_j15204184228289_2_alg».proof.Proof.LibRealSums
import Idealize.ShloMosaic.PureOps.Ideal.Laws
import Idealize.ShloMosaic.Lib.ValueLayout

noncomputable section

namespace Cert.Lib.SoftmaxRow

open Idealize.ShloMosaic Idealize.ShloMosaic.ValueIdx
open Cert.KernelIdeal.MvnKernel

/-- The largest entry of a row of extended reals (−∞ for the empty row). -/
def rowMax {n : ℕ} (L : Fin n → EReal) : EReal := (Finset.univ : Finset (Fin n)).fold max ⊥ L

/-- Entry `s` of the softmax of the row `L`. -/
def softmaxRow {n : ℕ} (L : Fin n → EReal) (s : Fin n) : EReal :=
  Ideal.div (Ideal.exp (L s - rowMax L)) (∑ k : Fin n, Ideal.exp (L k - rowMax L))

/-- The f32 pattern of −∞ denotes the least extended real. -/
theorem ofBits_neg_inf : Ideal.ofBits .f32 0xFF800000#32 = ⊥ := by simp [Ideal.ofBits, Ideal.ieee]

/-- Taking the larger of −∞ and a fold of `max` that started from −∞ changes nothing. -/
theorem max_bot_rowMax {n : ℕ} (L : Fin n → EReal) : max ⊥ (rowMax L) = rowMax L := max_eq_right bot_le

/-- A block of rows put through the softmax tree of vector operations, read at entry (r, s): the softmax of row r at
    s. The column of row maxima and the column of row sums are each a lane reduction, cast to a column and stretched
    back over the row. -/
theorem softmax_rows_apply {a b : ℕ} (Lg : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec FTy.f32.bits) = FKind.maximumf.neutral .f32 hφ)
    (hadd : (0x00000000#32 : BitVec FTy.f32.bits) = FKind.add.neutral .f32 hφ) (r : Fin a) (s : Fin b) :
    divf (exp (subf Lg (broadcastTo ⟨2, ![a, b]⟩ (shapeCast ⟨2, ![a, 1]⟩
        (multiReduction .maximumf [1] ⟨1, ![a]⟩ Lg 0xFF800000#32 hr hφ hmax) hc) hb)))
      (broadcastTo ⟨2, ![a, b]⟩ (shapeCast ⟨2, ![a, 1]⟩
        (multiReduction .add [1] ⟨1, ![a]⟩
          (exp (subf Lg (broadcastTo ⟨2, ![a, b]⟩ (shapeCast ⟨2, ![a, 1]⟩
            (multiReduction .maximumf [1] ⟨1, ![a]⟩ Lg 0xFF800000#32 hr hφ hmax) hc) hb)))
          0x00000000#32 hr hφ hadd) hc) hb) (ix2 r s)
      = softmaxRow (fun k => Lg (ix2 r k)) s := by
  -- the stretched column of maxima holds, all along row r, that row's maximum
  have hM : ∀ k : Fin b, broadcastTo ⟨2, ![a, b]⟩ (shapeCast ⟨2, ![a, 1]⟩
        (multiReduction .maximumf [1] ⟨1, ![a]⟩ Lg 0xFF800000#32 hr hφ hmax) hc) hb (ix2 r k)
      = rowMax fun k => Lg (ix2 r k) := fun k =>
    (broadcastTo_a1_ab_apply _ hb r k).trans ((shapeCast_a_a1_apply _ hc r 0).trans
      ((multiReduction_max_row Lg _ hr hφ hmax r).trans (by rw [ofBits_neg_inf]; rfl)))
  -- so the exponentials along row r are those of the softmax
  have hE : ∀ k : Fin b, exp (subf Lg (broadcastTo ⟨2, ![a, b]⟩ (shapeCast ⟨2, ![a, 1]⟩
        (multiReduction .maximumf [1] ⟨1, ![a]⟩ Lg 0xFF800000#32 hr hφ hmax) hc) hb)) (ix2 r k)
      = Ideal.exp (Lg (ix2 r k) - rowMax fun k => Lg (ix2 r k)) := fun k => by
    show Ideal.exp (Lg (ix2 r k) - broadcastTo ⟨2, ![a, b]⟩ _ hb (ix2 r k)) = _
    rw [hM k]
  show Ideal.div (exp (subf Lg _) (ix2 r s)) (broadcastTo ⟨2, ![a, b]⟩ _ hb (ix2 r s)) = _
  rw [hE s]
  refine congrArg (Ideal.div _) ?_
  refine (broadcastTo_a1_ab_apply _ hb r s).trans ((shapeCast_a_a1_apply _ hc r 0).trans
    ((multiReduction_add_row _ _ hr hφ hadd r).trans ?_))
  exact Finset.sum_congr rfl fun k _ => hE k

/-- Real rows: scaling every entry of the left row by the reciprocal of a nonzero real `c` before contracting is
    dividing the contraction by `c`. -/
theorem sum_scaled_mul {K : ℕ} (c : ℝ) (hc : c ≠ 0) (x w : Fin K → EReal)
    (hx : ∀ k, ∃ r : ℝ, x k = r) (hw : ∀ k, ∃ r : ℝ, w k = r) :
    ∑ k : Fin K, (x k * ((1 / c : ℝ) : EReal)) * w k = Ideal.div (∑ k : Fin K, x k * w k) (c : EReal) := by
  choose x' hx' using hx; choose w' hw' using hw
  simp only [hx', hw']
  rw [Ideal.div_coe hc, Cert.Lib.RealSums.sum_coe_mul_coe, ← EReal.coe_mul]
  have h : ∀ k ∈ (Finset.univ : Finset (Fin K)),
      ((x' k : EReal) * ((1 / c : ℝ) : EReal)) * (w' k : EReal) = ((x' k * (1 / c) * w' k : ℝ) : EReal) := by
    intro k _; rw [← EReal.coe_mul, ← EReal.coe_mul]
  rw [Finset.sum_congr rfl h, ← Cert.Lib.RealSums.coe_sum]
  refine congrArg _ ?_
  rw [Finset.sum_mul]
  exact Finset.sum_congr rfl fun k _ => by ring

end Cert.Lib.SoftmaxRow

end
-- ==== Proof.Spec.lean ====
import proofs.«122623_j15204184228289_2_alg».proof.Proof.LibSoftmaxRow

/-!
# The mathematics both programs compute

Twelve-head attention over 4096 tokens of width 768 = 12 · 64, every projection a dense layer plus twice a rank-8 update.
Everything here is a plain function of `Fin`-indexed arrays of extended reals; no program is imported.

* `refProj`  — a projection as the reference computes it: (x · Wᵀ + b) + ((x · Dᵀ) · Uᵀ) · 2.
* `kerProj`  — as the kernel computes it: x · (W + 2 · (U · D))ᵀ + b, the merged weights formed first.
* `refScore` / `kerScore` — a head's score of query row s against key row t: the 64-term contraction divided by 8,
  respectively multiplied by 1/8.
* `attn`     — the softmax of each score row, weighting the value rows.
* `outProj`  — the output dense layer.
* `refAll` / `kerAll` — the whole computation either way.
-/

noncomputable section

namespace Cert.Spec

open Cert.Lib.SoftmaxRow Idealize.ShloMosaic

/-- The f32 words of 2, 8 and 1/8 as the programs spell them. -/
def two : EReal := Ideal.ofBits .f32 0x40000000#32
def eight : EReal := Ideal.ofBits .f32 0x41000000#32
def eighth : EReal := Ideal.ofBits .f32 0x3E000000#32

/-- Column 64 · h + d of a row of 768 columns: coordinate d of head h. -/
def hd (h : Fin 12) (d : Fin 64) : Fin 768 := ⟨64 * h.val + d.val, by omega⟩
/-- The head a column belongs to. -/
def headOf (j : Fin 768) : Fin 12 := ⟨j.val / 64, by omega⟩

abbrev Mat (a b : ℕ) : Type := Fin a → Fin b → EReal

/-- A projection as the reference computes it. -/
def refProj (x : Mat 4096 768) (w : Mat 768 768) (b : Fin 768 → EReal) (dn : Mat 8 768) (up : Mat 768 8) : Mat 4096 768 :=
  fun s e => ((∑ d : Fin 768, x s d * w e d) + b e) + (∑ r : Fin 8, (∑ d : Fin 768, x s d * dn r d) * up e r) * two

/-- The merged weights: W + 2 · (U · D). -/
def merged (w : Mat 768 768) (dn : Mat 8 768) (up : Mat 768 8) : Mat 768 768 :=
  fun e d => w e d + two * ∑ r : Fin 8, up e r * dn r d

/-- A projection as the kernel computes it. -/
def kerProj (x : Mat 4096 768) (w : Mat 768 768) (b : Fin 768 → EReal) (dn : Mat 8 768) (up : Mat 768 8) : Mat 4096 768 :=
  fun s e => (∑ d : Fin 768, x s d * merged w dn up e d) + b e

/-- A head's score the reference's way: the contraction over the head's 64 coordinates, divided by 8. -/
def refScore (q k : Mat 4096 768) (h : Fin 12) (s t : Fin 4096) : EReal :=
  Ideal.div (∑ d : Fin 64, q s (hd h d) * k t (hd h d)) eight
/-- and the kernel's way: multiplied by 1/8. -/
def kerScore (q k : Mat 4096 768) (h : Fin 12) (s t : Fin 4096) : EReal :=
  (∑ d : Fin 64, q s (hd h d) * k t (hd h d)) * eighth

/-- Attention: entry (s, j) is the softmax of row s of the scores of j's head, weighting column j of the values. -/
def attn (score : Fin 12 → Fin 4096 → Fin 4096 → EReal) (v : Mat 4096 768) : Mat 4096 768 :=
  fun s j => ∑ t : Fin 4096, softmaxRow (fun u => score (headOf j) s u) t * v t j

/-- The output dense layer. -/
def outProj (a : Mat 4096 768) (wo : Mat 768 768) (bo : Fin 768 → EReal) : Mat 4096 768 :=
  fun s e => (∑ j : Fin 768, a s j * wo e j) + bo e

/-- The whole computation as the reference arranges it. -/
def refAll (x : Mat 4096 768) (wq wk wv wo : Mat 768 768) (bq bk bv bo : Fin 768 → EReal)
    (dq dk dv : Mat 8 768) (uq uk uv : Mat 768 8) : Mat 4096 768 :=
  outProj (attn (refScore (refProj x wq bq dq uq) (refProj x wk bk dk uk)) (refProj x wv bv dv uv)) wo bo

/-- The whole computation as the kernel arranges it. -/
def kerAll (x : Mat 4096 768) (wq wk wv wo : Mat 768 768) (bq bk bv bo : Fin 768 → EReal)
    (dq dk dv : Mat 8 768) (uq uk uv : Mat 768 8) : Mat 4096 768 :=
  outProj (attn (kerScore (kerProj x wq bq dq uq) (kerProj x wk bk dk uk)) (kerProj x wv bv dv uv)) wo bo

end Cert.Spec

end
-- ==== Proof.IAttnPay.lean ====
import proofs.«122623_j15204184228289_2_alg».proof.Proof.Gen.KernelIdeal.Skeleton
import proofs.«122623_j15204184228289_2_alg».proof.Proof.LibPlainDot
import proofs.«122623_j15204184228289_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The attention body's values, entry by entry

One step of the attention body works on a block of 512 query rows and a block of 512 key/value rows, each block holding
two heads side by side (head 0 in columns 0..63, head 1 in columns 64..127). For each head it forms the 512 × 512 scores
(row r of the queries against row k of the keys over the head's 64 columns, times 1/8), raises the running row maximum,
rescales what was accumulated by exp (old maximum − new maximum), and adds the block's exponentials to the running
denominator and the block's exponentials times the value rows to the running numerator. Every vector value of the body
is read here at an entry given by its coordinates; format changes are the identity on the extended reals, and a shape
cast to the value's own shape changes nothing.
-/

set_option maxRecDepth 16384

noncomputable section

namespace Cert.KernelIdeal.AttnPay

open Cert.KernelIdeal Cert.KernelIdeal.Gen
open Idealize.ShloMosaic Idealize.ShloMosaic.ValueIdx
open Cert.KernelIdeal.MvnKernel
open Cert.Lib.PlainDot (mm matmul_zero_apply)
open Cert.Lib.SoftmaxRow (ofBits_neg_inf)
open scoped BigOperators

/-! ## The scores -/

/-- Head 0's score of query row r against key row k: columns 0..63, times 1/8. -/
def sc0 (q kk : Vec Ideal S512x128 .bf16) (r k : Fin 512) : EReal :=
  (∑ d : Fin 64, q (ix2 r (⟨d.val, by omega⟩ : Fin 128)) * kk (ix2 k (⟨d.val, by omega⟩ : Fin 128))) * Cert.Spec.eighth

/-- Head 1's score of query row r against key row k: columns 64..127, times 1/8. -/
def sc1 (q kk : Vec Ideal S512x128 .bf16) (r k : Fin 512) : EReal :=
  (∑ d : Fin 64, q (ix2 r (⟨64 + d.val, by omega⟩ : Fin 128)) * kk (ix2 k (⟨64 + d.val, by omega⟩ : Fin 128)))
    * Cert.Spec.eighth

/-- The score of row r of one 64-column block against row k of another, times 1/8. -/
def scv (a b : FVec Ideal S512x64 .bf16) (r k : Fin 512) : EReal :=
  (∑ d : Fin 64, a (ix2 r d) * b (ix2 k d)) * Cert.Spec.eighth

/-! ## Shape casts to the value's own shape -/

theorem pay10_eq (x : Vec Ideal S512x128 .bf16) : k1_pay10 (F := Ideal) x = x := shapeCast_self x _
theorem pay11_eq (x : Vec Ideal S512x128 .bf16) : k1_pay11 (F := Ideal) x = x := shapeCast_self x _
theorem pay12_eq (x : Vec Ideal S512x128 .bf16) : k1_pay12 (F := Ideal) x = x := shapeCast_self x _
theorem pay2_eq (x : FVec Ideal S512x1 .f32) : k1_pay2 (F := Ideal) x = x := shapeCast_self x _
theorem pay23_eq (x : FVec Ideal S512x1 .f32) : k1_pay23 (F := Ideal) x = x := shapeCast_self x _

/-! ## The two heads cut out of a block -/

/-- Head 1 of the query block: column d of the cut is column 64 + d of the block. -/
theorem pay13_apply (q : Vec Ideal S512x128 .bf16) (r : Fin 512) (d : Fin 64) :
    k1_pay13 (F := Ideal) q (ix2 r d) = q (ix2 r (⟨64 + d.val, by omega⟩ : Fin 128)) := by
  unfold k1_pay13
  refine (slice2_axis1_apply (n0 := 512) (n1 := 128) (m := 64) 64 _ _ r d ⟨64 + d.val, by omega⟩ rfl).trans ?_
  exact congrFun (pay10_eq q) _

/-- Head 1 of the key block. -/
theorem pay14_apply (kk : Vec Ideal S512x128 .bf16) (r : Fin 512) (d : Fin 64) :
    k1_pay14 (F := Ideal) kk (ix2 r d) = kk (ix2 r (⟨64 + d.val, by omega⟩ : Fin 128)) := by
  unfold k1_pay14
  refine (slice2_axis1_apply (n0 := 512) (n1 := 128) (m := 64) 64 _ _ r d ⟨64 + d.val, by omega⟩ rfl).trans ?_
  exact congrFun (pay11_eq kk) _

/-- Head 0 of the value block. -/
theorem pay15_apply (v : Vec Ideal S512x128 .bf16) (r : Fin 512) (d : Fin 64) :
    k1_pay15 (F := Ideal) v (ix2 r d) = v (ix2 r (⟨d.val, by omega⟩ : Fin 128)) := by
  unfold k1_pay15
  refine (slice2_axis1_apply (n0 := 512) (n1 := 128) (m := 64) 0 _ _ r d ⟨d.val, by omega⟩ (Nat.zero_add _).symm).trans ?_
  exact congrFun (pay12_eq v) _

/-- Head 1 of the value block. -/
theorem pay16_apply (v : Vec Ideal S512x128 .bf16) (r : Fin 512) (d : Fin 64) :
    k1_pay16 (F := Ideal) v (ix2 r d) = v (ix2 r (⟨64 + d.val, by omega⟩ : Fin 128)) := by
  unfold k1_pay16
  refine (slice2_axis1_apply (n0 := 512) (n1 := 128) (m := 64) 64 _ _ r d ⟨64 + d.val, by omega⟩ rfl).trans ?_
  exact congrFun (pay12_eq v) _

/-! ## The scores of the two heads -/

/-- Head 0's scores: the product of the queries' first 64 columns with the transposed keys' first 64 columns,
    times 1/8. -/
theorem pay17_apply (q kk : Vec Ideal S512x128 .bf16) (r k : Fin 512) :
    k1_pay17 (F := Ideal) q kk (ix2 r k) = sc0 q kk r k := by
  unfold k1_pay17 sc0
  refine congrArg₂ (· * ·) ?_ rfl
  refine (matmul_zero_apply (R := 512) (K := 64) (C := 512) _ rfl none _ _ (ix2 r k)).trans ?_
  unfold mm
  refine Finset.sum_congr rfl fun d _ => congrArg₂ (· * ·) ?_ ?_
  · refine (slice2_axis1_apply (n0 := 512) (n1 := 128) (m := 64) 0 _ _ r d ⟨d.val, by omega⟩ (Nat.zero_add _).symm).trans ?_
    exact congrFun (pay10_eq q) _
  · refine (transpose_ix2_apply _ _ d k).trans ?_
    refine (slice2_axis1_apply (n0 := 512) (n1 := 128) (m := 64) 0 _ _ k d ⟨d.val, by omega⟩ (Nat.zero_add _).symm).trans ?_
    exact congrFun (pay11_eq kk) _

/-- The scores of two 64-column blocks: the product of the first with the transposed second, times 1/8. -/
theorem pay24_apply (a b : FVec Ideal S512x64 .bf16) (r k : Fin 512) :
    k1_pay24 (F := Ideal) a b (ix2 r k) = scv a b r k := by
  unfold k1_pay24 scv
  refine congrArg₂ (· * ·) ?_ rfl
  refine (matmul_zero_apply (R := 512) (K := 64) (C := 512) _ rfl none _ _ (ix2 r k)).trans ?_
  unfold mm
  refine Finset.sum_congr rfl fun d _ => congrArg₂ (· * ·) rfl ?_
  exact transpose_ix2_apply _ _ d k

/-- On the two second heads cut out of the query and key blocks these are head 1's scores. -/
theorem scv_heads (q kk : Vec Ideal S512x128 .bf16) (r k : Fin 512) :
    scv (k1_pay13 (F := Ideal) q) (k1_pay14 (F := Ideal) kk) r k = sc1 q kk r k := by
  unfold scv sc1
  refine congrArg₂ (· * ·) (Finset.sum_congr rfl fun d _ => congrArg₂ (· * ·) ?_ ?_) rfl
  · exact pay13_apply q r d
  · exact pay14_apply kk k d

theorem pay24_heads_apply (q kk : Vec Ideal S512x128 .bf16) (r k : Fin 512) :
    k1_pay24 (F := Ideal) (k1_pay13 (F := Ideal) q) (k1_pay14 (F := Ideal) kk) (ix2 r k) = sc1 q kk r k :=
  (pay24_apply _ _ r k).trans (scv_heads q kk r k)

/-! ## The running maximum, the rescale factor, the weights -/

/-- Head 0: the new running maximum of row r is the larger of the old one and the largest score of the row. -/
theorem pay18_apply (q kk : Vec Ideal S512x128 .bf16) (m : Vec Ideal S512x1 .f32) (r : Fin 512) :
    k1_pay18 (F := Ideal) q kk m (ix2 r (0 : Fin 1))
      = max (m (ix2 r (0 : Fin 1))) ((Finset.univ : Finset (Fin 512)).fold max ⊥ (fun k => sc0 q kk r k)) := by
  unfold k1_pay18
  refine congrArg (max (m (ix2 r (0 : Fin 1)))) ?_
  refine (shapeCast_a_a1_apply _ _ r 0).trans ((multiReduction_max_row _ _ _ _ _ r).trans ?_)
  rw [ofBits_neg_inf]
  exact congrArg (fun f : Fin 512 → EReal => (Finset.univ : Finset (Fin 512)).fold max ⊥ f)
    (funext fun k => pay17_apply q kk r k)

/-- The same for two 64-column blocks. -/
theorem pay25_apply (a b : FVec Ideal S512x64 .bf16) (m : Vec Ideal S512x1 .f32) (r : Fin 512) :
    k1_pay25 (F := Ideal) a b m (ix2 r (0 : Fin 1))
      = max (m (ix2 r (0 : Fin 1))) ((Finset.univ : Finset (Fin 512)).fold max ⊥ (fun k => scv a b r k)) := by
  unfold k1_pay25
  refine congrArg (max (m (ix2 r (0 : Fin 1)))) ?_
  refine (shapeCast_a_a1_apply _ _ r 0).trans ((multiReduction_max_row _ _ _ _ _ r).trans ?_)
  rw [ofBits_neg_inf]
  exact congrArg (fun f : Fin 512 → EReal => (Finset.univ : Finset (Fin 512)).fold max ⊥ f)
    (funext fun k => pay24_apply a b r k)

/-- Head 0: the factor that rescales what was accumulated, exp (old maximum − new maximum). -/
theorem pay19_apply (q kk : Vec Ideal S512x128 .bf16) (m : Vec Ideal S512x1 .f32) (r : Fin 512) :
    k1_pay19 (F := Ideal) q kk m (ix2 r (0 : Fin 1))
      = Ideal.exp (m (ix2 r (0 : Fin 1)) - k1_pay18 (F := Ideal) q kk m (ix2 r (0 : Fin 1))) := rfl

theorem pay26_apply (a b : FVec Ideal S512x64 .bf16) (m : Vec Ideal S512x1 .f32) (r : Fin 512) :
    k1_pay26 (F := Ideal) a b m (ix2 r (0 : Fin 1))
      = Ideal.exp (m (ix2 r (0 : Fin 1)) - k1_pay25 (F := Ideal) a b m (ix2 r (0 : Fin 1))) := rfl

/-- Head 0: the weight of key row k for query row r, exp (score − new maximum). -/
theorem pay20_apply (q kk : Vec Ideal S512x128 .bf16) (m : Vec Ideal S512x1 .f32) (r k : Fin 512) :
    k1_pay20 (F := Ideal) q kk m (ix2 r k)
      = Ideal.exp (sc0 q kk r k - k1_pay18 (F := Ideal) q kk m (ix2 r (0 : Fin 1))) := by
  unfold k1_pay20
  exact congrArg Ideal.exp (congrArg₂ (· - ·) (pay17_apply q kk r k) (broadcastTo_a1_ab_apply _ _ r k))

theorem pay27_apply (a b : FVec Ideal S512x64 .bf16) (m : Vec Ideal S512x1 .f32) (r k : Fin 512) :
    k1_pay27 (F := Ideal) a b m (ix2 r k)
      = Ideal.exp (scv a b r k - k1_pay25 (F := Ideal) a b m (ix2 r (0 : Fin 1))) := by
  unfold k1_pay27
  exact congrArg Ideal.exp (congrArg₂ (· - ·) (pay24_apply a b r k) (broadcastTo_a1_ab_apply _ _ r k))

/-! ## The running denominator -/

/-- Head 0: the rescaled old denominator plus the sum of the row's weights. -/
theorem pay21_apply (q kk : Vec Ideal S512x128 .bf16) (m l : Vec Ideal S512x1 .f32) (r : Fin 512) :
    k1_pay21 (F := Ideal) q kk m l (ix2 r (0 : Fin 1))
      = k1_pay19 (F := Ideal) q kk m (ix2 r (0 : Fin 1)) * l (ix2 r (0 : Fin 1))
        + ∑ k : Fin 512, k1_pay20 (F := Ideal) q kk m (ix2 r k) := by
  unfold k1_pay21
  refine (congrFun (shapeCast_self _ _) _).trans ?_
  refine congrArg (k1_pay19 (F := Ideal) q kk m (ix2 r (0 : Fin 1)) * l (ix2 r (0 : Fin 1)) + ·) ?_
  exact (shapeCast_a_a1_apply _ _ r 0).trans (multiReduction_add_row _ _ _ _ _ r)

theorem pay28_apply (a b : FVec Ideal S512x64 .bf16) (m l : Vec Ideal S512x1 .f32) (r : Fin 512) :
    k1_pay28 (F := Ideal) a b m l (ix2 r (0 : Fin 1))
      = k1_pay26 (F := Ideal) a b m (ix2 r (0 : Fin 1)) * l (ix2 r (0 : Fin 1))
        + ∑ k : Fin 512, k1_pay27 (F := Ideal) a b m (ix2 r k) := by
  unfold k1_pay28
  refine (congrFun (shapeCast_self _ _) _).trans ?_
  refine congrArg (k1_pay26 (F := Ideal) a b m (ix2 r (0 : Fin 1)) * l (ix2 r (0 : Fin 1)) + ·) ?_
  exact (shapeCast_a_a1_apply _ _ r 0).trans (multiReduction_add_row _ _ _ _ _ r)

/-! ## The running numerator -/

/-- The rescaled old numerator plus the weights' product with the value rows. -/
theorem pay22_apply (v13 : FVec Ideal S512x64 .bf16) (v24 : FVec Ideal S512x1 .f32) (v27 : FVec Ideal S512x512 .f32)
    (acc : Vec Ideal S512x64 .f32) (r : Fin 512) (d : Fin 64) :
    k1_pay22 (F := Ideal) v13 v24 v27 acc (ix2 r d)
      = v24 (ix2 r (0 : Fin 1)) * acc (ix2 r d) + ∑ k : Fin 512, v27 (ix2 r k) * v13 (ix2 k d) := by
  unfold k1_pay22
  refine (congrFun (shapeCast_self _ _) _).trans ?_
  refine congrArg₂ (· + ·) ?_ ?_
  · exact congrArg (· * acc (ix2 r d)) (broadcastTo_a1_ab_apply _ _ r d)
  · refine (matmul_zero_apply (R := 512) (K := 512) (C := 64) _ rfl none _ _ (ix2 r d)).trans ?_
    unfold mm
    exact Finset.sum_congr rfl fun k _ => rfl

/-- The rescaled old numerator alone. -/
theorem pay29_apply (a b : FVec Ideal S512x64 .bf16) (m : Vec Ideal S512x1 .f32) (acc : Vec Ideal S512x64 .f32)
    (r : Fin 512) (d : Fin 64) :
    k1_pay29 (F := Ideal) a b m acc (ix2 r d) = k1_pay26 (F := Ideal) a b m (ix2 r (0 : Fin 1)) * acc (ix2 r d) := by
  unfold k1_pay29
  exact congrArg (· * acc (ix2 r d)) (broadcastTo_a1_ab_apply _ _ r d)

/-- The weights' product with the value rows alone. -/
theorem pay30_apply (a b v14 : FVec Ideal S512x64 .bf16) (m : Vec Ideal S512x1 .f32) (r : Fin 512) (d : Fin 64) :
    k1_pay30 (F := Ideal) a b v14 m (ix2 r d) = ∑ k : Fin 512, k1_pay27 (F := Ideal) a b m (ix2 r k) * v14 (ix2 k d) := by
  unfold k1_pay30
  refine (matmul_zero_apply (R := 512) (K := 512) (C := 64) _ rfl none _ _ (ix2 r d)).trans ?_
  unfold mm
  exact Finset.sum_congr rfl fun k _ => rfl

/-- The two summed. -/
theorem pay1_apply (x y : FVec Ideal S512x64 .f32) (r : Fin 512) (d : Fin 64) :
    k1_pay1 (F := Ideal) x y (ix2 r d) = x (ix2 r d) + y (ix2 r d) := by
  unfold k1_pay1
  exact congrFun (shapeCast_self _ _) _

/-! ## What a first step starts from -/

/-- The running maximum starts at −∞ … -/
theorem pay4_apply (i : S512x1.Idx) : k1_pay4 (F := Ideal) i = ⊥ := by
  unfold k1_pay4
  exact (congrFun (shapeCast_self _ _) i).trans ofBits_neg_inf
theorem pay7_apply (i : S512x1.Idx) : k1_pay7 (F := Ideal) i = ⊥ := by
  unfold k1_pay7
  exact (congrFun (shapeCast_self _ _) i).trans ofBits_neg_inf

/-- … the running denominator at 0 … -/
theorem pay5_apply (i : S512x1.Idx) : k1_pay5 (F := Ideal) i = 0 := by
  unfold k1_pay5
  exact (congrFun (shapeCast_self _ _) i).trans Ideal.ofBits_zero_f32
theorem pay8_apply (i : S512x1.Idx) : k1_pay8 (F := Ideal) i = 0 := by
  unfold k1_pay8
  exact (congrFun (shapeCast_self _ _) i).trans Ideal.ofBits_zero_f32

/-- … and the running numerator at 0. -/
theorem pay6_apply (i : S512x64.Idx) : k1_pay6 (F := Ideal) i = 0 := by
  unfold k1_pay6
  exact (congrFun (shapeCast_self _ _) i).trans Ideal.ofBits_zero_f32
theorem pay9_apply (i : S512x64.Idx) : k1_pay9 (F := Ideal) i = 0 := by
  unfold k1_pay9
  exact (congrFun (shapeCast_self _ _) i).trans Ideal.ofBits_zero_f32

/-! ## The output block: each head's numerator divided by its denominator, the two heads side by side -/

/-- Columns 0..63: head 0. -/
theorem pay3_apply_left (a0 : Vec Ideal S512x64 .f32) (l0 : Vec Ideal S512x1 .f32) (a1 : Vec Ideal S512x64 .f32)
    (l1 : Vec Ideal S512x1 .f32) (r : Fin 512) (d : Fin 64) :
    k1_pay3 (F := Ideal) a0 l0 a1 l1 (ix2 r (⟨d.val, by omega⟩ : Fin 128))
      = Ideal.div (a0 (ix2 r d)) (l0 (ix2 r (0 : Fin 1))) := by
  unfold k1_pay3
  refine (concatenate_pair_apply_left (t := S512x128) (s₁ := S512x64) (s₂ := S512x64) (1 : Fin 2) _ _
    Facts₀.concatenates_S512x64_S512x64_S512x128_d1 (ix2 r (⟨d.val, by omega⟩ : Fin 128)) rfl (ix2 r d)
    (fun b => match b with | ⟨0, _⟩ => rfl | ⟨1, _⟩ => rfl)).trans ?_
  exact congrArg (Ideal.div (a0 (ix2 r d))) (broadcastTo_a1_ab_apply _ _ r d)

/-- Columns 64..127: head 1. -/
theorem pay3_apply_right (a0 : Vec Ideal S512x64 .f32) (l0 : Vec Ideal S512x1 .f32) (a1 : Vec Ideal S512x64 .f32)
    (l1 : Vec Ideal S512x1 .f32) (r : Fin 512) (d : Fin 64) :
    k1_pay3 (F := Ideal) a0 l0 a1 l1 (ix2 r (⟨64 + d.val, by omega⟩ : Fin 128))
      = Ideal.div (a1 (ix2 r d)) (l1 (ix2 r (0 : Fin 1))) := by
  unfold k1_pay3
  refine (concatenate_pair_apply_right (t := S512x128) (s₁ := S512x64) (s₂ := S512x64) (1 : Fin 2) _ _
    Facts₀.concatenates_S512x64_S512x64_S512x128_d1 (ix2 r (⟨64 + d.val, by omega⟩ : Fin 128)) rfl rfl (ix2 r d)
    (fun b hb => match b, hb with | ⟨0, _⟩, _ => rfl | ⟨1, _⟩, hb => absurd rfl hb)
    (Nat.add_comm d.val 64)).trans ?_
  exact congrArg (Ideal.div (a1 (ix2 r d))) (broadcastTo_a1_ab_apply _ _ r d)

/-- Any column c of the 128. -/
theorem pay3_apply (a0 : Vec Ideal S512x64 .f32) (l0 : Vec Ideal S512x1 .f32) (a1 : Vec Ideal S512x64 .f32)
    (l1 : Vec Ideal S512x1 .f32) (r : Fin 512) (c : Fin 128) :
    k1_pay3 (F := Ideal) a0 l0 a1 l1 (ix2 r c)
      = if h : c.val < 64 then Ideal.div (a0 (ix2 r (⟨c.val, h⟩ : Fin 64))) (l0 (ix2 r (0 : Fin 1)))
        else Ideal.div (a1 (ix2 r (⟨c.val - 64, by omega⟩ : Fin 64))) (l1 (ix2 r (0 : Fin 1))) := by
  by_cases h : c.val < 64
  · rw [dif_pos h]
    exact pay3_apply_left a0 l0 a1 l1 r ⟨c.val, h⟩
  · rw [dif_neg h]
    have e : c = (⟨64 + (⟨c.val - 64, by omega⟩ : Fin 64).val, by omega⟩ : Fin 128) := Fin.ext (by show c.val = 64 + (c.val - 64); omega)
    exact (congrArg (fun c' : Fin 128 => k1_pay3 (F := Ideal) a0 l0 a1 l1 (ix2 r c')) e).trans
      (pay3_apply_right a0 l0 a1 l1 r ⟨c.val - 64, by omega⟩)

end Cert.KernelIdeal.AttnPay

end
-- ==== Proof.LibChebAlgebra.lean ====
/-
  One propagation step of the normalised graph Laplacian, computed in two ways, over the extended reals.

  A graph has N nodes and E edges. Edge e carries a source word and a destination word, read as
  integers σs e and σd e, and the row numbers gs e, gd e of the rows that are fetched for it. With the
  inverse square-root degrees dinv and the node features h, both real-valued, one side gathers
  dinv (gs e) · h (gs e) along every edge that lands on node n, subtracts (number of self-loops at n)
  · dinv n · h n, and multiplies the difference by -dinv n; the other side sums, over the edges that
  land on n, the products (-dinv (gs e)) · [e is no self-loop] · dinv (gd e) · h (gs e). A self-loop at n
  contributes exactly dinv n · h n to the gathered sum, and the self-loops at n are exactly the edges the
  count counts, so the difference is the sum over the edges that are no self-loops; distributing the
  factor -dinv n over that sum gives the other side. Distributing a factor over a sum is valid on the
  extended reals only when the entries are real numbers, so every statement here carries that
  hypothesis, and the file also collects the closure rules "a real combination of reals is real" that
  discharge it: sums, products, differences, maxima, quotients by a non-zero real, inverse square roots
  of positive reals, the inverse square-root degree, and a layer-normalised row. Last, a sum over 3·d
  indices splits into three sums over d indices (a contraction against three stacked blocks).
-/
import Mathlib.Data.EReal.Operations
import Mathlib.Algebra.BigOperators.Intervals
import Mathlib.Algebra.BigOperators.Fin
import Mathlib.Tactic.Ring
import Idealize.ShloMosaic.PureOps.Ideal

namespace Cert.Lib.Cheb

open Finset
open Idealize.ShloMosaic

/-- An extended real is REAL when it is the image of a real number. -/
def IsReal (x : EReal) : Prop := ∃ r : ℝ, x = (r : EReal)

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- The image of a real chosen by a condition is the image chosen by the same condition. -/
theorem coe_ite (p : Prop) [Decidable p] (a b : ℝ) :
    ((if p then a else b : ℝ) : EReal) = if p then (a : EReal) else (b : EReal) := by
  split <;> rfl

/-- The two forms of the propagation step agree over the reals: termwise, a self-loop landing on n
    cancels against its share of the count, and every other edge landing on n contributes
    -dinv n · dinv (gs e) · h (gs e). -/
theorem prop_eq_real {N E D : ℕ} (σs σd : Fin E → ℤ) (gs gd : Fin E → Fin N) (same : Fin E → Prop)
    [DecidablePred same]
    (hsame : ∀ e, same e → σs e = σd e ∧ gs e = gd e)
    (hd : ∀ e (n : Fin N), σd e = (n.val : ℤ) → gd e = n)
    (d : Fin N → ℝ) (H : Fin N → Fin D → ℝ) (n : Fin N) (j : Fin D) :
    ((-1 : ℝ) * d n) * ((0 + ∑ e : Fin E, if σd e = (n.val : ℤ) then d (gs e) * H (gs e) j else 0)
        - (0 + ∑ e : Fin E, if σs e = (n.val : ℤ) then (if same e then (1 : ℝ) else 0) else 0)
          * (d n * H n j))
      = (0 + ∑ e : Fin E, if σd e = (n.val : ℤ) then
            ((((-1 : ℝ) * d (gs e)) * (if same e then (0 : ℝ) else 1)) * d (gd e)) * H (gs e) j else 0)
        + 0 * H n j := by
  rw [zero_add, zero_add, zero_add, zero_mul, add_zero, Finset.sum_mul, ← Finset.sum_sub_distrib,
    Finset.mul_sum]
  refine Finset.sum_congr rfl fun e _ => ?_
  by_cases h2 : same e
  · obtain ⟨hσ, hg⟩ := hsame e h2
    by_cases h1 : σd e = (n.val : ℤ)
    · have hgd : gd e = n := hd e n h1
      have hgs : gs e = n := hg.trans hgd
      rw [hσ, if_pos h1, if_pos h1, if_pos h2, if_pos h1, if_pos h2, hgs]
      ring
    · rw [hσ, if_neg h1, if_neg h1, if_neg h1]
      ring
  · by_cases h1 : σd e = (n.val : ℤ)
    · have hgd : gd e = n := hd e n h1
      rw [if_pos h1, if_neg h2, if_pos h1, if_neg h2, hgd, ite_self]
      ring
    · rw [if_neg h1, if_neg h2, if_neg h1, ite_self]
      ring

/-- The kernel-side form of the propagation step is the image of the same expression over the reals. -/
theorem lhs_coe {N E D : ℕ} (σs σd : Fin E → ℤ) (gs : Fin E → Fin N) (same : Fin E → Prop)
    [DecidablePred same] (d : Fin N → ℝ) (H : Fin N → Fin D → ℝ) (n : Fin N) (j : Fin D) :
    ((-1 : EReal) * (d n : EReal)) * ((0 + ∑ e : Fin E, if σd e = (n.val : ℤ) then
            (d (gs e) : EReal) * (H (gs e) j : EReal) else 0)
        - (0 + ∑ e : Fin E, if σs e = (n.val : ℤ) then (if same e then (1 : EReal) else 0) else 0)
          * ((d n : EReal) * (H n j : EReal)))
      = ((((-1 : ℝ) * d n) * ((0 + ∑ e : Fin E, if σd e = (n.val : ℤ) then d (gs e) * H (gs e) j else 0)
        - (0 + ∑ e : Fin E, if σs e = (n.val : ℤ) then (if same e then (1 : ℝ) else 0) else 0)
          * (d n * H n j)) : ℝ) : EReal) := by
  simp only [coe_sum, coe_ite, EReal.coe_add, EReal.coe_sub, EReal.coe_mul, EReal.coe_neg,
    EReal.coe_zero, EReal.coe_one]

/-- The reference-side form of the propagation step is the image of the same expression over the reals. -/
theorem rhs_coe {N E D : ℕ} (σd : Fin E → ℤ) (gs gd : Fin E → Fin N) (same : Fin E → Prop)
    [DecidablePred same] (d : Fin N → ℝ) (H : Fin N → Fin D → ℝ) (n : Fin N) (j : Fin D) :
    (0 + ∑ e : Fin E, if σd e = (n.val : ℤ) then
          ((((-1 : EReal) * (d (gs e) : EReal)) * (if same e then (0 : EReal) else 1)) * (d (gd e) : EReal))
            * (H (gs e) j : EReal) else 0)
        + 0 * (H n j : EReal)
      = (((0 + ∑ e : Fin E, if σd e = (n.val : ℤ) then
            ((((-1 : ℝ) * d (gs e)) * (if same e then (0 : ℝ) else 1)) * d (gd e)) * H (gs e) j else 0)
        + 0 * H n j : ℝ) : EReal) := by
  simp only [coe_sum, coe_ite, EReal.coe_add, EReal.coe_mul, EReal.coe_neg, EReal.coe_zero,
    EReal.coe_one]

/-- C1. One propagation step of the normalised Laplacian: the gathered sum minus the self-loop count
    times the node's own term, scaled by -dinv n, equals the sum over the edges landing on n of
    (-dinv (gs e)) · [no self-loop] · dinv (gd e) · h (gs e). The entries are real, so both sides are
    images of real expressions, which agree termwise. -/
theorem prop_eq {N E D : ℕ} (σs σd : Fin E → ℤ) (gs gd : Fin E → Fin N) (same : Fin E → Prop)
    [DecidablePred same]
    (hsame : ∀ e, same e → σs e = σd e ∧ gs e = gd e)
    (hd : ∀ e (n : Fin N), σd e = (n.val : ℤ) → gd e = n)
    (dinv : Fin N → EReal) (hdinv : ∀ n, IsReal (dinv n))
    (h : Fin N → Fin D → EReal) (hh : ∀ n j, IsReal (h n j)) (n : Fin N) (j : Fin D) :
    ((-1 : EReal) * dinv n) * ((0 + ∑ e : Fin E, if σd e = (n.val : ℤ) then dinv (gs e) * h (gs e) j else 0)
        - (0 + ∑ e : Fin E, if σs e = (n.val : ℤ) then (if same e then (1 : EReal) else 0) else 0)
          * (dinv n * h n j))
      = (0 + ∑ e : Fin E, if σd e = (n.val : ℤ) then
            ((((-1 : EReal) * dinv (gs e)) * (if same e then (0 : EReal) else 1)) * dinv (gd e))
              * h (gs e) j else 0)
        + 0 * h n j := by
  choose d hd' using hdinv
  choose H hH using hh
  obtain rfl : dinv = fun n => (d n : EReal) := funext hd'
  obtain rfl : h = fun n j => (H n j : EReal) := funext fun n => funext fun j => hH n j
  show ((-1 : EReal) * (d n : EReal)) * ((0 + ∑ e : Fin E, if σd e = (n.val : ℤ) then
            (d (gs e) : EReal) * (H (gs e) j : EReal) else 0)
        - (0 + ∑ e : Fin E, if σs e = (n.val : ℤ) then (if same e then (1 : EReal) else 0) else 0)
          * ((d n : EReal) * (H n j : EReal)))
      = (0 + ∑ e : Fin E, if σd e = (n.val : ℤ) then
          ((((-1 : EReal) * (d (gs e) : EReal)) * (if same e then (0 : EReal) else 1)) * (d (gd e) : EReal))
            * (H (gs e) j : EReal) else 0)
        + 0 * (H n j : EReal)
  rw [lhs_coe, rhs_coe, prop_eq_real σs σd gs gd same hsame hd d H n j]

/-- C1'. The kernel-side form of the propagation step is real when its entries are. -/
theorem prop_real {N E D : ℕ} (σs σd : Fin E → ℤ) (gs : Fin E → Fin N) (same : Fin E → Prop)
    [DecidablePred same]
    (dinv : Fin N → EReal) (hdinv : ∀ n, IsReal (dinv n))
    (h : Fin N → Fin D → EReal) (hh : ∀ n j, IsReal (h n j)) (n : Fin N) (j : Fin D) :
    IsReal (((-1 : EReal) * dinv n) * ((0 + ∑ e : Fin E, if σd e = (n.val : ℤ) then dinv (gs e) * h (gs e) j else 0)
        - (0 + ∑ e : Fin E, if σs e = (n.val : ℤ) then (if same e then (1 : EReal) else 0) else 0)
          * (dinv n * h n j))) := by
  choose d hd' using hdinv
  choose H hH using hh
  obtain rfl : dinv = fun n => (d n : EReal) := funext hd'
  obtain rfl : h = fun n j => (H n j : EReal) := funext fun n => funext fun j => hH n j
  exact ⟨_, lhs_coe σs σd gs same d H n j⟩

end Cert.Lib.Cheb
-- ==== Proof.LibChebReal.lean ====
/-
  Which extended reals stay real, and how a stacked contraction splits.

  The extended reals are the reals with two infinities added; a value is REAL when it is the image of a
  real number. Sums, differences, products, negations, maxima and conditional choices of reals are
  real, and so is a finite sum of reals. A quotient by a non-zero real is the product with its
  reciprocal, hence real; the inverse square root of a positive real r is 1/√r, hence real. From these:
  the inverse square-root degree "rsqrt (max deg c) when deg > 0, else 0" is real for a real degree and
  a positive real floor c; the mean of a real row over a non-zero real count is real; its variance over
  a positive count is real and non-negative (a sum of squares of reals times a positive reciprocal), so
  adding a positive ε gives a positive real, whose inverse square root is real; therefore every entry
  of the layer-normalised, scaled, shifted and rectified row is real. Last, a sum over the first 3·d
  naturals is the sum of three sums over d naturals (the contraction of a row against three blocks
  stacked on top of each other), also in the form indexed by Fin.
-/
import Mathlib.Data.EReal.Operations
import Mathlib.Algebra.BigOperators.Intervals
import Mathlib.Algebra.BigOperators.Fin
import Mathlib.Algebra.Order.BigOperators.Group.Finset
import Mathlib.Tactic.Ring
import Idealize.ShloMosaic.PureOps.Ideal
import proofs.«122623_j15204184228289_2_alg».proof.Proof.LibChebAlgebra

namespace Cert.Lib.Cheb

open Finset
open Idealize.ShloMosaic

/-! ## C2: closure of the reals under the operations -/

/-- The image of a real number is real. -/
protected theorem IsReal.coe (r : ℝ) : IsReal (r : EReal) := ⟨r, rfl⟩

/-- Zero is real. -/
protected theorem IsReal.zero : IsReal (0 : EReal) := ⟨0, EReal.coe_zero.symm⟩

/-- One is real. -/
protected theorem IsReal.one : IsReal (1 : EReal) := ⟨1, EReal.coe_one.symm⟩

/-- A sum of two reals is real. -/
protected theorem IsReal.add {x y : EReal} (hx : IsReal x) (hy : IsReal y) : IsReal (x + y) := by
  obtain ⟨r, rfl⟩ := hx; obtain ⟨q, rfl⟩ := hy; exact ⟨r + q, (EReal.coe_add r q).symm⟩

/-- A difference of two reals is real. -/
protected theorem IsReal.sub {x y : EReal} (hx : IsReal x) (hy : IsReal y) : IsReal (x - y) := by
  obtain ⟨r, rfl⟩ := hx; obtain ⟨q, rfl⟩ := hy; exact ⟨r - q, (EReal.coe_sub r q).symm⟩

/-- A product of two reals is real. -/
protected theorem IsReal.mul {x y : EReal} (hx : IsReal x) (hy : IsReal y) : IsReal (x * y) := by
  obtain ⟨r, rfl⟩ := hx; obtain ⟨q, rfl⟩ := hy; exact ⟨r * q, (EReal.coe_mul r q).symm⟩

/-- The negative of a real is real. -/
protected theorem IsReal.neg {x : EReal} (hx : IsReal x) : IsReal (-x) := by
  obtain ⟨r, rfl⟩ := hx; exact ⟨-r, (EReal.coe_neg r).symm⟩

/-- The larger of two reals is real. -/
protected theorem IsReal.max {x y : EReal} (hx : IsReal x) (hy : IsReal y) : IsReal (max x y) := by
  obtain ⟨r, rfl⟩ := hx; obtain ⟨q, rfl⟩ := hy
  exact ⟨max r q, (EReal.coe_strictMono.monotone.map_max).symm⟩

/-- A choice between two reals is real. -/
protected theorem IsReal.ite {p : Prop} [Decidable p] {x y : EReal} (hx : IsReal x) (hy : IsReal y) :
    IsReal (if p then x else y) := by
  split
  · exact hx
  · exact hy

/-- A finite sum of reals is real. -/
protected theorem IsReal.sum {ι : Type*} (s : Finset ι) (f : ι → EReal) (hf : ∀ i ∈ s, IsReal (f i)) :
    IsReal (∑ i ∈ s, f i) := by
  classical
  induction s using Finset.induction_on with
  | empty => exact ⟨0, by rw [Finset.sum_empty, EReal.coe_zero]⟩
  | insert a s ha ih =>
    rw [Finset.sum_insert ha]
    exact (hf a (Finset.mem_insert_self a s)).add (ih fun i hi => hf i (Finset.mem_insert_of_mem hi))

/-- A sum of reals over a whole finite index type is real. -/
protected theorem IsReal.sum_univ {ι : Type*} [Fintype ι] (f : ι → EReal) (hf : ∀ i, IsReal (f i)) :
    IsReal (∑ i, f i) :=
  IsReal.sum _ _ fun i _ => hf i

/-- Zero plus a sum of reals over a whole finite index type is real. -/
protected theorem IsReal.zero_add_sum {ι : Type*} [Fintype ι] (f : ι → EReal) (hf : ∀ i, IsReal (f i)) :
    IsReal (0 + ∑ i, f i) :=
  IsReal.zero.add (IsReal.sum_univ f hf)

/-- Zero plus the sum of the selected entries (the others replaced by zero) is real when the selected
    entries are. -/
protected theorem IsReal.zero_add_sum_ite {ι : Type*} [Fintype ι] (p : ι → Prop) [DecidablePred p]
    (f : ι → EReal) (hf : ∀ i, p i → IsReal (f i)) :
    IsReal (0 + ∑ i, if p i then f i else 0) :=
  IsReal.zero.add (IsReal.sum_univ _ fun i => by
    by_cases hp : p i
    · rw [if_pos hp]; exact hf i hp
    · rw [if_neg hp]; exact IsReal.zero)

/-- The quotient of a real by a non-zero real is real: it is the product with the reciprocal. -/
protected theorem IsReal.div {x y : EReal} (hx : IsReal x) (hy : IsReal y) (hy0 : y ≠ 0) :
    IsReal (Ideal.div x y) := by
  obtain ⟨r, rfl⟩ := hx; obtain ⟨q, rfl⟩ := hy
  have hq : q ≠ 0 := fun h => hy0 (by rw [h, EReal.coe_zero])
  exact ⟨r * (1 / q), by rw [Ideal.div_coe hq, EReal.coe_mul]⟩

/-- The inverse square root of a positive real r is the real 1/√r. -/
protected theorem IsReal.rsqrt {x : EReal} (hx : IsReal x) (hpos : 0 < x) : IsReal (Ideal.rsqrt x) := by
  obtain ⟨r, rfl⟩ := hx
  have hr : 0 < r := EReal.coe_pos.mp hpos
  exact ⟨(Real.sqrt r)⁻¹, by rw [Ideal.rsqrt_coe, if_neg (not_lt.mpr hr.le), if_neg hr.ne']⟩

/-! ## C3: the inverse square-root degree -/

/-- C3. For a real degree and a positive real floor c, "rsqrt (max deg c) when deg > 0, else 0" is
    real: max deg c ≥ c > 0. -/
theorem dinv_real (deg c : EReal) (hdeg : IsReal deg) (hc : IsReal c) (hcpos : 0 < c) :
    IsReal (if 0 < deg then Ideal.rsqrt (max deg c) else 0) :=
  IsReal.ite (IsReal.rsqrt (hdeg.max hc) (lt_max_of_lt_right hcpos)) IsReal.zero

/-! ## C4: a layer-normalised row -/

/-- The mean of a real row over a non-zero real count is real. -/
theorem mean_real {D : ℕ} (a : Fin D → EReal) (ha : ∀ k, IsReal (a k)) (dn : EReal) (hdn : IsReal dn)
    (hdn0 : dn ≠ 0) : IsReal (Ideal.div (0 + ∑ k, a k) dn) :=
  IsReal.div (IsReal.zero_add_sum a ha) hdn hdn0

/-- The mean squared deviation of a real row from a real centre, over a positive real count, is a
    non-negative real: a sum of squares times a positive reciprocal. -/
theorem var_real_nonneg {D : ℕ} (a : Fin D → EReal) (ha : ∀ k, IsReal (a k)) (mu dn : EReal)
    (hmu : IsReal mu) (hdn : IsReal dn) (hdnpos : 0 < dn) :
    ∃ v : ℝ, 0 ≤ v ∧ Ideal.div (0 + ∑ k, (a k - mu) * (a k - mu)) dn = (v : EReal) := by
  choose a' ha' using ha
  obtain ⟨m, rfl⟩ := hmu
  obtain ⟨q, rfl⟩ := hdn
  have hq : 0 < q := EReal.coe_pos.mp hdnpos
  have hsum : (0 + ∑ k, (a k - (m : EReal)) * (a k - (m : EReal)))
      = ((∑ k, (a' k - m) * (a' k - m) : ℝ) : EReal) := by
    rw [zero_add, coe_sum]
    exact Finset.sum_congr rfl fun k _ => by rw [ha' k, ← EReal.coe_sub, ← EReal.coe_mul]
  refine ⟨(∑ k, (a' k - m) * (a' k - m)) * (1 / q), ?_, ?_⟩
  · exact mul_nonneg (Finset.sum_nonneg fun k _ => mul_self_nonneg _) (one_div_pos.mpr hq).le
  · rw [hsum, Ideal.div_coe hq.ne', EReal.coe_mul]

/-- The inverse square root of "variance plus a positive real ε" is real, the variance being the mean
    squared deviation of a real row from a real centre over a positive real count. -/
theorem rsqrt_var_real {D : ℕ} (a : Fin D → EReal) (ha : ∀ k, IsReal (a k)) (mu dn eps : EReal)
    (hmu : IsReal mu) (hdn : IsReal dn) (hdnpos : 0 < dn) (heps : IsReal eps) (hepspos : 0 < eps) :
    IsReal (Ideal.rsqrt (Ideal.div (0 + ∑ k, (a k - mu) * (a k - mu)) dn + eps)) := by
  obtain ⟨v, hv0, hv⟩ := var_real_nonneg a ha mu dn hmu hdn hdnpos
  obtain ⟨ε, rfl⟩ := heps
  have hε : 0 < ε := EReal.coe_pos.mp hepspos
  rw [hv, ← EReal.coe_add]
  exact IsReal.rsqrt (IsReal.coe _) (EReal.coe_pos.mpr (add_pos_of_nonneg_of_pos hv0 hε))

/-- C4. Every entry of a layer-normalised row is real: with mu the mean and var the mean squared
    deviation of the real row a over the positive real count dn, and a positive real ε,
    max ((a j - mu) · rsqrt (var + ε) · g j + bt j) 0 is real for real scale g and shift bt. The mean
    and the variance enter as named values together with their defining equations. -/
theorem layernorm_real {D : ℕ} (a g bt : Fin D → EReal) (ha : ∀ k, IsReal (a k))
    (hg : ∀ k, IsReal (g k)) (hbt : ∀ k, IsReal (bt k))
    (dn eps : EReal) (hdn : IsReal dn) (hdnpos : 0 < dn) (heps : IsReal eps) (hepspos : 0 < eps)
    (mu var : EReal) (hmu : mu = Ideal.div (0 + ∑ k, a k) dn)
    (hvar : var = Ideal.div (0 + ∑ k, (a k - mu) * (a k - mu)) dn) (j : Fin D) :
    IsReal (max (((a j - mu) * Ideal.rsqrt (var + eps)) * g j + bt j) 0) := by
  have hmuR : IsReal mu := by rw [hmu]; exact mean_real a ha dn hdn hdnpos.ne'
  have hrs : IsReal (Ideal.rsqrt (var + eps)) := by
    rw [hvar]; exact rsqrt_var_real a ha mu dn eps hmuR hdn hdnpos heps hepspos
  exact (((((ha j).sub hmuR).mul hrs).mul (hg j)).add (hbt j)).max IsReal.zero

/-- C4, with the mean and the variance written out. -/
theorem layernorm_real' {D : ℕ} (a g bt : Fin D → EReal) (ha : ∀ k, IsReal (a k))
    (hg : ∀ k, IsReal (g k)) (hbt : ∀ k, IsReal (bt k))
    (dn eps : EReal) (hdn : IsReal dn) (hdnpos : 0 < dn) (heps : IsReal eps) (hepspos : 0 < eps)
    (j : Fin D) :
    IsReal (max (((a j - Ideal.div (0 + ∑ k, a k) dn)
        * Ideal.rsqrt (Ideal.div (0 + ∑ k, (a k - Ideal.div (0 + ∑ k, a k) dn)
            * (a k - Ideal.div (0 + ∑ k, a k) dn)) dn + eps)) * g j + bt j) 0) :=
  layernorm_real a g bt ha hg hbt dn eps hdn hdnpos heps hepspos _ _ rfl rfl j

/-! ## C5: a contraction against three stacked blocks -/

/-- C5. A sum over the first 3·d naturals is the sum over the first d, plus the sum over the next d,
    plus the sum over the last d. -/
theorem sum_three {M : Type*} [AddCommMonoid M] (d : ℕ) (f : ℕ → M) :
    ∑ k ∈ Finset.range (3 * d), f k
      = (∑ k ∈ Finset.range d, f k + ∑ k ∈ Finset.range d, f (d + k))
        + ∑ k ∈ Finset.range d, f (2 * d + k) := by
  have h3 : 3 * d = d + d + d := by ring
  rw [h3, Finset.sum_range_add, Finset.sum_range_add, two_mul]

/-- C5 indexed by Fin: a sum over Fin (3·d) of a function of the underlying natural splits into three
    sums over Fin d. -/
theorem sum_three_fin {M : Type*} [AddCommMonoid M] (d : ℕ) (f : ℕ → M) :
    ∑ k : Fin (3 * d), f k.val
      = (∑ k : Fin d, f k.val + ∑ k : Fin d, f (d + k.val)) + ∑ k : Fin d, f (2 * d + k.val) := by
  have h1 : ∑ k : Fin (3 * d), f k.val = ∑ k ∈ Finset.range (3 * d), f k :=
    Fin.sum_univ_eq_sum_range f (3 * d)
  have h2 : ∑ k : Fin d, f k.val = ∑ k ∈ Finset.range d, f k := Fin.sum_univ_eq_sum_range f d
  have h3 : ∑ k : Fin d, f (d + k.val) = ∑ k ∈ Finset.range d, f (d + k) :=
    Fin.sum_univ_eq_sum_range (fun k => f (d + k)) d
  have h4 : ∑ k : Fin d, f (2 * d + k.val) = ∑ k ∈ Finset.range d, f (2 * d + k) :=
    Fin.sum_univ_eq_sum_range (fun k => f (2 * d + k)) d
  rw [h1, h2, h3, h4]
  exact sum_three d f

end Cert.Lib.Cheb
-- ==== Proof.SpecEq.lean ====
import proofs.«122623_j15204184228289_2_alg».proof.Proof.Spec
import proofs.«122623_j15204184228289_2_alg».proof.Proof.LibChebReal

/-!
# The two arrangements of the computation agree on real inputs

* the three float words denote the reals 2, 8 and 1/8;
* a projection with the weights merged first, x · (W + 2 · (U · D))ᵀ + b, equals the projection with the low-rank
  path kept apart, (x · Wᵀ + b) + ((x · Dᵀ) · Uᵀ) · 2, when every entry is a real number: on the reals this is
  distributivity and an exchange of the two summations; on the extended reals both sides are the images of the real
  expressions;
* multiplying by 1/8 is dividing by 8 (for every extended real, since 8 is a nonzero real);
* hence the two whole computations agree.
-/

noncomputable section

namespace Cert.Spec

open Cert.Lib.SoftmaxRow Idealize.ShloMosaic Cert.Lib.Cheb

/-! ## The constants -/

/-- The word 0x40000000 denotes 2. -/
theorem two_eq : two = ((2 : ℝ) : EReal) := by
  unfold two; simp [Ideal.ofBits, Ideal.ieee, -EReal.coe_mul]; norm_num

/-- The word 0x41000000 denotes 8. -/
theorem eight_eq : eight = ((8 : ℝ) : EReal) := by
  unfold eight; simp [Ideal.ofBits, Ideal.ieee, -EReal.coe_mul]; norm_num

/-- The word 0x3E000000 denotes 1/8. -/
theorem eighth_eq : eighth = ((1 / 8 : ℝ) : EReal) := by
  unfold eighth; simp [Ideal.ofBits, Ideal.ieee, -EReal.coe_mul]; norm_num

/-! ## The projections -/

/-- Over the reals: the contraction against the merged weights, plus the bias, is the dense layer plus bias plus twice
    the low-rank path. Distributivity, then the two summations exchanged. -/
theorem proj_real_id {n m : ℕ} (x w : Fin n → ℝ) (b : ℝ) (dn : Fin m → Fin n → ℝ) (up : Fin m → ℝ) :
    (∑ d : Fin n, x d * (w d + 2 * ∑ r : Fin m, up r * dn r d)) + b
      = ((∑ d : Fin n, x d * w d) + b) + (∑ r : Fin m, (∑ d : Fin n, x d * dn r d) * up r) * 2 := by
  have h : ∑ d : Fin n, x d * (2 * ∑ r : Fin m, up r * dn r d)
      = (∑ r : Fin m, (∑ d : Fin n, x d * dn r d) * up r) * 2 := by
    simp only [Finset.mul_sum, Finset.sum_mul]
    rw [Finset.sum_comm]
    exact Finset.sum_congr rfl fun r _ => Finset.sum_congr rfl fun d _ => by ring
  simp only [mul_add, Finset.sum_add_distrib, h]
  ring

/-- Real entries: the kernel's projection is the reference's. -/
theorem kerProj_eq_refProj (x : Mat 4096 768) (w : Mat 768 768) (b : Fin 768 → EReal) (dn : Mat 8 768)
    (up : Mat 768 8) (hx : ∀ s d, ∃ r : ℝ, x s d = r) (hw : ∀ e d, ∃ r : ℝ, w e d = r)
    (hb : ∀ e, ∃ r : ℝ, b e = r) (hdn : ∀ r d, ∃ q : ℝ, dn r d = q) (hup : ∀ e r, ∃ q : ℝ, up e r = q) :
    kerProj x w b dn up = refProj x w b dn up := by
  choose x' hx' using hx
  choose w' hw' using hw
  choose b' hb' using hb
  choose dn' hdn' using hdn
  choose up' hup' using hup
  funext s e
  have h := congrArg (fun r : ℝ => (r : EReal)) (proj_real_id (x' s) (w' e) (b' e) dn' (up' e))
  simp only [coe_sum, EReal.coe_mul, EReal.coe_add] at h
  simp only [kerProj, refProj, merged, hx', hw', hb', hdn', hup', two_eq]
  exact h

/-- Real entries: the reference's projection is real. -/
theorem refProj_real (x : Mat 4096 768) (w : Mat 768 768) (b : Fin 768 → EReal) (dn : Mat 8 768)
    (up : Mat 768 8) (hx : ∀ s d, ∃ r : ℝ, x s d = r) (hw : ∀ e d, ∃ r : ℝ, w e d = r)
    (hb : ∀ e, ∃ r : ℝ, b e = r) (hdn : ∀ r d, ∃ q : ℝ, dn r d = q) (hup : ∀ e r, ∃ q : ℝ, up e r = q) :
    ∀ s e, ∃ r : ℝ, refProj x w b dn up s e = r := by
  intro s e
  have h2 : IsReal two := ⟨2, two_eq⟩
  exact IsReal.add (IsReal.add (IsReal.sum_univ _ fun d => IsReal.mul (hx s d) (hw e d)) (hb e))
    (IsReal.mul (IsReal.sum_univ _ fun r =>
      IsReal.mul (IsReal.sum_univ _ fun d => IsReal.mul (hx s d) (hdn r d)) (hup e r)) h2)

/-- Real entries: the kernel's projection is real. -/
theorem kerProj_real (x : Mat 4096 768) (w : Mat 768 768) (b : Fin 768 → EReal) (dn : Mat 8 768)
    (up : Mat 768 8) (hx : ∀ s d, ∃ r : ℝ, x s d = r) (hw : ∀ e d, ∃ r : ℝ, w e d = r)
    (hb : ∀ e, ∃ r : ℝ, b e = r) (hdn : ∀ r d, ∃ q : ℝ, dn r d = q) (hup : ∀ e r, ∃ q : ℝ, up e r = q) :
    ∀ s e, ∃ r : ℝ, kerProj x w b dn up s e = r := by
  rw [kerProj_eq_refProj x w b dn up hx hw hb hdn hup]
  exact refProj_real x w b dn up hx hw hb hdn hup

/-- Real entries: the merged weights are real. -/
theorem merged_real (w : Mat 768 768) (dn : Mat 8 768) (up : Mat 768 8) (hw : ∀ e d, ∃ r : ℝ, w e d = r)
    (hdn : ∀ r d, ∃ q : ℝ, dn r d = q) (hup : ∀ e r, ∃ q : ℝ, up e r = q) :
    ∀ e d, ∃ r : ℝ, merged w dn up e d = r := by
  intro e d
  have h2 : IsReal two := ⟨2, two_eq⟩
  exact IsReal.add (hw e d) (IsReal.mul h2 (IsReal.sum_univ _ fun r => IsReal.mul (hup e r) (hdn r d)))

/-! ## The scores -/

/-- Multiplying by 1/8 is dividing by 8: for every pair of arrays. -/
theorem kerScore_eq_refScore (q k : Mat 4096 768) : kerScore q k = refScore q k := by
  funext h s t
  show _ * eighth = Ideal.div _ eight
  rw [eighth_eq, eight_eq, Ideal.div_coe (by norm_num : (8 : ℝ) ≠ 0)]

/-- Real entries: a score is real. -/
theorem refScore_real (q k : Mat 4096 768) (hq : ∀ s j, ∃ r : ℝ, q s j = r) (hk : ∀ s j, ∃ r : ℝ, k s j = r) :
    ∀ h s t, ∃ r : ℝ, refScore q k h s t = r := by
  intro h s t
  have h8 : IsReal eight := ⟨8, eight_eq⟩
  have hne : eight ≠ 0 := by
    rw [eight_eq]; exact_mod_cast (by norm_num : (8 : ℝ) ≠ 0)
  exact IsReal.div (IsReal.sum_univ _ fun d => IsReal.mul (hq s (hd h d)) (hk t (hd h d))) h8 hne

theorem kerScore_real (q k : Mat 4096 768) (hq : ∀ s j, ∃ r : ℝ, q s j = r) (hk : ∀ s j, ∃ r : ℝ, k s j = r) :
    ∀ h s t, ∃ r : ℝ, kerScore q k h s t = r := by
  rw [kerScore_eq_refScore]; exact refScore_real q k hq hk

/-! ## The whole computation -/

/-- Real inputs: the kernel's arrangement of the whole computation equals the reference's. -/
theorem kerAll_eq_refAll (x : Mat 4096 768) (wq wk wv wo : Mat 768 768) (bq bk bv bo : Fin 768 → EReal)
    (dq dk dv : Mat 8 768) (uq uk uv : Mat 768 8)
    (hx : ∀ s d, ∃ r : ℝ, x s d = r)
    (hwq : ∀ e d, ∃ r : ℝ, wq e d = r) (hwk : ∀ e d, ∃ r : ℝ, wk e d = r) (hwv : ∀ e d, ∃ r : ℝ, wv e d = r)
    (hbq : ∀ e, ∃ r : ℝ, bq e = r) (hbk : ∀ e, ∃ r : ℝ, bk e = r) (hbv : ∀ e, ∃ r : ℝ, bv e = r)
    (hdq : ∀ r d, ∃ q : ℝ, dq r d = q) (hdk : ∀ r d, ∃ q : ℝ, dk r d = q) (hdv : ∀ r d, ∃ q : ℝ, dv r d = q)
    (huq : ∀ e r, ∃ q : ℝ, uq e r = q) (huk : ∀ e r, ∃ q : ℝ, uk e r = q) (huv : ∀ e r, ∃ q : ℝ, uv e r = q) :
    kerAll x wq wk wv wo bq bk bv bo dq dk dv uq uk uv = refAll x wq wk wv wo bq bk bv bo dq dk dv uq uk uv := by
  unfold kerAll refAll
  rw [kerProj_eq_refProj x wq bq dq uq hx hwq hbq hdq huq, kerProj_eq_refProj x wk bk dk uk hx hwk hbk hdk huk,
    kerProj_eq_refProj x wv bv dv uv hx hwv hbv hdv huv, kerScore_eq_refScore]

end Cert.Spec

end
-- ==== Proof.LibOnlineSoftmax.lean ====
/-
  The softmax-weighted sum of a row, accumulated one block of scores at a time.

  A row of n·d scores S and values V is read in n blocks of d.  After each block three numbers are kept: the largest
  score so far (runMax), the sum of exp (score − runMax) over the scores so far (runDen) and the sum of
  exp (score − runMax) · value (runNum).  When a new block raises the maximum from m to m', what was accumulated is
  rescaled by exp (m − m'), because exp (s − m) · exp (m − m') = exp (s − m').  For real scores and values the
  quotient runNum / runDen after the last block is the softmax-weighted sum of the whole row: the common factor
  exp (−runMax) cancels between numerator and denominator.  Before the first block the maximum is −∞, and
  exp (−∞ − m') = 0 wipes the (zero) accumulators, so the first block needs no special case.
-/
import proofs.«122623_j15204184228289_2_alg».proof.Proof.LibSoftmaxRow

noncomputable section

namespace Cert.Attn.Online

open Idealize.ShloMosaic Cert.Lib.SoftmaxRow

/-- The largest of the d scores of block n (−∞ for an empty block). -/
def blockMax (d : ℕ) (S : ℕ → EReal) (n : ℕ) : EReal :=
  (Finset.univ : Finset (Fin d)).fold max ⊥ (fun j => S (n * d + j.val))

/-- The largest score among the first n blocks. -/
def runMax (d : ℕ) (S : ℕ → EReal) : ℕ → EReal
  | 0 => ⊥
  | n + 1 => max (runMax d S n) (blockMax d S n)

/-- The running denominator after n blocks. -/
def runDen (d : ℕ) (S : ℕ → EReal) : ℕ → EReal
  | 0 => 0
  | n + 1 => Ideal.exp (runMax d S n - runMax d S (n + 1)) * runDen d S n
      + ∑ j : Fin d, Ideal.exp (S (n * d + j.val) - runMax d S (n + 1))

/-- The running numerator after n blocks. -/
def runNum (d : ℕ) (S V : ℕ → EReal) : ℕ → EReal
  | 0 => 0
  | n + 1 => Ideal.exp (runMax d S n - runMax d S (n + 1)) * runNum d S V n
      + ∑ j : Fin d, Ideal.exp (S (n * d + j.val) - runMax d S (n + 1)) * V (n * d + j.val)

/-- A fold of max from −∞ over a non-empty family of real numbers is a real number: it stays below +∞ because every
    entry does, and it is above −∞ because one entry is. -/
theorem fold_max_real {ι : Type*} (t : Finset ι) (ht : t.Nonempty) (f : ι → EReal)
    (hf : ∀ i, ∃ r : ℝ, f i = r) : ∃ r : ℝ, t.fold max ⊥ f = r := by
  obtain ⟨x, hx⟩ := ht
  refine Cert.Lib.RealSums.exists_real (ne_of_lt ?_) (ne_of_gt ?_)
  · refine (Finset.fold_max_lt _).mpr ⟨bot_lt_top, fun y _ => ?_⟩
    obtain ⟨r, hr⟩ := hf y; rw [hr]; exact EReal.coe_lt_top r
  · refine (Finset.lt_fold_max _).mpr (Or.inr ⟨x, hx, ?_⟩)
    obtain ⟨r, hr⟩ := hf x; rw [hr]; exact EReal.bot_lt_coe r

/-- The largest score of a non-empty block of real scores is real. -/
theorem blockMax_real (d : ℕ) (hd : 0 < d) (S : ℕ → EReal) (hS : ∀ J, ∃ r : ℝ, S J = r) (n : ℕ) :
    ∃ r : ℝ, blockMax d S n = r := by
  haveI : Nonempty (Fin d) := ⟨⟨0, hd⟩⟩
  exact fold_max_real _ Finset.univ_nonempty _ fun j => hS _

/-- After at least one non-empty block of real scores the running maximum is real. -/
theorem runMax_succ_real (d : ℕ) (hd : 0 < d) (S : ℕ → EReal) (hS : ∀ J, ∃ r : ℝ, S J = r) (n : ℕ) :
    ∃ r : ℝ, runMax d S (n + 1) = r := by
  induction n with
  | zero =>
    obtain ⟨b, hb⟩ := blockMax_real d hd S hS 0
    exact ⟨b, by show max ⊥ (blockMax d S 0) = _; rw [hb]; exact max_eq_right bot_le⟩
  | succ n ih =>
    obtain ⟨a, ha⟩ := ih
    obtain ⟨b, hb⟩ := blockMax_real d hd S hS (n + 1)
    show ∃ r : ℝ, max (runMax d S (n + 1)) (blockMax d S (n + 1)) = r
    rcases max_choice (runMax d S (n + 1)) (blockMax d S (n + 1)) with h | h
    · exact ⟨a, h.trans ha⟩
    · exact ⟨b, h.trans hb⟩

/-- The invariant of the accumulation. Rescaled from its own running maximum to ANY real level m', the running
    numerator after n blocks is the sum of exp (score − m') · value over the n·d scores read so far. Before the first
    block both sides are 0 (the accumulator is 0, the sum is empty), whatever the factor; at each later block the
    running maximum m₁ is real, the old accumulator rescaled to m₁ is the sum over the old scores (the induction
    hypothesis at level m₁), the new block adds its own terms at level m₁, and exp (m₁ − m') carries the whole sum to
    level m'. -/
theorem runNum_rescaled (d : ℕ) (hd : 0 < d) (S V : ℕ → EReal) (s v : ℕ → ℝ)
    (hs : ∀ J, S J = s J) (hv : ∀ J, V J = v J) (n : ℕ) (m' : ℝ) :
    Ideal.exp (runMax d S n - (m' : EReal)) * runNum d S V n
      = ((∑ J ∈ Finset.range (n * d), Real.exp (s J - m') * v J : ℝ) : EReal) := by
  induction n generalizing m' with
  | zero =>
    show _ * (0 : EReal) = _
    rw [mul_zero, Nat.zero_mul, Finset.range_zero, Finset.sum_empty, EReal.coe_zero]
  | succ n ih =>
    obtain ⟨m₁, hm₁⟩ := runMax_succ_real d hd S (fun J => ⟨s J, hs J⟩) n
    have hstep : runNum d S V (n + 1)
        = ((∑ J ∈ Finset.range ((n + 1) * d), Real.exp (s J - m₁) * v J : ℝ) : EReal) := by
      show Ideal.exp (runMax d S n - runMax d S (n + 1)) * runNum d S V n
        + ∑ j : Fin d, Ideal.exp (S (n * d + j.val) - runMax d S (n + 1)) * V (n * d + j.val) = _
      rw [hm₁, ih m₁]
      have hterm : ∀ j ∈ (Finset.univ : Finset (Fin d)),
          Ideal.exp (S (n * d + j.val) - (m₁ : EReal)) * V (n * d + j.val)
            = ((Real.exp (s (n * d + j.val) - m₁) * v (n * d + j.val) : ℝ) : EReal) := by
        intro j _; rw [hs, hv, ← EReal.coe_sub, Ideal.exp_coe, ← EReal.coe_mul]
      rw [Finset.sum_congr rfl hterm, ← Cert.Lib.RealSums.coe_sum, ← EReal.coe_add]
      refine congrArg _ ?_
      rw [Nat.succ_mul, Finset.sum_range_add,
        Fin.sum_univ_eq_sum_range (fun j => Real.exp (s (n * d + j) - m₁) * v (n * d + j)) d]
    rw [hstep, hm₁, ← EReal.coe_sub, Ideal.exp_coe, ← EReal.coe_mul]
    refine congrArg _ ?_
    rw [Finset.mul_sum]
    refine Finset.sum_congr rfl fun J _ => ?_
    rw [← mul_assoc, ← Real.exp_add]
    congr 2; ring

/-- At its own running maximum m the running numerator is the sum of exp (score − m) · value. -/
theorem runNum_eq (d : ℕ) (hd : 0 < d) (S V : ℕ → EReal) (s v : ℕ → ℝ)
    (hs : ∀ J, S J = s J) (hv : ∀ J, V J = v J) (n : ℕ) (m : ℝ) (hm : runMax d S n = m) :
    runNum d S V n = ((∑ J ∈ Finset.range (n * d), Real.exp (s J - m) * v J : ℝ) : EReal) := by
  have h := runNum_rescaled d hd S V s v hs hv n m
  rw [hm, ← EReal.coe_sub, sub_self, Ideal.exp_coe, Real.exp_zero, EReal.coe_one, one_mul] at h
  exact h

/-- The running denominator is the running numerator of the constant values 1. -/
theorem runDen_eq_runNum_one (d : ℕ) (S : ℕ → EReal) (n : ℕ) :
    runDen d S n = runNum d S (fun _ => (1 : EReal)) n := by
  induction n with
  | zero => rfl
  | succ n ih =>
    show Ideal.exp (runMax d S n - runMax d S (n + 1)) * runDen d S n
        + ∑ j : Fin d, Ideal.exp (S (n * d + j.val) - runMax d S (n + 1))
      = Ideal.exp (runMax d S n - runMax d S (n + 1)) * runNum d S (fun _ => (1 : EReal)) n
        + ∑ j : Fin d, Ideal.exp (S (n * d + j.val) - runMax d S (n + 1)) * (1 : EReal)
    rw [ih]
    refine congrArg _ (Finset.sum_congr rfl fun j _ => (mul_one _).symm)

/-- At its own running maximum m the running denominator is the sum of exp (score − m). -/
theorem runDen_eq (d : ℕ) (hd : 0 < d) (S : ℕ → EReal) (s : ℕ → ℝ)
    (hs : ∀ J, S J = s J) (n : ℕ) (m : ℝ) (hm : runMax d S n = m) :
    runDen d S n = ((∑ J ∈ Finset.range (n * d), Real.exp (s J - m) : ℝ) : EReal) := by
  rw [runDen_eq_runNum_one,
    runNum_eq d hd S (fun _ => (1 : EReal)) s (fun _ => 1) hs (fun _ => EReal.coe_one.symm) n m hm]
  refine congrArg _ (Finset.sum_congr rfl fun J _ => mul_one _)

/-- The softmax weights do not depend on the level the scores are measured from: exp (s − c) = exp s · exp (−c), and
    the factor exp (−c) cancels between a weight's numerator and the normalising sum. -/
theorem shift_quot (K : ℕ) (s v : ℕ → ℝ) (c : ℝ) :
    ∑ J ∈ Finset.range K, Real.exp (s J - c) * (1 / ∑ k ∈ Finset.range K, Real.exp (s k - c)) * v J
      = (∑ J ∈ Finset.range K, Real.exp (s J) * v J) / ∑ J ∈ Finset.range K, Real.exp (s J) := by
  have h1 : ∀ J, Real.exp (s J - c) = Real.exp (s J) * Real.exp (-c) := fun J => by
    rw [← Real.exp_add, sub_eq_add_neg]
  have he : Real.exp (-c) ≠ 0 := (Real.exp_pos _).ne'
  simp only [h1]
  rw [← Finset.sum_mul, Finset.sum_div]
  refine Finset.sum_congr rfl fun J _ => ?_
  have hc : Real.exp (-c) * (1 / ((∑ k ∈ Finset.range K, Real.exp (s k)) * Real.exp (-c)))
      = (∑ k ∈ Finset.range K, Real.exp (s k))⁻¹ := by
    rw [one_div, mul_inv, mul_comm _ (Real.exp (-c))⁻¹, ← mul_assoc, mul_inv_cancel₀ he, one_mul]
  rw [mul_assoc (Real.exp (s J)), hc, div_eq_mul_inv]
  ring

/-- For real scores and values, the quotient of the running numerator by the running denominator after n ≥ 1
    non-empty blocks is the softmax-weighted sum of the values over the whole row. -/
theorem online_eq_softmax (d n : ℕ) (hd : 0 < d) (hn : 0 < n) (S V : ℕ → EReal)
    (hS : ∀ J, ∃ r : ℝ, S J = r) (hV : ∀ J, ∃ r : ℝ, V J = r) :
    Ideal.div (runNum d S V n) (runDen d S n)
      = ∑ J : Fin (n * d), softmaxRow (fun K : Fin (n * d) => S K.val) J * V J.val := by
  choose s hs using hS
  choose v hv using hV
  have hK : 0 < n * d := Nat.mul_pos hn hd
  -- the running maximum after n ≥ 1 blocks is a real number m; numerator and denominator are real sums at level m
  obtain ⟨m, hm⟩ : ∃ m : ℝ, runMax d S n = m := by
    obtain ⟨k, rfl⟩ := Nat.exists_eq_succ_of_ne_zero hn.ne'
    exact runMax_succ_real d hd S (fun J => ⟨s J, hs J⟩) k
  rw [runNum_eq d hd S V s v hs hv n m hm, runDen_eq d hd S s hs n m hm]
  have hDpos : 0 < ∑ J ∈ Finset.range (n * d), Real.exp (s J - m) :=
    Finset.sum_pos (fun J _ => Real.exp_pos _) (Finset.nonempty_range_iff.mpr hK.ne')
  rw [Ideal.div_coe hDpos.ne', ← EReal.coe_mul]
  -- the maximum of the whole row is a real number c; every softmax weight is a real quotient at level c
  obtain ⟨c, hc⟩ : ∃ c : ℝ, rowMax (fun K : Fin (n * d) => S K.val) = c := by
    haveI : Nonempty (Fin (n * d)) := ⟨⟨0, hK⟩⟩
    exact fold_max_real _ Finset.univ_nonempty _ fun K => ⟨s K.val, hs K.val⟩
  have hE : ∀ k : Fin (n * d), Ideal.exp (S k.val - (c : EReal)) = ((Real.exp (s k.val - c) : ℝ) : EReal) :=
    fun k => by rw [hs, ← EReal.coe_sub, Ideal.exp_coe]
  have hsum : ∑ k : Fin (n * d), Ideal.exp (S k.val - (c : EReal))
      = ((∑ k ∈ Finset.range (n * d), Real.exp (s k - c) : ℝ) : EReal) := by
    rw [← Fin.sum_univ_eq_sum_range (fun k => Real.exp (s k - c)) (n * d), Cert.Lib.RealSums.coe_sum]
    exact Finset.sum_congr rfl fun k _ => hE k
  have hD'pos : 0 < ∑ k ∈ Finset.range (n * d), Real.exp (s k - c) :=
    Finset.sum_pos (fun J _ => Real.exp_pos _) (Finset.nonempty_range_iff.mpr hK.ne')
  have hrow : ∀ J ∈ (Finset.univ : Finset (Fin (n * d))),
      softmaxRow (fun K : Fin (n * d) => S K.val) J * V J.val
        = ((Real.exp (s J.val - c) * (1 / ∑ k ∈ Finset.range (n * d), Real.exp (s k - c)) * v J.val : ℝ) : EReal) := by
    intro J _
    show Ideal.div (Ideal.exp (S J.val - rowMax (fun K : Fin (n * d) => S K.val)))
        (∑ k : Fin (n * d), Ideal.exp (S k.val - rowMax (fun K : Fin (n * d) => S K.val))) * V J.val = _
    rw [hc, hsum, hE J, Ideal.div_coe hD'pos.ne', hv, ← EReal.coe_mul, ← EReal.coe_mul]
  rw [Finset.sum_congr rfl hrow, ← Cert.Lib.RealSums.coe_sum]
  refine congrArg _ ?_
  -- in ℝ: both sides are the quotient of ∑ exp s · v by ∑ exp s
  rw [Fin.sum_univ_eq_sum_range
      (fun J => Real.exp (s J - c) * (1 / ∑ k ∈ Finset.range (n * d), Real.exp (s k - c)) * v J) (n * d),
    shift_quot (n * d) s v c, ← shift_quot (n * d) s v m, Finset.sum_mul]
  refine Finset.sum_congr rfl fun J _ => ?_
  ring

end Cert.Attn.Online

end
-- ==== Proof.LibCausalFlash.lean ====
/-
  Causal attention for one query row, accumulated one block of keys at a time.

  A row of scores is read in n blocks of d; a score is a real number, or −∞ where the key is masked. Three numbers are
  kept from block to block: the largest score so far (−∞ before the first block), the sum of exp (score − largest) so
  far, and the sum of exp (score − largest) · value so far; when a block raises the largest score from m to m', what
  was accumulated is rescaled by exp (m − m'). A masked score contributes exp (−∞ − m') = 0 to both sums. If the very
  first score is real, the largest score is real from the first block on, and the quotient of the two sums after the
  last block is the softmax-weighted sum of the values over a row of ANY length N ≥ n·d whose entries past the blocks
  read are all masked: those entries add 0 to the normalising sum and 0 to the weighted sum, and the common factor
  exp (−largest) cancels in the quotient.
-/
import proofs.«122623_j15204184228289_2_alg».proof.Proof.LibOnlineSoftmax

noncomputable section

namespace Attn.CausalFlash

open Idealize.ShloMosaic Cert.Lib.SoftmaxRow Cert.Attn.Online

/-- exp (x − m) as a real number, for x a real number or −∞: it is 0 at −∞. -/
def ew (x : EReal) (m : ℝ) : ℝ := if x = ⊥ then 0 else Real.exp (x.toReal - m)

theorem ew_bot (m : ℝ) : ew ⊥ m = 0 := if_pos rfl

theorem ew_coe (r m : ℝ) : ew (r : EReal) m = Real.exp (r - m) := by
  unfold ew; rw [if_neg (EReal.coe_ne_bot r), EReal.toReal_coe]

/-- On a real number or −∞ the extended exponential of x − m is the real number ew x m. -/
theorem exp_sub_coe {x : EReal} (hx : x = ⊥ ∨ ∃ r : ℝ, x = r) (m : ℝ) :
    Ideal.exp (x - (m : EReal)) = ((ew x m : ℝ) : EReal) := by
  rcases hx with rfl | ⟨r, rfl⟩
  · rw [EReal.bot_sub, Ideal.exp_bot, ew_bot, EReal.coe_zero]
  · rw [← EReal.coe_sub, Ideal.exp_coe, ew_coe]

/-- Moving the level from m₁ to m' multiplies by exp (m₁ − m'). -/
theorem ew_mul (x : EReal) (m₁ m' : ℝ) : ew x m₁ * Real.exp (m₁ - m') = ew x m' := by
  unfold ew
  split_ifs
  · exact zero_mul _
  · rw [← Real.exp_add]; congr 1; ring

theorem ew_nonneg (x : EReal) (m : ℝ) : 0 ≤ ew x m := by
  unfold ew; split_ifs
  · exact le_refl _
  · exact (Real.exp_pos _).le

theorem ew_pos {x : EReal} (hx : ∃ r : ℝ, x = r) (m : ℝ) : 0 < ew x m := by
  obtain ⟨r, rfl⟩ := hx; rw [ew_coe]; exact Real.exp_pos _

/-- A real number or −∞ is below +∞. -/
theorem lt_top_of {x : EReal} (hx : x = ⊥ ∨ ∃ r : ℝ, x = r) : x < ⊤ := by
  rcases hx with rfl | ⟨r, rfl⟩
  · exact bot_lt_top
  · exact EReal.coe_lt_top r

/-- The largest score among the first n blocks is below +∞. -/
theorem runMax_lt_top (d : ℕ) (S : ℕ → EReal) (hS : ∀ J, S J = ⊥ ∨ ∃ r : ℝ, S J = r) (n : ℕ) :
    runMax d S n < ⊤ := by
  induction n with
  | zero => exact bot_lt_top
  | succ n ih =>
    show max (runMax d S n) (blockMax d S n) < ⊤
    exact max_lt ih ((Finset.fold_max_lt _).mpr ⟨bot_lt_top, fun j _ => lt_top_of (hS _)⟩)

/-- If the first score is real, the largest score after at least one non-empty block is real. -/
theorem runMax_succ_real (d : ℕ) (hd : 0 < d) (S : ℕ → EReal) (hS : ∀ J, S J = ⊥ ∨ ∃ r : ℝ, S J = r)
    (h0 : ∃ r : ℝ, S 0 = r) (n : ℕ) : ∃ r : ℝ, runMax d S (n + 1) = r := by
  refine Cert.Lib.RealSums.exists_real (ne_of_lt (runMax_lt_top d S hS (n + 1))) (ne_of_gt ?_)
  induction n with
  | zero =>
    show ⊥ < max (runMax d S 0) (blockMax d S 0)
    refine lt_max_of_lt_right ((Finset.lt_fold_max _).mpr (Or.inr ⟨⟨0, hd⟩, Finset.mem_univ _, ?_⟩))
    obtain ⟨r, hr⟩ := h0
    show ⊥ < S (0 * d + 0)
    rw [Nat.zero_mul, Nat.add_zero, hr]; exact EReal.bot_lt_coe r
  | succ n ih => exact lt_max_of_lt_left ih

/-- The invariant of the accumulation with masked scores. Rescaled from its own largest score to ANY real level m',
    the weighted sum after n blocks is the sum of ew (score) m' · value over the n·d scores read so far. -/
theorem runNum_rescaled (d : ℕ) (hd : 0 < d) (S V : ℕ → EReal) (v : ℕ → ℝ)
    (hS : ∀ J, S J = ⊥ ∨ ∃ r : ℝ, S J = r) (h0 : ∃ r : ℝ, S 0 = r) (hv : ∀ J, V J = v J) (n : ℕ) (m' : ℝ) :
    Ideal.exp (runMax d S n - (m' : EReal)) * runNum d S V n
      = ((∑ J ∈ Finset.range (n * d), ew (S J) m' * v J : ℝ) : EReal) := by
  induction n generalizing m' with
  | zero =>
    show _ * (0 : EReal) = _
    rw [mul_zero, Nat.zero_mul, Finset.range_zero, Finset.sum_empty, EReal.coe_zero]
  | succ n ih =>
    obtain ⟨m₁, hm₁⟩ := runMax_succ_real d hd S hS h0 n
    have hstep : runNum d S V (n + 1)
        = ((∑ J ∈ Finset.range ((n + 1) * d), ew (S J) m₁ * v J : ℝ) : EReal) := by
      show Ideal.exp (runMax d S n - runMax d S (n + 1)) * runNum d S V n
        + ∑ j : Fin d, Ideal.exp (S (n * d + j.val) - runMax d S (n + 1)) * V (n * d + j.val) = _
      rw [hm₁, ih m₁]
      have hterm : ∀ j ∈ (Finset.univ : Finset (Fin d)),
          Ideal.exp (S (n * d + j.val) - (m₁ : EReal)) * V (n * d + j.val)
            = ((ew (S (n * d + j.val)) m₁ * v (n * d + j.val) : ℝ) : EReal) := by
        intro j _; rw [exp_sub_coe (hS _), hv, ← EReal.coe_mul]
      rw [Finset.sum_congr rfl hterm, ← Cert.Lib.RealSums.coe_sum, ← EReal.coe_add]
      refine congrArg _ ?_
      rw [Nat.succ_mul, Finset.sum_range_add,
        Fin.sum_univ_eq_sum_range (fun j => ew (S (n * d + j)) m₁ * v (n * d + j)) d]
    rw [hstep, hm₁, ← EReal.coe_sub, Ideal.exp_coe, ← EReal.coe_mul]
    refine congrArg _ ?_
    rw [Finset.mul_sum]
    refine Finset.sum_congr rfl fun J _ => ?_
    rw [← mul_assoc, mul_comm (Real.exp _), ew_mul]

/-- At its own largest score m the weighted sum is the sum of ew (score) m · value. -/
theorem runNum_eq (d : ℕ) (hd : 0 < d) (S V : ℕ → EReal) (v : ℕ → ℝ)
    (hS : ∀ J, S J = ⊥ ∨ ∃ r : ℝ, S J = r) (h0 : ∃ r : ℝ, S 0 = r) (hv : ∀ J, V J = v J)
    (n : ℕ) (m : ℝ) (hm : runMax d S n = m) :
    runNum d S V n = ((∑ J ∈ Finset.range (n * d), ew (S J) m * v J : ℝ) : EReal) := by
  have h := runNum_rescaled d hd S V v hS h0 hv n m
  rw [hm, ← EReal.coe_sub, sub_self, Ideal.exp_coe, Real.exp_zero, EReal.coe_one, one_mul] at h
  exact h

/-- At its own largest score m the normalising sum is the sum of ew (score) m. -/
theorem runDen_eq (d : ℕ) (hd : 0 < d) (S : ℕ → EReal)
    (hS : ∀ J, S J = ⊥ ∨ ∃ r : ℝ, S J = r) (h0 : ∃ r : ℝ, S 0 = r)
    (n : ℕ) (m : ℝ) (hm : runMax d S n = m) :
    runDen d S n = ((∑ J ∈ Finset.range (n * d), ew (S J) m : ℝ) : EReal) := by
  rw [runDen_eq_runNum_one,
    runNum_eq d hd S (fun _ => (1 : EReal)) (fun _ => 1) hS h0 (fun _ => EReal.coe_one.symm) n m hm]
  refine congrArg _ (Finset.sum_congr rfl fun J _ => mul_one _)

/-- Softmax weights do not depend on the level: with every weight multiplied by the same nonzero k, the factor
    cancels between a weight and the normalising sum. -/
theorem scale_quot (K : ℕ) (e v : ℕ → ℝ) (k : ℝ) (hk : k ≠ 0) :
    ∑ J ∈ Finset.range K, (e J * k) * (1 / ∑ i ∈ Finset.range K, e i * k) * v J
      = (∑ J ∈ Finset.range K, e J * v J) / ∑ J ∈ Finset.range K, e J := by
  rw [← Finset.sum_mul, Finset.sum_div]
  refine Finset.sum_congr rfl fun J _ => ?_
  have hc : k * (1 / ((∑ i ∈ Finset.range K, e i) * k)) = (∑ i ∈ Finset.range K, e i)⁻¹ := by
    rw [one_div, mul_inv, mul_comm _ k⁻¹, ← mul_assoc, mul_inv_cancel₀ hk, one_mul]
  rw [mul_assoc (e J), hc, div_eq_mul_inv]
  ring

/-- With masked scores allowed and the first score real: the quotient of the weighted sum by the normalising sum after
    n ≥ 1 non-empty blocks is the softmax-weighted sum of the values over a row of N ≥ n·d entries that continues the
    scores read with masked entries. -/
theorem online_eq_softmax_masked (d n N : ℕ) (hd : 0 < d) (hn : 0 < n) (hN : n * d ≤ N) (S V : ℕ → EReal)
    (hS : ∀ J, S J = ⊥ ∨ ∃ r : ℝ, S J = r) (h0 : ∃ r : ℝ, S 0 = r) (hV : ∀ J, ∃ r : ℝ, V J = r) :
    Ideal.div (runNum d S V n) (runDen d S n)
      = ∑ c : Fin N, softmaxRow (fun k : Fin N => if k.val < n * d then S k.val else ⊥) c * V c.val := by
  choose v hv using hV
  have hK : 0 < n * d := Nat.mul_pos hn hd
  obtain ⟨m, hm⟩ : ∃ m : ℝ, runMax d S n = m := by
    obtain ⟨k, rfl⟩ := Nat.exists_eq_succ_of_ne_zero hn.ne'
    exact runMax_succ_real d hd S hS h0 k
  rw [runNum_eq d hd S V v hS h0 hv n m hm, runDen_eq d hd S hS h0 n m hm]
  have hpos : ∀ x : ℝ, 0 < ∑ J ∈ Finset.range (n * d), ew (S J) x := fun x =>
    Finset.sum_pos' (fun J _ => ew_nonneg _ _) ⟨0, Finset.mem_range.mpr hK, ew_pos h0 x⟩
  rw [Ideal.div_coe (hpos m).ne', ← EReal.coe_mul]
  -- the padded row, on the naturals
  have hT : ∀ J : ℕ, (if J < n * d then S J else ⊥) = ⊥ ∨ ∃ r : ℝ, (if J < n * d then S J else ⊥) = r := by
    intro J; split_ifs
    · exact hS J
    · exact Or.inl rfl
  have hpad : ∀ (x : ℝ) (J : ℕ), ew (if J < n * d then S J else ⊥) x = if J < n * d then ew (S J) x else 0 := by
    intro x J; split_ifs
    · rfl
    · exact ew_bot x
  -- its maximum is a real number c
  obtain ⟨c, hc⟩ : ∃ c : ℝ, rowMax (fun k : Fin N => if k.val < n * d then S k.val else ⊥) = c := by
    refine Cert.Lib.RealSums.exists_real (ne_of_lt ?_) (ne_of_gt ?_)
    · exact (Finset.fold_max_lt _).mpr ⟨bot_lt_top, fun k _ => lt_top_of (hT k.val)⟩
    · refine (Finset.lt_fold_max _).mpr (Or.inr ⟨⟨0, lt_of_lt_of_le hK hN⟩, Finset.mem_univ _, ?_⟩)
      obtain ⟨r, hr⟩ := h0
      show ⊥ < if 0 < n * d then S 0 else ⊥
      rw [if_pos hK, hr]; exact EReal.bot_lt_coe r
  have hE : ∀ k : Fin N, Ideal.exp ((if k.val < n * d then S k.val else ⊥) - (c : EReal))
      = ((ew (if k.val < n * d then S k.val else ⊥) c : ℝ) : EReal) := fun k => exp_sub_coe (hT k.val) c
  have hsum : ∑ k : Fin N, Ideal.exp ((if k.val < n * d then S k.val else ⊥) - (c : EReal))
      = ((∑ J ∈ Finset.range (n * d), ew (S J) c : ℝ) : EReal) := by
    rw [Finset.sum_congr rfl fun k _ => hE k, ← Cert.Lib.RealSums.coe_sum]
    refine congrArg _ ?_
    rw [Fin.sum_univ_eq_sum_range (fun J => ew (if J < n * d then S J else ⊥) c) N,
      Finset.sum_congr rfl fun J _ => hpad c J]
    exact Cert.Lib.RealSums.sum_range_pad hN _
  have hrow : ∀ J ∈ (Finset.univ : Finset (Fin N)),
      softmaxRow (fun k : Fin N => if k.val < n * d then S k.val else ⊥) J * V J.val
        = (((if J.val < n * d then ew (S J.val) c * (1 / ∑ i ∈ Finset.range (n * d), ew (S i) c) * v J.val else 0 : ℝ)) : EReal) := by
    intro J _
    show Ideal.div (Ideal.exp ((if J.val < n * d then S J.val else ⊥) - rowMax _))
        (∑ k : Fin N, Ideal.exp ((if k.val < n * d then S k.val else ⊥) - rowMax _)) * V J.val = _
    rw [hc, hsum, hE J, Ideal.div_coe (hpos c).ne', hv, ← EReal.coe_mul, ← EReal.coe_mul, hpad]
    refine congrArg _ ?_
    split_ifs
    · rfl
    · rw [zero_mul, zero_mul]
  rw [Finset.sum_congr rfl hrow, ← Cert.Lib.RealSums.coe_sum]
  refine congrArg _ ?_
  rw [Fin.sum_univ_eq_sum_range
      (fun J => if J < n * d then ew (S J) c * (1 / ∑ i ∈ Finset.range (n * d), ew (S i) c) * v J else 0) N,
    Cert.Lib.RealSums.sum_range_pad hN]
  -- in ℝ: at any level x the weighted quotient is the one at level 0
  have key : ∀ x : ℝ, ∑ J ∈ Finset.range (n * d), ew (S J) x * (1 / ∑ i ∈ Finset.range (n * d), ew (S i) x) * v J
      = (∑ J ∈ Finset.range (n * d), ew (S J) 0 * v J) / ∑ J ∈ Finset.range (n * d), ew (S J) 0 := by
    intro x
    have h1 : ∀ J, ew (S J) x = ew (S J) 0 * Real.exp (0 - x) := fun J => (ew_mul _ 0 x).symm
    rw [Finset.sum_congr rfl fun i _ => h1 i]
    rw [Finset.sum_congr rfl fun J _ => by rw [h1 J]]
    exact scale_quot (n * d) (fun J => ew (S J) 0) v (Real.exp (0 - x)) (Real.exp_pos _).ne'
  rw [key c, ← key m, Finset.sum_mul]
  refine Finset.sum_congr rfl fun J _ => ?_
  ring

/-- The same for three sequences m, l, acc known only through their recurrence: m starts at −∞ and takes the larger of
    itself and the block's largest score; l and acc start at 0, are rescaled by exp (m − m') and gain the block's
    sum of exp (score − m'), respectively of exp (score − m') · value. -/
theorem flash_row (d n N : ℕ) (hd : 0 < d) (hn : 0 < n) (hN : n * d ≤ N) (S V : ℕ → EReal)
    (hS : ∀ J, S J = ⊥ ∨ ∃ r : ℝ, S J = r) (h0 : ∃ r : ℝ, S 0 = r) (hV : ∀ J, ∃ r : ℝ, V J = r)
    (m l acc : ℕ → EReal) (hm0 : m 0 = ⊥) (hl0 : l 0 = 0) (ha0 : acc 0 = 0)
    (hm : ∀ b, b < n → m (b + 1)
      = max (m b) ((Finset.univ : Finset (Fin d)).fold max ⊥ (fun j => S (b * d + j.val))))
    (hl : ∀ b, b < n → l (b + 1)
      = Ideal.exp (m b - m (b + 1)) * l b + (0 + ∑ j : Fin d, Ideal.exp (S (b * d + j.val) - m (b + 1))))
    (hacc : ∀ b, b < n → acc (b + 1)
      = Ideal.exp (m b - m (b + 1)) * acc b
        + ∑ j : Fin d, Ideal.exp (S (b * d + j.val) - m (b + 1)) * V (b * d + j.val)) :
    Ideal.div (acc n) (l n)
      = ∑ c : Fin N, softmaxRow (fun k : Fin N => if k.val < n * d then S k.val else ⊥) c * V c.val := by
  have hall : ∀ b, b ≤ n → m b = runMax d S b ∧ l b = runDen d S b ∧ acc b = runNum d S V b := by
    intro b
    induction b with
    | zero => exact fun _ => ⟨hm0, hl0, ha0⟩
    | succ b ih =>
      intro hb
      obtain ⟨e1, e2, e3⟩ := ih (Nat.le_of_succ_le hb)
      have e1' : m (b + 1) = runMax d S (b + 1) := by rw [hm b hb, e1]; rfl
      refine ⟨e1', ?_, ?_⟩
      · rw [hl b hb, e1', e1, e2, zero_add]; rfl
      · rw [hacc b hb, e1', e1, e3]; rfl
  obtain ⟨_, e2, e3⟩ := hall n (le_refl n)
  rw [e2, e3]
  exact online_eq_softmax_masked d n N hd hn hN S V hS h0 hV

/-- A row of N entries continued past its end: by −∞ for scores, by 0 for values. -/
def padBot {N : ℕ} (T : Fin N → EReal) (J : ℕ) : EReal := if h : J < N then T ⟨J, h⟩ else ⊥
def padZero {N : ℕ} (W : Fin N → EReal) (J : ℕ) : EReal := if h : J < N then W ⟨J, h⟩ else 0

theorem padBot_val {N : ℕ} (T : Fin N → EReal) (c : Fin N) : padBot T c.val = T c := dif_pos c.isLt
theorem padZero_val {N : ℕ} (W : Fin N → EReal) (c : Fin N) : padZero W c.val = W c := dif_pos c.isLt

/-- The recurrence run over a row T of N scores (real or masked, the first real, all masked from position n·d on) and a
    row W of N real values, both read through their continuations: the quotient is the softmax of T weighted by W. -/
theorem flash_row_fin (d n N : ℕ) (hd : 0 < d) (hn : 0 < n) (hN : n * d ≤ N) (T W : Fin N → EReal)
    (hT : ∀ c, T c = ⊥ ∨ ∃ r : ℝ, T c = r) (hT0 : ∃ r : ℝ, padBot T 0 = r)
    (hmask : ∀ c : Fin N, n * d ≤ c.val → T c = ⊥) (hW : ∀ c, ∃ r : ℝ, W c = r)
    (m l acc : ℕ → EReal) (hm0 : m 0 = ⊥) (hl0 : l 0 = 0) (ha0 : acc 0 = 0)
    (hm : ∀ b, b < n → m (b + 1)
      = max (m b) ((Finset.univ : Finset (Fin d)).fold max ⊥ (fun j => padBot T (b * d + j.val))))
    (hl : ∀ b, b < n → l (b + 1)
      = Ideal.exp (m b - m (b + 1)) * l b + (0 + ∑ j : Fin d, Ideal.exp (padBot T (b * d + j.val) - m (b + 1))))
    (hacc : ∀ b, b < n → acc (b + 1)
      = Ideal.exp (m b - m (b + 1)) * acc b
        + ∑ j : Fin d, Ideal.exp (padBot T (b * d + j.val) - m (b + 1)) * padZero W (b * d + j.val)) :
    Ideal.div (acc n) (l n) = ∑ c : Fin N, softmaxRow T c * W c := by
  have hS : ∀ J, padBot T J = ⊥ ∨ ∃ r : ℝ, padBot T J = r := by
    intro J; unfold padBot; split_ifs
    · exact hT _
    · exact Or.inl rfl
  have hV : ∀ J, ∃ r : ℝ, padZero W J = r := by
    intro J; unfold padZero; split_ifs
    · exact hW _
    · exact ⟨0, EReal.coe_zero.symm⟩
  rw [flash_row d n N hd hn hN (padBot T) (padZero W) hS hT0 hV m l acc hm0 hl0 ha0 hm hl hacc]
  have hrow : (fun k : Fin N => if k.val < n * d then padBot T k.val else ⊥) = T := by
    funext k
    split_ifs with h
    · exact padBot_val T k
    · exact (hmask k (Nat.le_of_not_lt h)).symm
  rw [hrow]
  exact Finset.sum_congr rfl fun c _ => by rw [padZero_val]

end Attn.CausalFlash

end
-- ==== Proof.SpecEqFlash.lean ====
import proofs.«122623_j15204184228289_2_alg».proof.Proof.LibCausalFlash

/-!
# One query row of 4096 scores read in 8 blocks of 512

The block-by-block recurrence — the largest score so far, the normalising sum so far and the weighted sum so far, what
was accumulated being rescaled by exp (m − m') when a block raises the largest score from m to m' — run over a row of
4096 real scores and 4096 real values, none masked, ends at the softmax of the row weighted by the values. The blocks
tile the row exactly (8 · 512 = 4096), so no entry is left past the blocks read. Stated with the entries indexed in
the row itself, entry j of block b being entry 512 · b + j; a block's sum may be written with or without a leading
zero (a sum started from an empty accumulator).
-/

noncomputable section

namespace Cert.Spec

open Idealize.ShloMosaic Cert.Lib.SoftmaxRow Attn.CausalFlash

/-- Entry j of block b of a row of 4096: position 512 · b + j. -/
theorem padBot_block (T : Fin 4096 → EReal) (b : ℕ) (hb : b < 8) (j : Fin 512) :
    padBot T (b * 512 + j.val) = T ⟨512 * b + j.val, by omega⟩ := by
  have h : b * 512 + j.val < 4096 := by omega
  unfold padBot
  rw [dif_pos h]
  exact congrArg T (Fin.ext (by show b * 512 + j.val = 512 * b + j.val; omega))

theorem padZero_block (W : Fin 4096 → EReal) (b : ℕ) (hb : b < 8) (j : Fin 512) :
    padZero W (b * 512 + j.val) = W ⟨512 * b + j.val, by omega⟩ := by
  have h : b * 512 + j.val < 4096 := by omega
  unfold padZero
  rw [dif_pos h]
  exact congrArg W (Fin.ext (by show b * 512 + j.val = 512 * b + j.val; omega))

/-- The recurrence over 8 blocks of 512 of a real row T weighted by a real row W: the quotient of the weighted sum by
    the normalising sum is the softmax of T weighted by W. Block sums written without a leading zero. -/
theorem flash_4096 (T W : Fin 4096 → EReal) (hT : ∀ c, ∃ r : ℝ, T c = r) (hW : ∀ c, ∃ r : ℝ, W c = r)
    (m l acc : ℕ → EReal) (hm0 : m 0 = ⊥) (hl0 : l 0 = 0) (ha0 : acc 0 = 0)
    (hm : ∀ (b : ℕ) (hb : b < 8), m (b + 1)
      = max (m b) ((Finset.univ : Finset (Fin 512)).fold max ⊥ (fun j => T ⟨512 * b + j.val, by omega⟩)))
    (hl : ∀ (b : ℕ) (hb : b < 8), l (b + 1)
      = Ideal.exp (m b - m (b + 1)) * l b
        + ∑ j : Fin 512, Ideal.exp (T ⟨512 * b + j.val, by omega⟩ - m (b + 1)))
    (hacc : ∀ (b : ℕ) (hb : b < 8), acc (b + 1)
      = Ideal.exp (m b - m (b + 1)) * acc b
        + ∑ j : Fin 512, Ideal.exp (T ⟨512 * b + j.val, by omega⟩ - m (b + 1)) * W ⟨512 * b + j.val, by omega⟩) :
    Ideal.div (acc 8) (l 8) = ∑ t : Fin 4096, softmaxRow T t * W t := by
  refine flash_row_fin 512 8 4096 (by norm_num) (by norm_num) (by norm_num) T W (fun c => Or.inr (hT c))
    ?_ (fun c hc => absurd c.isLt (by omega)) hW m l acc hm0 hl0 ha0 ?_ ?_ ?_
  · obtain ⟨r, hr⟩ := hT ⟨0, by norm_num⟩
    exact ⟨r, by rw [← hr]; exact dif_pos (by norm_num)⟩
  · intro b hb
    rw [hm b hb]
    exact congrArg (fun f : Fin 512 → EReal => max (m b) ((Finset.univ : Finset (Fin 512)).fold max ⊥ f))
      (funext fun j => (padBot_block T b hb j).symm)
  · intro b hb
    rw [hl b hb, zero_add]
    refine congrArg _ (Finset.sum_congr rfl fun j _ => ?_)
    rw [padBot_block T b hb j]
  · intro b hb
    rw [hacc b hb]
    refine congrArg _ (Finset.sum_congr rfl fun j _ => ?_)
    rw [padBot_block T b hb j, padZero_block W b hb j]

/-- The same with both block sums started from zero. -/
theorem flash_4096_zz (T W : Fin 4096 → EReal) (hT : ∀ c, ∃ r : ℝ, T c = r) (hW : ∀ c, ∃ r : ℝ, W c = r)
    (m l acc : ℕ → EReal) (hm0 : m 0 = ⊥) (hl0 : l 0 = 0) (ha0 : acc 0 = 0)
    (hm : ∀ (b : ℕ) (hb : b < 8), m (b + 1)
      = max (m b) ((Finset.univ : Finset (Fin 512)).fold max ⊥ (fun j => T ⟨512 * b + j.val, by omega⟩)))
    (hl : ∀ (b : ℕ) (hb : b < 8), l (b + 1)
      = Ideal.exp (m b - m (b + 1)) * l b
        + (0 + ∑ j : Fin 512, Ideal.exp (T ⟨512 * b + j.val, by omega⟩ - m (b + 1))))
    (hacc : ∀ (b : ℕ) (hb : b < 8), acc (b + 1)
      = Ideal.exp (m b - m (b + 1)) * acc b
        + (0 + ∑ j : Fin 512,
            Ideal.exp (T ⟨512 * b + j.val, by omega⟩ - m (b + 1)) * W ⟨512 * b + j.val, by omega⟩)) :
    Ideal.div (acc 8) (l 8) = ∑ t : Fin 4096, softmaxRow T t * W t :=
  flash_4096 T W hT hW m l acc hm0 hl0 ha0 hm
    (fun b hb => by rw [hl b hb, zero_add]) (fun b hb => by rw [hacc b hb, zero_add])

/-- The same with only the normalising sum's block sums started from zero. -/
theorem flash_4096_zn (T W : Fin 4096 → EReal) (hT : ∀ c, ∃ r : ℝ, T c = r) (hW : ∀ c, ∃ r : ℝ, W c = r)
    (m l acc : ℕ → EReal) (hm0 : m 0 = ⊥) (hl0 : l 0 = 0) (ha0 : acc 0 = 0)
    (hm : ∀ (b : ℕ) (hb : b < 8), m (b + 1)
      = max (m b) ((Finset.univ : Finset (Fin 512)).fold max ⊥ (fun j => T ⟨512 * b + j.val, by omega⟩)))
    (hl : ∀ (b : ℕ) (hb : b < 8), l (b + 1)
      = Ideal.exp (m b - m (b + 1)) * l b
        + (0 + ∑ j : Fin 512, Ideal.exp (T ⟨512 * b + j.val, by omega⟩ - m (b + 1))))
    (hacc : ∀ (b : ℕ) (hb : b < 8), acc (b + 1)
      = Ideal.exp (m b - m (b + 1)) * acc b
        + ∑ j : Fin 512, Ideal.exp (T ⟨512 * b + j.val, by omega⟩ - m (b + 1)) * W ⟨512 * b + j.val, by omega⟩) :
    Ideal.div (acc 8) (l 8) = ∑ t : Fin 4096, softmaxRow T t * W t :=
  flash_4096 T W hT hW m l acc hm0 hl0 ha0 hm (fun b hb => by rw [hl b hb, zero_add]) hacc

/-- The same with only the weighted sum's block sums started from zero. -/
theorem flash_4096_nz (T W : Fin 4096 → EReal) (hT : ∀ c, ∃ r : ℝ, T c = r) (hW : ∀ c, ∃ r : ℝ, W c = r)
    (m l acc : ℕ → EReal) (hm0 : m 0 = ⊥) (hl0 : l 0 = 0) (ha0 : acc 0 = 0)
    (hm : ∀ (b : ℕ) (hb : b < 8), m (b + 1)
      = max (m b) ((Finset.univ : Finset (Fin 512)).fold max ⊥ (fun j => T ⟨512 * b + j.val, by omega⟩)))
    (hl : ∀ (b : ℕ) (hb : b < 8), l (b + 1)
      = Ideal.exp (m b - m (b + 1)) * l b
        + ∑ j : Fin 512, Ideal.exp (T ⟨512 * b + j.val, by omega⟩ - m (b + 1)))
    (hacc : ∀ (b : ℕ) (hb : b < 8), acc (b + 1)
      = Ideal.exp (m b - m (b + 1)) * acc b
        + (0 + ∑ j : Fin 512,
            Ideal.exp (T ⟨512 * b + j.val, by omega⟩ - m (b + 1)) * W ⟨512 * b + j.val, by omega⟩)) :
    Ideal.div (acc 8) (l 8) = ∑ t : Fin 4096, softmaxRow T t * W t :=
  flash_4096 T W hT hW m l acc hm0 hl0 ha0 hm hl (fun b hb => by rw [hacc b hb, zero_add])

end Cert.Spec

end
-- ==== Proof.IAttnFlash.lean ====
import proofs.«122623_j15204184228289_2_alg».proof.Proof.IAttnSteps
import proofs.«122623_j15204184228289_2_alg».proof.Proof.IAttnPay
import proofs.«122623_j15204184228289_2_alg».proof.Proof.SpecEq
import proofs.«122623_j15204184228289_2_alg».proof.Proof.SpecEqFlash

/-!
# Eight key blocks from the start: the softmax-weighted sum of the value rows

For one query row, the running maximum, denominator and weighted sum of a head, read at that row after b key blocks, are
three sequences of extended reals. One key block's update, read at the row, is the step of the block-by-block
recurrence: the maximum takes the larger of itself and the block's largest score, the other two are rescaled by
exp (old maximum − new maximum) and gain the block's sum of exp (score − new maximum), respectively of
exp (score − new maximum) · value. When the same query row meets the eight key and value blocks that tile a row of 4096
real key rows and value rows, the stored quotient is therefore the softmax of the 4096 scores weighting the 4096 values.
-/

set_option maxRecDepth 16384

noncomputable section

namespace Cert.KernelIdeal.AttnFlash

open Cert.KernelIdeal Cert.KernelIdeal.Gen Cert.KernelIdeal.Hand Cert.KernelIdeal.AttnPay
open Idealize.ShloMosaic Idealize.ShloMosaic.ValueIdx
open Cert.Lib.SoftmaxRow (softmaxRow)
open Cert.Lib.Cheb (IsReal)
open scoped BigOperators

/-! ## One key block's update read at a query row: head 0 -/

theorem stepM0_eq (q kk : Vec Ideal S512x128 .bf16) (m : Vec Ideal S512x1 .f32) :
    stepM0 (F := Ideal) q kk m = k1_pay18 (F := Ideal) q kk m := pay23_eq _

theorem stepM0_apply (q kk : Vec Ideal S512x128 .bf16) (m : Vec Ideal S512x1 .f32) (r : Fin 512) :
    stepM0 (F := Ideal) q kk m (ix2 r (0 : Fin 1))
      = max (m (ix2 r (0 : Fin 1))) ((Finset.univ : Finset (Fin 512)).fold max ⊥ (fun k => sc0 q kk r k)) := by
  rw [stepM0_eq]
  exact pay18_apply q kk m r

theorem stepL0_apply (q kk : Vec Ideal S512x128 .bf16) (m l : Vec Ideal S512x1 .f32) (r : Fin 512) :
    stepL0 (F := Ideal) q kk m l (ix2 r (0 : Fin 1))
      = Ideal.exp (m (ix2 r (0 : Fin 1)) - stepM0 (F := Ideal) q kk m (ix2 r (0 : Fin 1))) * l (ix2 r (0 : Fin 1))
        + ∑ k : Fin 512, Ideal.exp (sc0 q kk r k - stepM0 (F := Ideal) q kk m (ix2 r (0 : Fin 1))) := by
  rw [stepM0_eq]
  unfold stepL0
  refine (pay21_apply q kk m l r).trans ?_
  exact congrArg₂ (· + ·) rfl (Finset.sum_congr rfl fun k _ => pay20_apply q kk m r k)

theorem stepA0_apply (q kk v : Vec Ideal S512x128 .bf16) (m : Vec Ideal S512x1 .f32) (a : Vec Ideal S512x64 .f32)
    (r : Fin 512) (d : Fin 64) :
    stepA0 (F := Ideal) q kk v m a (ix2 r d)
      = Ideal.exp (m (ix2 r (0 : Fin 1)) - stepM0 (F := Ideal) q kk m (ix2 r (0 : Fin 1))) * a (ix2 r d)
        + ∑ k : Fin 512, Ideal.exp (sc0 q kk r k - stepM0 (F := Ideal) q kk m (ix2 r (0 : Fin 1)))
            * v (ix2 k (⟨d.val, by omega⟩ : Fin 128)) := by
  rw [stepM0_eq]
  unfold stepA0
  refine (pay22_apply _ _ _ a r d).trans ?_
  exact congrArg₂ (· + ·) rfl
    (Finset.sum_congr rfl fun k _ => congrArg₂ (· * ·) (pay20_apply q kk m r k) (pay15_apply v k d))

/-! ## Head 1 -/

theorem stepM1_eq (q kk : Vec Ideal S512x128 .bf16) (m : Vec Ideal S512x1 .f32) :
    stepM1 (F := Ideal) q kk m = k1_pay25 (F := Ideal) (k1_pay13 (F := Ideal) q) (k1_pay14 (F := Ideal) kk) m :=
  pay2_eq _

theorem stepM1_apply (q kk : Vec Ideal S512x128 .bf16) (m : Vec Ideal S512x1 .f32) (r : Fin 512) :
    stepM1 (F := Ideal) q kk m (ix2 r (0 : Fin 1))
      = max (m (ix2 r (0 : Fin 1))) ((Finset.univ : Finset (Fin 512)).fold max ⊥ (fun k => sc1 q kk r k)) := by
  rw [stepM1_eq]
  refine (pay25_apply _ _ m r).trans ?_
  exact congrArg (fun f : Fin 512 → EReal => max (m (ix2 r (0 : Fin 1))) ((Finset.univ : Finset (Fin 512)).fold max ⊥ f))
    (funext fun k => scv_heads q kk r k)

theorem stepL1_apply (q kk : Vec Ideal S512x128 .bf16) (m l : Vec Ideal S512x1 .f32) (r : Fin 512) :
    stepL1 (F := Ideal) q kk m l (ix2 r (0 : Fin 1))
      = Ideal.exp (m (ix2 r (0 : Fin 1)) - stepM1 (F := Ideal) q kk m (ix2 r (0 : Fin 1))) * l (ix2 r (0 : Fin 1))
        + ∑ k : Fin 512, Ideal.exp (sc1 q kk r k - stepM1 (F := Ideal) q kk m (ix2 r (0 : Fin 1))) := by
  rw [stepM1_eq]
  unfold stepL1
  refine (pay28_apply _ _ m l r).trans ?_
  refine congrArg₂ (· + ·) rfl (Finset.sum_congr rfl fun k _ => ?_)
  refine (pay27_apply _ _ m r k).trans ?_
  exact congrArg (fun x : EReal => Ideal.exp (x - _)) (scv_heads q kk r k)

theorem stepA1_apply (q kk v : Vec Ideal S512x128 .bf16) (m : Vec Ideal S512x1 .f32) (a : Vec Ideal S512x64 .f32)
    (r : Fin 512) (d : Fin 64) :
    stepA1 (F := Ideal) q kk v m a (ix2 r d)
      = Ideal.exp (m (ix2 r (0 : Fin 1)) - stepM1 (F := Ideal) q kk m (ix2 r (0 : Fin 1))) * a (ix2 r d)
        + ∑ k : Fin 512, Ideal.exp (sc1 q kk r k - stepM1 (F := Ideal) q kk m (ix2 r (0 : Fin 1)))
            * v (ix2 k (⟨64 + d.val, by omega⟩ : Fin 128)) := by
  rw [stepM1_eq]
  unfold stepA1
  refine (pay1_apply _ _ r d).trans ?_
  refine congrArg₂ (· + ·) (pay29_apply _ _ m a r d) ?_
  refine (pay30_apply _ _ _ m r d).trans (Finset.sum_congr rfl fun k _ => congrArg₂ (· * ·) ?_ (pay16_apply v k d))
  refine (pay27_apply _ _ m r k).trans ?_
  exact congrArg (fun x : EReal => Ideal.exp (x - _)) (scv_heads q kk r k)

/-! ## Eight blocks -/

/-- The recurrence with the block's scores and values given block by block, entry k of block b being entry
    512 · b + k of a row T of 4096 real scores and of a row W of 4096 real values. -/
theorem chain8 (T W : Fin 4096 → EReal) (hT : ∀ c, ∃ x : ℝ, T c = x) (hW : ∀ c, ∃ x : ℝ, W c = x)
    (m l acc : ℕ → EReal) (sc vv : ℕ → Fin 512 → EReal)
    (hsc : ∀ (b : ℕ) (hb : b < 8) (k : Fin 512), sc b k = T ⟨512 * b + k.val, by omega⟩)
    (hvv : ∀ (b : ℕ) (hb : b < 8) (k : Fin 512), vv b k = W ⟨512 * b + k.val, by omega⟩)
    (hm0 : m 0 = ⊥) (hl0 : l 0 = 0) (ha0 : acc 0 = 0)
    (hm : ∀ b, b < 8 → m (b + 1) = max (m b) ((Finset.univ : Finset (Fin 512)).fold max ⊥ (sc b)))
    (hl : ∀ b, b < 8 → l (b + 1)
      = Ideal.exp (m b - m (b + 1)) * l b + ∑ k : Fin 512, Ideal.exp (sc b k - m (b + 1)))
    (hacc : ∀ b, b < 8 → acc (b + 1)
      = Ideal.exp (m b - m (b + 1)) * acc b + ∑ k : Fin 512, Ideal.exp (sc b k - m (b + 1)) * vv b k) :
    Ideal.div (acc 8) (l 8) = ∑ t : Fin 4096, softmaxRow T t * W t := by
  refine Cert.Spec.flash_4096 T W hT hW m l acc hm0 hl0 ha0 ?_ ?_ ?_
  · intro b hb
    rw [hm b hb]
    exact congrArg (fun f : Fin 512 → EReal => max (m b) ((Finset.univ : Finset (Fin 512)).fold max ⊥ f))
      (funext fun k => hsc b hb k)
  · intro b hb
    rw [hl b hb]
    exact congrArg₂ (· + ·) rfl (Finset.sum_congr rfl fun k _ => by rw [hsc b hb k])
  · intro b hb
    rw [hacc b hb]
    exact congrArg₂ (· + ·) rfl (Finset.sum_congr rfl fun k _ => by rw [hsc b hb k, hvv b hb k])

/-- Head 0 (columns 0..63) of the stored block, at query row r: the softmax of the row's 4096 scores weighting the 4096
    value rows. -/
theorem out_head0 (q kk v : ℕ → Vec Ideal S512x128 .bf16) (r : Fin 512)
    (qrow : Fin 128 → EReal) (Krow Vrow : Fin 4096 → Fin 128 → EReal)
    (hq : ∀ n, n < 8 → ∀ cc : Fin 128, q n (ix2 r cc) = qrow cc)
    (hk : ∀ (n : ℕ) (hn : n < 8) (j : Fin 512) (cc : Fin 128), kk n (ix2 j cc) = Krow ⟨512 * n + j.val, by omega⟩ cc)
    (hv : ∀ (n : ℕ) (hn : n < 8) (j : Fin 512) (cc : Fin 128), v n (ix2 j cc) = Vrow ⟨512 * n + j.val, by omega⟩ cc)
    (hqr : ∀ cc, ∃ x : ℝ, qrow cc = x) (hkr : ∀ u cc, ∃ x : ℝ, Krow u cc = x) (hvr : ∀ u cc, ∃ x : ℝ, Vrow u cc = x)
    (d : Fin 64) :
    Run6.out (Run6.after (F := Ideal) q kk v 8) (ix2 r (⟨d.val, by omega⟩ : Fin 128))
      = ∑ u : Fin 4096, softmaxRow (fun t => (∑ e : Fin 64, qrow (⟨e.val, by omega⟩ : Fin 128)
            * Krow t (⟨e.val, by omega⟩ : Fin 128)) * Cert.Spec.eighth) u * Vrow u (⟨d.val, by omega⟩ : Fin 128) := by
  have h8 : IsReal Cert.Spec.eighth := ⟨1 / 8, Cert.Spec.eighth_eq⟩
  refine (pay3_apply_left _ _ _ _ r d).trans ?_
  refine chain8 _ (fun u => Vrow u (⟨d.val, by omega⟩ : Fin 128))
    (fun t => IsReal.mul (IsReal.sum_univ _ fun e => IsReal.mul (hqr _) (hkr t _)) h8) (fun u => hvr u _)
    (fun b => (Run6.after (F := Ideal) q kk v b).m0 (ix2 r (0 : Fin 1)))
    (fun b => (Run6.after (F := Ideal) q kk v b).l0 (ix2 r (0 : Fin 1)))
    (fun b => (Run6.after (F := Ideal) q kk v b).a0 (ix2 r d))
    (fun b k => sc0 (q b) (kk b) r k) (fun b k => v b (ix2 k (⟨d.val, by omega⟩ : Fin 128)))
    ?_ ?_ (pay4_apply (ix2 r (0 : Fin 1))) (pay5_apply (ix2 r (0 : Fin 1))) (pay6_apply (ix2 r d)) ?_ ?_ ?_
  · intro b hb k
    unfold sc0
    exact congrArg (· * Cert.Spec.eighth)
      (Finset.sum_congr rfl fun e _ => congrArg₂ (· * ·) (hq b hb _) (hk b hb k _))
  · intro b hb k
    exact hv b hb k _
  · intro b hb
    exact stepM0_apply (q b) (kk b) _ r
  · intro b hb
    exact stepL0_apply (q b) (kk b) _ _ r
  · intro b hb
    exact stepA0_apply (q b) (kk b) (v b) _ _ r d

/-- Head 1 (columns 64..127). -/
theorem out_head1 (q kk v : ℕ → Vec Ideal S512x128 .bf16) (r : Fin 512)
    (qrow : Fin 128 → EReal) (Krow Vrow : Fin 4096 → Fin 128 → EReal)
    (hq : ∀ n, n < 8 → ∀ cc : Fin 128, q n (ix2 r cc) = qrow cc)
    (hk : ∀ (n : ℕ) (hn : n < 8) (j : Fin 512) (cc : Fin 128), kk n (ix2 j cc) = Krow ⟨512 * n + j.val, by omega⟩ cc)
    (hv : ∀ (n : ℕ) (hn : n < 8) (j : Fin 512) (cc : Fin 128), v n (ix2 j cc) = Vrow ⟨512 * n + j.val, by omega⟩ cc)
    (hqr : ∀ cc, ∃ x : ℝ, qrow cc = x) (hkr : ∀ u cc, ∃ x : ℝ, Krow u cc = x) (hvr : ∀ u cc, ∃ x : ℝ, Vrow u cc = x)
    (d : Fin 64) :
    Run6.out (Run6.after (F := Ideal) q kk v 8) (ix2 r (⟨64 + d.val, by omega⟩ : Fin 128))
      = ∑ u : Fin 4096, softmaxRow (fun t => (∑ e : Fin 64, qrow (⟨64 + e.val, by omega⟩ : Fin 128)
            * Krow t (⟨64 + e.val, by omega⟩ : Fin 128)) * Cert.Spec.eighth) u
          * Vrow u (⟨64 + d.val, by omega⟩ : Fin 128) := by
  have h8 : IsReal Cert.Spec.eighth := ⟨1 / 8, Cert.Spec.eighth_eq⟩
  refine (pay3_apply_right _ _ _ _ r d).trans ?_
  refine chain8 _ (fun u => Vrow u (⟨64 + d.val, by omega⟩ : Fin 128))
    (fun t => IsReal.mul (IsReal.sum_univ _ fun e => IsReal.mul (hqr _) (hkr t _)) h8) (fun u => hvr u _)
    (fun b => (Run6.after (F := Ideal) q kk v b).m1 (ix2 r (0 : Fin 1)))
    (fun b => (Run6.after (F := Ideal) q kk v b).l1 (ix2 r (0 : Fin 1)))
    (fun b => (Run6.after (F := Ideal) q kk v b).a1 (ix2 r d))
    (fun b k => sc1 (q b) (kk b) r k) (fun b k => v b (ix2 k (⟨64 + d.val, by omega⟩ : Fin 128)))
    ?_ ?_ (pay7_apply (ix2 r (0 : Fin 1))) (pay8_apply (ix2 r (0 : Fin 1))) (pay9_apply (ix2 r d)) ?_ ?_ ?_
  · intro b hb k
    unfold sc1
    exact congrArg (· * Cert.Spec.eighth)
      (Finset.sum_congr rfl fun e _ => congrArg₂ (· * ·) (hq b hb _) (hk b hb k _))
  · intro b hb k
    exact hv b hb k _
  · intro b hb
    exact stepM1_apply (q b) (kk b) _ r
  · intro b hb
    exact stepL1_apply (q b) (kk b) _ _ r
  · intro b hb
    exact stepA1_apply (q b) (kk b) (v b) _ _ r d

end Cert.KernelIdeal.AttnFlash

end
-- ==== Proof.IAttnG.lean ====
/-
  The attention region's result as one whole-array function of the fused query/key/value array it reads: columns 0–767 of a
  row are the row's queries, 768–1535 its keys, 1536–2303 its values; entry (s, j) of the result is the softmax of row s of
  the scores of j's head, weighting column j of the values.
-/
import proofs.«122623_j15204184228289_2_alg».proof.KernelIdeal
import proofs.«122623_j15204184228289_2_alg».proof.Proof.Spec
import Idealize.ShloMosaic.Lib.ValueIdx

noncomputable section

namespace Cert.KernelIdeal.AttnValue

open Cert.KernelIdeal Idealize.ShloMosaic Idealize.ShloMosaic.ValueIdx

/-- The query, key and value thirds of the fused array, as matrices. -/
abbrev qOf (QKV : S4096x2304.Idx → EReal) : Cert.Spec.Mat 4096 768 := fun s j => QKV (ix2 s (⟨j.val, by omega⟩ : Fin 2304))
abbrev kOf (QKV : S4096x2304.Idx → EReal) : Cert.Spec.Mat 4096 768 := fun s j => QKV (ix2 s (⟨768 + j.val, by omega⟩ : Fin 2304))
abbrev vOf (QKV : S4096x2304.Idx → EReal) : Cert.Spec.Mat 4096 768 := fun s j => QKV (ix2 s (⟨1536 + j.val, by omega⟩ : Fin 2304))

/-- The attention array. -/
def attnG (QKV : S4096x2304.Idx → EReal) : S4096x768.Idx → EReal :=
  fun i => Cert.Spec.attn (Cert.Spec.kerScore (qOf QKV) (kOf QKV)) (vOf QKV) ⟨(i 0).val, (i 0).isLt⟩ ⟨(i 1).val, (i 1).isLt⟩

theorem attnG_ix2 (QKV : S4096x2304.Idx → EReal) (s : Fin 4096) (j : Fin 768) :
    attnG QKV (ix2 s j) = Cert.Spec.attn (Cert.Spec.kerScore (qOf QKV) (kOf QKV)) (vOf QKV) s j := rfl

end Cert.KernelIdeal.AttnValue

end
-- ==== Proof.IAttnValue.lean ====
/-
  The attention region of the idealized kernel: where its blocks lie in the arrays.

  The region's grid has 6 · 8 · 8 points; point number t stands for the pair of heads t / 64, the block of 512 query
  rows (t / 8) % 8 and the block of 512 key rows t % 8.  All three input windows cut blocks of 512 rows by 128 columns out
  of the fused query/key/value array [4096, 2304]: the queries at columns 128 · (t / 64) …, the keys 768 columns and
  the values 1536 columns further right, at the key block's rows.  The output window cuts the same shape out of the
  [4096, 768] result at the query block's rows and the head pair's columns, and is written back only after the last
  key block of a row of eight.  Here: these positions as equations between entries; the written-back blocks cover the result; a written-back block is
  the block of the attention of the fused array (the softmax of each score row weighting the value rows), by the
  eight-block accumulation read as one sum over all 4096 keys; hence the result array after the region.
-/
import proofs.«122623_j15204184228289_2_alg».proof.Proof.IAttnPieces
import proofs.«122623_j15204184228289_2_alg».proof.Proof.IAttnFlash
import proofs.«122623_j15204184228289_2_alg».proof.Proof.IAttnG
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Lib.SoftmaxRow (softmaxRow)
open Cert.KernelIdeal.AttnFlash (out_head0 out_head1)
open scoped BigOperators

section
variable (V : (c : Dev nD) → (b : Ref sig .tc) → Buf (Elt Ideal) ((c : Thread nD τ).loc b))

/-! # The index maps over the grid -/

/-- Point t's block indices: the queries and the output at (query block, head pair), the keys and the values at
    (key block, head pair) shifted 6 resp. 12 blocks of 128 columns to the right. -/
theorem attnIdx : ∀ t : Fin cfg1.N,
    win1_0.index t (0 : Fin 2) = (t.val / 8) % 8 ∧ win1_0.index t (1 : Fin 2) = t.val / 64
    ∧ win1_1.index t (0 : Fin 2) = t.val % 8 ∧ win1_1.index t (1 : Fin 2) = 6 + t.val / 64
    ∧ win1_2.index t (0 : Fin 2) = t.val % 8 ∧ win1_2.index t (1 : Fin 2) = 12 + t.val / 64
    ∧ win1_3.index t (0 : Fin 2) = (t.val / 8) % 8 ∧ win1_3.index t (1 : Fin 2) = t.val / 64 :=
  (by decide +kernel : ∀ t : Fin grid1.N, _)

/-! # The three input blocks as entries of the fused array -/

/-- The query block at point t: rows of query block (t / 8) % 8, columns of head pair t / 64. -/
theorem attnQ_apply (c : Dev nD) (t : Fin cfg1.N) (y : S512x128.Idx) (i : S4096x2304.Idx)
    (h0 : (i 0).val = 512 * ((t.val / 8) % 8) + (y 0).val) (h1 : (i 1).val = 128 * (t.val / 64) + (y 1).val) :
    (attnBlk V c 0 t : Vec Ideal S512x128 .bf16) y = (V c main_v16 : S4096x2304.Idx → EReal) i := by
  obtain ⟨e0, e1, -⟩ := attnIdx t
  unfold attnBlk
  rw [View.read_apply]
  show (V c main_v16 : S4096x2304.Idx → EReal) _ = V c main_v16 _
  refine congrArg _ ?_
  funext a
  apply Fin.ext
  match a with
  | ⟨0, _⟩ => show win1_0.index t (0 : Fin 2) * 512 + 1 * (y 0).val = (i 0).val; rw [e0, h0]; omega
  | ⟨1, _⟩ => show win1_0.index t (1 : Fin 2) * 128 + 1 * (y 1).val = (i 1).val; rw [e1, h1]; omega

/-- The key block at point t: rows of key block t % 8, the head pair's columns 768 further right. -/
theorem attnK_apply (c : Dev nD) (t : Fin cfg1.N) (y : S512x128.Idx) (i : S4096x2304.Idx)
    (h0 : (i 0).val = 512 * (t.val % 8) + (y 0).val) (h1 : (i 1).val = 768 + 128 * (t.val / 64) + (y 1).val) :
    (attnBlk V c 1 t : Vec Ideal S512x128 .bf16) y = (V c main_v16 : S4096x2304.Idx → EReal) i := by
  obtain ⟨-, -, e0, e1, -⟩ := attnIdx t
  unfold attnBlk
  rw [View.read_apply]
  show (V c main_v16 : S4096x2304.Idx → EReal) _ = V c main_v16 _
  refine congrArg _ ?_
  funext a
  apply Fin.ext
  match a with
  | ⟨0, _⟩ => show win1_1.index t (0 : Fin 2) * 512 + 1 * (y 0).val = (i 0).val; rw [e0, h0]; omega
  | ⟨1, _⟩ => show win1_1.index t (1 : Fin 2) * 128 + 1 * (y 1).val = (i 1).val; rw [e1, h1]; omega

/-- The value block at point t: rows of key block t % 8, the head pair's columns 1536 further right. -/
theorem attnV_apply (c : Dev nD) (t : Fin cfg1.N) (y : S512x128.Idx) (i : S4096x2304.Idx)
    (h0 : (i 0).val = 512 * (t.val % 8) + (y 0).val) (h1 : (i 1).val = 1536 + 128 * (t.val / 64) + (y 1).val) :
    (attnBlk V c 2 t : Vec Ideal S512x128 .bf16) y = (V c main_v16 : S4096x2304.Idx → EReal) i := by
  obtain ⟨-, -, -, -, e0, e1, -⟩ := attnIdx t
  unfold attnBlk
  rw [View.read_apply]
  show (V c main_v16 : S4096x2304.Idx → EReal) _ = V c main_v16 _
  refine congrArg _ ?_
  funext a
  apply Fin.ext
  match a with
  | ⟨0, _⟩ => show win1_2.index t (0 : Fin 2) * 512 + 1 * (y 0).val = (i 0).val; rw [e0, h0]; omega
  | ⟨1, _⟩ => show win1_2.index t (1 : Fin 2) * 128 + 1 * (y 1).val = (i 1).val; rw [e1, h1]; omega

/-! # The written-back blocks cover the result -/

/-- An index of the result is in point t's block iff each coordinate is in the block's range on its axis. -/
theorem attnMem_blk (t : Fin cfg1.N) (i : S4096x768.Idx) :
    i ∈ ((cfg1.win 3).blk t).view.set ↔ ∀ a : Fin 2, win1_3.index t a * S512x128.size a ≤ (i a).val
      ∧ (i a).val < win1_3.index t a * S512x128.size a + S512x128.size a := by
  show i ∈ ((View.whole main_v17).slice (win1_3.rect t)).set ↔ _
  rw [View.set_slice_whole, Rect.mem_set_unit]
  exact Iff.rfl

/-- Entry (s, j) of the result is written back by the point of head pair j / 128, query block s / 512, last key block. -/
theorem attnCovered (i : S4096x768.Idx) :
    ∃ t : Fin cfg1.N, (cfg1.win 3).flush t = true ∧ i ∈ ((cfg1.win 3).blk t).view.set := by
  have hi0 : (i 0).val < 4096 := idx2_lt0 i
  have hi1 : (i 1).val < 768 := idx2_lt1 i
  have hN : cfg1.N = 384 := N_1
  have hlt : 64 * ((i 1).val / 128) + 8 * ((i 0).val / 512) + 7 < cfg1.N := by rw [hN]; omega
  refine ⟨⟨64 * ((i 1).val / 128) + 8 * ((i 0).val / 512) + 7, hlt⟩, (flush1_3 _).mpr (by show (64 * ((i 1).val / 128) + 8 * ((i 0).val / 512) + 7) % 8 = 7; omega), ?_⟩
  obtain ⟨-, -, -, -, -, -, e0, e1⟩ := attnIdx ⟨64 * ((i 1).val / 128) + 8 * ((i 0).val / 512) + 7, hlt⟩
  rw [attnMem_blk]
  intro a
  match a with
  | ⟨0, _⟩ =>
    show win1_3.index _ (0 : Fin 2) * 512 ≤ (i 0).val ∧ (i 0).val < win1_3.index _ (0 : Fin 2) * 512 + 512
    rw [e0]
    show (64 * ((i 1).val / 128) + 8 * ((i 0).val / 512) + 7) / 8 % 8 * 512 ≤ (i 0).val
      ∧ (i 0).val < (64 * ((i 1).val / 128) + 8 * ((i 0).val / 512) + 7) / 8 % 8 * 512 + 512
    omega
  | ⟨1, _⟩ =>
    show win1_3.index _ (1 : Fin 2) * 128 ≤ (i 1).val ∧ (i 1).val < win1_3.index _ (1 : Fin 2) * 128 + 128
    rw [e1]
    show (64 * ((i 1).val / 128) + 8 * ((i 0).val / 512) + 7) / 64 * 128 ≤ (i 1).val
      ∧ (i 1).val < (64 * ((i 1).val / 128) + 8 * ((i 0).val / 512) + 7) / 64 * 128 + 128
    omega

end

/-! # One row of eight key blocks is the attention of the fused array -/

/-- The block stored after the eight key blocks of a row, at its own index `y`, is the attention of the fused array
    `X` at the index `i` that lies 512 · qi rows down and 128 · p columns right, when the query blocks are `X`'s
    block (qi, p), and the n-th key and value blocks are `X`'s blocks (n, p) 768 resp. 1536 columns further right. -/
theorem rowOut_eq_G (X : S4096x2304.Idx → EReal) (hreal : ∀ i, ∃ x : ℝ, X i = x)
    (q kk v : ℕ → Vec Ideal S512x128 .bf16) (p qi : ℕ) (hp : p < 6) (hqi : qi < 8)
    (hq : ∀ n, n < 8 → ∀ (y : S512x128.Idx) (i : S4096x2304.Idx),
      (i 0).val = 512 * qi + (y 0).val → (i 1).val = 128 * p + (y 1).val → q n y = X i)
    (hk : ∀ n, n < 8 → ∀ (y : S512x128.Idx) (i : S4096x2304.Idx),
      (i 0).val = 512 * n + (y 0).val → (i 1).val = 768 + 128 * p + (y 1).val → kk n y = X i)
    (hv : ∀ n, n < 8 → ∀ (y : S512x128.Idx) (i : S4096x2304.Idx),
      (i 0).val = 512 * n + (y 0).val → (i 1).val = 1536 + 128 * p + (y 1).val → v n y = X i)
    (y : S512x128.Idx) (i : S4096x768.Idx) (hi0 : (i 0).val = 512 * qi + (y 0).val) (hi1 : (i 1).val = 128 * p + (y 1).val) :
    Run6.out (Run6.after (F := Ideal) q kk v 8) y = attnG X i := by
  obtain ⟨r, cc, rfl⟩ : ∃ (r : Fin 512) (cc : Fin 128), y = ix2 r cc := ⟨y 0, y 1, eq_ix2 y⟩
  obtain ⟨s, j, rfl⟩ : ∃ (s : Fin 4096) (j : Fin 768), i = ix2 s j := ⟨i 0, i 1, eq_ix2 i⟩
  have hs : s.val = 512 * qi + r.val := hi0
  have hj : j.val = 128 * p + cc.val := hi1
  rw [attnG_ix2]
  have hqr : ∀ c' : Fin 128, ∃ x : ℝ, X (ix2 s (⟨128 * p + c'.val, by omega⟩ : Fin 2304)) = x := fun _ => hreal _
  have hkr : ∀ (u : Fin 4096) (c' : Fin 128), ∃ x : ℝ, X (ix2 u (⟨768 + 128 * p + c'.val, by omega⟩ : Fin 2304)) = x := fun _ _ => hreal _
  have hvr : ∀ (u : Fin 4096) (c' : Fin 128), ∃ x : ℝ, X (ix2 u (⟨1536 + 128 * p + c'.val, by omega⟩ : Fin 2304)) = x := fun _ _ => hreal _
  have hq' : ∀ n, n < 8 → ∀ c' : Fin 128, q n (ix2 r c') = X (ix2 s (⟨128 * p + c'.val, by omega⟩ : Fin 2304)) :=
    fun n hn c' => hq n hn (ix2 r c') (ix2 s (⟨128 * p + c'.val, by omega⟩ : Fin 2304)) hs rfl
  have hk' : ∀ (n : ℕ) (hn : n < 8) (j' : Fin 512) (c' : Fin 128),
      kk n (ix2 j' c') = X (ix2 (⟨512 * n + j'.val, by omega⟩ : Fin 4096) (⟨768 + 128 * p + c'.val, by omega⟩ : Fin 2304)) :=
    fun n hn j' c' => hk n hn (ix2 j' c') (ix2 (⟨512 * n + j'.val, by omega⟩ : Fin 4096) (⟨768 + 128 * p + c'.val, by omega⟩ : Fin 2304)) rfl rfl
  have hv' : ∀ (n : ℕ) (hn : n < 8) (j' : Fin 512) (c' : Fin 128),
      v n (ix2 j' c') = X (ix2 (⟨512 * n + j'.val, by omega⟩ : Fin 4096) (⟨1536 + 128 * p + c'.val, by omega⟩ : Fin 2304)) :=
    fun n hn j' c' => hv n hn (ix2 j' c') (ix2 (⟨512 * n + j'.val, by omega⟩ : Fin 4096) (⟨1536 + 128 * p + c'.val, by omega⟩ : Fin 2304)) rfl rfl
  by_cases hcc : cc.val < 64
  · -- the first head of the pair
    have hcc' : cc = (⟨(⟨cc.val, hcc⟩ : Fin 64).val, by omega⟩ : Fin 128) := Fin.ext rfl
    have hhd : ∀ e : Fin 64, (Cert.Spec.hd (Cert.Spec.headOf j) e).val = 128 * p + e.val := fun e => by
      show 64 * (j.val / 64) + e.val = _; omega
    rw [hcc']
    refine (out_head0 q kk v r (fun c' => X (ix2 s (⟨128 * p + c'.val, by omega⟩ : Fin 2304)))
      (fun u c' => X (ix2 u (⟨768 + 128 * p + c'.val, by omega⟩ : Fin 2304)))
      (fun u c' => X (ix2 u (⟨1536 + 128 * p + c'.val, by omega⟩ : Fin 2304)))
      hq' hk' hv' hqr hkr hvr ⟨cc.val, hcc⟩).trans ?_
    unfold Cert.Spec.attn Cert.Spec.kerScore
    refine Finset.sum_congr rfl fun u _ => congrArg₂ (· * ·) ?_ ?_
    · refine congrArg (fun L => softmaxRow L u) (funext fun t => congrArg (· * Cert.Spec.eighth) (Finset.sum_congr rfl fun e _ => ?_))
      exact congrArg₂ (· * ·) (congrArg X (congrArg (ix2 s) (Fin.ext (hhd e).symm)))
        (congrArg X (congrArg (ix2 t) (Fin.ext (by show 768 + 128 * p + e.val = 768 + (Cert.Spec.hd (Cert.Spec.headOf j) e).val; rw [hhd e]; omega))))
    · exact congrArg X (congrArg (ix2 u) (Fin.ext (by show 1536 + 128 * p + cc.val = 1536 + j.val; omega)))
  · -- the second head of the pair
    have hc128 : cc.val < 128 := cc.isLt
    have hd64 : cc.val - 64 < 64 := by omega
    have hcc' : cc = (⟨64 + (⟨cc.val - 64, hd64⟩ : Fin 64).val, by omega⟩ : Fin 128) := Fin.ext (by show cc.val = 64 + (cc.val - 64); omega)
    have hhd : ∀ e : Fin 64, (Cert.Spec.hd (Cert.Spec.headOf j) e).val = 128 * p + (64 + e.val) := fun e => by
      show 64 * (j.val / 64) + e.val = _; omega
    rw [hcc']
    refine (out_head1 q kk v r (fun c' => X (ix2 s (⟨128 * p + c'.val, by omega⟩ : Fin 2304)))
      (fun u c' => X (ix2 u (⟨768 + 128 * p + c'.val, by omega⟩ : Fin 2304)))
      (fun u c' => X (ix2 u (⟨1536 + 128 * p + c'.val, by omega⟩ : Fin 2304)))
      hq' hk' hv' hqr hkr hvr ⟨cc.val - 64, hd64⟩).trans ?_
    unfold Cert.Spec.attn Cert.Spec.kerScore
    refine Finset.sum_congr rfl fun u _ => congrArg₂ (· * ·) ?_ ?_
    · refine congrArg (fun L => softmaxRow L u) (funext fun t => congrArg (· * Cert.Spec.eighth) (Finset.sum_congr rfl fun e _ => ?_))
      exact congrArg₂ (· * ·) (congrArg X (congrArg (ix2 s) (Fin.ext (hhd e).symm)))
        (congrArg X (congrArg (ix2 t) (Fin.ext (by show 768 + 128 * p + (64 + e.val) = 768 + (Cert.Spec.hd (Cert.Spec.headOf j) e).val; rw [hhd e]; omega))))
    · exact congrArg X (congrArg (ix2 u) (Fin.ext (by show 1536 + 128 * p + (64 + (cc.val - 64)) = 1536 + j.val; omega)))

section
variable (V : (c : Dev nD) → (b : Ref sig .tc) → Buf (Elt Ideal) ((c : Thread nD τ).loc b))

/-- What a point after the last key block of its row writes back is its block of the attention of the fused array as
    the region finds it. -/
theorem attnFlushed_eq (c : Dev nD) (hreal : ∀ i : S4096x2304.Idx, ∃ x : ℝ, ((V c main_v16 : S4096x2304.Idx → EReal) i : EReal) = (x : EReal))
    (t : Fin cfg1.N) (hf : (cfg1.win 3).flush t = true) :
    (attnDat (F := Ideal) V c).flushed 3 t
      = ((cfg1.win 3).blk t).view.read (Elt Ideal) (attnG (V c main_v16)) := by
  have h7 : t.val % 8 = 7 := (flush1_3 t).mp hf
  have hN : cfg1.N = 384 := N_1
  have htl : t.val < 384 := by have := t.isLt; omega
  have hm : t.val - 7 + 7 < cfg1.N := by omega
  show (cfg1.win 3).cut (grid1.coords t) ((attnDat (F := Ideal) V c).after 3 t) = _
  rw [attnAfter3, attnAt_out V c t h7, attnAt_congr V c (show t.val = t.val - 7 + 7 by omega) t.isLt hm,
    attnAt_row V c (t.val - 7) (by omega) (by omega) 7 (by omega)]
  obtain ⟨-, -, -, -, -, -, e0, e1⟩ := attnIdx t
  funext j
  rw [View.read_apply]
  refine rowOut_eq_G (V c main_v16) hreal _ _ _ (t.val / 64) ((t.val / 8) % 8) (by omega) (by omega) ?_ ?_ ?_ _ _ ?_ ?_
  · intro n hn y i h0 h1
    have hpt := attnPt_val (t.val - 7 + n) (by omega)
    refine attnQ_apply V c (attnPt (t.val - 7 + n)) y i ?_ ?_
    · rw [hpt]; omega
    · rw [hpt]; omega
  · intro n hn y i h0 h1
    have hpt := attnPt_val (t.val - 7 + n) (by omega)
    refine attnK_apply V c (attnPt (t.val - 7 + n)) y i ?_ ?_
    · rw [hpt]; omega
    · rw [hpt]; omega
  · intro n hn y i h0 h1
    have hpt := attnPt_val (t.val - 7 + n) (by omega)
    refine attnV_apply V c (attnPt (t.val - 7 + n)) y i ?_ ?_
    · rw [hpt]; omega
    · rw [hpt]; omega
  · show win1_3.index t (0 : Fin 2) * 512 + 1 * (j 0).val = 512 * ((t.val / 8) % 8) + (j 0).val; rw [e0]; omega
  · show win1_3.index t (1 : Fin 2) * 128 + 1 * (j 1).val = 128 * (t.val / 64) + (j 1).val; rw [e1]; omega

/-- The result array after the attention region: the attention of the fused query/key/value array as the region found
    it, when that array's entries are real numbers. -/
theorem attn_final (c : Dev nD) (hreal : ∀ i : S4096x2304.Idx, ∃ x : ℝ, ((V c main_v16 : S4096x2304.Idx → EReal) i : EReal) = (x : EReal)) :
    (attnDat (F := Ideal) V c).arrAt 3 cfg1.N = attnG (V c main_v16) :=
  (attnDat (F := Ideal) V c).arrAt_eq_of_cover 3 _ (fun t hf => attnFlushed_eq V c hreal t hf) attnCovered

end

end Cert.KernelIdeal.AttnValue

end
-- ==== Proof.IHostRead.lean ====
/-
  The host operations of the idealized kernel program, read at an index.

  Before the first projection the program reshapes the tokens [1, 4096, 768] to [4096, 768]; forms, for each of the
  query, key and value layers, the merged weights W + 2 · (U · D) (a 768 x 8 by 8 x 768 product, times the constant 2
  spread over the matrix, added to the base weights); stacks the three merged matrices along the rows and transposes
  the stack into the fused [768, 2304] weights; and lays the three biases end to end.  Before the output projection
  it transposes the output weights; after it, it gives the result its leading unit axis back.

  Each statement is over an arbitrary valuation `W` of the buffers before the stretch of operations: column
  768 · n + e of the fused weights is row e of the n-th merged matrix of the specification, entry 768 · n + e of the
  fused bias is entry e of the n-th bias, and the reshapes and the transpose move no value.
-/
import proofs.«122623_j15204184228289_2_alg».proof.Proof.Gen.KernelIdeal.Launch
import proofs.«122623_j15204184228289_2_alg».proof.Proof.Spec
import proofs.«122623_j15204184228289_2_alg».proof.Proof.LibPlainDot
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HostRead

open Cert.KernelIdeal Cert.KernelIdeal.Gen
open Idealize.ShloMosaic Idealize.ShloMosaic.TcCoe Idealize.ShloMosaic.ValueIdx Idealize.ShloMosaic.StableHlo Idealize.SL.Sem
open scoped BigOperators

/-! # Buffers' contents as matrices and vectors -/

/-- A rank-2 array of extended reals as a matrix. -/
abbrev mat {a b : ℕ} (x : (⟨2, ![a, b]⟩ : Shape).Idx → EReal) : Cert.Spec.Mat a b := fun i j => x (ix2 i j)
/-- A rank-1 array of extended reals as a vector. -/
abbrev vec {a : ℕ} (x : (⟨1, ![a]⟩ : Shape).Idx → EReal) : Fin a → EReal := fun i => x (ix1 i)

/-! # Three equal pieces laid end to end along the first axis, read at an index -/

/-- Three 768 x 768 matrices stacked along the rows: row `e`, `768 + e`, `1536 + e` of the stack is row `e` of the
    first, second, third. -/
theorem stackRows_apply (h : Shape.Concatenates [S768x768, S768x768, S768x768] S2304x768 0)
    (x0 x1 x2 : S768x768.Idx → EReal) (e d : Fin 768) :
    concatenate S2304x768 0 [⟨S768x768, x0⟩, ⟨S768x768, x1⟩, ⟨S768x768, x2⟩] h (ix2 (⟨e.val, by omega⟩ : Fin 2304) d) = x0 (ix2 e d)
    ∧ concatenate S2304x768 0 [⟨S768x768, x0⟩, ⟨S768x768, x1⟩, ⟨S768x768, x2⟩] h (ix2 (⟨768 + e.val, by omega⟩ : Fin 2304) d) = x1 (ix2 e d)
    ∧ concatenate S2304x768 0 [⟨S768x768, x0⟩, ⟨S768x768, x1⟩, ⟨S768x768, x2⟩] h (ix2 (⟨1536 + e.val, by omega⟩ : Fin 2304) d) = x2 (ix2 e d) := by
  refine ⟨?_, ?_, ?_⟩
  · refine concatenate_apply_piece (t := S2304x768) (0 : Fin 2) [⟨S768x768, x0⟩, ⟨S768x768, x1⟩, ⟨S768x768, x2⟩] h _ 0 (by simp) S768x768 x0 rfl rfl 0 rfl (ix2 e d) (fun b hb => ?_) ?_
    · match b with
      | ⟨0, _⟩ => exact absurd rfl hb
      | ⟨1, _⟩ => rfl
    · show 0 + e.val = e.val; omega
  · refine concatenate_apply_piece (t := S2304x768) (0 : Fin 2) [⟨S768x768, x0⟩, ⟨S768x768, x1⟩, ⟨S768x768, x2⟩] h _ 1 (by simp) S768x768 x1 rfl rfl 768 rfl (ix2 e d) (fun b hb => ?_) ?_
    · match b with
      | ⟨0, _⟩ => exact absurd rfl hb
      | ⟨1, _⟩ => rfl
    · rfl
  · refine concatenate_apply_piece (t := S2304x768) (0 : Fin 2) [⟨S768x768, x0⟩, ⟨S768x768, x1⟩, ⟨S768x768, x2⟩] h _ 2 (by simp) S768x768 x2 rfl rfl 1536 rfl (ix2 e d) (fun b hb => ?_) ?_
    · match b with
      | ⟨0, _⟩ => exact absurd rfl hb
      | ⟨1, _⟩ => rfl
    · rfl

/-- Three vectors of 768 laid end to end: entry `e`, `768 + e`, `1536 + e` is entry `e` of the first, second, third. -/
theorem stackVec_apply (h : Shape.Concatenates [S768, S768, S768] S2304 0)
    (x0 x1 x2 : S768.Idx → EReal) (e : Fin 768) :
    concatenate S2304 0 [⟨S768, x0⟩, ⟨S768, x1⟩, ⟨S768, x2⟩] h (ix1 (⟨e.val, by omega⟩ : Fin 2304)) = x0 (ix1 e)
    ∧ concatenate S2304 0 [⟨S768, x0⟩, ⟨S768, x1⟩, ⟨S768, x2⟩] h (ix1 (⟨768 + e.val, by omega⟩ : Fin 2304)) = x1 (ix1 e)
    ∧ concatenate S2304 0 [⟨S768, x0⟩, ⟨S768, x1⟩, ⟨S768, x2⟩] h (ix1 (⟨1536 + e.val, by omega⟩ : Fin 2304)) = x2 (ix1 e) := by
  refine ⟨?_, ?_, ?_⟩
  · refine concatenate_apply_piece (t := S2304) (0 : Fin 1) [⟨S768, x0⟩, ⟨S768, x1⟩, ⟨S768, x2⟩] h _ 0 (by simp) S768 x0 rfl rfl 0 rfl (ix1 e) (fun b hb => ?_) ?_
    · match b with
      | ⟨0, _⟩ => exact absurd rfl hb
    · show 0 + e.val = e.val; omega
  · refine concatenate_apply_piece (t := S2304) (0 : Fin 1) [⟨S768, x0⟩, ⟨S768, x1⟩, ⟨S768, x2⟩] h _ 1 (by simp) S768 x1 rfl rfl 768 rfl (ix1 e) (fun b hb => ?_) ?_
    · match b with
      | ⟨0, _⟩ => exact absurd rfl hb
    · rfl
  · refine concatenate_apply_piece (t := S2304) (0 : Fin 1) [⟨S768, x0⟩, ⟨S768, x1⟩, ⟨S768, x2⟩] h _ 2 (by simp) S768 x2 rfl rfl 1536 rfl (ix1 e) (fun b hb => ?_) ?_
    · match b with
      | ⟨0, _⟩ => exact absurd rfl hb
    · rfl

/-! # A base weight plus twice the product of its two low-rank factors -/

/-- The host's term for one merged weight matrix: the base weights plus the constant 2, spread over the matrix,
    times the product of the 768 x 8 factor and the 8 x 768 factor. -/
def mergedTerm (w : FVec Ideal S768x768 .f32) (up : FVec Ideal S768x8 .f32) (dn : FVec Ideal S8x768 .f32) : FVec Ideal S768x768 .f32 :=
  addf w (mulf (broadcastInDim S768x768 ![] Facts₀.bcast_S_S768x768 (constant (F := Ideal) S_ .f32 0x40000000#32))
    (Host.dotGeneral dot_S768x8_S8x768_S768x768_1_0_0_1_n_n none up dn))

/-- It is the merged weight matrix of the specification, entry by entry. -/
theorem mergedTerm_apply (w : FVec Ideal S768x768 .f32) (up : FVec Ideal S768x8 .f32) (dn : FVec Ideal S8x768 .f32) (e d : Fin 768) :
    mergedTerm w up dn (ix2 e d) = Cert.Spec.merged (mat w) (mat dn) (mat up) e d := by
  unfold mergedTerm Cert.Spec.merged Cert.Spec.two
  rw [addf_apply, mulf_apply, broadcastInDim_scalar_apply, constant_apply]
  refine congrArg₂ (· + ·) rfl (congrArg₂ (· * ·) rfl ?_)
  refine (Cert.Lib.PlainDot.dotGeneral_apply (R := 768) (K := 8) (C := 768) _ rfl none .single up dn (ix2 e d)).trans ?_
  unfold Cert.Lib.PlainDot.mm
  refine Finset.sum_congr rfl fun r _ => ?_
  rfl

/-! # The host stretches, read at an index -/

section reads
variable (W : Valuation τ sig (Elt Ideal))

/-- The result of an operation over a literal family of three operands, each operand's contents at its own
    reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result' {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Rewrites a buffer's contents after a literal list of host operations into the operations' term of the contents
    before, in one pass: each operation's result at its own buffer is its function's value, at another buffer what
    was there. -/
macro "host_results" : tactic =>
  `(tactic| (simp (disch := decide) only [after_cons, after_nil,
      nullary_result', unary_result', binary_result', reshape_result', nary3_result',
      nullary_result_ne', unary_result_ne', binary_result_ne', reshape_result_ne', nary_result_ne']))

/-- The token rows after the first stretch: the input with its leading unit axis dropped. -/
theorem tokens_term :
    (StableHlo.after (hostOps0 (F := Ideal)) W (Proc.devRef .tc main_v0) : S4096x768.Idx → EReal)
      = shapeCast S4096x768 (W (Proc.devRef .tc main_arg0) : S1x4096x768.Idx → EReal) Facts₀.shapeCasts_S1x4096x768_S4096x768 := by
  host_results
  rfl

theorem tokens_apply (s : Fin 4096) (d : Fin 768) :
    (StableHlo.after (hostOps0 (F := Ideal)) W (Proc.devRef .tc main_v0) : S4096x768.Idx → EReal) (ix2 s d)
      = (W (Proc.devRef .tc main_arg0) : S1x4096x768.Idx → EReal) (ix3 (0 : Fin 1) s d) := by
  rw [tokens_term]
  exact shapeCast_1ab_ab_apply _ _ s d

/-- The fused bias after the first stretch: the three biases end to end. -/
theorem bias_term :
    (StableHlo.after (hostOps0 (F := Ideal)) W (Proc.devRef .tc main_v15) : S2304.Idx → EReal)
      = concatenate S2304 0 [⟨S768, (W (Proc.devRef .tc main_arg2) : S768.Idx → EReal)⟩, ⟨S768, (W (Proc.devRef .tc main_arg4) : S768.Idx → EReal)⟩,
          ⟨S768, (W (Proc.devRef .tc main_arg6) : S768.Idx → EReal)⟩] Facts₀.concatenates_S768_S768_S768_S2304_d0 := by
  host_results
  rfl

/-- The fused weights after the first stretch: the three merged matrices stacked along the rows, transposed. -/
theorem weights_term :
    (StableHlo.after (hostOps0 (F := Ideal)) W (Proc.devRef .tc main_v14) : S768x2304.Idx → EReal)
      = transpose S768x2304 [1, 0] (concatenate S2304x768 0
          [⟨S768x768, mergedTerm (W (Proc.devRef .tc main_arg1)) (W (Proc.devRef .tc main_arg10)) (W (Proc.devRef .tc main_arg9))⟩,
           ⟨S768x768, mergedTerm (W (Proc.devRef .tc main_arg3)) (W (Proc.devRef .tc main_arg12)) (W (Proc.devRef .tc main_arg11))⟩,
           ⟨S768x768, mergedTerm (W (Proc.devRef .tc main_arg5)) (W (Proc.devRef .tc main_arg14)) (W (Proc.devRef .tc main_arg13))⟩]
          Facts₀.concatenates_S768x768_S768x768_S768x768_S2304x768_d0) Facts₀.transposes_S2304x768_S768x2304_1_0 := by
  host_results
  rfl

end reads

section reads2
variable (W : Valuation τ sig (Elt Ideal))

/-! ## The fused weights: column `e`, `768 + e`, `1536 + e` is row `e` of the merged query, key, value weights -/

theorem weights_q_apply (e d : Fin 768) :
    (StableHlo.after (hostOps0 (F := Ideal)) W (Proc.devRef .tc main_v14) : S768x2304.Idx → EReal) (ix2 d (⟨e.val, by omega⟩ : Fin 2304))
      = Cert.Spec.merged (mat (W (Proc.devRef .tc main_arg1))) (mat (W (Proc.devRef .tc main_arg9))) (mat (W (Proc.devRef .tc main_arg10))) e d := by
  rw [weights_term]
  refine (transpose_ix2_apply _ _ d (⟨e.val, by omega⟩ : Fin 2304)).trans ?_
  refine ((stackRows_apply _ _ _ _ e d).1).trans ?_
  exact mergedTerm_apply _ _ _ e d

theorem weights_k_apply (e d : Fin 768) :
    (StableHlo.after (hostOps0 (F := Ideal)) W (Proc.devRef .tc main_v14) : S768x2304.Idx → EReal) (ix2 d (⟨768 + e.val, by omega⟩ : Fin 2304))
      = Cert.Spec.merged (mat (W (Proc.devRef .tc main_arg3))) (mat (W (Proc.devRef .tc main_arg11))) (mat (W (Proc.devRef .tc main_arg12))) e d := by
  rw [weights_term]
  refine (transpose_ix2_apply _ _ d (⟨768 + e.val, by omega⟩ : Fin 2304)).trans ?_
  refine ((stackRows_apply _ _ _ _ e d).2.1).trans ?_
  exact mergedTerm_apply _ _ _ e d

theorem weights_v_apply (e d : Fin 768) :
    (StableHlo.after (hostOps0 (F := Ideal)) W (Proc.devRef .tc main_v14) : S768x2304.Idx → EReal) (ix2 d (⟨1536 + e.val, by omega⟩ : Fin 2304))
      = Cert.Spec.merged (mat (W (Proc.devRef .tc main_arg5))) (mat (W (Proc.devRef .tc main_arg13))) (mat (W (Proc.devRef .tc main_arg14))) e d := by
  rw [weights_term]
  refine (transpose_ix2_apply _ _ d (⟨1536 + e.val, by omega⟩ : Fin 2304)).trans ?_
  refine ((stackRows_apply _ _ _ _ e d).2.2).trans ?_
  exact mergedTerm_apply _ _ _ e d

/-! ## The fused bias: entry `e`, `768 + e`, `1536 + e` is entry `e` of the query, key, value bias -/

theorem bias_q_apply (e : Fin 768) :
    (StableHlo.after (hostOps0 (F := Ideal)) W (Proc.devRef .tc main_v15) : S2304.Idx → EReal) (ix1 (⟨e.val, by omega⟩ : Fin 2304))
      = (W (Proc.devRef .tc main_arg2) : S768.Idx → EReal) (ix1 e) := by
  rw [bias_term]
  exact (stackVec_apply _ _ _ _ e).1

theorem bias_k_apply (e : Fin 768) :
    (StableHlo.after (hostOps0 (F := Ideal)) W (Proc.devRef .tc main_v15) : S2304.Idx → EReal) (ix1 (⟨768 + e.val, by omega⟩ : Fin 2304))
      = (W (Proc.devRef .tc main_arg4) : S768.Idx → EReal) (ix1 e) := by
  rw [bias_term]
  exact (stackVec_apply _ _ _ _ e).2.1

theorem bias_v_apply (e : Fin 768) :
    (StableHlo.after (hostOps0 (F := Ideal)) W (Proc.devRef .tc main_v15) : S2304.Idx → EReal) (ix1 (⟨1536 + e.val, by omega⟩ : Fin 2304))
      = (W (Proc.devRef .tc main_arg6) : S768.Idx → EReal) (ix1 e) := by
  rw [bias_term]
  exact (stackVec_apply _ _ _ _ e).2.2

/-! ## The output weights, transposed; the result, given its leading unit axis -/

theorem outWeights_apply (j e : Fin 768) :
    (StableHlo.after (hostOps2 (F := Ideal)) W (Proc.devRef .tc main_v18) : S768x768.Idx → EReal) (ix2 j e)
      = (W (Proc.devRef .tc main_arg7) : S768x768.Idx → EReal) (ix2 e j) := by
  have h : (StableHlo.after (hostOps2 (F := Ideal)) W (Proc.devRef .tc main_v18) : S768x768.Idx → EReal)
      = transpose S768x768 [1, 0] (W (Proc.devRef .tc main_arg7) : S768x768.Idx → EReal) Facts₀.transposes_S768x768_S768x768_1_0 := by
    host_results
  rw [h]
  exact transpose_ix2_apply _ _ j e

theorem result_apply (s : Fin 4096) (e : Fin 768) :
    (StableHlo.after (hostOps3 (F := Ideal)) W (Proc.devRef .tc main_v20) : S1x4096x768.Idx → EReal) (ix3 (0 : Fin 1) s e)
      = (W (Proc.devRef .tc main_v19) : S4096x768.Idx → EReal) (ix2 s e) := by
  have h : (StableHlo.after (hostOps3 (F := Ideal)) W (Proc.devRef .tc main_v20) : S1x4096x768.Idx → EReal)
      = shapeCast S1x4096x768 (W (Proc.devRef .tc main_v19) : S4096x768.Idx → EReal) Facts₀.shapeCasts_S4096x768_S1x4096x768 := by
    host_results
    rfl
  rw [h]
  exact shapeCast_ab_1ab_apply _ _ (0 : Fin 1) s e

end reads2

end Cert.KernelIdeal.HostRead

end
-- ==== Proof.IValueAlg.lean ====
import proofs.«122623_j15204184228289_2_alg».proof.Proof.IProjValue
import proofs.«122623_j15204184228289_2_alg».proof.Proof.IAttnG
import proofs.«122623_j15204184228289_2_alg».proof.Proof.Spec
import proofs.«122623_j15204184228289_2_alg».proof.Proof.SpecEq

/-!
# The three whole-array stages composed

The fused projection of the rows against the three merged weight matrices laid side by side (columns 0..767 the
queries', 768..1535 the keys', 1536..2303 the values') is, third by third, the three projections with merged weights;
attention over those thirds followed by the output dense layer is therefore the whole computation as the kernel
arranges it, and on real inputs the whole computation as the reference arranges it.
-/

noncomputable section

namespace Cert.KernelIdeal.ValueAlg

open Cert.KernelIdeal Cert.KernelIdeal.ProjValue Cert.KernelIdeal.AttnValue
open Idealize.ShloMosaic Idealize.ShloMosaic.ValueIdx
open Cert.Spec
open scoped BigOperators

section
variable (X : Mat 4096 768) (WQ WK WV WO : Mat 768 768) (BQ BK BV BO : Fin 768 → EReal)
  (DQ DK DV : Mat 8 768) (UQ UK UV : Mat 768 8)
  (T0 : S4096x768.Idx → EReal) (Wall : S768x2304.Idx → EReal) (Ball : S2304.Idx → EReal)
  (WoT : S768x768.Idx → EReal) (Bo : S768.Idx → EReal)

/-! ## The three thirds of the fused projection -/

/-- Columns 0..767: the query projection with merged weights. -/
theorem qOf_qkvG (hT : ∀ s d, T0 (ix2 s d) = X s d)
    (hWq : ∀ (e d : Fin 768), Wall (ix2 d (⟨e.val, by omega⟩ : Fin 2304)) = merged WQ DQ UQ e d)
    (hBq : ∀ e : Fin 768, Ball (ix1 (⟨e.val, by omega⟩ : Fin 2304)) = BQ e) :
    qOf (qkvG T0 Wall Ball) = kerProj X WQ BQ DQ UQ := by
  funext s e
  show (∑ k : Fin 768, T0 (ix2 s k) * Wall (ix2 k (⟨e.val, by omega⟩ : Fin 2304)))
      + Ball (ix1 (⟨e.val, by omega⟩ : Fin 2304)) = (∑ d : Fin 768, X s d * merged WQ DQ UQ e d) + BQ e
  exact congrArg₂ (· + ·) (Finset.sum_congr rfl fun k _ => congrArg₂ (· * ·) (hT s k) (hWq e k)) (hBq e)

/-- Columns 768..1535: the key projection. -/
theorem kOf_qkvG (hT : ∀ s d, T0 (ix2 s d) = X s d)
    (hWk : ∀ (e d : Fin 768), Wall (ix2 d (⟨768 + e.val, by omega⟩ : Fin 2304)) = merged WK DK UK e d)
    (hBk : ∀ e : Fin 768, Ball (ix1 (⟨768 + e.val, by omega⟩ : Fin 2304)) = BK e) :
    kOf (qkvG T0 Wall Ball) = kerProj X WK BK DK UK := by
  funext s e
  show (∑ k : Fin 768, T0 (ix2 s k) * Wall (ix2 k (⟨768 + e.val, by omega⟩ : Fin 2304)))
      + Ball (ix1 (⟨768 + e.val, by omega⟩ : Fin 2304)) = (∑ d : Fin 768, X s d * merged WK DK UK e d) + BK e
  exact congrArg₂ (· + ·) (Finset.sum_congr rfl fun k _ => congrArg₂ (· * ·) (hT s k) (hWk e k)) (hBk e)

/-- Columns 1536..2303: the value projection. -/
theorem vOf_qkvG (hT : ∀ s d, T0 (ix2 s d) = X s d)
    (hWv : ∀ (e d : Fin 768), Wall (ix2 d (⟨1536 + e.val, by omega⟩ : Fin 2304)) = merged WV DV UV e d)
    (hBv : ∀ e : Fin 768, Ball (ix1 (⟨1536 + e.val, by omega⟩ : Fin 2304)) = BV e) :
    vOf (qkvG T0 Wall Ball) = kerProj X WV BV DV UV := by
  funext s e
  show (∑ k : Fin 768, T0 (ix2 s k) * Wall (ix2 k (⟨1536 + e.val, by omega⟩ : Fin 2304)))
      + Ball (ix1 (⟨1536 + e.val, by omega⟩ : Fin 2304)) = (∑ d : Fin 768, X s d * merged WV DV UV e d) + BV e
  exact congrArg₂ (· + ·) (Finset.sum_congr rfl fun k _ => congrArg₂ (· * ·) (hT s k) (hWv e k)) (hBv e)

/-- A column of the 2304 lies in one of the three thirds. -/
theorem col_cases (c : Fin 2304) :
    (∃ e : Fin 768, c = (⟨e.val, by omega⟩ : Fin 2304)) ∨ (∃ e : Fin 768, c = (⟨768 + e.val, by omega⟩ : Fin 2304))
      ∨ (∃ e : Fin 768, c = (⟨1536 + e.val, by omega⟩ : Fin 2304)) := by
  by_cases h1 : c.val < 768
  · exact Or.inl ⟨⟨c.val, h1⟩, rfl⟩
  · by_cases h2 : c.val < 1536
    · exact Or.inr (Or.inl ⟨⟨c.val - 768, by omega⟩, Fin.ext (by show c.val = 768 + (c.val - 768); omega)⟩)
    · exact Or.inr (Or.inr ⟨⟨c.val - 1536, by have := c.isLt; omega⟩,
        Fin.ext (by show c.val = 1536 + (c.val - 1536); omega)⟩)

/-! ## Real inputs: the fused projection is real -/

theorem qkvG_real (hT : ∀ s d, T0 (ix2 s d) = X s d)
    (hWq : ∀ (e d : Fin 768), Wall (ix2 d (⟨e.val, by omega⟩ : Fin 2304)) = merged WQ DQ UQ e d)
    (hWk : ∀ (e d : Fin 768), Wall (ix2 d (⟨768 + e.val, by omega⟩ : Fin 2304)) = merged WK DK UK e d)
    (hWv : ∀ (e d : Fin 768), Wall (ix2 d (⟨1536 + e.val, by omega⟩ : Fin 2304)) = merged WV DV UV e d)
    (hBq : ∀ e : Fin 768, Ball (ix1 (⟨e.val, by omega⟩ : Fin 2304)) = BQ e)
    (hBk : ∀ e : Fin 768, Ball (ix1 (⟨768 + e.val, by omega⟩ : Fin 2304)) = BK e)
    (hBv : ∀ e : Fin 768, Ball (ix1 (⟨1536 + e.val, by omega⟩ : Fin 2304)) = BV e)
    (hx : ∀ s d, ∃ r : ℝ, X s d = r)
    (hwq : ∀ e d, ∃ r : ℝ, WQ e d = r) (hwk : ∀ e d, ∃ r : ℝ, WK e d = r) (hwv : ∀ e d, ∃ r : ℝ, WV e d = r)
    (hbq : ∀ e, ∃ r : ℝ, BQ e = r) (hbk : ∀ e, ∃ r : ℝ, BK e = r) (hbv : ∀ e, ∃ r : ℝ, BV e = r)
    (hdq : ∀ r d, ∃ x : ℝ, DQ r d = x) (hdk : ∀ r d, ∃ x : ℝ, DK r d = x) (hdv : ∀ r d, ∃ x : ℝ, DV r d = x)
    (huq : ∀ e r, ∃ x : ℝ, UQ e r = x) (huk : ∀ e r, ∃ x : ℝ, UK e r = x) (huv : ∀ e r, ∃ x : ℝ, UV e r = x) :
    ∀ i : S4096x2304.Idx, ∃ r : ℝ, qkvG T0 Wall Ball i = r := by
  intro i
  obtain ⟨s, c, rfl⟩ : ∃ (s : Fin 4096) (c : Fin 2304), i = ix2 s c := ⟨i 0, i 1, eq_ix2 i⟩
  rcases col_cases c with ⟨e, rfl⟩ | ⟨e, rfl⟩ | ⟨e, rfl⟩
  · obtain ⟨x, hx'⟩ := kerProj_real X WQ BQ DQ UQ hx hwq hbq hdq huq s e
    exact ⟨x, (congrFun (congrFun (qOf_qkvG X WQ BQ DQ UQ T0 Wall Ball hT hWq hBq) s) e).trans hx'⟩
  · obtain ⟨x, hx'⟩ := kerProj_real X WK BK DK UK hx hwk hbk hdk huk s e
    exact ⟨x, (congrFun (congrFun (kOf_qkvG X WK BK DK UK T0 Wall Ball hT hWk hBk) s) e).trans hx'⟩
  · obtain ⟨x, hx'⟩ := kerProj_real X WV BV DV UV hx hwv hbv hdv huv s e
    exact ⟨x, (congrFun (congrFun (vOf_qkvG X WV BV DV UV T0 Wall Ball hT hWv hBv) s) e).trans hx'⟩

/-! ## The whole computation -/

/-- The three stages composed are the whole computation as the kernel arranges it. -/
theorem whole_eq_kerAll (hT : ∀ s d, T0 (ix2 s d) = X s d)
    (hWq : ∀ (e d : Fin 768), Wall (ix2 d (⟨e.val, by omega⟩ : Fin 2304)) = merged WQ DQ UQ e d)
    (hWk : ∀ (e d : Fin 768), Wall (ix2 d (⟨768 + e.val, by omega⟩ : Fin 2304)) = merged WK DK UK e d)
    (hWv : ∀ (e d : Fin 768), Wall (ix2 d (⟨1536 + e.val, by omega⟩ : Fin 2304)) = merged WV DV UV e d)
    (hBq : ∀ e : Fin 768, Ball (ix1 (⟨e.val, by omega⟩ : Fin 2304)) = BQ e)
    (hBk : ∀ e : Fin 768, Ball (ix1 (⟨768 + e.val, by omega⟩ : Fin 2304)) = BK e)
    (hBv : ∀ e : Fin 768, Ball (ix1 (⟨1536 + e.val, by omega⟩ : Fin 2304)) = BV e)
    (hWo : ∀ j e : Fin 768, WoT (ix2 j e) = WO e j) (hBo : ∀ e : Fin 768, Bo (ix1 e) = BO e) :
    ∀ (s : Fin 4096) (e : Fin 768), outpG (attnG (qkvG T0 Wall Ball)) WoT Bo (ix2 s e)
      = kerAll X WQ WK WV WO BQ BK BV BO DQ DK DV UQ UK UV s e := by
  intro s e
  have hA : ∀ j : Fin 768, attnG (qkvG T0 Wall Ball) (ix2 s j)
      = attn (kerScore (kerProj X WQ BQ DQ UQ) (kerProj X WK BK DK UK)) (kerProj X WV BV DV UV) s j := by
    intro j
    refine (attnG_ix2 _ s j).trans ?_
    rw [qOf_qkvG X WQ BQ DQ UQ T0 Wall Ball hT hWq hBq, kOf_qkvG X WK BK DK UK T0 Wall Ball hT hWk hBk,
      vOf_qkvG X WV BV DV UV T0 Wall Ball hT hWv hBv]
  show (∑ j : Fin 768, attnG (qkvG T0 Wall Ball) (ix2 s j) * WoT (ix2 j e)) + Bo (ix1 e)
    = (∑ j : Fin 768, attn (kerScore (kerProj X WQ BQ DQ UQ) (kerProj X WK BK DK UK)) (kerProj X WV BV DV UV) s j
        * WO e j) + BO e
  exact congrArg₂ (· + ·) (Finset.sum_congr rfl fun j _ => congrArg₂ (· * ·) (hA j) (hWo j e)) (hBo e)

/-- On real inputs they are the whole computation as the reference arranges it. -/
theorem whole_eq_refAll (hT : ∀ s d, T0 (ix2 s d) = X s d)
    (hWq : ∀ (e d : Fin 768), Wall (ix2 d (⟨e.val, by omega⟩ : Fin 2304)) = merged WQ DQ UQ e d)
    (hWk : ∀ (e d : Fin 768), Wall (ix2 d (⟨768 + e.val, by omega⟩ : Fin 2304)) = merged WK DK UK e d)
    (hWv : ∀ (e d : Fin 768), Wall (ix2 d (⟨1536 + e.val, by omega⟩ : Fin 2304)) = merged WV DV UV e d)
    (hBq : ∀ e : Fin 768, Ball (ix1 (⟨e.val, by omega⟩ : Fin 2304)) = BQ e)
    (hBk : ∀ e : Fin 768, Ball (ix1 (⟨768 + e.val, by omega⟩ : Fin 2304)) = BK e)
    (hBv : ∀ e : Fin 768, Ball (ix1 (⟨1536 + e.val, by omega⟩ : Fin 2304)) = BV e)
    (hWo : ∀ j e : Fin 768, WoT (ix2 j e) = WO e j) (hBo : ∀ e : Fin 768, Bo (ix1 e) = BO e)
    (hx : ∀ s d, ∃ r : ℝ, X s d = r)
    (hwq : ∀ e d, ∃ r : ℝ, WQ e d = r) (hwk : ∀ e d, ∃ r : ℝ, WK e d = r) (hwv : ∀ e d, ∃ r : ℝ, WV e d = r)
    (hbq : ∀ e, ∃ r : ℝ, BQ e = r) (hbk : ∀ e, ∃ r : ℝ, BK e = r) (hbv : ∀ e, ∃ r : ℝ, BV e = r)
    (hdq : ∀ r d, ∃ x : ℝ, DQ r d = x) (hdk : ∀ r d, ∃ x : ℝ, DK r d = x) (hdv : ∀ r d, ∃ x : ℝ, DV r d = x)
    (huq : ∀ e r, ∃ x : ℝ, UQ e r = x) (huk : ∀ e r, ∃ x : ℝ, UK e r = x) (huv : ∀ e r, ∃ x : ℝ, UV e r = x) :
    ∀ (s : Fin 4096) (e : Fin 768), outpG (attnG (qkvG T0 Wall Ball)) WoT Bo (ix2 s e)
      = refAll X WQ WK WV WO BQ BK BV BO DQ DK DV UQ UK UV s e := by
  intro s e
  rw [← kerAll_eq_refAll X WQ WK WV WO BQ BK BV BO DQ DK DV UQ UK UV hx hwq hwk hwv hbq hbk hbv hdq hdk hdv huq huk huv]
  exact whole_eq_kerAll X WQ WK WV WO BQ BK BV BO DQ DK DV UQ UK UV T0 Wall Ball WoT Bo
    hT hWq hWk hWv hBq hBk hBv hWo hBo s e

end

end Cert.KernelIdeal.ValueAlg

end
-- ==== Proof.IPre.lean ====
/-
  From the stated precondition to real entries.

  The precondition says of each of the fifteen argument arrays that every entry's absolute value is below +∞: for
  each array, the comparison of max x (−x) against the word of +∞, entry by entry, reduced by "and" over every axis,
  and the fifteen results joined by "and", is the bit 1. Read backwards: a conjunction that is 1 has both parts 1; a
  reduction by "and" into a single result that is 1 met a 1 at every entry; a comparison max x (−x) < +∞ that holds
  excludes both infinities, so the entry is a real number.
-/
import proofs.«122623_j15204184228289_2_alg».proof.Defs
import proofs.«122623_j15204184228289_2_alg».proof.Proof.Gen.Pre_finite_inputs
import proofs.«122623_j15204184228289_2_alg».proof.Proof.LibRealSums
import Idealize.ShloMosaic.Lib.ReduceAll
import Idealize.ShloMosaic.Lib.ValueIdx
import Idealize.ShloMosaic.Lib.Pipeline.Value
import Idealize.ShloMosaic.PureOps.Ideal.Laws

noncomputable section

namespace Cert.PreReal

open Idealize.ShloMosaic Idealize.ShloMosaic.ValueIdx Idealize.ShloMosaic.TcCoe Idealize.SL.Sem

/-- The scalar shape has one index. -/
instance : Subsingleton Cert.Pre_finite_inputs.S_.Idx := ⟨fun a b => funext fun d => d.elim0⟩

/-- The f32 pattern of +∞ denotes the greatest extended real. -/
theorem ofBits_pos_inf : Ideal.ofBits .f32 0x7F800000#32 = ⊤ := by simp [Ideal.ofBits, Ideal.ieee]

/-- A conjunction of two one-bit arrays that is 1 at an index has both parts 1 there. -/
theorem vandi_one {s : Shape} {a b : IVec s 1} {i : s.Idx} (h : andi a b i = 1#1) : a i = 1#1 ∧ b i = 1#1 :=
  IntOp.andi_eq_one.1 h

/-- One array's test: if "every entry's absolute value is below +∞", reduced by "and" over all axes, is 1, then every
    entry is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (h : Host.reduce IntOp.andi
          (cmpf .olt (Host.absf x) (broadcastInDim s ![] hb (constant (F := Ideal) Cert.Pre_finite_inputs.S_ .f32 0x7F800000#32)))
          (constantI Cert.Pre_finite_inputs.S_ 1 1#1) hr hS ix0 = 1#1) (i : s.Idx) : ∃ r : ℝ, x i = (r : EReal) := by
  have e := Host.reduce_andi_all _ _ hr hS ix0 h i
  have hbc : broadcastInDim s ![] hb (constant (F := Ideal) Cert.Pre_finite_inputs.S_ .f32 0x7F800000#32) i
      = Ideal.ofBits .f32 0x7F800000#32 :=
    broadcastInDim_apply _ hb _ i ix0 (fun a => a.elim0)
  rw [cmpf_apply, hbc, ofBits_pos_inf] at e
  have hlt : max (x i) (-(x i)) < ⊤ := by
    by_contra hc
    have h0 : Ideal.cmp .olt (max (x i) (-(x i))) ⊤ = 0#1 := by simp [Ideal.cmp, hc]
    exact absurd (h0.symm.trans e) (by decide)
  exact Cert.Lib.RealSums.exists_real_of_max_neg_lt_top hlt

variable [Cert.Pre_finite_inputs.Facts]

/-- The precondition over fifteen arrays: every entry of every array is a real number. -/
theorem fn_real (x0 : FVec Ideal Cert.Pre_finite_inputs.S1x4096x768 .f32) (x1 : FVec Ideal Cert.Pre_finite_inputs.S768x768 .f32) (x2 : FVec Ideal Cert.Pre_finite_inputs.S768 .f32) (x3 : FVec Ideal Cert.Pre_finite_inputs.S768x768 .f32) (x4 : FVec Ideal Cert.Pre_finite_inputs.S768 .f32) (x5 : FVec Ideal Cert.Pre_finite_inputs.S768x768 .f32) (x6 : FVec Ideal Cert.Pre_finite_inputs.S768 .f32) (x7 : FVec Ideal Cert.Pre_finite_inputs.S768x768 .f32) (x8 : FVec Ideal Cert.Pre_finite_inputs.S768 .f32) (x9 : FVec Ideal Cert.Pre_finite_inputs.S8x768 .f32) (x10 : FVec Ideal Cert.Pre_finite_inputs.S768x8 .f32) (x11 : FVec Ideal Cert.Pre_finite_inputs.S8x768 .f32) (x12 : FVec Ideal Cert.Pre_finite_inputs.S768x8 .f32) (x13 : FVec Ideal Cert.Pre_finite_inputs.S8x768 .f32) (x14 : FVec Ideal Cert.Pre_finite_inputs.S768x8 .f32)
    (h : Cert.Pre_finite_inputs.fn (F := Ideal) x0 x1 x2 x3 x4 x5 x6 x7 x8 x9 x10 x11 x12 x13 x14 = (fun _ => 1#1)) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) ∧ (∀ i, ∃ r : ℝ, x9 i = (r : EReal)) ∧ (∀ i, ∃ r : ℝ, x10 i = (r : EReal)) ∧ (∀ i, ∃ r : ℝ, x11 i = (r : EReal)) ∧ (∀ i, ∃ r : ℝ, x12 i = (r : EReal)) ∧ (∀ i, ∃ r : ℝ, x13 i = (r : EReal)) ∧ (∀ i, ∃ r : ℝ, x14 i = (r : EReal)) := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, h14⟩ := vandi_one h0
  obtain ⟨h0, h13⟩ := vandi_one h0
  obtain ⟨h0, h12⟩ := vandi_one h0
  obtain ⟨h0, h11⟩ := vandi_one h0
  obtain ⟨h0, h10⟩ := vandi_one h0
  obtain ⟨h0, h9⟩ := vandi_one h0
  obtain ⟨h0, h8⟩ := vandi_one h0
  obtain ⟨h0, h7⟩ := vandi_one h0
  obtain ⟨h0, h6⟩ := vandi_one h0
  obtain ⟨h0, h5⟩ := vandi_one h0
  obtain ⟨h0, h4⟩ := vandi_one h0
  obtain ⟨h0, h3⟩ := vandi_one h0
  obtain ⟨h0, h2⟩ := vandi_one h0
  obtain ⟨h0, h1⟩ := vandi_one h0
  exact ⟨all_real x0 _ _ _ h0,
    all_real x1 _ _ _ h1,
    all_real x2 _ _ _ h2,
    all_real x3 _ _ _ h3,
    all_real x4 _ _ _ h4,
    all_real x5 _ _ _ h5,
    all_real x6 _ _ _ h6,
    all_real x7 _ _ _ h7,
    all_real x8 _ _ _ h8,
    all_real x9 _ _ _ h9,
    all_real x10 _ _ _ h10,
    all_real x11 _ _ _ h11,
    all_real x12 _ _ _ h12,
    all_real x13 _ _ _ h13,
    all_real x14 _ _ _ h14⟩

/-- The kernel's precondition: every entry of each of its fifteen argument arrays is a real number. -/
theorem pre_real_kernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
      ∧ (∀ i, ∃ r : ℝ, (m ((c.tc : Thread Cert.KernelIdeal.nD Cert.KernelIdeal.τ).loc Cert.KernelIdeal.main_arg1)) i = (r : EReal))
      ∧ (∀ i, ∃ r : ℝ, (m ((c.tc : Thread Cert.KernelIdeal.nD Cert.KernelIdeal.τ).loc Cert.KernelIdeal.main_arg2)) i = (r : EReal))
      ∧ (∀ i, ∃ r : ℝ, (m ((c.tc : Thread Cert.KernelIdeal.nD Cert.KernelIdeal.τ).loc Cert.KernelIdeal.main_arg3)) i = (r : EReal))
      ∧ (∀ i, ∃ r : ℝ, (m ((c.tc : Thread Cert.KernelIdeal.nD Cert.KernelIdeal.τ).loc Cert.KernelIdeal.main_arg4)) i = (r : EReal))
      ∧ (∀ i, ∃ r : ℝ, (m ((c.tc : Thread Cert.KernelIdeal.nD Cert.KernelIdeal.τ).loc Cert.KernelIdeal.main_arg5)) i = (r : EReal))
      ∧ (∀ i, ∃ r : ℝ, (m ((c.tc : Thread Cert.KernelIdeal.nD Cert.KernelIdeal.τ).loc Cert.KernelIdeal.main_arg6)) i = (r : EReal))
      ∧ (∀ i, ∃ r : ℝ, (m ((c.tc : Thread Cert.KernelIdeal.nD Cert.KernelIdeal.τ).loc Cert.KernelIdeal.main_arg7)) i = (r : EReal))
      ∧ (∀ i, ∃ r : ℝ, (m ((c.tc : Thread Cert.KernelIdeal.nD Cert.KernelIdeal.τ).loc Cert.KernelIdeal.main_arg8)) i = (r : EReal))
      ∧ (∀ i, ∃ r : ℝ, (m ((c.tc : Thread Cert.KernelIdeal.nD Cert.KernelIdeal.τ).loc Cert.KernelIdeal.main_arg9)) i = (r : EReal))
      ∧ (∀ i, ∃ r : ℝ, (m ((c.tc : Thread Cert.KernelIdeal.nD Cert.KernelIdeal.τ).loc Cert.KernelIdeal.main_arg10)) i = (r : EReal))
      ∧ (∀ i, ∃ r : ℝ, (m ((c.tc : Thread Cert.KernelIdeal.nD Cert.KernelIdeal.τ).loc Cert.KernelIdeal.main_arg11)) i = (r : EReal))
      ∧ (∀ i, ∃ r : ℝ, (m ((c.tc : Thread Cert.KernelIdeal.nD Cert.KernelIdeal.τ).loc Cert.KernelIdeal.main_arg12)) i = (r : EReal))
      ∧ (∀ i, ∃ r : ℝ, (m ((c.tc : Thread Cert.KernelIdeal.nD Cert.KernelIdeal.τ).loc Cert.KernelIdeal.main_arg13)) i = (r : EReal))
      ∧ (∀ i, ∃ r : ℝ, (m ((c.tc : Thread Cert.KernelIdeal.nD Cert.KernelIdeal.τ).loc Cert.KernelIdeal.main_arg14)) i = (r : EReal)) :=
  fn_real _ _ _ _ _ _ _ _ _ _ _ _ _ _ _ (h c)

/-- The same for the reference's precondition. -/
theorem pre_real_referenceIdeal
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, (m ((c.tc : Thread Cert.ReferenceIdeal.nD Cert.ReferenceIdeal.τ).loc Cert.ReferenceIdeal.main_arg0)) i = (r : EReal))
      ∧ (∀ i, ∃ r : ℝ, (m ((c.tc : Thread Cert.ReferenceIdeal.nD Cert.ReferenceIdeal.τ).loc Cert.ReferenceIdeal.main_arg1)) i = (r : EReal))
      ∧ (∀ i, ∃ r : ℝ, (m ((c.tc : Thread Cert.ReferenceIdeal.nD Cert.ReferenceIdeal.τ).loc Cert.ReferenceIdeal.main_arg2)) i = (r : EReal))
      ∧ (∀ i, ∃ r : ℝ, (m ((c.tc : Thread Cert.ReferenceIdeal.nD Cert.ReferenceIdeal.τ).loc Cert.ReferenceIdeal.main_arg3)) i = (r : EReal))
      ∧ (∀ i, ∃ r : ℝ, (m ((c.tc : Thread Cert.ReferenceIdeal.nD Cert.ReferenceIdeal.τ).loc Cert.ReferenceIdeal.main_arg4)) i = (r : EReal))
      ∧ (∀ i, ∃ r : ℝ, (m ((c.tc : Thread Cert.ReferenceIdeal.nD Cert.ReferenceIdeal.τ).loc Cert.ReferenceIdeal.main_arg5)) i = (r : EReal))
      ∧ (∀ i, ∃ r : ℝ, (m ((c.tc : Thread Cert.ReferenceIdeal.nD Cert.ReferenceIdeal.τ).loc Cert.ReferenceIdeal.main_arg6)) i = (r : EReal))
      ∧ (∀ i, ∃ r : ℝ, (m ((c.tc : Thread Cert.ReferenceIdeal.nD Cert.ReferenceIdeal.τ).loc Cert.ReferenceIdeal.main_arg7)) i = (r : EReal))
      ∧ (∀ i, ∃ r : ℝ, (m ((c.tc : Thread Cert.ReferenceIdeal.nD Cert.ReferenceIdeal.τ).loc Cert.ReferenceIdeal.main_arg8)) i = (r : EReal))
      ∧ (∀ i, ∃ r : ℝ, (m ((c.tc : Thread Cert.ReferenceIdeal.nD Cert.ReferenceIdeal.τ).loc Cert.ReferenceIdeal.main_arg9)) i = (r : EReal))
      ∧ (∀ i, ∃ r : ℝ, (m ((c.tc : Thread Cert.ReferenceIdeal.nD Cert.ReferenceIdeal.τ).loc Cert.ReferenceIdeal.main_arg10)) i = (r : EReal))
      ∧ (∀ i, ∃ r : ℝ, (m ((c.tc : Thread Cert.ReferenceIdeal.nD Cert.ReferenceIdeal.τ).loc Cert.ReferenceIdeal.main_arg11)) i = (r : EReal))
      ∧ (∀ i, ∃ r : ℝ, (m ((c.tc : Thread Cert.ReferenceIdeal.nD Cert.ReferenceIdeal.τ).loc Cert.ReferenceIdeal.main_arg12)) i = (r : EReal))
      ∧ (∀ i, ∃ r : ℝ, (m ((c.tc : Thread Cert.ReferenceIdeal.nD Cert.ReferenceIdeal.τ).loc Cert.ReferenceIdeal.main_arg13)) i = (r : EReal))
      ∧ (∀ i, ∃ r : ℝ, (m ((c.tc : Thread Cert.ReferenceIdeal.nD Cert.ReferenceIdeal.τ).loc Cert.ReferenceIdeal.main_arg14)) i = (r : EReal)) :=
  fn_real _ _ _ _ _ _ _ _ _ _ _ _ _ _ _ (h c)

end Cert.PreReal

end
-- ==== Proof.RefSide.lean ====
/-
  The reference program read as mathematics.

  The reference computes twelve-head attention over 4096 rows of width 768 = 12 · 64. Each of the query, key and value
  projections is a dense layer plus twice a rank-8 update; the projected rows are cut into twelve heads of 64 columns;
  a head's scores are the 64-term contractions of query rows against key rows, divided by 8; each score row goes through
  the softmax (its largest entry subtracted, exponentials taken, divided by their sum); the softmax weights weigh the
  value rows; the heads are laid side by side again; an output dense layer finishes.

  The generated module this one imports reads every operation of the program at an index in terms of its operands.
  Here those readings are chained, stage by stage and always at an index given by its coordinates, until the program's
  result at (0, s, e) is the specification's `refAll` of the fifteen argument arrays at (s, e):

  * `proj_apply`   — a projection at (0, s, e) is `refProj`;
  * `v28_at`, `v30_at`, `v32_at` — after the cut into heads and the transposition, head h, row s, coordinate d is
    column 64 · h + d of row s;
  * `v35_at`      — the scaled scores are `refScore`;
  * `v36_at` … `v46_at` — the maximum over a row (a fold of `max` from −∞, and the larger of −∞ and that is the fold
    itself), the exponentials, their sum (the sum started from the zero word is the sum) and the quotient are the
    softmax of the row;
  * `v47_at`, `v49_at` — the weighted sum over the value rows, and column j of the merged array is coordinate j mod 64
    of head j / 64, which is `attn`;
  * `v53_at`      — the output layer is `outProj`;
  * `ref_value`, `ref_array`, `ref_run` — the whole: at an entry, as an array, and as the term the run leaves in the
    result buffer.

  Nothing here needs the entries to be finite: every step is a reading of the program, not a law of arithmetic.
-/
import proofs.«122623_j15204184228289_2_alg».proof.Proof.Gen.ReferenceIdeal.Read
import proofs.«122623_j15204184228289_2_alg».proof.Proof.Spec

noncomputable section

namespace Cert.RefSide

open Cert.ReferenceIdeal Cert.ReferenceIdeal.Gen Cert.ReferenceIdeal.Read Idealize.ShloMosaic Idealize.ShloMosaic.ValueIdx
open Cert.Lib.SoftmaxRow

/-! ## A projection read at (0, s, e) -/

theorem lidx_v0 (s : Fin 4096) (e k : Fin 768) : lidx_main_v0 (ix3 (0 : Fin 1) s e) k = ix3 (0 : Fin 1) s k :=
  funext fun a => Fin.ext (by match a with | ⟨0, _⟩ => rfl | ⟨1, _⟩ => rfl | ⟨2, _⟩ => rfl)
theorem ridx_v0 (s : Fin 4096) (e k : Fin 768) : ridx_main_v0 (ix3 (0 : Fin 1) s e) k = ix2 e k :=
  funext fun a => Fin.ext (by match a with | ⟨0, _⟩ => rfl | ⟨1, _⟩ => rfl)
theorem idx_v1v2 (s : Fin 4096) (e : Fin 768) : idx_main_v1 (idx_main_v2 (ix3 (0 : Fin 1) s e)) = ix1 e :=
  funext fun a => Fin.ext (by match a with | ⟨0, _⟩ => rfl)
theorem lidx_v5 (s : Fin 4096) (e : Fin 768) (r : Fin 8) : lidx_main_v5 (ix3 (0 : Fin 1) s e) r = ix3 (0 : Fin 1) s r :=
  funext fun a => Fin.ext (by match a with | ⟨0, _⟩ => rfl | ⟨1, _⟩ => rfl | ⟨2, _⟩ => rfl)
theorem ridx_v5 (s : Fin 4096) (e : Fin 768) (r : Fin 8) : ridx_main_v5 (ix3 (0 : Fin 1) s e) r = ix2 e r :=
  funext fun a => Fin.ext (by match a with | ⟨0, _⟩ => rfl | ⟨1, _⟩ => rfl)
theorem lidx_v4 (s : Fin 4096) (r : Fin 8) (d : Fin 768) : lidx_main_v4 (ix3 (0 : Fin 1) s r) d = ix3 (0 : Fin 1) s d :=
  funext fun a => Fin.ext (by match a with | ⟨0, _⟩ => rfl | ⟨1, _⟩ => rfl | ⟨2, _⟩ => rfl)
theorem ridx_v4 (s : Fin 4096) (r : Fin 8) (d : Fin 768) : ridx_main_v4 (ix3 (0 : Fin 1) s r) d = ix2 r d :=
  funext fun a => Fin.ext (by match a with | ⟨0, _⟩ => rfl | ⟨1, _⟩ => rfl)

/-- The first projection's chain of operations, read at (0, s, e): the dense layer plus twice the rank-8 update. -/
theorem proj_apply (x0 : (⟨S1x4096x768, .f32⟩ : BufTy).Contents (Elt Ideal)) (w : (⟨S768x768, .f32⟩ : BufTy).Contents (Elt Ideal))
    (b : (⟨S768, .f32⟩ : BufTy).Contents (Elt Ideal)) (dn : (⟨S8x768, .f32⟩ : BufTy).Contents (Elt Ideal))
    (up : (⟨S768x8, .f32⟩ : BufTy).Contents (Elt Ideal)) (s : Fin 4096) (e : Fin 768) :
    val_main_v8 (F := Ideal) x0 w b dn up (ix3 (0 : Fin 1) s e)
      = Cert.Spec.refProj (fun s d => x0 (ix3 (0 : Fin 1) s d)) (fun e d => w (ix2 e d)) (fun e => b (ix1 e))
          (fun r d => dn (ix2 r d)) (fun e r => up (ix2 e r)) s e := by
  rw [val_main_v8_apply, val_main_v3_apply, val_main_v7_apply, val_main_v0_apply, val_main_v2_apply, val_main_v1_apply,
    val_main_v5_apply, val_main_v6_apply, val_main_cst_apply]
  simp only [val_main_v4_apply, lidx_v0, ridx_v0, idx_v1v2, lidx_v5, ridx_v5, lidx_v4, ridx_v4,
    Ideal.addf_def, Ideal.mulf_def, Ideal.ofBits_def]
  rfl

/-! ## The split into heads -/

theorem idx_heads_q (h : Fin 12) (s : Fin 4096) (d : Fin 64) :
    idx_main_v27 (idx_main_v28 (ix4 (0 : Fin 1) h s d)) = ix3 (0 : Fin 1) s (Cert.Spec.hd h d) :=
  funext fun a => Fin.ext (by
    have hh := h.isLt; have hs := s.isLt; have hd := d.isLt
    match a with
    | ⟨0, _⟩ => rfl
    | ⟨1, _⟩ => show (((0 * 4096 + s.val) * 12 + h.val) * 64 + d.val) / 768 % 4096 = s.val; omega
    | ⟨2, _⟩ => show (((0 * 4096 + s.val) * 12 + h.val) * 64 + d.val) % 768 = 64 * h.val + d.val; omega)

/-- Head h, row s, coordinate d of the split and transposed array is column 64·h + d of row s. -/
theorem v28_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x9 : (⟨S8x768, .f32⟩ : BufTy).Contents (Elt Ideal)) (x10 : (⟨S768x8, .f32⟩ : BufTy).Contents (Elt Ideal)) (h : Fin 12) (s : Fin 4096) (d : Fin 64) :
    val_main_v28 (F := Ideal) x0 x1 x2 x9 x10 (ix4 (0 : Fin 1) h s d) = val_main_v8 (F := Ideal) x0 x1 x2 x9 x10 (ix3 (0 : Fin 1) s (Cert.Spec.hd h d)) := by
  rw [val_main_v28_apply, val_main_v27_apply, idx_heads_q]

theorem idx_heads_k (h : Fin 12) (s : Fin 4096) (d : Fin 64) :
    idx_main_v29 (idx_main_v30 (ix4 (0 : Fin 1) h s d)) = ix3 (0 : Fin 1) s (Cert.Spec.hd h d) :=
  funext fun a => Fin.ext (by
    have hh := h.isLt; have hs := s.isLt; have hd := d.isLt
    match a with
    | ⟨0, _⟩ => rfl
    | ⟨1, _⟩ => show (((0 * 4096 + s.val) * 12 + h.val) * 64 + d.val) / 768 % 4096 = s.val; omega
    | ⟨2, _⟩ => show (((0 * 4096 + s.val) * 12 + h.val) * 64 + d.val) % 768 = 64 * h.val + d.val; omega)

/-- Head h, row s, coordinate d of the split and transposed array is column 64·h + d of row s. -/
theorem v30_at (x0 : (⟨S1x4096x768, .f32⟩ : BufTy).Contents (Elt Ideal)) (x3 : (⟨S768x768, .f32⟩ : BufTy).Contents (Elt Ideal)) (x4 : (⟨S768, .f32⟩ : BufTy).Contents (Elt Ideal)) (x11 : (⟨S8x768, .f32⟩ : BufTy).Contents (Elt Ideal)) (x12 : (⟨S768x8, .f32⟩ : BufTy).Contents (Elt Ideal)) (h : Fin 12) (s : Fin 4096) (d : Fin 64) :
    val_main_v30 (F := Ideal) x0 x3 x4 x11 x12 (ix4 (0 : Fin 1) h s d) = val_main_v17 (F := Ideal) x0 x3 x4 x11 x12 (ix3 (0 : Fin 1) s (Cert.Spec.hd h d)) := by
  rw [val_main_v30_apply, val_main_v29_apply, idx_heads_k]

theorem idx_heads_v (h : Fin 12) (s : Fin 4096) (d : Fin 64) :
    idx_main_v31 (idx_main_v32 (ix4 (0 : Fin 1) h s d)) = ix3 (0 : Fin 1) s (Cert.Spec.hd h d) :=
  funext fun a => Fin.ext (by
    have hh := h.isLt; have hs := s.isLt; have hd := d.isLt
    match a with
    | ⟨0, _⟩ => rfl
    | ⟨1, _⟩ => show (((0 * 4096 + s.val) * 12 + h.val) * 64 + d.val) / 768 % 4096 = s.val; omega
    | ⟨2, _⟩ => show (((0 * 4096 + s.val) * 12 + h.val) * 64 + d.val) % 768 = 64 * h.val + d.val; omega)

/-- Head h, row s, coordinate d of the split and transposed array is column 64·h + d of row s. -/
theorem v32_at (x0 : (⟨S1x4096x768, .f32⟩ : BufTy).Contents (Elt Ideal)) (x5 : (⟨S768x768, .f32⟩ : BufTy).Contents (Elt Ideal)) (x6 : (⟨S768, .f32⟩ : BufTy).Contents (Elt Ideal)) (x13 : (⟨S8x768, .f32⟩ : BufTy).Contents (Elt Ideal)) (x14 : (⟨S768x8, .f32⟩ : BufTy).Contents (Elt Ideal)) (h : Fin 12) (s : Fin 4096) (d : Fin 64) :
    val_main_v32 (F := Ideal) x0 x5 x6 x13 x14 (ix4 (0 : Fin 1) h s d) = val_main_v26 (F := Ideal) x0 x5 x6 x13 x14 (ix3 (0 : Fin 1) s (Cert.Spec.hd h d)) := by
  rw [val_main_v32_apply, val_main_v31_apply, idx_heads_v]

/-! ## The scores -/

theorem lidx_v33 (h : Fin 12) (s t : Fin 4096) (k : Fin 64) : lidx_main_v33 (ix4 (0 : Fin 1) h s t) k = ix4 (0 : Fin 1) h s k :=
  funext fun a => Fin.ext (by match a with | ⟨0, _⟩ => rfl | ⟨1, _⟩ => rfl | ⟨2, _⟩ => rfl | ⟨3, _⟩ => rfl)
theorem ridx_v33 (h : Fin 12) (s t : Fin 4096) (k : Fin 64) : ridx_main_v33 (ix4 (0 : Fin 1) h s t) k = ix4 (0 : Fin 1) h t k :=
  funext fun a => Fin.ext (by match a with | ⟨0, _⟩ => rfl | ⟨1, _⟩ => rfl | ⟨2, _⟩ => rfl | ⟨3, _⟩ => rfl)

/-- The scaled scores at head h, query row s, key row t. -/
theorem v35_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (h : Fin 12) (s t : Fin 4096) :
    val_main_v35 (F := Ideal) x0 x1 x2 x3 x4 x9 x10 x11 x12 (ix4 (0 : Fin 1) h s t)
      = Cert.Spec.refScore (fun s e => val_main_v8 (F := Ideal) x0 x1 x2 x9 x10 (ix3 (0 : Fin 1) s e))
          (fun s e => val_main_v17 (F := Ideal) x0 x3 x4 x11 x12 (ix3 (0 : Fin 1) s e)) h s t := by
  rw [val_main_v35_apply, val_main_v33_apply, val_main_v34_apply, val_main_cst_2_apply]
  simp only [lidx_v33, ridx_v33, v28_at, v30_at, Ideal.hostDivf_def, Ideal.ofBits_def]
  rfl

/-! ## The softmax of a score row -/

theorem idx_v39v40 (h : Fin 12) (s t : Fin 4096) : idx_main_v39 (idx_main_v40 (ix4 (0 : Fin 1) h s t)) = ix3 (0 : Fin 1) h s :=
  funext fun a => Fin.ext (by match a with | ⟨0, _⟩ => rfl | ⟨1, _⟩ => rfl | ⟨2, _⟩ => rfl)
theorem idx_v44v45 (h : Fin 12) (s t : Fin 4096) : idx_main_v44 (idx_main_v45 (ix4 (0 : Fin 1) h s t)) = ix3 (0 : Fin 1) h s :=
  funext fun a => Fin.ext (by match a with | ⟨0, _⟩ => rfl | ⟨1, _⟩ => rfl | ⟨2, _⟩ => rfl)
theorem idx_v43 (h : Fin 12) (s k : Fin 4096) : idx_main_v43 (ix3 (0 : Fin 1) h s) k = ix4 (0 : Fin 1) h s k :=
  funext fun a => Fin.ext (by match a with | ⟨0, _⟩ => rfl | ⟨1, _⟩ => rfl | ⟨2, _⟩ => rfl | ⟨3, _⟩ => rfl)

theorem reduces_d3 : S1x12x4096x4096.Reduces [3] S1x12x4096 := by decide

/-- The maximum reduction over the key axis, read at (0, h, s): the largest score of the row. -/
theorem v36_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (h : Fin 12) (s : Fin 4096) :
    val_main_v36 (F := Ideal) x0 x1 x2 x3 x4 x9 x10 x11 x12 (ix3 (0 : Fin 1) h s)
      = rowMax (fun u : Fin 4096 => val_main_v35 (F := Ideal) x0 x1 x2 x3 x4 x9 x10 x11 x12 (ix4 (0 : Fin 1) h s u)) := by
  unfold val_main_v36
  generalize val_main_v35 (F := Ideal) x0 x1 x2 x3 x4 x9 x10 x11 x12 = y
  refine (Host.reduce_eq_fold_single (FloatOps.maximumf (F := Ideal) (φ := .f32)) y (val_main_cst_3 (F := Ideal))
    reducesTo_S1x12x4096x4096_S1x12x4096_d3 reduces_d3 h_S_ (ix3 (0 : Fin 1) h s)).trans ?_
  show (Finset.univ : Finset (Fin 4096)).fold max (Ideal.ofBits .f32 0xFF800000#32) _ = _
  rw [ofBits_neg_inf]
  exact congrArg (fun f => (Finset.univ : Finset (Fin 4096)).fold max ⊥ f) (funext fun k => congrArg y (funext fun a => Fin.ext (by
    match a with | ⟨0, _⟩ => rfl | ⟨1, _⟩ => rfl | ⟨2, _⟩ => rfl | ⟨3, _⟩ => rfl)))

/-- The row maximum as the program broadcasts it back over the row. -/
theorem v40_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (h : Fin 12) (s t : Fin 4096) :
    val_main_v40 (F := Ideal) x0 x1 x2 x3 x4 x9 x10 x11 x12 (ix4 (0 : Fin 1) h s t)
      = rowMax (fun u : Fin 4096 => val_main_v35 (F := Ideal) x0 x1 x2 x3 x4 x9 x10 x11 x12 (ix4 (0 : Fin 1) h s u)) := by
  rw [val_main_v40_apply, val_main_v39_apply, idx_v39v40, val_main_v38_apply, val_main_v37_apply, val_main_cst_4_apply, v36_at]
  simp only [Ideal.maximumf_def, Ideal.ofBits_def]
  rw [ofBits_neg_inf]
  exact max_bot_rowMax _

/-- The exponentials of the shifted scores. -/
theorem v42_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (h : Fin 12) (s t : Fin 4096) :
    val_main_v42 (F := Ideal) x0 x1 x2 x3 x4 x9 x10 x11 x12 (ix4 (0 : Fin 1) h s t)
      = Ideal.exp (val_main_v35 (F := Ideal) x0 x1 x2 x3 x4 x9 x10 x11 x12 (ix4 (0 : Fin 1) h s t)
          - rowMax (fun u : Fin 4096 => val_main_v35 (F := Ideal) x0 x1 x2 x3 x4 x9 x10 x11 x12 (ix4 (0 : Fin 1) h s u))) := by
  rw [val_main_v42_apply, val_main_v41_apply, v40_at]
  simp only [Ideal.hostUnary_exp_def, Ideal.subf_def]

/-- The row sums of the exponentials as the program broadcasts them back over the row. -/
theorem v45_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (h : Fin 12) (s t : Fin 4096) :
    val_main_v45 (F := Ideal) x0 x1 x2 x3 x4 x9 x10 x11 x12 (ix4 (0 : Fin 1) h s t)
      = ∑ k : Fin 4096, Ideal.exp (val_main_v35 (F := Ideal) x0 x1 x2 x3 x4 x9 x10 x11 x12 (ix4 (0 : Fin 1) h s k)
          - rowMax (fun u : Fin 4096 => val_main_v35 (F := Ideal) x0 x1 x2 x3 x4 x9 x10 x11 x12 (ix4 (0 : Fin 1) h s u))) := by
  rw [val_main_v45_apply, val_main_v44_apply, idx_v44v45, val_main_v43_apply, val_main_cst_5_apply]
  simp only [idx_v43, v42_at, Ideal.ofBits_def, Ideal.ofBits_zero_f32, zero_add]

/-- The attention weights: the softmax of the score row. -/
theorem v46_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (h : Fin 12) (s t : Fin 4096) :
    val_main_v46 (F := Ideal) x0 x1 x2 x3 x4 x9 x10 x11 x12 (ix4 (0 : Fin 1) h s t)
      = softmaxRow (fun u : Fin 4096 => val_main_v35 (F := Ideal) x0 x1 x2 x3 x4 x9 x10 x11 x12 (ix4 (0 : Fin 1) h s u)) t := by
  rw [val_main_v46_apply, v42_at, v45_at]
  simp only [Ideal.hostDivf_def]
  rfl

/-! ## The weighted sum of the value rows, and the heads merged back -/

theorem lidx_v47 (h : Fin 12) (s : Fin 4096) (d : Fin 64) (k : Fin 4096) : lidx_main_v47 (ix4 (0 : Fin 1) h s d) k = ix4 (0 : Fin 1) h s k :=
  funext fun a => Fin.ext (by match a with | ⟨0, _⟩ => rfl | ⟨1, _⟩ => rfl | ⟨2, _⟩ => rfl | ⟨3, _⟩ => rfl)
theorem ridx_v47 (h : Fin 12) (s : Fin 4096) (d : Fin 64) (k : Fin 4096) : ridx_main_v47 (ix4 (0 : Fin 1) h s d) k = ix4 (0 : Fin 1) h k d :=
  funext fun a => Fin.ext (by match a with | ⟨0, _⟩ => rfl | ⟨1, _⟩ => rfl | ⟨2, _⟩ => rfl | ⟨3, _⟩ => rfl)

/-- Head h, row s, coordinate d of the attention output: the softmax weights of the row against the value column. -/
theorem v47_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (x13 : (⟨S8x768, .f32⟩ : BufTy).Contents (Elt Ideal)) (x14 : (⟨S768x8, .f32⟩ : BufTy).Contents (Elt Ideal)) (h : Fin 12) (s : Fin 4096) (d : Fin 64) :
    val_main_v47 (F := Ideal) x0 x1 x2 x3 x4 x5 x6 x9 x10 x11 x12 x13 x14 (ix4 (0 : Fin 1) h s d)
      = ∑ t : Fin 4096, softmaxRow (fun u : Fin 4096 => val_main_v35 (F := Ideal) x0 x1 x2 x3 x4 x9 x10 x11 x12 (ix4 (0 : Fin 1) h s u)) t
          * val_main_v26 (F := Ideal) x0 x5 x6 x13 x14 (ix3 (0 : Fin 1) t (Cert.Spec.hd h d)) := by
  rw [val_main_v47_apply]
  simp only [lidx_v47, ridx_v47, v46_at, v32_at]

/-- Column j of row s of the merged array is coordinate j mod 64 of head j / 64. -/
theorem idx_merge (s : Fin 4096) (j : Fin 768) :
    idx_main_v48 (idx_main_v49 (ix3 (0 : Fin 1) s j))
      = ix4 (0 : Fin 1) (Cert.Spec.headOf j) s (⟨j.val % 64, Nat.mod_lt _ (by decide)⟩ : Fin 64) :=
  funext fun a => Fin.ext (by
    have hs := s.isLt; have hj := j.isLt
    match a with
    | ⟨0, _⟩ => rfl
    | ⟨1, _⟩ => show ((0 * 4096 + s.val) * 768 + j.val) / 64 % 12 = j.val / 64; omega
    | ⟨2, _⟩ => show ((0 * 4096 + s.val) * 768 + j.val) / 768 % 4096 = s.val; omega
    | ⟨3, _⟩ => show ((0 * 4096 + s.val) * 768 + j.val) % 64 = j.val % 64; omega)

theorem hd_headOf (j : Fin 768) :
    Cert.Spec.hd (Cert.Spec.headOf j) (⟨j.val % 64, Nat.mod_lt _ (by decide)⟩ : Fin 64) = j :=
  Fin.ext (by show 64 * (j.val / 64) + j.val % 64 = j.val; omega)

/-- The merged attention output at (0, s, j). -/
theorem v49_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (x13 : (⟨S8x768, .f32⟩ : BufTy).Contents (Elt Ideal)) (x14 : (⟨S768x8, .f32⟩ : BufTy).Contents (Elt Ideal)) (s : Fin 4096) (j : Fin 768) :
    val_main_v49 (F := Ideal) x0 x1 x2 x3 x4 x5 x6 x9 x10 x11 x12 x13 x14 (ix3 (0 : Fin 1) s j)
      = Cert.Spec.attn (fun h s u => val_main_v35 (F := Ideal) x0 x1 x2 x3 x4 x9 x10 x11 x12 (ix4 (0 : Fin 1) h s u))
          (fun t j => val_main_v26 (F := Ideal) x0 x5 x6 x13 x14 (ix3 (0 : Fin 1) t j)) s j := by
  rw [val_main_v49_apply, val_main_v48_apply, idx_merge, v47_at, hd_headOf]
  rfl

/-! ## The output layer -/

theorem lidx_v50 (s : Fin 4096) (e k : Fin 768) : lidx_main_v50 (ix3 (0 : Fin 1) s e) k = ix3 (0 : Fin 1) s k :=
  funext fun a => Fin.ext (by match a with | ⟨0, _⟩ => rfl | ⟨1, _⟩ => rfl | ⟨2, _⟩ => rfl)
theorem ridx_v50 (s : Fin 4096) (e k : Fin 768) : ridx_main_v50 (ix3 (0 : Fin 1) s e) k = ix2 e k :=
  funext fun a => Fin.ext (by match a with | ⟨0, _⟩ => rfl | ⟨1, _⟩ => rfl)
theorem idx_v51v52 (s : Fin 4096) (e : Fin 768) : idx_main_v51 (idx_main_v52 (ix3 (0 : Fin 1) s e)) = ix1 e :=
  funext fun a => Fin.ext (by match a with | ⟨0, _⟩ => rfl)

/-- The result at (0, s, e): the output dense layer over the merged attention output. -/
theorem v53_at (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (x13 : (⟨S8x768, .f32⟩ : BufTy).Contents (Elt Ideal)) (x14 : (⟨S768x8, .f32⟩ : BufTy).Contents (Elt Ideal)) (s : Fin 4096) (e : Fin 768) :
    val_main_v53 (F := Ideal) x0 x1 x2 x3 x4 x5 x6 x7 x8 x9 x10 x11 x12 x13 x14 (ix3 (0 : Fin 1) s e)
      = Cert.Spec.outProj (fun s j => val_main_v49 (F := Ideal) x0 x1 x2 x3 x4 x5 x6 x9 x10 x11 x12 x13 x14 (ix3 (0 : Fin 1) s j))
          (fun e j => x7 (ix2 e j)) (fun e => x8 (ix1 e)) s e := by
  rw [val_main_v53_apply, val_main_v50_apply, val_main_v52_apply, val_main_v51_apply]
  simp only [lidx_v50, ridx_v50, idx_v51v52, Ideal.addf_def]
  rfl

/-! ## The whole reference -/

/-- The [1, 4096, 768] input as a matrix of rows. -/
abbrev mat3 (a : (⟨S1x4096x768, .f32⟩ : BufTy).Contents (Elt Ideal)) : Cert.Spec.Mat 4096 768 := fun s d => a (ix3 (0 : Fin 1) s d)
/-- A rank-2 argument as a matrix. -/
abbrev mat2 {m n : ℕ} (a : (⟨⟨2, ![m, n]⟩, .f32⟩ : BufTy).Contents (Elt Ideal)) : Cert.Spec.Mat m n := fun i j => a (ix2 i j)
/-- A rank-1 argument as a vector. -/
abbrev vec1 {n : ℕ} (a : (⟨⟨1, ![n]⟩, .f32⟩ : BufTy).Contents (Elt Ideal)) : Fin n → EReal := fun i => a (ix1 i)

/-- The reference's result at (0, s, e) is the specification's multi-head attention of its fifteen arguments. -/
theorem ref_value (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (x13 : (⟨S8x768, .f32⟩ : BufTy).Contents (Elt Ideal)) (x14 : (⟨S768x8, .f32⟩ : BufTy).Contents (Elt Ideal)) (s : Fin 4096) (e : Fin 768) :
    val_main_v53 (F := Ideal) x0 x1 x2 x3 x4 x5 x6 x7 x8 x9 x10 x11 x12 x13 x14 (ix3 (0 : Fin 1) s e)
      = Cert.Spec.refAll (mat3 x0) (mat2 x1) (mat2 x3) (mat2 x5) (mat2 x7) (vec1 x2) (vec1 x4) (vec1 x6) (vec1 x8)
          (mat2 x9) (mat2 x11) (mat2 x13) (mat2 x10) (mat2 x12) (mat2 x14) s e := by
  have hq : (fun (s : Fin 4096) (e : Fin 768) => val_main_v8 (F := Ideal) x0 x1 x2 x9 x10 (ix3 (0 : Fin 1) s e))
      = Cert.Spec.refProj (mat3 x0) (mat2 x1) (vec1 x2) (mat2 x9) (mat2 x10) :=
    funext fun s => funext fun e => proj_apply x0 x1 x2 x9 x10 s e
  have hk : (fun (s : Fin 4096) (e : Fin 768) => val_main_v17 (F := Ideal) x0 x3 x4 x11 x12 (ix3 (0 : Fin 1) s e))
      = Cert.Spec.refProj (mat3 x0) (mat2 x3) (vec1 x4) (mat2 x11) (mat2 x12) :=
    funext fun s => funext fun e => proj_apply x0 x3 x4 x11 x12 s e
  have hv : (fun (s : Fin 4096) (e : Fin 768) => val_main_v26 (F := Ideal) x0 x5 x6 x13 x14 (ix3 (0 : Fin 1) s e))
      = Cert.Spec.refProj (mat3 x0) (mat2 x5) (vec1 x6) (mat2 x13) (mat2 x14) :=
    funext fun s => funext fun e => proj_apply x0 x5 x6 x13 x14 s e
  have hsc : (fun (h : Fin 12) (s u : Fin 4096) => val_main_v35 (F := Ideal) x0 x1 x2 x3 x4 x9 x10 x11 x12 (ix4 (0 : Fin 1) h s u))
      = Cert.Spec.refScore (Cert.Spec.refProj (mat3 x0) (mat2 x1) (vec1 x2) (mat2 x9) (mat2 x10))
          (Cert.Spec.refProj (mat3 x0) (mat2 x3) (vec1 x4) (mat2 x11) (mat2 x12)) := by
    funext h s u
    rw [v35_at, hq, hk]
  have ha : (fun (s : Fin 4096) (j : Fin 768) => val_main_v49 (F := Ideal) x0 x1 x2 x3 x4 x5 x6 x9 x10 x11 x12 x13 x14 (ix3 (0 : Fin 1) s j))
      = Cert.Spec.attn (Cert.Spec.refScore (Cert.Spec.refProj (mat3 x0) (mat2 x1) (vec1 x2) (mat2 x9) (mat2 x10))
          (Cert.Spec.refProj (mat3 x0) (mat2 x3) (vec1 x4) (mat2 x11) (mat2 x12)))
          (Cert.Spec.refProj (mat3 x0) (mat2 x5) (vec1 x6) (mat2 x13) (mat2 x14)) := by
    funext s j
    rw [v49_at, hsc, hv]
  rw [v53_at, ha]
  rfl

/-- The reference's result array, entry by entry. -/
theorem ref_array (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (x13 : (⟨S8x768, .f32⟩ : BufTy).Contents (Elt Ideal)) (x14 : (⟨S768x8, .f32⟩ : BufTy).Contents (Elt Ideal)) :
    val_main_v53 (F := Ideal) x0 x1 x2 x3 x4 x5 x6 x7 x8 x9 x10 x11 x12 x13 x14
      = fun i => Cert.Spec.refAll (mat3 x0) (mat2 x1) (mat2 x3) (mat2 x5) (mat2 x7) (vec1 x2) (vec1 x4) (vec1 x6) (vec1 x8)
          (mat2 x9) (mat2 x11) (mat2 x13) (mat2 x10) (mat2 x12) (mat2 x14) (i 1) (i 2) := by
  funext i
  obtain ⟨a, s, e, rfl⟩ : ∃ (a : Fin 1) (s : Fin 4096) (e : Fin 768), i = ix3 a s e := ⟨i 0, i 1, i 2, eq_ix3 i⟩
  obtain rfl : a = 0 := Subsingleton.elim _ _
  exact ref_value x0 x1 x2 x3 x4 x5 x6 x7 x8 x9 x10 x11 x12 x13 x14 s e

/-- The same, with the two coordinates rebuilt from their values. -/
theorem ref_array' (x0 : (⟨S1x4096x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal)) (x9 : (⟨S8x768, .f32⟩ : BufTy).Contents (Elt Ideal)) (x10 : (⟨S768x8, .f32⟩ : BufTy).Contents (Elt Ideal)) (x11 : (⟨S8x768, .f32⟩ : BufTy).Contents (Elt Ideal)) (x12 : (⟨S768x8, .f32⟩ : BufTy).Contents (Elt Ideal)) (x13 : (⟨S8x768, .f32⟩ : BufTy).Contents (Elt Ideal)) (x14 : (⟨S768x8, .f32⟩ : BufTy).Contents (Elt Ideal)) :
    val_main_v53 (F := Ideal) x0 x1 x2 x3 x4 x5 x6 x7 x8 x9 x10 x11 x12 x13 x14
      = fun i => Cert.Spec.refAll (mat3 x0) (mat2 x1) (mat2 x3) (mat2 x5) (mat2 x7) (vec1 x2) (vec1 x4) (vec1 x6) (vec1 x8)
          (mat2 x9) (mat2 x11) (mat2 x13) (mat2 x10) (mat2 x12) (mat2 x14) ⟨(i 1).val, (i 1).isLt⟩ ⟨(i 2).val, (i 2).isLt⟩ :=
  ref_array x0 x1 x2 x3 x4 x5 x6 x7 x8 x9 x10 x11 x12 x13 x14

open Idealize.ShloMosaic.TcCoe Idealize.SL.Sem in
/-- The term the reference's run leaves in its result buffer is that array of the launch contents of its arguments. -/
theorem ref_run (m : (ℓ : Loc nD τ sig) → Buf (Elt Ideal) ℓ) (c : Dev nD) :
    Cert.ReferenceIdeal.Value.res_main_v53 (F := Ideal) m c
      = fun i => Cert.Spec.refAll (mat3 (m ((c.tc : Thread nD τ).loc main_arg0))) (mat2 (m ((c.tc : Thread nD τ).loc main_arg1))) (mat2 (m ((c.tc : Thread nD τ).loc main_arg3))) (mat2 (m ((c.tc : Thread nD τ).loc main_arg5))) (mat2 (m ((c.tc : Thread nD τ).loc main_arg7)))
          (vec1 (m ((c.tc : Thread nD τ).loc main_arg2))) (vec1 (m ((c.tc : Thread nD τ).loc main_arg4))) (vec1 (m ((c.tc : Thread nD τ).loc main_arg6))) (vec1 (m ((c.tc : Thread nD τ).loc main_arg8)))
          (mat2 (m ((c.tc : Thread nD τ).loc main_arg9))) (mat2 (m ((c.tc : Thread nD τ).loc main_arg11))) (mat2 (m ((c.tc : Thread nD τ).loc main_arg13)))
          (mat2 (m ((c.tc : Thread nD τ).loc main_arg10))) (mat2 (m ((c.tc : Thread nD τ).loc main_arg12))) (mat2 (m ((c.tc : Thread nD τ).loc main_arg14))) (i 1) (i 2) :=
  (val_main_v53_eq m c).trans (ref_array _ _ _ _ _ _ _ _ _ _ _ _ _ _ _)

end Cert.RefSide

end
-- ==== Proof.IValue.lean ====
import proofs.«122623_j15204184228289_2_alg».proof.Proof.IFrame
import proofs.«122623_j15204184228289_2_alg».proof.Proof.IProjValue
import proofs.«122623_j15204184228289_2_alg».proof.Proof.IAttnValue
import proofs.«122623_j15204184228289_2_alg».proof.Proof.IHostRead
import proofs.«122623_j15204184228289_2_alg».proof.Proof.IValueAlg
import proofs.«122623_j15204184228289_2_alg».proof.Proof.IPre
import proofs.«122623_j15204184228289_2_alg».proof.Proof.RefSide

/-!
# The value the program returns

The buffers' contents are followed through the program's six segments. The first host stretch leaves the token rows,
the fused weights (the three merged matrices side by side) and the fused biases; the fused projection leaves rows ·
weights + bias of those; the attention region leaves the attention of that array's three thirds (its entries being
real); the second host stretch transposes the output weights; the output projection leaves rows · weights + bias again;
the last host stretch gives the result its leading unit axis back. Composed, and the inputs being real, the returned
array is the whole computation as the reference arranges it, of the fifteen arrays the program was launched with.
-/

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx Idealize.SL.Sem
open Cert.KernelIdeal.ProjValue (qkvG outpG)
open Cert.KernelIdeal.AttnValue (attnG)
open Cert.RefSide (mat3 mat2 vec1)
open Cert.Spec (merged)

variable (m : (ℓ : Loc nD τ sig) → Buf (Elt Ideal) ℓ) (c : Dev nD)

/-! ## Buffers no segment before the output projection writes -/

/-- The output weights still hold the launch contents when the second host stretch begins. -/
theorem W3_arg7 : W3 (F := Ideal) m c (Proc.devRef .tc main_arg7) = m ((c.tc : Thread nD τ).loc main_arg7) :=
  calc W3 (F := Ideal) m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c.tc : Thread nD τ).loc main_arg7) := rfl

/-- The output bias still holds the launch contents when the output projection begins. -/
theorem W4_arg8 : W4 (F := Ideal) m c (Proc.devRef .tc main_arg8) = m ((c.tc : Thread nD τ).loc main_arg8) :=
  calc W4 (F := Ideal) m c (Proc.devRef .tc main_arg8)
    _ = W3 m c (Proc.devRef .tc main_arg8) := StableHlo.after_of_writes_sub hostOps2 _ hostOps2_writes (by decide)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c.tc : Thread nD τ).loc main_arg8) := rfl

/-! ## What the first host stretch leaves, in the launch contents -/

theorem tokens_eq (s : Fin 4096) (d : Fin 768) :
    (Hand.V1 (F := Ideal) m c main_v0 : S4096x768.Idx → EReal) (ix2 s d) = mat3 (m ((c.tc : Thread nD τ).loc main_arg0)) s d :=
  HostRead.tokens_apply (W0 m c) s d

theorem weights_q_eq (e d : Fin 768) :
    (Hand.V1 (F := Ideal) m c main_v14 : S768x2304.Idx → EReal) (ix2 d (⟨e.val, by omega⟩ : Fin 2304))
      = merged (mat2 (m ((c.tc : Thread nD τ).loc main_arg1))) (mat2 (m ((c.tc : Thread nD τ).loc main_arg9)))
          (mat2 (m ((c.tc : Thread nD τ).loc main_arg10))) e d :=
  HostRead.weights_q_apply (W0 m c) e d

theorem weights_k_eq (e d : Fin 768) :
    (Hand.V1 (F := Ideal) m c main_v14 : S768x2304.Idx → EReal) (ix2 d (⟨768 + e.val, by omega⟩ : Fin 2304))
      = merged (mat2 (m ((c.tc : Thread nD τ).loc main_arg3))) (mat2 (m ((c.tc : Thread nD τ).loc main_arg11)))
          (mat2 (m ((c.tc : Thread nD τ).loc main_arg12))) e d :=
  HostRead.weights_k_apply (W0 m c) e d

theorem weights_v_eq (e d : Fin 768) :
    (Hand.V1 (F := Ideal) m c main_v14 : S768x2304.Idx → EReal) (ix2 d (⟨1536 + e.val, by omega⟩ : Fin 2304))
      = merged (mat2 (m ((c.tc : Thread nD τ).loc main_arg5))) (mat2 (m ((c.tc : Thread nD τ).loc main_arg13)))
          (mat2 (m ((c.tc : Thread nD τ).loc main_arg14))) e d :=
  HostRead.weights_v_apply (W0 m c) e d

theorem bias_q_eq (e : Fin 768) :
    (Hand.V1 (F := Ideal) m c main_v15 : S2304.Idx → EReal) (ix1 (⟨e.val, by omega⟩ : Fin 2304))
      = vec1 (m ((c.tc : Thread nD τ).loc main_arg2)) e :=
  HostRead.bias_q_apply (W0 m c) e

theorem bias_k_eq (e : Fin 768) :
    (Hand.V1 (F := Ideal) m c main_v15 : S2304.Idx → EReal) (ix1 (⟨768 + e.val, by omega⟩ : Fin 2304))
      = vec1 (m ((c.tc : Thread nD τ).loc main_arg4)) e :=
  HostRead.bias_k_apply (W0 m c) e

theorem bias_v_eq (e : Fin 768) :
    (Hand.V1 (F := Ideal) m c main_v15 : S2304.Idx → EReal) (ix1 (⟨1536 + e.val, by omega⟩ : Fin 2304))
      = vec1 (m ((c.tc : Thread nD τ).loc main_arg6)) e :=
  HostRead.bias_v_apply (W0 m c) e

/-! ## What the second host stretch leaves -/

theorem outWeights_eq (j e : Fin 768) :
    (Hand.V4 (F := Ideal) m c main_v18 : S768x768.Idx → EReal) (ix2 j e) = mat2 (m ((c.tc : Thread nD τ).loc main_arg7)) e j :=
  (HostRead.outWeights_apply (W3 m c) j e).trans (congrFun (W3_arg7 m c) (ix2 e j))

theorem outBias_eq (e : Fin 768) :
    (Hand.V4 (F := Ideal) m c main_arg8 : S768.Idx → EReal) (ix1 e) = vec1 (m ((c.tc : Thread nD τ).loc main_arg8)) e :=
  congrFun (W4_arg8 m c) (ix1 e)

/-! ## The three regions' arrays -/

/-- After the fused projection. -/
theorem qkv_eq : (Hand.V2 (F := Ideal) m c main_v16 : S4096x2304.Idx → EReal)
    = qkvG (Hand.V1 (F := Ideal) m c main_v0) (Hand.V1 (F := Ideal) m c main_v14) (Hand.V1 (F := Ideal) m c main_v15) :=
  (W2_arr m c 3).trans (ProjValue.qkv_final (Hand.V1 m) c)

/-- After the attention region, the fused projection's entries being real. -/
theorem attn_eq (hreal : ∀ i : S4096x2304.Idx, ∃ x : ℝ, ((Hand.V2 (F := Ideal) m c main_v16 : S4096x2304.Idx → EReal) i : EReal) = (x : EReal)) :
    (Hand.V4 (F := Ideal) m c main_v17 : S4096x768.Idx → EReal) = attnG (Hand.V2 (F := Ideal) m c main_v16) :=
  calc (Hand.V4 (F := Ideal) m c main_v17 : S4096x768.Idx → EReal)
    _ = W3 m c (Proc.devRef .tc main_v17) := StableHlo.after_of_writes_sub hostOps2 _ hostOps2_writes (by decide)
    _ = (attnDat (Hand.V2 m) c).arrAt 3 cfg1.N := W3_out m c
    _ = attnG (Hand.V2 (F := Ideal) m c main_v16) := AttnValue.attn_final (Hand.V2 m) c hreal

/-- After the output projection. -/
theorem outp_eq : (W5 (F := Ideal) m c (Proc.devRef .tc main_v19) : S4096x768.Idx → EReal)
    = outpG (Hand.V4 (F := Ideal) m c main_v17) (Hand.V4 (F := Ideal) m c main_v18) (Hand.V4 (F := Ideal) m c main_arg8) :=
  (W5_arr m c 3).trans (ProjValue.outp_final (Hand.V4 m) c)

/-! ## The returned array -/

/-- Real inputs: the program returns the whole computation, as the reference arranges it, of the fifteen arrays it was
    launched with. -/
theorem result_value [Cert.Pre_finite_inputs.Facts] (hpre : Cert.Pre_KernelIdeal m) :
    (W6 (F := Ideal) m c (Proc.devRef .tc main_v20) : S1x4096x768.Idx → EReal)
      = fun i => Cert.Spec.refAll (mat3 (m ((c.tc : Thread nD τ).loc main_arg0)))
          (mat2 (m ((c.tc : Thread nD τ).loc main_arg1))) (mat2 (m ((c.tc : Thread nD τ).loc main_arg3)))
          (mat2 (m ((c.tc : Thread nD τ).loc main_arg5))) (mat2 (m ((c.tc : Thread nD τ).loc main_arg7)))
          (vec1 (m ((c.tc : Thread nD τ).loc main_arg2))) (vec1 (m ((c.tc : Thread nD τ).loc main_arg4)))
          (vec1 (m ((c.tc : Thread nD τ).loc main_arg6))) (vec1 (m ((c.tc : Thread nD τ).loc main_arg8)))
          (mat2 (m ((c.tc : Thread nD τ).loc main_arg9))) (mat2 (m ((c.tc : Thread nD τ).loc main_arg11)))
          (mat2 (m ((c.tc : Thread nD τ).loc main_arg13)))
          (mat2 (m ((c.tc : Thread nD τ).loc main_arg10))) (mat2 (m ((c.tc : Thread nD τ).loc main_arg12)))
          (mat2 (m ((c.tc : Thread nD τ).loc main_arg14))) (i 1) (i 2) := by
  obtain ⟨r0, r1, r2, r3, r4, r5, r6, r7, r8, r9, r10, r11, r12, r13, r14⟩ := Cert.PreReal.pre_real_kernelIdeal m hpre c
  -- the fused projection's entries are real
  have hreal : ∀ i : S4096x2304.Idx, ∃ x : ℝ, ((Hand.V2 (F := Ideal) m c main_v16 : S4096x2304.Idx → EReal) i : EReal) = (x : EReal) := by
    rw [qkv_eq m c]
    exact ValueAlg.qkvG_real (mat3 (m ((c.tc : Thread nD τ).loc main_arg0)))
      (mat2 (m ((c.tc : Thread nD τ).loc main_arg1))) (mat2 (m ((c.tc : Thread nD τ).loc main_arg3)))
      (mat2 (m ((c.tc : Thread nD τ).loc main_arg5)))
      (vec1 (m ((c.tc : Thread nD τ).loc main_arg2))) (vec1 (m ((c.tc : Thread nD τ).loc main_arg4)))
      (vec1 (m ((c.tc : Thread nD τ).loc main_arg6)))
      (mat2 (m ((c.tc : Thread nD τ).loc main_arg9))) (mat2 (m ((c.tc : Thread nD τ).loc main_arg11)))
      (mat2 (m ((c.tc : Thread nD τ).loc main_arg13)))
      (mat2 (m ((c.tc : Thread nD τ).loc main_arg10))) (mat2 (m ((c.tc : Thread nD τ).loc main_arg12)))
      (mat2 (m ((c.tc : Thread nD τ).loc main_arg14)))
      (Hand.V1 (F := Ideal) m c main_v0) (Hand.V1 (F := Ideal) m c main_v14) (Hand.V1 (F := Ideal) m c main_v15) (tokens_eq m c) (weights_q_eq m c) (weights_k_eq m c) (weights_v_eq m c)
      (bias_q_eq m c) (bias_k_eq m c) (bias_v_eq m c)
      (fun s d => r0 (ix3 (0 : Fin 1) s d))
      (fun e d => r1 (ix2 e d)) (fun e d => r3 (ix2 e d)) (fun e d => r5 (ix2 e d))
      (fun e => r2 (ix1 e)) (fun e => r4 (ix1 e)) (fun e => r6 (ix1 e))
      (fun r d => r9 (ix2 r d)) (fun r d => r11 (ix2 r d)) (fun r d => r13 (ix2 r d))
      (fun e r => r10 (ix2 e r)) (fun e r => r12 (ix2 e r)) (fun e r => r14 (ix2 e r))
  funext i
  obtain ⟨u, s, e, rfl⟩ : ∃ (u : Fin 1) (s : Fin 4096) (e : Fin 768), i = ix3 u s e := ⟨i 0, i 1, i 2, eq_ix3 i⟩
  obtain rfl : u = 0 := Subsingleton.elim _ _
  refine (HostRead.result_apply (W5 m c) s e).trans ?_
  rw [outp_eq m c, attn_eq m c hreal, qkv_eq m c]
  exact ValueAlg.whole_eq_refAll (mat3 (m ((c.tc : Thread nD τ).loc main_arg0)))
    (mat2 (m ((c.tc : Thread nD τ).loc main_arg1))) (mat2 (m ((c.tc : Thread nD τ).loc main_arg3)))
    (mat2 (m ((c.tc : Thread nD τ).loc main_arg5))) (mat2 (m ((c.tc : Thread nD τ).loc main_arg7)))
    (vec1 (m ((c.tc : Thread nD τ).loc main_arg2))) (vec1 (m ((c.tc : Thread nD τ).loc main_arg4)))
    (vec1 (m ((c.tc : Thread nD τ).loc main_arg6))) (vec1 (m ((c.tc : Thread nD τ).loc main_arg8)))
    (mat2 (m ((c.tc : Thread nD τ).loc main_arg9))) (mat2 (m ((c.tc : Thread nD τ).loc main_arg11)))
    (mat2 (m ((c.tc : Thread nD τ).loc main_arg13)))
    (mat2 (m ((c.tc : Thread nD τ).loc main_arg10))) (mat2 (m ((c.tc : Thread nD τ).loc main_arg12)))
    (mat2 (m ((c.tc : Thread nD τ).loc main_arg14)))
    (Hand.V1 (F := Ideal) m c main_v0) (Hand.V1 (F := Ideal) m c main_v14) (Hand.V1 (F := Ideal) m c main_v15)
    (Hand.V4 (F := Ideal) m c main_v18) (Hand.V4 (F := Ideal) m c main_arg8) (tokens_eq m c) (weights_q_eq m c) (weights_k_eq m c) (weights_v_eq m c)
    (bias_q_eq m c) (bias_k_eq m c) (bias_v_eq m c) (outWeights_eq m c) (outBias_eq m c)
    (fun s d => r0 (ix3 (0 : Fin 1) s d))
    (fun e d => r1 (ix2 e d)) (fun e d => r3 (ix2 e d)) (fun e d => r5 (ix2 e d))
    (fun e => r2 (ix1 e)) (fun e => r4 (ix1 e)) (fun e => r6 (ix1 e))
    (fun r d => r9 (ix2 r d)) (fun r d => r11 (ix2 r d)) (fun r d => r13 (ix2 r d))
    (fun e r => r10 (ix2 e r)) (fun e r => r12 (ix2 e r)) (fun e r => r14 (ix2 e r)) s e

end Cert.KernelIdeal.Value

end
-- ==== Proof.lean ====
/- The proof of `Cert.Claim` for a twelve-head attention layer whose query, key and value projections carry rank-8 updates.

   The kernel program merges each update into its weight matrix on the host (W + 2 · U · D), projects the 4096 tokens onto
   queries, keys and values in one fused dense layer, runs attention head pair by head pair over blocks of 512 keys — keeping
   per head a running row maximum, denominator and weighted sum of values, rescaled by exp (m − m') from block to block — and
   applies the output dense layer. The reference computes each projection as (x · Wᵀ + b) + ((x · Dᵀ) · Uᵀ) · 2, the scores
   divided by 8, a softmax row by row, the weighted values, and the same output layer.

   Frames (both programs of the kernel, at words and at extended reals): the program is a run of six segments — host stretch,
   projection region, attention region, host stretch, projection region, host stretch; every argument array is either never
   written and never staged, or staged as an input only, so it ends as launched (Proof/KFrameClaims.lean, Proof/IFrameClaims.lean
   over Proof/KFrame.lean, Proof/IFrame.lean). The reference's frame is its run with the result dropped.
   The idealization rewrote nothing, so `preserves` holds trivially.
   Equality at the extended reals: the kernel's result buffer at the return is the reference's function of the launch arguments
   (Proof/IValue.lean): the projections agree by distributivity and re-bracketing of the triple product, the scores because a
   product with 1/8 is the quotient by 8, the block-by-block accumulation ends at the softmax-weighted sum — all for finite
   inputs, which the precondition gives (Proof/IPre.lean). The reference's result is the same function (Proof/RefSide.lean). -/
import proofs.«122623_j15204184228289_2_alg».proof.Defs
import proofs.«122623_j15204184228289_2_alg».proof.Proof.Gen.Kernel
import proofs.«122623_j15204184228289_2_alg».proof.Proof.Gen.KernelIdeal
import proofs.«122623_j15204184228289_2_alg».proof.Proof.Gen.ReferenceIdeal
import proofs.«122623_j15204184228289_2_alg».proof.Proof.Gen.ReferenceIdeal.Run
import proofs.«122623_j15204184228289_2_alg».proof.Proof.Gen.ReferenceIdeal.Read
import proofs.«122623_j15204184228289_2_alg».proof.Proof.Gen.Pre_finite_inputs
import proofs.«122623_j15204184228289_2_alg».proof.Proof.KFrameClaims
import proofs.«122623_j15204184228289_2_alg».proof.Proof.IFrameClaims
import proofs.«122623_j15204184228289_2_alg».proof.Proof.IValue
import proofs.«122623_j15204184228289_2_alg».proof.Proof.RefSide
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Hand.frame_all m ρ

/-- So does its reading at the extended reals. -/
theorem frame_kernelIdeal : Cert.frame_KernelIdeal := fun m ρ _ => Cert.KernelIdeal.Hand.frame_all m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the extended reals, from memories that agree on the fifteen arguments, both programs end with the same result: the
    kernel's result buffer holds the reference's function of the launch arguments, and so does the reference's. -/
theorem algebraic : Cert.algebraic_KernelIdeal_ReferenceIdeal := by
  intro m ρ m' ρ' hpre hagree
  refine ⟨fun c => Cert.KernelIdeal.Hand.W6 (F := Ideal) m c (Proc.devRef .tc Cert.KernelIdeal.main_v20),
    Cert.KernelIdeal.Hand.run_result m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7, h8, h9, h10, h11, h12, h13, h14⟩ := hagree c
  rw [(h c).1, Cert.RefSide.ref_run]
  beta_reduce
  rw [Cert.KernelIdeal.Value.result_value m c hpre, h0, h1, h2, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
